-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v521) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x8191x128 : Shape := ⟨3, ![32, 8191, 128]⟩
abbrev S384x128 : Shape := ⟨2, ![384, 128]⟩
abbrev S384x256 : Shape := ⟨2, ![384, 256]⟩
abbrev S384 : Shape := ⟨1, ![384]⟩
abbrev S256x256 : Shape := ⟨2, ![256, 256]⟩
abbrev S256 : Shape := ⟨1, ![256]⟩
abbrev S_ : Shape := ⟨0, ![]⟩

class Facts : Prop where
  bcast_S_S32x8191x128 : S_.BroadcastsInDim S32x8191x128 (![] : Fin 0 → Fin S32x8191x128.rank)
  reducesTo_S32x8191x128_S_d0_1_2 : S32x8191x128.ReducesTo [0, 1, 2] S_
  h_S_ : 0 < S_.numel
  bcast_S_S384x128 : S_.BroadcastsInDim S384x128 (![] : Fin 0 → Fin S384x128.rank)
  reducesTo_S384x128_S_d0_1 : S384x128.ReducesTo [0, 1] S_
  bcast_S_S384x256 : S_.BroadcastsInDim S384x256 (![] : Fin 0 → Fin S384x256.rank)
  reducesTo_S384x256_S_d0_1 : S384x256.ReducesTo [0, 1] S_
  bcast_S_S384 : S_.BroadcastsInDim S384 (![] : Fin 0 → Fin S384.rank)
  reducesTo_S384_S_d0 : S384.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256x256 .f32) (main_arg5 : FVec F S256 .f32) (main_v13 : IVec S_ 1) (main_v16 : IVec S384 1) : IVec S_ 1 :=
  let main_c_5 : IVec S_ 1 := constantI S_ 1 1#1
  let main_v17 : IVec S_ 1 := (fun x v => Host.reduce IntOp.andi x v reducesTo_S384_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  main_v28

def fn {F : FTy → Type} [FloatOps F] (main_arg0 : FVec F S32x8191x128 .f32) (main_arg1 : FVec F S384x128 .f32) (main_arg2 : FVec F S384x256 .f32) (main_arg3 : FVec F S384 .f32) (main_arg4 : FVec F S256x256 .f32) (main_arg5 : FVec F S256 .f32) : IVec S_ 1 :=
  let main_v0 : FVec F S32x8191x128 .f32 := Host.absf main_arg0
  let main_cst : FVec F S_ .f32 := constant S_ .f32 0x7F800000#32
  let main_v1 : FVec F S32x8191x128 .f32 := broadcastInDim S32x8191x128 ![] bcast_S_S32x8191x128 main_cst
  let main_v2 : IVec S32x8191x128 1 := cmpf .olt main_v0 main_v1
  let main_c : IVec S_ 1 := constantI S_ 1 1#1
  let main_v3 : IVec S_ 1 := (fun x v => Host.reduce IntOp.andi x v reducesTo_S32x8191x128_S_d0_1_2 h_S_) main_v2 main_c
  let main_v4 : FVec F S384x128 .f32 := Host.absf main_arg1
  let main_cst_0 : FVec F S_ .f32 := constant S_ .f32 0x7F800000#32
  let main_v5 : FVec F S384x128 .f32 := broadcastInDim S384x128 ![] bcast_S_S384x128 main_cst_0
  let main_v6 : IVec S384x128 1 := cmpf .olt main_v4 main_v5
  let main_c_1 : IVec S_ 1 := constantI S_ 1 1#1
  let main_v7 : IVec S_ 1 := (fun x v => Host.reduce IntOp.andi x v reducesTo_S384x128_S_d0_1 h_S_) main_v6 main_c_1
  let main_v8 : IVec S_ 1 := andi main_v3 main_v7
  let main_v9 : FVec F S384x256 .f32 := Host.absf main_arg2
  let main_cst_2 : FVec F S_ .f32 := constant S_ .f32 0x7F800000#32
  let main_v10 : FVec F S384x256 .f32 := broadcastInDim S384x256 ![] bcast_S_S384x256 main_cst_2
  let main_v11 : IVec S384x256 1 := cmpf .olt main_v9 main_v10
  let main_c_3 : IVec S_ 1 := constantI S_ 1 1#1
  let main_v12 : IVec S_ 1 := (fun x v => Host.reduce IntOp.andi x v reducesTo_S384x256_S_d0_1 h_S_) main_v11 main_c_3
  let main_v13 : IVec S_ 1 := andi main_v8 main_v12
  let main_v14 : FVec F S384 .f32 := Host.absf main_arg3
  let main_cst_4 : FVec F S_ .f32 := constant S_ .f32 0x7F800000#32
  let main_v15 : FVec F S384 .f32 := broadcastInDim S384 ![] bcast_S_S384 main_cst_4
  let main_v16 : IVec S384 1 := cmpf .olt main_v14 main_v15
  fn_part1 (F := F) main_arg4 main_arg5 main_v13 main_v16
-- ==== Kernel.lean ====
abbrev S32x8191x128 : Shape := ⟨3, ![32, 8191, 128]⟩
abbrev S384x128 : Shape := ⟨2, ![384, 128]⟩
abbrev S384x256 : Shape := ⟨2, ![384, 256]⟩
abbrev S384 : Shape := ⟨1, ![384]⟩
abbrev S256x256 : Shape := ⟨2, ![256, 256]⟩
abbrev S256 : Shape := ⟨1, ![256]⟩
abbrev S128x384 : Shape := ⟨2, ![128, 384]⟩
abbrev S256x384 : Shape := ⟨2, ![256, 384]⟩
abbrev S2x32x8191x128 : Shape := ⟨4, ![2, 32, 8191, 128]⟩
abbrev S1x8191x128 : Shape := ⟨3, ![1, 8191, 128]⟩
abbrev S2x1x8191x128 : Shape := ⟨4, ![2, 1, 8191, 128]⟩
abbrev S8192x128 : Shape := ⟨2, ![8192, 128]⟩
abbrev S4096x384 : Shape := ⟨2, ![4096, 384]⟩
abbrev S1x4095x128 : Shape := ⟨3, ![1, 4095, 128]⟩
abbrev S4095x128 : Shape := ⟨2, ![4095, 128]⟩
abbrev S4095x384 : Shape := ⟨2, ![4095, 384]⟩
abbrev S1x4096x128 : Shape := ⟨3, ![1, 4096, 128]⟩
abbrev S4096x128 : Shape := ⟨2, ![4096, 128]⟩
abbrev S1x384 : Shape := ⟨2, ![1, 384]⟩
abbrev S2048x256 : Shape := ⟨2, ![2048, 256]⟩
abbrev S1x256 : Shape := ⟨2, ![1, 256]⟩
abbrev S2048x2x128 : Shape := ⟨3, ![2048, 2, 128]⟩
abbrev S2048x128 : Shape := ⟨2, ![2048, 128]⟩
abbrev S2048x384 : Shape := ⟨2, ![2048, 384]⟩
abbrev S1024x256 : Shape := ⟨2, ![1024, 256]⟩
abbrev S1024x2x128 : Shape := ⟨3, ![1024, 2, 128]⟩
abbrev S1024x128 : Shape := ⟨2, ![1024, 128]⟩
abbrev S1024x384 : Shape := ⟨2, ![1024, 384]⟩
abbrev S512x256 : Shape := ⟨2, ![512, 256]⟩
abbrev S512x2x128 : Shape := ⟨3, ![512, 2, 128]⟩
abbrev S512x128 : Shape := ⟨2, ![512, 128]⟩
abbrev S512x384 : Shape := ⟨2, ![512, 384]⟩
abbrev S256x2x128 : Shape := ⟨3, ![256, 2, 128]⟩
abbrev S256x128 : Shape := ⟨2, ![256, 128]⟩
abbrev S128x256 : Shape := ⟨2, ![128, 256]⟩
abbrev S128x2x128 : Shape := ⟨3, ![128, 2, 128]⟩
abbrev S128x128 : Shape := ⟨2, ![128, 128]⟩
abbrev S64x256 : Shape := ⟨2, ![64, 256]⟩
abbrev S64x2x128 : Shape := ⟨3, ![64, 2, 128]⟩
abbrev S64x128 : Shape := ⟨2, ![64, 128]⟩
abbrev S64x384 : Shape := ⟨2, ![64, 384]⟩
abbrev S32x256 : Shape := ⟨2, ![32, 256]⟩
abbrev S32x2x128 : Shape := ⟨3, ![32, 2, 128]⟩
abbrev S32x128 : Shape := ⟨2, ![32, 128]⟩
abbrev S32x384 : Shape := ⟨2, ![32, 384]⟩
abbrev S16x256 : Shape := ⟨2, ![16, 256]⟩
abbrev S16x2x128 : Shape := ⟨3, ![16, 2, 128]⟩
abbrev S16x128 : Shape := ⟨2, ![16, 128]⟩
abbrev S16x384 : Shape := ⟨2, ![16, 384]⟩
abbrev S8x256 : Shape := ⟨2, ![8, 256]⟩
abbrev S8x2x128 : Shape := ⟨3, ![8, 2, 128]⟩
abbrev S8x128 : Shape := ⟨2, ![8, 128]⟩
abbrev S8x384 : Shape := ⟨2, ![8, 384]⟩
abbrev S4x256 : Shape := ⟨2, ![4, 256]⟩
abbrev S4x2x128 : Shape := ⟨3, ![4, 2, 128]⟩
abbrev S4x128 : Shape := ⟨2, ![4, 128]⟩
abbrev S4x384 : Shape := ⟨2, ![4, 384]⟩
abbrev S2x256 : Shape := ⟨2, ![2, 256]⟩
abbrev S2x2x128 : Shape := ⟨3, ![2, 2, 128]⟩
abbrev S2x128 : Shape := ⟨2, ![2, 128]⟩
abbrev S2x384 : Shape := ⟨2, ![2, 384]⟩
abbrev S1x2x128 : Shape := ⟨3, ![1, 2, 128]⟩
abbrev S1x128 : Shape := ⟨2, ![1, 128]⟩
abbrev S8191x128 : Shape := ⟨2, ![8191, 128]⟩
abbrev S1x1x8191x128 : Shape := ⟨4, ![1, 1, 8191, 128]⟩

abbrev nBuf : Space → Nat
  | .hbm => 13
  | .vmem => 12
  | .smem => 0
  | _ => 0

abbrev bufTy : (tb : Table) → Fin (tcTables nBuf tb) → BufTy
  | .hbm, ⟨0, _⟩ => ⟨S32x8191x128, .f32⟩
  | .hbm, ⟨1, _⟩ => ⟨S384x128, .f32⟩
  | .hbm, ⟨2, _⟩ => ⟨S384x256, .f32⟩
  | .hbm, ⟨3, _⟩ => ⟨S384, .f32⟩
  | .hbm, ⟨4, _⟩ => ⟨S256x256, .f32⟩
  | .hbm, ⟨5, _⟩ => ⟨S256, .f32⟩
  | .hbm, ⟨6, _⟩ => ⟨S128x384, .f32⟩
  | .hbm, ⟨7, _⟩ => ⟨S128x384, .bf16⟩
  | .hbm, ⟨8, _⟩ => ⟨S256x384, .f32⟩
  | .hbm, ⟨9, _⟩ => ⟨S256x384, .bf16⟩
  | .hbm, ⟨10, _⟩ => ⟨S256x256, .f32⟩
  | .hbm, ⟨11, _⟩ => ⟨S256x256, .bf16⟩
  | .hbm, ⟨12, _⟩ => ⟨S2x32x8191x128, .f32⟩
  | .local _ .vmem, ⟨0, _⟩ => ⟨S1x8191x128, .f32⟩
  | .local _ .vmem, ⟨1, _⟩ => ⟨S1x8191x128, .f32⟩
  | .local _ .vmem, ⟨2, _⟩ => ⟨S128x384, .bf16⟩
  | .local _ .vmem, ⟨3, _⟩ => ⟨S256x384, .bf16⟩
  | .local _ .vmem, ⟨4, _⟩ => ⟨S384, .f32⟩
  | .local _ .vmem, ⟨5, _⟩ => ⟨S256x256, .bf16⟩
  | .local _ .vmem, ⟨6, _⟩ => ⟨S256, .f32⟩
  | .local _ .vmem, ⟨7, _⟩ => ⟨S2x1x8191x128, .f32⟩
  | .local _ .vmem, ⟨8, _⟩ => ⟨S2x1x8191x128, .f32⟩
  | .local _ .vmem, ⟨9, _⟩ => ⟨S8192x128, .f32⟩
  | .local _ .vmem, ⟨10, _⟩ => ⟨S8192x128, .f32⟩
  | .local _ .vmem, ⟨11, _⟩ => ⟨S4096x384, .f32⟩
  | _, _ => ⟨S32x8191x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S1x8191x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2x1x8191x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S384x128_S128x384_1_0 : S384x128.Transposes [1, 0] S128x384
  bitsLt_bf16_f32 : FTy.bits .bf16 < FTy.bits .f32
  transposes_S384x256_S256x384_1_0 : S384x256.Transposes [1, 0] S256x384
  transposes_S256x256_S256x256_1_0 : S256x256.Transposes [1, 0] S256x256
  inb_S384_S384_0 : ∀ a, (![0] : Fin 1 → Nat) a + S384.size a ≤ S384.size a
  h_S384 : 0 < S384.numel
  inb_S256_S256_0 : ∀ a, (![0] : Fin 1 → Nat) a + S256.size a ≤ S256.size a
  h_S256 : 0 < S256.numel
  inb_S1x8191x128_S1x4095x128_0_0_0 : ∀ a, (![0, 0, 0] : Fin 3 → Nat) a + S1x4095x128.size a ≤ S1x8191x128.size a
  h_S1x4095x128 : 0 < S1x4095x128.numel
  shapeCasts_S1x4095x128_S4095x128 : S1x4095x128.ShapeCasts S4095x128
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S4096x384_S4095x384_1_0 : ∀ a, (![1, 0] : Fin 2 → Nat) a + S4095x384.size a ≤ S4096x384.size a
  h_S4095x384 : 0 < S4095x384.numel
  shapeCasts_S4095x384_S4095x384 : S4095x384.ShapeCasts S4095x384
  inb_S1x8191x128_S1x4096x128_0_4095_0 : ∀ a, (![0, 4095, 0] : Fin 3 → Nat) a + S1x4096x128.size a ≤ S1x8191x128.size a
  h_S1x4096x128 : 0 < S1x4096x128.numel
  shapeCasts_S1x4096x128_S4096x128 : S1x4096x128.ShapeCasts S4096x128
  shapeCasts_S384_S1x384 : S384.ShapeCasts S1x384
  broadcasts_S1x384_S4096x384 : S1x384.Broadcasts S4096x384
  slices_S4096x384_o0_0_S4096x128 : S4096x384.Slices ![0, 0] S4096x128
  slices_S4096x384_o0_128_S4096x128 : S4096x384.Slices ![0, 128] S4096x128
  slices_S4096x384_o0_256_S4096x128 : S4096x384.Slices ![0, 256] S4096x128
  inb_S8192x128_S4096x128_4096_0 : ∀ a, (![4096, 0] : Fin 2 → Nat) a + S4096x128.size a ≤ S8192x128.size a
  h_S4096x128 : 0 < S4096x128.numel
  shapeCasts_S4096x128_S4096x128 : S4096x128.ShapeCasts S4096x128
  shapeCasts_S4096x128_S2048x256 : S4096x128.ShapeCasts S2048x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  shapeCasts_S256_S1x256 : S256.ShapeCasts S1x256
  broadcasts_S1x256_S2048x256 : S1x256.Broadcasts S2048x256
  shapeCasts_S4096x128_S2048x2x128 : S4096x128.ShapeCasts S2048x2x128
  shapeCasts_S2048x256_S2048x2x128 : S2048x256.ShapeCasts S2048x2x128
  reduces_S2048x2x128_S2048x128 : S2048x2x128.Reduces [1] S2048x128
  inb_S4096x384_S2048x384_2048_0 : ∀ a, (![2048, 0] : Fin 2 → Nat) a + S2048x384.size a ≤ S4096x384.size a
  h_S2048x384 : 0 < S2048x384.numel
  inb_S256x384_S256x384_0_0 : ∀ a, (![0, 0] : Fin 2 → Nat) a + S256x384.size a ≤ S256x384.size a
  h_S256x384 : 0 < S256x384.numel
  shapeCasts_S256x384_S256x384 : S256x384.ShapeCasts S256x384
  broadcasts_S1x384_S2048x384 : S1x384.Broadcasts S2048x384
  slices_S2048x384_o0_0_S2048x128 : S2048x384.Slices ![0, 0] S2048x128
  slices_S2048x384_o0_128_S2048x128 : S2048x384.Slices ![0, 128] S2048x128
  slices_S2048x384_o0_256_S2048x128 : S2048x384.Slices ![0, 256] S2048x128
  inb_S8192x128_S2048x128_2048_0 : ∀ a, (![2048, 0] : Fin 2 → Nat) a + S2048x128.size a ≤ S8192x128.size a
  h_S2048x128 : 0 < S2048x128.numel
  shapeCasts_S2048x128_S2048x128 : S2048x128.ShapeCasts S2048x128
  shapeCasts_S2048x128_S1024x256 : S2048x128.ShapeCasts S1024x256
  broadcasts_S1x256_S1024x256 : S1x256.Broadcasts S1024x256
  shapeCasts_S2048x128_S1024x2x128 : S2048x128.ShapeCasts S1024x2x128
  shapeCasts_S1024x256_S1024x2x128 : S1024x256.ShapeCasts S1024x2x128
  reduces_S1024x2x128_S1024x128 : S1024x2x128.Reduces [1] S1024x128
  inb_S4096x384_S1024x384_1024_0 : ∀ a, (![1024, 0] : Fin 2 → Nat) a + S1024x384.size a ≤ S4096x384.size a
  h_S1024x384 : 0 < S1024x384.numel
  broadcasts_S1x384_S1024x384 : S1x384.Broadcasts S1024x384
  slices_S1024x384_o0_0_S1024x128 : S1024x384.Slices ![0, 0] S1024x128
  slices_S1024x384_o0_128_S1024x128 : S1024x384.Slices ![0, 128] S1024x128
  slices_S1024x384_o0_256_S1024x128 : S1024x384.Slices ![0, 256] S1024x128
  inb_S8192x128_S1024x128_1024_0 : ∀ a, (![1024, 0] : Fin 2 → Nat) a + S1024x128.size a ≤ S8192x128.size a
  h_S1024x128 : 0 < S1024x128.numel
  shapeCasts_S1024x128_S1024x128 : S1024x128.ShapeCasts S1024x128
  shapeCasts_S1024x128_S512x256 : S1024x128.ShapeCasts S512x256
  broadcasts_S1x256_S512x256 : S1x256.Broadcasts S512x256
  shapeCasts_S1024x128_S512x2x128 : S1024x128.ShapeCasts S512x2x128
  shapeCasts_S512x256_S512x2x128 : S512x256.ShapeCasts S512x2x128
  reduces_S512x2x128_S512x128 : S512x2x128.Reduces [1] S512x128
  inb_S4096x384_S512x384_512_0 : ∀ a, (![512, 0] : Fin 2 → Nat) a + S512x384.size a ≤ S4096x384.size a
  h_S512x384 : 0 < S512x384.numel
  broadcasts_S1x384_S512x384 : S1x384.Broadcasts S512x384
  slices_S512x384_o0_0_S512x128 : S512x384.Slices ![0, 0] S512x128
  slices_S512x384_o0_128_S512x128 : S512x384.Slices ![0, 128] S512x128
  slices_S512x384_o0_256_S512x128 : S512x384.Slices ![0, 256] S512x128
  inb_S8192x128_S512x128_512_0 : ∀ a, (![512, 0] : Fin 2 → Nat) a + S512x128.size a ≤ S8192x128.size a
  h_S512x128 : 0 < S512x128.numel
  shapeCasts_S512x128_S512x128 : S512x128.ShapeCasts S512x128
  shapeCasts_S512x128_S256x256 : S512x128.ShapeCasts S256x256
  broadcasts_S1x256_S256x256 : S1x256.Broadcasts S256x256
  shapeCasts_S512x128_S256x2x128 : S512x128.ShapeCasts S256x2x128
  shapeCasts_S256x256_S256x2x128 : S256x256.ShapeCasts S256x2x128
  reduces_S256x2x128_S256x128 : S256x2x128.Reduces [1] S256x128
  inb_S4096x384_S256x384_256_0 : ∀ a, (![256, 0] : Fin 2 → Nat) a + S256x384.size a ≤ S4096x384.size a
  broadcasts_S1x384_S256x384 : S1x384.Broadcasts S256x384
  slices_S256x384_o0_0_S256x128 : S256x384.Slices ![0, 0] S256x128
  slices_S256x384_o0_128_S256x128 : S256x384.Slices ![0, 128] S256x128
  slices_S256x384_o0_256_S256x128 : S256x384.Slices ![0, 256] S256x128
  inb_S8192x128_S256x128_256_0 : ∀ a, (![256, 0] : Fin 2 → Nat) a + S256x128.size a ≤ S8192x128.size a
  h_S256x128 : 0 < S256x128.numel
  shapeCasts_S256x128_S256x128 : S256x128.ShapeCasts S256x128
  shapeCasts_S256x128_S128x256 : S256x128.ShapeCasts S128x256
  broadcasts_S1x256_S128x256 : S1x256.Broadcasts S128x256
  shapeCasts_S256x128_S128x2x128 : S256x128.ShapeCasts S128x2x128
  shapeCasts_S128x256_S128x2x128 : S128x256.ShapeCasts S128x2x128
  reduces_S128x2x128_S128x128 : S128x2x128.Reduces [1] S128x128
  inb_S4096x384_S128x384_128_0 : ∀ a, (![128, 0] : Fin 2 → Nat) a + S128x384.size a ≤ S4096x384.size a
  broadcasts_S1x384_S128x384 : S1x384.Broadcasts S128x384
  slices_S128x384_o0_0_S128x128 : S128x384.Slices ![0, 0] S128x128
  slices_S128x384_o0_128_S128x128 : S128x384.Slices ![0, 128] S128x128
  slices_S128x384_o0_256_S128x128 : S128x384.Slices ![0, 256] S128x128
  inb_S8192x128_S128x128_128_0 : ∀ a, (![128, 0] : Fin 2 → Nat) a + S128x128.size a ≤ S8192x128.size a
  h_S128x128 : 0 < S128x128.numel
  shapeCasts_S128x128_S128x128 : S128x128.ShapeCasts S128x128
  shapeCasts_S128x128_S64x256 : S128x128.ShapeCasts S64x256
  broadcasts_S1x256_S64x256 : S1x256.Broadcasts S64x256
  shapeCasts_S128x128_S64x2x128 : S128x128.ShapeCasts S64x2x128
  shapeCasts_S64x256_S64x2x128 : S64x256.ShapeCasts S64x2x128
  reduces_S64x2x128_S64x128 : S64x2x128.Reduces [1] S64x128
  inb_S4096x384_S64x384_64_0 : ∀ a, (![64, 0] : Fin 2 → Nat) a + S64x384.size a ≤ S4096x384.size a
  h_S64x384 : 0 < S64x384.numel
  broadcasts_S1x384_S64x384 : S1x384.Broadcasts S64x384
  slices_S64x384_o0_0_S64x128 : S64x384.Slices ![0, 0] S64x128
  slices_S64x384_o0_128_S64x128 : S64x384.Slices ![0, 128] S64x128
  slices_S64x384_o0_256_S64x128 : S64x384.Slices ![0, 256] S64x128
  inb_S8192x128_S64x128_64_0 : ∀ a, (![64, 0] : Fin 2 → Nat) a + S64x128.size a ≤ S8192x128.size a
  h_S64x128 : 0 < S64x128.numel
  shapeCasts_S64x128_S64x128 : S64x128.ShapeCasts S64x128
  shapeCasts_S64x128_S32x256 : S64x128.ShapeCasts S32x256
  broadcasts_S1x256_S32x256 : S1x256.Broadcasts S32x256
  shapeCasts_S64x128_S32x2x128 : S64x128.ShapeCasts S32x2x128
  shapeCasts_S32x256_S32x2x128 : S32x256.ShapeCasts S32x2x128
  reduces_S32x2x128_S32x128 : S32x2x128.Reduces [1] S32x128
  inb_S4096x384_S32x384_32_0 : ∀ a, (![32, 0] : Fin 2 → Nat) a + S32x384.size a ≤ S4096x384.size a
  h_S32x384 : 0 < S32x384.numel
  broadcasts_S1x384_S32x384 : S1x384.Broadcasts S32x384
  slices_S32x384_o0_0_S32x128 : S32x384.Slices ![0, 0] S32x128
  slices_S32x384_o0_128_S32x128 : S32x384.Slices ![0, 128] S32x128
  slices_S32x384_o0_256_S32x128 : S32x384.Slices ![0, 256] S32x128
  inb_S8192x128_S32x128_32_0 : ∀ a, (![32, 0] : Fin 2 → Nat) a + S32x128.size a ≤ S8192x128.size a
  h_S32x128 : 0 < S32x128.numel
  shapeCasts_S32x128_S32x128 : S32x128.ShapeCasts S32x128
  shapeCasts_S32x128_S16x256 : S32x128.ShapeCasts S16x256
  broadcasts_S1x256_S16x256 : S1x256.Broadcasts S16x256
  shapeCasts_S32x128_S16x2x128 : S32x128.ShapeCasts S16x2x128
  shapeCasts_S16x256_S16x2x128 : S16x256.ShapeCasts S16x2x128
  reduces_S16x2x128_S16x128 : S16x2x128.Reduces [1] S16x128
  inb_S4096x384_S16x384_16_0 : ∀ a, (![16, 0] : Fin 2 → Nat) a + S16x384.size a ≤ S4096x384.size a
  h_S16x384 : 0 < S16x384.numel
  broadcasts_S1x384_S16x384 : S1x384.Broadcasts S16x384
  slices_S16x384_o0_0_S16x128 : S16x384.Slices ![0, 0] S16x128
  slices_S16x384_o0_128_S16x128 : S16x384.Slices ![0, 128] S16x128
  slices_S16x384_o0_256_S16x128 : S16x384.Slices ![0, 256] S16x128
  inb_S8192x128_S16x128_16_0 : ∀ a, (![16, 0] : Fin 2 → Nat) a + S16x128.size a ≤ S8192x128.size a
  h_S16x128 : 0 < S16x128.numel
  shapeCasts_S16x128_S16x128 : S16x128.ShapeCasts S16x128
  shapeCasts_S16x128_S8x256 : S16x128.ShapeCasts S8x256
  broadcasts_S1x256_S8x256 : S1x256.Broadcasts S8x256
  shapeCasts_S16x128_S8x2x128 : S16x128.ShapeCasts S8x2x128
  shapeCasts_S8x256_S8x2x128 : S8x256.ShapeCasts S8x2x128
  reduces_S8x2x128_S8x128 : S8x2x128.Reduces [1] S8x128
  inb_S4096x384_S8x384_8_0 : ∀ a, (![8, 0] : Fin 2 → Nat) a + S8x384.size a ≤ S4096x384.size a
  h_S8x384 : 0 < S8x384.numel
  broadcasts_S1x384_S8x384 : S1x384.Broadcasts S8x384
  slices_S8x384_o0_0_S8x128 : S8x384.Slices ![0, 0] S8x128
  slices_S8x384_o0_128_S8x128 : S8x384.Slices ![0, 128] S8x128
  slices_S8x384_o0_256_S8x128 : S8x384.Slices ![0, 256] S8x128
  inb_S8192x128_S8x128_8_0 : ∀ a, (![8, 0] : Fin 2 → Nat) a + S8x128.size a ≤ S8192x128.size a
  h_S8x128 : 0 < S8x128.numel
  shapeCasts_S8x128_S8x128 : S8x128.ShapeCasts S8x128
  shapeCasts_S8x128_S4x256 : S8x128.ShapeCasts S4x256
  broadcasts_S1x256_S4x256 : S1x256.Broadcasts S4x256
  shapeCasts_S8x128_S4x2x128 : S8x128.ShapeCasts S4x2x128
  shapeCasts_S4x256_S4x2x128 : S4x256.ShapeCasts S4x2x128
  reduces_S4x2x128_S4x128 : S4x2x128.Reduces [1] S4x128
  inb_S4096x384_S4x384_4_0 : ∀ a, (![4, 0] : Fin 2 → Nat) a + S4x384.size a ≤ S4096x384.size a
  h_S4x384 : 0 < S4x384.numel
  broadcasts_S1x384_S4x384 : S1x384.Broadcasts S4x384
  slices_S4x384_o0_0_S4x128 : S4x384.Slices ![0, 0] S4x128
  slices_S4x384_o0_128_S4x128 : S4x384.Slices ![0, 128] S4x128
  slices_S4x384_o0_256_S4x128 : S4x384.Slices ![0, 256] S4x128
  inb_S8192x128_S4x128_4_0 : ∀ a, (![4, 0] : Fin 2 → Nat) a + S4x128.size a ≤ S8192x128.size a
  h_S4x128 : 0 < S4x128.numel
  shapeCasts_S4x128_S4x128 : S4x128.ShapeCasts S4x128
  shapeCasts_S4x128_S2x256 : S4x128.ShapeCasts S2x256
  broadcasts_S1x256_S2x256 : S1x256.Broadcasts S2x256
  shapeCasts_S4x128_S2x2x128 : S4x128.ShapeCasts S2x2x128
  shapeCasts_S2x256_S2x2x128 : S2x256.ShapeCasts S2x2x128
  reduces_S2x2x128_S2x128 : S2x2x128.Reduces [1] S2x128
  inb_S4096x384_S2x384_2_0 : ∀ a, (![2, 0] : Fin 2 → Nat) a + S2x384.size a ≤ S4096x384.size a
  h_S2x384 : 0 < S2x384.numel
  broadcasts_S1x384_S2x384 : S1x384.Broadcasts S2x384
  slices_S2x384_o0_0_S2x128 : S2x384.Slices ![0, 0] S2x128
  slices_S2x384_o0_128_S2x128 : S2x384.Slices ![0, 128] S2x128
  slices_S2x384_o0_256_S2x128 : S2x384.Slices ![0, 256] S2x128
  inb_S8192x128_S2x128_2_0 : ∀ a, (![2, 0] : Fin 2 → Nat) a + S2x128.size a ≤ S8192x128.size a
  h_S2x128 : 0 < S2x128.numel
  shapeCasts_S2x128_S2x128 : S2x128.ShapeCasts S2x128
  shapeCasts_S2x128_S1x256 : S2x128.ShapeCasts S1x256
  shapeCasts_S2x128_S1x2x128 : S2x128.ShapeCasts S1x2x128
  shapeCasts_S1x256_S1x2x128 : S1x256.ShapeCasts S1x2x128
  reduces_S1x2x128_S1x128 : S1x2x128.Reduces [1] S1x128
  inb_S4096x384_S1x384_1_0 : ∀ a, (![1, 0] : Fin 2 → Nat) a + S1x384.size a ≤ S4096x384.size a
  h_S1x384 : 0 < S1x384.numel
  slices_S1x384_o0_0_S1x128 : S1x384.Slices ![0, 0] S1x128
  slices_S1x384_o0_128_S1x128 : S1x384.Slices ![0, 128] S1x128
  slices_S1x384_o0_256_S1x128 : S1x384.Slices ![0, 256] S1x128
  inb_S8192x128_S1x128_1_0 : ∀ a, (![1, 0] : Fin 2 → Nat) a + S1x128.size a ≤ S8192x128.size a
  h_S1x128 : 0 < S1x128.numel
  shapeCasts_S1x128_S1x128 : S1x128.ShapeCasts S1x128
  inb_S8192x128_S8191x128_1_0 : ∀ a, (![1, 0] : Fin 2 → Nat) a + S8191x128.size a ≤ S8192x128.size a
  h_S8191x128 : 0 < S8191x128.numel
  inb_S2x1x8191x128_S1x1x8191x128_0_0_0_0 : ∀ a, (![0, 0, 0, 0] : Fin 4 → Nat) a + S1x1x8191x128.size a ≤ S2x1x8191x128.size a
  h_S1x1x8191x128 : 0 < S1x1x8191x128.numel
  shapeCasts_S1x1x8191x128_S8191x128 : S1x1x8191x128.ShapeCasts S8191x128
  shapeCasts_S8191x128_S1x1x8191x128 : S8191x128.ShapeCasts S1x1x8191x128
  inb_S2x1x8191x128_S1x1x8191x128_1_0_0_0 : ∀ a, (![1, 0, 0, 0] : Fin 4 → Nat) a + S1x1x8191x128.size a ≤ S2x1x8191x128.size a
  dot_S4095x128_S128x384_S4095x384_1_0_0_1_n_n_wf : DotDims.WF S4095x128 S128x384 S4095x384 [1] [0] [0] [1] [] []
  dot_S4096x128_S128x384_S4096x384_1_0_0_1_n_n_wf : DotDims.WF S4096x128 S128x384 S4096x384 [1] [0] [0] [1] [] []
  dot_S2048x256_S256x256_S2048x256_1_0_0_1_n_n_wf : DotDims.WF S2048x256 S256x256 S2048x256 [1] [0] [0] [1] [] []
  dot_S2048x256_S256x384_S2048x384_1_0_0_1_n_n_wf : DotDims.WF S2048x256 S256x384 S2048x384 [1] [0] [0] [1] [] []
  dot_S1024x256_S256x256_S1024x256_1_0_0_1_n_n_wf : DotDims.WF S1024x256 S256x256 S1024x256 [1] [0] [0] [1] [] []
  dot_S1024x256_S256x384_S1024x384_1_0_0_1_n_n_wf : DotDims.WF S1024x256 S256x384 S1024x384 [1] [0] [0] [1] [] []
  dot_S512x256_S256x256_S512x256_1_0_0_1_n_n_wf : DotDims.WF S512x256 S256x256 S512x256 [1] [0] [0] [1] [] []
  dot_S512x256_S256x384_S512x384_1_0_0_1_n_n_wf : DotDims.WF S512x256 S256x384 S512x384 [1] [0] [0] [1] [] []
  dot_S256x256_S256x256_S256x256_1_0_0_1_n_n_wf : DotDims.WF S256x256 S256x256 S256x256 [1] [0] [0] [1] [] []
  dot_S256x256_S256x384_S256x384_1_0_0_1_n_n_wf : DotDims.WF S256x256 S256x384 S256x384 [1] [0] [0] [1] [] []
  dot_S128x256_S256x256_S128x256_1_0_0_1_n_n_wf : DotDims.WF S128x256 S256x256 S128x256 [1] [0] [0] [1] [] []
  dot_S128x256_S256x384_S128x384_1_0_0_1_n_n_wf : DotDims.WF S128x256 S256x384 S128x384 [1] [0] [0] [1] [] []
  dot_S64x256_S256x256_S64x256_1_0_0_1_n_n_wf : DotDims.WF S64x256 S256x256 S64x256 [1] [0] [0] [1] [] []
  dot_S64x256_S256x384_S64x384_1_0_0_1_n_n_wf : DotDims.WF S64x256 S256x384 S64x384 [1] [0] [0] [1] [] []
  dot_S32x256_S256x256_S32x256_1_0_0_1_n_n_wf : DotDims.WF S32x256 S256x256 S32x256 [1] [0] [0] [1] [] []
  dot_S32x256_S256x384_S32x384_1_0_0_1_n_n_wf : DotDims.WF S32x256 S256x384 S32x384 [1] [0] [0] [1] [] []
  dot_S16x256_S256x256_S16x256_1_0_0_1_n_n_wf : DotDims.WF S16x256 S256x256 S16x256 [1] [0] [0] [1] [] []
  dot_S16x256_S256x384_S16x384_1_0_0_1_n_n_wf : DotDims.WF S16x256 S256x384 S16x384 [1] [0] [0] [1] [] []
  dot_S8x256_S256x256_S8x256_1_0_0_1_n_n_wf : DotDims.WF S8x256 S256x256 S8x256 [1] [0] [0] [1] [] []
  dot_S8x256_S256x384_S8x384_1_0_0_1_n_n_wf : DotDims.WF S8x256 S256x384 S8x384 [1] [0] [0] [1] [] []
  dot_S4x256_S256x256_S4x256_1_0_0_1_n_n_wf : DotDims.WF S4x256 S256x256 S4x256 [1] [0] [0] [1] [] []
  dot_S4x256_S256x384_S4x384_1_0_0_1_n_n_wf : DotDims.WF S4x256 S256x384 S4x384 [1] [0] [0] [1] [] []
  dot_S2x256_S256x256_S2x256_1_0_0_1_n_n_wf : DotDims.WF S2x256 S256x256 S2x256 [1] [0] [0] [1] [] []
  dot_S2x256_S256x384_S2x384_1_0_0_1_n_n_wf : DotDims.WF S2x256 S256x384 S2x384 [1] [0] [0] [1] [] []
  dot_S1x256_S256x256_S1x256_1_0_0_1_n_n_wf : DotDims.WF S1x256 S256x256 S1x256 [1] [0] [0] [1] [] []
  dot_S1x256_S256x384_S1x384_1_0_0_1_n_n_wf : DotDims.WF S1x256 S256x384 S1x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8191x128.size a ≤ S32x8191x128.size a
  hwx0_0 : ∀ i : grid0.Coords, EltTy.bits .f32 = 32 ∨ (Rect.block (s := S32x8191x128) S1x8191x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x384.size a ≤ S128x384.size a
  hwx0_1 : ∀ i : grid0.Coords, EltTy.bits .bf16 = 32 ∨ (Rect.block (s := S128x384) S128x384.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x384.size a ≤ S256x384.size a
  hwx0_2 : ∀ i : grid0.Coords, EltTy.bits .bf16 = 32 ∨ (Rect.block (s := S256x384) S256x384.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S384.size a ≤ S384.size a
  hwx0_3 : ∀ i : grid0.Coords, EltTy.bits .f32 = 32 ∨ (Rect.block (s := S384) S384.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2x1x8191x128.size a ≤ S2x32x8191x128.size a
  hwx0_6 : ∀ i : grid0.Coords, EltTy.bits .f32 = 32 ∨ (Rect.block (s := S2x32x8191x128) S2x1x8191x128.size (cc0_transform_6 i) (hinb0_6 i)).WholeWords (EltTy.packing .f32)

variable [Facts₀]

def dot_S4095x128_S128x384_S4095x384_1_0_0_1_n_n : DotDims S4095x128 S128x384 S4095x384 where
  lhsContracting := [1]
  rhsContracting := [0]
  lhsNonContracting := [0]
  rhsNonContracting := [1]
  lhsBatch := []
  rhsBatch := []
  wf := dot_S4095x128_S128x384_S4095x384_1_0_0_1_n_n_wf
def dot_S4096x128_S128x384_S4096x384_1_0_0_1_n_n : DotDims S4096x128 S128x384 S4096x384 where
  lhsContracting := [1]
  rhsContracting := [0]
  lhsNonContracting := [0]
  rhsNonContracting := [1]
  lhsBatch := []
  rhsBatch := []
  wf := dot_S4096x128_S128x384_S4096x384_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x256_S256x384_S2048x384_1_0_0_1_n_n : DotDims S2048x256 S256x384 S2048x384 where
  lhsContracting := [1]
  rhsContracting := [0]
  lhsNonContracting := [0]
  rhsNonContracting := [1]
  lhsBatch := []
  rhsBatch := []
  wf := dot_S2048x256_S256x384_S2048x384_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x256_S256x384_S1024x384_1_0_0_1_n_n : DotDims S1024x256 S256x384 S1024x384 where
  lhsContracting := [1]
  rhsContracting := [0]
  lhsNonContracting := [0]
  rhsNonContracting := [1]
  lhsBatch := []
  rhsBatch := []
  wf := dot_S1024x256_S256x384_S1024x384_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S512x256_S256x384_S512x384_1_0_0_1_n_n : DotDims S512x256 S256x384 S512x384 where
  lhsContracting := [1]
  rhsContracting := [0]
  lhsNonContracting := [0]
  rhsNonContracting := [1]
  lhsBatch := []
  rhsBatch := []
  wf := dot_S512x256_S256x384_S512x384_1_0_0_1_n_n_wf
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf
def dot_S256x256_S256x384_S256x384_1_0_0_1_n_n : DotDims S256x256 S256x384 S256x384 where
  lhsContracting := [1]
  rhsContracting := [0]
  lhsNonContracting := [0]
  rhsNonContracting := [1]
  lhsBatch := []
  rhsBatch := []
  wf := dot_S256x256_S256x384_S256x384_1_0_0_1_n_n_wf
def dot_S128x256_S256x256_S128x256_1_0_0_1_n_n : DotDims S128x256 S256x256 S128x256 where
  lhsContracting := [1]
  rhsContracting := [0]
  lhsNonContracting := [0]
  rhsNonContracting := [1]
  lhsBatch := []
  rhsBatch := []
  wf := dot_S128x256_S256x256_S128x256_1_0_0_1_n_n_wf
def dot_S128x256_S256x384_S128x384_1_0_0_1_n_n : DotDims S128x256 S256x384 S128x384 where
  lhsContracting := [1]
  rhsContracting := [0]
  lhsNonContracting := [0]
  rhsNonContracting := [1]
  lhsBatch := []
  rhsBatch := []
  wf := dot_S128x256_S256x384_S128x384_1_0_0_1_n_n_wf
def dot_S64x256_S256x256_S64x256_1_0_0_1_n_n : DotDims S64x256 S256x256 S64x256 where
  lhsContracting := [1]
  rhsContracting := [0]
  lhsNonContracting := [0]
  rhsNonContracting := [1]
  lhsBatch := []
  rhsBatch := []
  wf := dot_S64x256_S256x256_S64x256_1_0_0_1_n_n_wf
def dot_S64x256_S256x384_S64x384_1_0_0_1_n_n : DotDims S64x256 S256x384 S64x384 where
  lhsContracting := [1]
  rhsContracting := [0]
  lhsNonContracting := [0]
  rhsNonContracting := [1]
  lhsBatch := []
  rhsBatch := []
  wf := dot_S64x256_S256x384_S64x384_1_0_0_1_n_n_wf
def dot_S32x256_S256x256_S32x256_1_0_0_1_n_n : DotDims S32x256 S256x256 S32x256 where
  lhsContracting := [1]
  rhsContracting := [0]
  lhsNonContracting := [0]
  rhsNonContracting := [1]
  lhsBatch := []
  rhsBatch := []
  wf := dot_S32x256_S256x256_S32x256_1_0_0_1_n_n_wf
def dot_S32x256_S256x384_S32x384_1_0_0_1_n_n : DotDims S32x256 S256x384 S32x384 where
  lhsContracting := [1]
  rhsContracting := [0]
  lhsNonContracting := [0]
  rhsNonContracting := [1]
  lhsBatch := []
  rhsBatch := []
  wf := dot_S32x256_S256x384_S32x384_1_0_0_1_n_n_wf
def dot_S16x256_S256x256_S16x256_1_0_0_1_n_n : DotDims S16x256 S256x256 S16x256 where
  lhsContracting := [1]
  rhsContracting := [0]
  lhsNonContracting := [0]
  rhsNonContracting := [1]
  lhsBatch := []
  rhsBatch := []
  wf := dot_S16x256_S256x256_S16x256_1_0_0_1_n_n_wf
def dot_S16x256_S256x384_S16x384_1_0_0_1_n_n : DotDims S16x256 S256x384 S16x384 where
  lhsContracting := [1]
  rhsContracting := [0]
  lhsNonContracting := [0]
  rhsNonContracting := [1]
  lhsBatch := []
  rhsBatch := []
  wf := dot_S16x256_S256x384_S16x384_1_0_0_1_n_n_wf
def dot_S8x256_S256x256_S8x256_1_0_0_1_n_n : DotDims S8x256 S256x256 S8x256 where
  lhsContracting := [1]
  rhsContracting := [0]
  lhsNonContracting := [0]
  rhsNonContracting := [1]
  lhsBatch := []
  rhsBatch := []
  wf := dot_S8x256_S256x256_S8x256_1_0_0_1_n_n_wf
def dot_S8x256_S256x384_S8x384_1_0_0_1_n_n : DotDims S8x256 S256x384 S8x384 where
  lhsContracting := [1]
  rhsContracting := [0]
  lhsNonContracting := [0]
  rhsNonContracting := [1]
  lhsBatch := []
  rhsBatch := []
  wf := dot_S8x256_S256x384_S8x384_1_0_0_1_n_n_wf
def dot_S4x256_S256x256_S4x256_1_0_0_1_n_n : DotDims S4x256 S256x256 S4x256 where
  lhsContracting := [1]
  rhsContracting := [0]
  lhsNonContracting := [0]
  rhsNonContracting := [1]
  lhsBatch := []
  rhsBatch := []
  wf := dot_S4x256_S256x256_S4x256_1_0_0_1_n_n_wf
def dot_S4x256_S256x384_S4x384_1_0_0_1_n_n : DotDims S4x256 S256x384 S4x384 where
  lhsContracting := [1]
  rhsContracting := [0]
  lhsNonContracting := [0]
  rhsNonContracting := [1]
  lhsBatch := []
  rhsBatch := []
  wf := dot_S4x256_S256x384_S4x384_1_0_0_1_n_n_wf
def dot_S2x256_S256x256_S2x256_1_0_0_1_n_n : DotDims S2x256 S256x256 S2x256 where
  lhsContracting := [1]
  rhsContracting := [0]
  lhsNonContracting := [0]
  rhsNonContracting := [1]
  lhsBatch := []
  rhsBatch := []
  wf := dot_S2x256_S256x256_S2x256_1_0_0_1_n_n_wf
def dot_S2x256_S256x384_S2x384_1_0_0_1_n_n : DotDims S2x256 S256x384 S2x384 where
  lhsContracting := [1]
  rhsContracting := [0]
  lhsNonContracting := [0]
  rhsNonContracting := [1]
  lhsBatch := []
  rhsBatch := []
  wf := dot_S2x256_S256x384_S2x384_1_0_0_1_n_n_wf
def dot_S1x256_S256x256_S1x256_1_0_0_1_n_n : DotDims S1x256 S256x256 S1x256 where
  lhsContracting := [1]
  rhsContracting := [0]
  lhsNonContracting := [0]
  rhsNonContracting := [1]
  lhsBatch := []
  rhsBatch := []
  wf := dot_S1x256_S256x256_S1x256_1_0_0_1_n_n_wf
def dot_S1x256_S256x384_S1x384_1_0_0_1_n_n : DotDims S1x256 S256x384 S1x384 where
  lhsContracting := [1]
  rhsContracting := [0]
  lhsNonContracting := [0]
  rhsNonContracting := [1]
  lhsBatch := []
  rhsBatch := []
  wf := dot_S1x256_S256x384_S1x384_1_0_0_1_n_n_wf

abbrev win0_0 : Pipeline.Window sig grid0 :=
  Pipeline.Window.ofSpec (Memref.whole main_arg0) S1x8191x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S256x384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S2x1x8191x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S32x8191x128 : Shape := ⟨3, ![32, 8191, 128]⟩
abbrev S384x128 : Shape := ⟨2, ![384, 128]⟩
abbrev S384x256 : Shape := ⟨2, ![384, 256]⟩
abbrev S384 : Shape := ⟨1, ![384]⟩
abbrev S256x256 : Shape := ⟨2, ![256, 256]⟩
abbrev S256 : Shape := ⟨1, ![256]⟩
abbrev S32x8191x384 : Shape := ⟨3, ![32, 8191, 384]⟩
abbrev S32x4096x384 : Shape := ⟨3, ![32, 4096, 384]⟩
abbrev S1x1x384 : Shape := ⟨3, ![1, 1, 384]⟩
abbrev S32x4096x128 : Shape := ⟨3, ![32, 4096, 128]⟩
abbrev S_ : Shape := ⟨0, ![]⟩
abbrev S32x2048x256 : Shape := ⟨3, ![32, 2048, 256]⟩
abbrev S1x1x256 : Shape := ⟨3, ![1, 1, 256]⟩
abbrev S32x2048x2x128 : Shape := ⟨4, ![32, 2048, 2, 128]⟩
abbrev S32x2048x128 : Shape := ⟨3, ![32, 2048, 128]⟩
abbrev S32x2048x384 : Shape := ⟨3, ![32, 2048, 384]⟩
abbrev S32x1024x256 : Shape := ⟨3, ![32, 1024, 256]⟩
abbrev S32x1024x2x128 : Shape := ⟨4, ![32, 1024, 2, 128]⟩
abbrev S32x1024x128 : Shape := ⟨3, ![32, 1024, 128]⟩
abbrev S32x1024x384 : Shape := ⟨3, ![32, 1024, 384]⟩
abbrev S32x512x256 : Shape := ⟨3, ![32, 512, 256]⟩
abbrev S32x512x2x128 : Shape := ⟨4, ![32, 512, 2, 128]⟩
abbrev S32x512x128 : Shape := ⟨3, ![32, 512, 128]⟩
abbrev S32x512x384 : Shape := ⟨3, ![32, 512, 384]⟩
abbrev S32x256x256 : Shape := ⟨3, ![32, 256, 256]⟩
abbrev S32x256x2x128 : Shape := ⟨4, ![32, 256, 2, 128]⟩
abbrev S32x256x128 : Shape := ⟨3, ![32, 256, 128]⟩
abbrev S32x256x384 : Shape := ⟨3, ![32, 256, 384]⟩
abbrev S32x128x256 : Shape := ⟨3, ![32, 128, 256]⟩
abbrev S32x128x2x128 : Shape := ⟨4, ![32, 128, 2, 128]⟩
abbrev S32x128x128 : Shape := ⟨3, ![32, 128, 128]⟩
abbrev S32x128x384 : Shape := ⟨3, ![32, 128, 384]⟩
abbrev S32x64x256 : Shape := ⟨3, ![32, 64, 256]⟩
abbrev S32x64x2x128 : Shape := ⟨4, ![32, 64, 2, 128]⟩
abbrev S32x64x128 : Shape := ⟨3, ![32, 64, 128]⟩
abbrev S32x64x384 : Shape := ⟨3, ![32, 64, 384]⟩
abbrev S32x32x256 : Shape := ⟨3, ![32, 32, 256]⟩
abbrev S32x32x2x128 : Shape := ⟨4, ![32, 32, 2, 128]⟩
abbrev S32x32x128 : Shape := ⟨3, ![32, 32, 128]⟩
abbrev S32x32x384 : Shape := ⟨3, ![32, 32, 384]⟩
abbrev S32x16x256 : Shape := ⟨3, ![32, 16, 256]⟩
abbrev S32x16x2x128 : Shape := ⟨4, ![32, 16, 2, 128]⟩
abbrev S32x16x128 : Shape := ⟨3, ![32, 16, 128]⟩
abbrev S32x16x384 : Shape := ⟨3, ![32, 16, 384]⟩
abbrev S32x8x256 : Shape := ⟨3, ![32, 8, 256]⟩
abbrev S32x8x2x128 : Shape := ⟨4, ![32, 8, 2, 128]⟩
abbrev S32x8x128 : Shape := ⟨3, ![32, 8, 128]⟩
abbrev S32x8x384 : Shape := ⟨3, ![32, 8, 384]⟩
abbrev S32x4x256 : Shape := ⟨3, ![32, 4, 256]⟩
abbrev S32x4x2x128 : Shape := ⟨4, ![32, 4, 2, 128]⟩
abbrev S32x4x128 : Shape := ⟨3, ![32, 4, 128]⟩
abbrev S32x4x384 : Shape := ⟨3, ![32, 4, 384]⟩
abbrev S32x2x256 : Shape := ⟨3, ![32, 2, 256]⟩
abbrev S32x2x2x128 : Shape := ⟨4, ![32, 2, 2, 128]⟩
abbrev S32x2x128 : Shape := ⟨3, ![32, 2, 128]⟩
abbrev S32x2x384 : Shape := ⟨3, ![32, 2, 384]⟩
abbrev S32x1x256 : Shape := ⟨3, ![32, 1, 256]⟩
abbrev S32x1x2x128 : Shape := ⟨4, ![32, 1, 2, 128]⟩
abbrev S32x1x128 : Shape := ⟨3, ![32, 1, 128]⟩
abbrev S32x1x384 : Shape := ⟨3, ![32, 1, 384]⟩
abbrev S1x32x8191x128 : Shape := ⟨4, ![1, 32, 8191, 128]⟩
abbrev S2x32x8191x128 : Shape := ⟨4, ![2, 32, 8191, 128]⟩

abbrev nBuf : Space → Nat
  | .hbm => 617
  | .vmem => 0
  | .smem => 0
  | _ => 0

abbrev hbmTy0_0 (i : Nat) : BufTy := match i % 128 with
  | 0 => ⟨S32x8191x128, .f32⟩
  | 1 => ⟨S384x128, .f32⟩
  | 2 => ⟨S384x256, .f32⟩
  | 3 => ⟨S384, .f32⟩
  | 4 => ⟨S256x256, .f32⟩
  | 5 => ⟨S256, .f32⟩
  | 6 => ⟨S32x8191x384, .f32⟩
  | 7 => ⟨S32x4096x384, .f32⟩
  | 8 => ⟨S1x1x384, .f32⟩
  | 9 => ⟨S32x4096x384, .f32⟩
  | 10 => ⟨S32x4096x384, .f32⟩
  | 11 => ⟨S32x4096x128, .f32⟩
  | 12 => ⟨S32x4096x128, .f32⟩
  | 13 => ⟨S32x4096x128, .f32⟩
  | 14 => ⟨S32x4096x128, .f32⟩
  | 15 => ⟨S32x4096x128, .f32⟩
  | 16 => ⟨S_, .f32⟩
  | 17 => ⟨S32x4096x128, .f32⟩
  | 18 => ⟨S32x4096x128, .f32⟩
  | 19 => ⟨S_, .f32⟩
  | 20 => ⟨S32x4096x128, .f32⟩
  | 21 => ⟨S32x4096x128, .f32⟩
  | 22 => ⟨S32x4096x128, .f32⟩
  | 23 => ⟨S32x4096x128, .f32⟩
  | 24 => ⟨S_, .f32⟩
  | 25 => ⟨S32x4096x128, .f32⟩
  | 26 => ⟨S32x4096x128, .f32⟩
  | 27 => ⟨S32x4096x128, .f32⟩
  | 28 => ⟨S32x4096x128, .f32⟩
  | 29 => ⟨S_, .f32⟩
  | 30 => ⟨S32x4096x128, .f32⟩
  | 31 => ⟨S32x4096x128, .f32⟩
  | 32 => ⟨S_, .f32⟩
  | 33 => ⟨S32x4096x128, .f32⟩
  | 34 => ⟨S32x4096x128, .f32⟩
  | 35 => ⟨S32x4096x128, .f32⟩
  | 36 => ⟨S32x4096x128, .f32⟩
  | 37 => ⟨S32x2048x256, .f32⟩
  | 38 => ⟨S32x2048x256, .f32⟩
  | 39 => ⟨S1x1x256, .f32⟩
  | 40 => ⟨S32x2048x256, .f32⟩
  | 41 => ⟨S32x2048x256, .f32⟩
  | 42 => ⟨S32x2048x256, .f32⟩
  | 43 => ⟨S32x2048x256, .f32⟩
  | 44 => ⟨S_, .f32⟩
  | 45 => ⟨S32x2048x256, .f32⟩
  | 46 => ⟨S32x2048x256, .f32⟩
  | 47 => ⟨S_, .f32⟩
  | 48 => ⟨S32x2048x256, .f32⟩
  | 49 => ⟨S32x2048x256, .f32⟩
  | 50 => ⟨S32x2048x2x128, .f32⟩
  | 51 => ⟨S32x2048x2x128, .f32⟩
  | 52 => ⟨S32x2048x2x128, .f32⟩
  | 53 => ⟨S_, .f32⟩
  | 54 => ⟨S32x2048x128, .f32⟩
  | 55 => ⟨S32x2048x384, .f32⟩
  | 56 => ⟨S32x2048x384, .f32⟩
  | 57 => ⟨S32x2048x384, .f32⟩
  | 58 => ⟨S1x1x384, .f32⟩
  | 59 => ⟨S32x2048x384, .f32⟩
  | 60 => ⟨S32x2048x384, .f32⟩
  | 61 => ⟨S32x2048x128, .f32⟩
  | 62 => ⟨S32x2048x128, .f32⟩
  | 63 => ⟨S32x2048x128, .f32⟩
  | 64 => ⟨S32x2048x128, .f32⟩
  | 65 => ⟨S32x2048x128, .f32⟩
  | 66 => ⟨S_, .f32⟩
  | 67 => ⟨S32x2048x128, .f32⟩
  | 68 => ⟨S32x2048x128, .f32⟩
  | 69 => ⟨S_, .f32⟩
  | 70 => ⟨S32x2048x128, .f32⟩
  | 71 => ⟨S32x2048x128, .f32⟩
  | 72 => ⟨S32x2048x128, .f32⟩
  | 73 => ⟨S32x2048x128, .f32⟩
  | 74 => ⟨S32x2048x128, .f32⟩
  | 75 => ⟨S32x2048x128, .f32⟩
  | 76 => ⟨S32x2048x128, .f32⟩
  | 77 => ⟨S_, .f32⟩
  | 78 => ⟨S32x2048x128, .f32⟩
  | 79 => ⟨S32x2048x128, .f32⟩
  | 80 => ⟨S_, .f32⟩
  | 81 => ⟨S32x2048x128, .f32⟩
  | 82 => ⟨S32x2048x128, .f32⟩
  | 83 => ⟨S32x2048x128, .f32⟩
  | 84 => ⟨S32x2048x128, .f32⟩
  | 85 => ⟨S32x1024x256, .f32⟩
  | 86 => ⟨S32x1024x256, .f32⟩
  | 87 => ⟨S1x1x256, .f32⟩
  | 88 => ⟨S32x1024x256, .f32⟩
  | 89 => ⟨S32x1024x256, .f32⟩
  | 90 => ⟨S32x1024x256, .f32⟩
  | 91 => ⟨S32x1024x256, .f32⟩
  | 92 => ⟨S_, .f32⟩
  | 93 => ⟨S32x1024x256, .f32⟩
  | 94 => ⟨S32x1024x256, .f32⟩
  | 95 => ⟨S_, .f32⟩
  | 96 => ⟨S32x1024x256, .f32⟩
  | 97 => ⟨S32x1024x256, .f32⟩
  | 98 => ⟨S32x1024x2x128, .f32⟩
  | 99 => ⟨S32x1024x2x128, .f32⟩
  | 100 => ⟨S32x1024x2x128, .f32⟩
  | 101 => ⟨S_, .f32⟩
  | 102 => ⟨S32x1024x128, .f32⟩
  | 103 => ⟨S32x1024x384, .f32⟩
  | 104 => ⟨S32x1024x384, .f32⟩
  | 105 => ⟨S32x1024x384, .f32⟩
  | 106 => ⟨S1x1x384, .f32⟩
  | 107 => ⟨S32x1024x384, .f32⟩
  | 108 => ⟨S32x1024x384, .f32⟩
  | 109 => ⟨S32x1024x128, .f32⟩
  | 110 => ⟨S32x1024x128, .f32⟩
  | 111 => ⟨S32x1024x128, .f32⟩
  | 112 => ⟨S32x1024x128, .f32⟩
  | 113 => ⟨S32x1024x128, .f32⟩
  | 114 => ⟨S_, .f32⟩
  | 115 => ⟨S32x1024x128, .f32⟩
  | 116 => ⟨S32x1024x128, .f32⟩
  | 117 => ⟨S_, .f32⟩
  | 118 => ⟨S32x1024x128, .f32⟩
  | 119 => ⟨S32x1024x128, .f32⟩
  | 120 => ⟨S32x1024x128, .f32⟩
  | 121 => ⟨S32x1024x128, .f32⟩
  | 122 => ⟨S32x1024x128, .f32⟩
  | 123 => ⟨S32x1024x128, .f32⟩
  | 124 => ⟨S32x1024x128, .f32⟩
  | 125 => ⟨S_, .f32⟩
  | 126 => ⟨S32x1024x128, .f32⟩
  | 127 => ⟨S32x1024x128, .f32⟩
  | _ => ⟨S32x8191x128, .f32⟩

abbrev hbmTy0_1 (i : Nat) : BufTy := match i % 128 with
  | 0 => ⟨S_, .f32⟩
  | 1 => ⟨S32x1024x128, .f32⟩
  | 2 => ⟨S32x1024x128, .f32⟩
  | 3 => ⟨S32x1024x128, .f32⟩
  | 4 => ⟨S32x1024x128, .f32⟩
  | 5 => ⟨S32x512x256, .f32⟩
  | 6 => ⟨S32x512x256, .f32⟩
  | 7 => ⟨S1x1x256, .f32⟩
  | 8 => ⟨S32x512x256, .f32⟩
  | 9 => ⟨S32x512x256, .f32⟩
  | 10 => ⟨S32x512x256, .f32⟩
  | 11 => ⟨S32x512x256, .f32⟩
  | 12 => ⟨S_, .f32⟩
  | 13 => ⟨S32x512x256, .f32⟩
  | 14 => ⟨S32x512x256, .f32⟩
  | 15 => ⟨S_, .f32⟩
  | 16 => ⟨S32x512x256, .f32⟩
  | 17 => ⟨S32x512x256, .f32⟩
  | 18 => ⟨S32x512x2x128, .f32⟩
  | 19 => ⟨S32x512x2x128, .f32⟩
  | 20 => ⟨S32x512x2x128, .f32⟩
  | 21 => ⟨S_, .f32⟩
  | 22 => ⟨S32x512x128, .f32⟩
  | 23 => ⟨S32x512x384, .f32⟩
  | 24 => ⟨S32x512x384, .f32⟩
  | 25 => ⟨S32x512x384, .f32⟩
  | 26 => ⟨S1x1x384, .f32⟩
  | 27 => ⟨S32x512x384, .f32⟩
  | 28 => ⟨S32x512x384, .f32⟩
  | 29 => ⟨S32x512x128, .f32⟩
  | 30 => ⟨S32x512x128, .f32⟩
  | 31 => ⟨S32x512x128, .f32⟩
  | 32 => ⟨S32x512x128, .f32⟩
  | 33 => ⟨S32x512x128, .f32⟩
  | 34 => ⟨S_, .f32⟩
  | 35 => ⟨S32x512x128, .f32⟩
  | 36 => ⟨S32x512x128, .f32⟩
  | 37 => ⟨S_, .f32⟩
  | 38 => ⟨S32x512x128, .f32⟩
  | 39 => ⟨S32x512x128, .f32⟩
  | 40 => ⟨S32x512x128, .f32⟩
  | 41 => ⟨S32x512x128, .f32⟩
  | 42 => ⟨S32x512x128, .f32⟩
  | 43 => ⟨S32x512x128, .f32⟩
  | 44 => ⟨S32x512x128, .f32⟩
  | 45 => ⟨S_, .f32⟩
  | 46 => ⟨S32x512x128, .f32⟩
  | 47 => ⟨S32x512x128, .f32⟩
  | 48 => ⟨S_, .f32⟩
  | 49 => ⟨S32x512x128, .f32⟩
  | 50 => ⟨S32x512x128, .f32⟩
  | 51 => ⟨S32x512x128, .f32⟩
  | 52 => ⟨S32x512x128, .f32⟩
  | 53 => ⟨S32x256x256, .f32⟩
  | 54 => ⟨S32x256x256, .f32⟩
  | 55 => ⟨S1x1x256, .f32⟩
  | 56 => ⟨S32x256x256, .f32⟩
  | 57 => ⟨S32x256x256, .f32⟩
  | 58 => ⟨S32x256x256, .f32⟩
  | 59 => ⟨S32x256x256, .f32⟩
  | 60 => ⟨S_, .f32⟩
  | 61 => ⟨S32x256x256, .f32⟩
  | 62 => ⟨S32x256x256, .f32⟩
  | 63 => ⟨S_, .f32⟩
  | 64 => ⟨S32x256x256, .f32⟩
  | 65 => ⟨S32x256x256, .f32⟩
  | 66 => ⟨S32x256x2x128, .f32⟩
  | 67 => ⟨S32x256x2x128, .f32⟩
  | 68 => ⟨S32x256x2x128, .f32⟩
  | 69 => ⟨S_, .f32⟩
  | 70 => ⟨S32x256x128, .f32⟩
  | 71 => ⟨S32x256x384, .f32⟩
  | 72 => ⟨S32x256x384, .f32⟩
  | 73 => ⟨S32x256x384, .f32⟩
  | 74 => ⟨S1x1x384, .f32⟩
  | 75 => ⟨S32x256x384, .f32⟩
  | 76 => ⟨S32x256x384, .f32⟩
  | 77 => ⟨S32x256x128, .f32⟩
  | 78 => ⟨S32x256x128, .f32⟩
  | 79 => ⟨S32x256x128, .f32⟩
  | 80 => ⟨S32x256x128, .f32⟩
  | 81 => ⟨S32x256x128, .f32⟩
  | 82 => ⟨S_, .f32⟩
  | 83 => ⟨S32x256x128, .f32⟩
  | 84 => ⟨S32x256x128, .f32⟩
  | 85 => ⟨S_, .f32⟩
  | 86 => ⟨S32x256x128, .f32⟩
  | 87 => ⟨S32x256x128, .f32⟩
  | 88 => ⟨S32x256x128, .f32⟩
  | 89 => ⟨S32x256x128, .f32⟩
  | 90 => ⟨S32x256x128, .f32⟩
  | 91 => ⟨S32x256x128, .f32⟩
  | 92 => ⟨S32x256x128, .f32⟩
  | 93 => ⟨S_, .f32⟩
  | 94 => ⟨S32x256x128, .f32⟩
  | 95 => ⟨S32x256x128, .f32⟩
  | 96 => ⟨S_, .f32⟩
  | 97 => ⟨S32x256x128, .f32⟩
  | 98 => ⟨S32x256x128, .f32⟩
  | 99 => ⟨S32x256x128, .f32⟩
  | 100 => ⟨S32x256x128, .f32⟩
  | 101 => ⟨S32x128x256, .f32⟩
  | 102 => ⟨S32x128x256, .f32⟩
  | 103 => ⟨S1x1x256, .f32⟩
  | 104 => ⟨S32x128x256, .f32⟩
  | 105 => ⟨S32x128x256, .f32⟩
  | 106 => ⟨S32x128x256, .f32⟩
  | 107 => ⟨S32x128x256, .f32⟩
  | 108 => ⟨S_, .f32⟩
  | 109 => ⟨S32x128x256, .f32⟩
  | 110 => ⟨S32x128x256, .f32⟩
  | 111 => ⟨S_, .f32⟩
  | 112 => ⟨S32x128x256, .f32⟩
  | 113 => ⟨S32x128x256, .f32⟩
  | 114 => ⟨S32x128x2x128, .f32⟩
  | 115 => ⟨S32x128x2x128, .f32⟩
  | 116 => ⟨S32x128x2x128, .f32⟩
  | 117 => ⟨S_, .f32⟩
  | 118 => ⟨S32x128x128, .f32⟩
  | 119 => ⟨S32x128x384, .f32⟩
  | 120 => ⟨S32x128x384, .f32⟩
  | 121 => ⟨S32x128x384, .f32⟩
  | 122 => ⟨S1x1x384, .f32⟩
  | 123 => ⟨S32x128x384, .f32⟩
  | 124 => ⟨S32x128x384, .f32⟩
  | 125 => ⟨S32x128x128, .f32⟩
  | 126 => ⟨S32x128x128, .f32⟩
  | 127 => ⟨S32x128x128, .f32⟩
  | _ => ⟨S32x8191x128, .f32⟩

abbrev hbmTy0_2 (i : Nat) : BufTy := match i % 128 with
  | 0 => ⟨S32x128x128, .f32⟩
  | 1 => ⟨S32x128x128, .f32⟩
  | 2 => ⟨S_, .f32⟩
  | 3 => ⟨S32x128x128, .f32⟩
  | 4 => ⟨S32x128x128, .f32⟩
  | 5 => ⟨S_, .f32⟩
  | 6 => ⟨S32x128x128, .f32⟩
  | 7 => ⟨S32x128x128, .f32⟩
  | 8 => ⟨S32x128x128, .f32⟩
  | 9 => ⟨S32x128x128, .f32⟩
  | 10 => ⟨S32x128x128, .f32⟩
  | 11 => ⟨S32x128x128, .f32⟩
  | 12 => ⟨S32x128x128, .f32⟩
  | 13 => ⟨S_, .f32⟩
  | 14 => ⟨S32x128x128, .f32⟩
  | 15 => ⟨S32x128x128, .f32⟩
  | 16 => ⟨S_, .f32⟩
  | 17 => ⟨S32x128x128, .f32⟩
  | 18 => ⟨S32x128x128, .f32⟩
  | 19 => ⟨S32x128x128, .f32⟩
  | 20 => ⟨S32x128x128, .f32⟩
  | 21 => ⟨S32x64x256, .f32⟩
  | 22 => ⟨S32x64x256, .f32⟩
  | 23 => ⟨S1x1x256, .f32⟩
  | 24 => ⟨S32x64x256, .f32⟩
  | 25 => ⟨S32x64x256, .f32⟩
  | 26 => ⟨S32x64x256, .f32⟩
  | 27 => ⟨S32x64x256, .f32⟩
  | 28 => ⟨S_, .f32⟩
  | 29 => ⟨S32x64x256, .f32⟩
  | 30 => ⟨S32x64x256, .f32⟩
  | 31 => ⟨S_, .f32⟩
  | 32 => ⟨S32x64x256, .f32⟩
  | 33 => ⟨S32x64x256, .f32⟩
  | 34 => ⟨S32x64x2x128, .f32⟩
  | 35 => ⟨S32x64x2x128, .f32⟩
  | 36 => ⟨S32x64x2x128, .f32⟩
  | 37 => ⟨S_, .f32⟩
  | 38 => ⟨S32x64x128, .f32⟩
  | 39 => ⟨S32x64x384, .f32⟩
  | 40 => ⟨S32x64x384, .f32⟩
  | 41 => ⟨S32x64x384, .f32⟩
  | 42 => ⟨S1x1x384, .f32⟩
  | 43 => ⟨S32x64x384, .f32⟩
  | 44 => ⟨S32x64x384, .f32⟩
  | 45 => ⟨S32x64x128, .f32⟩
  | 46 => ⟨S32x64x128, .f32⟩
  | 47 => ⟨S32x64x128, .f32⟩
  | 48 => ⟨S32x64x128, .f32⟩
  | 49 => ⟨S32x64x128, .f32⟩
  | 50 => ⟨S_, .f32⟩
  | 51 => ⟨S32x64x128, .f32⟩
  | 52 => ⟨S32x64x128, .f32⟩
  | 53 => ⟨S_, .f32⟩
  | 54 => ⟨S32x64x128, .f32⟩
  | 55 => ⟨S32x64x128, .f32⟩
  | 56 => ⟨S32x64x128, .f32⟩
  | 57 => ⟨S32x64x128, .f32⟩
  | 58 => ⟨S32x64x128, .f32⟩
  | 59 => ⟨S32x64x128, .f32⟩
  | 60 => ⟨S32x64x128, .f32⟩
  | 61 => ⟨S_, .f32⟩
  | 62 => ⟨S32x64x128, .f32⟩
  | 63 => ⟨S32x64x128, .f32⟩
  | 64 => ⟨S_, .f32⟩
  | 65 => ⟨S32x64x128, .f32⟩
  | 66 => ⟨S32x64x128, .f32⟩
  | 67 => ⟨S32x64x128, .f32⟩
  | 68 => ⟨S32x64x128, .f32⟩
  | 69 => ⟨S32x32x256, .f32⟩
  | 70 => ⟨S32x32x256, .f32⟩
  | 71 => ⟨S1x1x256, .f32⟩
  | 72 => ⟨S32x32x256, .f32⟩
  | 73 => ⟨S32x32x256, .f32⟩
  | 74 => ⟨S32x32x256, .f32⟩
  | 75 => ⟨S32x32x256, .f32⟩
  | 76 => ⟨S_, .f32⟩
  | 77 => ⟨S32x32x256, .f32⟩
  | 78 => ⟨S32x32x256, .f32⟩
  | 79 => ⟨S_, .f32⟩
  | 80 => ⟨S32x32x256, .f32⟩
  | 81 => ⟨S32x32x256, .f32⟩
  | 82 => ⟨S32x32x2x128, .f32⟩
  | 83 => ⟨S32x32x2x128, .f32⟩
  | 84 => ⟨S32x32x2x128, .f32⟩
  | 85 => ⟨S_, .f32⟩
  | 86 => ⟨S32x32x128, .f32⟩
  | 87 => ⟨S32x32x384, .f32⟩
  | 88 => ⟨S32x32x384, .f32⟩
  | 89 => ⟨S32x32x384, .f32⟩
  | 90 => ⟨S1x1x384, .f32⟩
  | 91 => ⟨S32x32x384, .f32⟩
  | 92 => ⟨S32x32x384, .f32⟩
  | 93 => ⟨S32x32x128, .f32⟩
  | 94 => ⟨S32x32x128, .f32⟩
  | 95 => ⟨S32x32x128, .f32⟩
  | 96 => ⟨S32x32x128, .f32⟩
  | 97 => ⟨S32x32x128, .f32⟩
  | 98 => ⟨S_, .f32⟩
  | 99 => ⟨S32x32x128, .f32⟩
  | 100 => ⟨S32x32x128, .f32⟩
  | 101 => ⟨S_, .f32⟩
  | 102 => ⟨S32x32x128, .f32⟩
  | 103 => ⟨S32x32x128, .f32⟩
  | 104 => ⟨S32x32x128, .f32⟩
  | 105 => ⟨S32x32x128, .f32⟩
  | 106 => ⟨S32x32x128, .f32⟩
  | 107 => ⟨S32x32x128, .f32⟩
  | 108 => ⟨S32x32x128, .f32⟩
  | 109 => ⟨S_, .f32⟩
  | 110 => ⟨S32x32x128, .f32⟩
  | 111 => ⟨S32x32x128, .f32⟩
  | 112 => ⟨S_, .f32⟩
  | 113 => ⟨S32x32x128, .f32⟩
  | 114 => ⟨S32x32x128, .f32⟩
  | 115 => ⟨S32x32x128, .f32⟩
  | 116 => ⟨S32x32x128, .f32⟩
  | 117 => ⟨S32x16x256, .f32⟩
  | 118 => ⟨S32x16x256, .f32⟩
  | 119 => ⟨S1x1x256, .f32⟩
  | 120 => ⟨S32x16x256, .f32⟩
  | 121 => ⟨S32x16x256, .f32⟩
  | 122 => ⟨S32x16x256, .f32⟩
  | 123 => ⟨S32x16x256, .f32⟩
  | 124 => ⟨S_, .f32⟩
  | 125 => ⟨S32x16x256, .f32⟩
  | 126 => ⟨S32x16x256, .f32⟩
  | 127 => ⟨S_, .f32⟩
  | _ => ⟨S32x8191x128, .f32⟩

abbrev hbmTy0_3 (i : Nat) : BufTy := match i % 128 with
  | 0 => ⟨S32x16x256, .f32⟩
  | 1 => ⟨S32x16x256, .f32⟩
  | 2 => ⟨S32x16x2x128, .f32⟩
  | 3 => ⟨S32x16x2x128, .f32⟩
  | 4 => ⟨S32x16x2x128, .f32⟩
  | 5 => ⟨S_, .f32⟩
  | 6 => ⟨S32x16x128, .f32⟩
  | 7 => ⟨S32x16x384, .f32⟩
  | 8 => ⟨S32x16x384, .f32⟩
  | 9 => ⟨S32x16x384, .f32⟩
  | 10 => ⟨S1x1x384, .f32⟩
  | 11 => ⟨S32x16x384, .f32⟩
  | 12 => ⟨S32x16x384, .f32⟩
  | 13 => ⟨S32x16x128, .f32⟩
  | 14 => ⟨S32x16x128, .f32⟩
  | 15 => ⟨S32x16x128, .f32⟩
  | 16 => ⟨S32x16x128, .f32⟩
  | 17 => ⟨S32x16x128, .f32⟩
  | 18 => ⟨S_, .f32⟩
  | 19 => ⟨S32x16x128, .f32⟩
  | 20 => ⟨S32x16x128, .f32⟩
  | 21 => ⟨S_, .f32⟩
  | 22 => ⟨S32x16x128, .f32⟩
  | 23 => ⟨S32x16x128, .f32⟩
  | 24 => ⟨S32x16x128, .f32⟩
  | 25 => ⟨S32x16x128, .f32⟩
  | 26 => ⟨S32x16x128, .f32⟩
  | 27 => ⟨S32x16x128, .f32⟩
  | 28 => ⟨S32x16x128, .f32⟩
  | 29 => ⟨S_, .f32⟩
  | 30 => ⟨S32x16x128, .f32⟩
  | 31 => ⟨S32x16x128, .f32⟩
  | 32 => ⟨S_, .f32⟩
  | 33 => ⟨S32x16x128, .f32⟩
  | 34 => ⟨S32x16x128, .f32⟩
  | 35 => ⟨S32x16x128, .f32⟩
  | 36 => ⟨S32x16x128, .f32⟩
  | 37 => ⟨S32x8x256, .f32⟩
  | 38 => ⟨S32x8x256, .f32⟩
  | 39 => ⟨S1x1x256, .f32⟩
  | 40 => ⟨S32x8x256, .f32⟩
  | 41 => ⟨S32x8x256, .f32⟩
  | 42 => ⟨S32x8x256, .f32⟩
  | 43 => ⟨S32x8x256, .f32⟩
  | 44 => ⟨S_, .f32⟩
  | 45 => ⟨S32x8x256, .f32⟩
  | 46 => ⟨S32x8x256, .f32⟩
  | 47 => ⟨S_, .f32⟩
  | 48 => ⟨S32x8x256, .f32⟩
  | 49 => ⟨S32x8x256, .f32⟩
  | 50 => ⟨S32x8x2x128, .f32⟩
  | 51 => ⟨S32x8x2x128, .f32⟩
  | 52 => ⟨S32x8x2x128, .f32⟩
  | 53 => ⟨S_, .f32⟩
  | 54 => ⟨S32x8x128, .f32⟩
  | 55 => ⟨S32x8x384, .f32⟩
  | 56 => ⟨S32x8x384, .f32⟩
  | 57 => ⟨S32x8x384, .f32⟩
  | 58 => ⟨S1x1x384, .f32⟩
  | 59 => ⟨S32x8x384, .f32⟩
  | 60 => ⟨S32x8x384, .f32⟩
  | 61 => ⟨S32x8x128, .f32⟩
  | 62 => ⟨S32x8x128, .f32⟩
  | 63 => ⟨S32x8x128, .f32⟩
  | 64 => ⟨S32x8x128, .f32⟩
  | 65 => ⟨S32x8x128, .f32⟩
  | 66 => ⟨S_, .f32⟩
  | 67 => ⟨S32x8x128, .f32⟩
  | 68 => ⟨S32x8x128, .f32⟩
  | 69 => ⟨S_, .f32⟩
  | 70 => ⟨S32x8x128, .f32⟩
  | 71 => ⟨S32x8x128, .f32⟩
  | 72 => ⟨S32x8x128, .f32⟩
  | 73 => ⟨S32x8x128, .f32⟩
  | 74 => ⟨S32x8x128, .f32⟩
  | 75 => ⟨S32x8x128, .f32⟩
  | 76 => ⟨S32x8x128, .f32⟩
  | 77 => ⟨S_, .f32⟩
  | 78 => ⟨S32x8x128, .f32⟩
  | 79 => ⟨S32x8x128, .f32⟩
  | 80 => ⟨S_, .f32⟩
  | 81 => ⟨S32x8x128, .f32⟩
  | 82 => ⟨S32x8x128, .f32⟩
  | 83 => ⟨S32x8x128, .f32⟩
  | 84 => ⟨S32x8x128, .f32⟩
  | 85 => ⟨S32x4x256, .f32⟩
  | 86 => ⟨S32x4x256, .f32⟩
  | 87 => ⟨S1x1x256, .f32⟩
  | 88 => ⟨S32x4x256, .f32⟩
  | 89 => ⟨S32x4x256, .f32⟩
  | 90 => ⟨S32x4x256, .f32⟩
  | 91 => ⟨S32x4x256, .f32⟩
  | 92 => ⟨S_, .f32⟩
  | 93 => ⟨S32x4x256, .f32⟩
  | 94 => ⟨S32x4x256, .f32⟩
  | 95 => ⟨S_, .f32⟩
  | 96 => ⟨S32x4x256, .f32⟩
  | 97 => ⟨S32x4x256, .f32⟩
  | 98 => ⟨S32x4x2x128, .f32⟩
  | 99 => ⟨S32x4x2x128, .f32⟩
  | 100 => ⟨S32x4x2x128, .f32⟩
  | 101 => ⟨S_, .f32⟩
  | 102 => ⟨S32x4x128, .f32⟩
  | 103 => ⟨S32x4x384, .f32⟩
  | 104 => ⟨S32x4x384, .f32⟩
  | 105 => ⟨S32x4x384, .f32⟩
  | 106 => ⟨S1x1x384, .f32⟩
  | 107 => ⟨S32x4x384, .f32⟩
  | 108 => ⟨S32x4x384, .f32⟩
  | 109 => ⟨S32x4x128, .f32⟩
  | 110 => ⟨S32x4x128, .f32⟩
  | 111 => ⟨S32x4x128, .f32⟩
  | 112 => ⟨S32x4x128, .f32⟩
  | 113 => ⟨S32x4x128, .f32⟩
  | 114 => ⟨S_, .f32⟩
  | 115 => ⟨S32x4x128, .f32⟩
  | 116 => ⟨S32x4x128, .f32⟩
  | 117 => ⟨S_, .f32⟩
  | 118 => ⟨S32x4x128, .f32⟩
  | 119 => ⟨S32x4x128, .f32⟩
  | 120 => ⟨S32x4x128, .f32⟩
  | 121 => ⟨S32x4x128, .f32⟩
  | 122 => ⟨S32x4x128, .f32⟩
  | 123 => ⟨S32x4x128, .f32⟩
  | 124 => ⟨S32x4x128, .f32⟩
  | 125 => ⟨S_, .f32⟩
  | 126 => ⟨S32x4x128, .f32⟩
  | 127 => ⟨S32x4x128, .f32⟩
  | _ => ⟨S32x8191x128, .f32⟩

abbrev hbmTy0_4 (i : Nat) : BufTy := match i % 128 with
  | 0 => ⟨S_, .f32⟩
  | 1 => ⟨S32x4x128, .f32⟩
  | 2 => ⟨S32x4x128, .f32⟩
  | 3 => ⟨S32x4x128, .f32⟩
  | 4 => ⟨S32x4x128, .f32⟩
  | 5 => ⟨S32x2x256, .f32⟩
  | 6 => ⟨S32x2x256, .f32⟩
  | 7 => ⟨S1x1x256, .f32⟩
  | 8 => ⟨S32x2x256, .f32⟩
  | 9 => ⟨S32x2x256, .f32⟩
  | 10 => ⟨S32x2x256, .f32⟩
  | 11 => ⟨S32x2x256, .f32⟩
  | 12 => ⟨S_, .f32⟩
  | 13 => ⟨S32x2x256, .f32⟩
  | 14 => ⟨S32x2x256, .f32⟩
  | 15 => ⟨S_, .f32⟩
  | 16 => ⟨S32x2x256, .f32⟩
  | 17 => ⟨S32x2x256, .f32⟩
  | 18 => ⟨S32x2x2x128, .f32⟩
  | 19 => ⟨S32x2x2x128, .f32⟩
  | 20 => ⟨S32x2x2x128, .f32⟩
  | 21 => ⟨S_, .f32⟩
  | 22 => ⟨S32x2x128, .f32⟩
  | 23 => ⟨S32x2x384, .f32⟩
  | 24 => ⟨S32x2x384, .f32⟩
  | 25 => ⟨S32x2x384, .f32⟩
  | 26 => ⟨S1x1x384, .f32⟩
  | 27 => ⟨S32x2x384, .f32⟩
  | 28 => ⟨S32x2x384, .f32⟩
  | 29 => ⟨S32x2x128, .f32⟩
  | 30 => ⟨S32x2x128, .f32⟩
  | 31 => ⟨S32x2x128, .f32⟩
  | 32 => ⟨S32x2x128, .f32⟩
  | 33 => ⟨S32x2x128, .f32⟩
  | 34 => ⟨S_, .f32⟩
  | 35 => ⟨S32x2x128, .f32⟩
  | 36 => ⟨S32x2x128, .f32⟩
  | 37 => ⟨S_, .f32⟩
  | 38 => ⟨S32x2x128, .f32⟩
  | 39 => ⟨S32x2x128, .f32⟩
  | 40 => ⟨S32x2x128, .f32⟩
  | 41 => ⟨S32x2x128, .f32⟩
  | 42 => ⟨S32x2x128, .f32⟩
  | 43 => ⟨S32x2x128, .f32⟩
  | 44 => ⟨S32x2x128, .f32⟩
  | 45 => ⟨S_, .f32⟩
  | 46 => ⟨S32x2x128, .f32⟩
  | 47 => ⟨S32x2x128, .f32⟩
  | 48 => ⟨S_, .f32⟩
  | 49 => ⟨S32x2x128, .f32⟩
  | 50 => ⟨S32x2x128, .f32⟩
  | 51 => ⟨S32x2x128, .f32⟩
  | 52 => ⟨S32x2x128, .f32⟩
  | 53 => ⟨S32x1x256, .f32⟩
  | 54 => ⟨S32x1x256, .f32⟩
  | 55 => ⟨S1x1x256, .f32⟩
  | 56 => ⟨S32x1x256, .f32⟩
  | 57 => ⟨S32x1x256, .f32⟩
  | 58 => ⟨S32x1x256, .f32⟩
  | 59 => ⟨S32x1x256, .f32⟩
  | 60 => ⟨S_, .f32⟩
  | 61 => ⟨S32x1x256, .f32⟩
  | 62 => ⟨S32x1x256, .f32⟩
  | 63 => ⟨S_, .f32⟩
  | 64 => ⟨S32x1x256, .f32⟩
  | 65 => ⟨S32x1x256, .f32⟩
  | 66 => ⟨S32x1x2x128, .f32⟩
  | 67 => ⟨S32x1x2x128, .f32⟩
  | 68 => ⟨S32x1x2x128, .f32⟩
  | 69 => ⟨S_, .f32⟩
  | 70 => ⟨S32x1x128, .f32⟩
  | 71 => ⟨S32x1x384, .f32⟩
  | 72 => ⟨S32x1x384, .f32⟩
  | 73 => ⟨S32x1x384, .f32⟩
  | 74 => ⟨S1x1x384, .f32⟩
  | 75 => ⟨S32x1x384, .f32⟩
  | 76 => ⟨S32x1x384, .f32⟩
  | 77 => ⟨S32x1x128, .f32⟩
  | 78 => ⟨S32x1x128, .f32⟩
  | 79 => ⟨S32x1x128, .f32⟩
  | 80 => ⟨S32x1x128, .f32⟩
  | 81 => ⟨S32x1x128, .f32⟩
  | 82 => ⟨S_, .f32⟩
  | 83 => ⟨S32x1x128, .f32⟩
  | 84 => ⟨S32x1x128, .f32⟩
  | 85 => ⟨S_, .f32⟩
  | 86 => ⟨S32x1x128, .f32⟩
  | 87 => ⟨S32x1x128, .f32⟩
  | 88 => ⟨S32x1x128, .f32⟩
  | 89 => ⟨S32x1x128, .f32⟩
  | 90 => ⟨S32x1x128, .f32⟩
  | 91 => ⟨S32x1x128, .f32⟩
  | 92 => ⟨S32x1x128, .f32⟩
  | 93 => ⟨S_, .f32⟩
  | 94 => ⟨S32x1x128, .f32⟩
  | 95 => ⟨S32x1x128, .f32⟩
  | 96 => ⟨S_, .f32⟩
  | 97 => ⟨S32x1x128, .f32⟩
  | 98 => ⟨S32x1x128, .f32⟩
  | 99 => ⟨S32x1x128, .f32⟩
  | 100 => ⟨S32x1x128, .f32⟩
  | 101 => ⟨S32x8191x128, .f32⟩
  | 102 => ⟨S1x32x8191x128, .f32⟩
  | 103 => ⟨S1x32x8191x128, .f32⟩
  | 104 => ⟨S2x32x8191x128, .f32⟩
  | _ => ⟨S32x8191x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S32x8191x128, .f32⟩

abbrev bufTy : (tb : Table) → Fin (tcTables nBuf tb) → BufTy
  | .hbm, ⟨i, _⟩ => hbmTy i
  | _, _ => ⟨S32x8191x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩
abbrev main_cst_5 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_6 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_7 : Ref sig .tc := ⟨.hbm, 66, rfl⟩
abbrev main_v52 : Ref sig .tc := ⟨.hbm, 67, rfl⟩
abbrev main_v53 : Ref sig .tc := ⟨.hbm, 68, rfl⟩
abbrev main_cst_8 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_9 : Ref sig .tc := ⟨.hbm, 77, rfl⟩
abbrev main_v61 : Ref sig .tc := ⟨.hbm, 78, rfl⟩
abbrev main_v62 : Ref sig .tc := ⟨.hbm, 79, rfl⟩
abbrev main_cst_10 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_cst_11 : Ref sig .tc := ⟨.hbm, 92, rfl⟩
abbrev main_v74 : Ref sig .tc := ⟨.hbm, 93, rfl⟩
abbrev main_v75 : Ref sig .tc := ⟨.hbm, 94, rfl⟩
abbrev main_cst_12 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_cst_13 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_cst_14 : Ref sig .tc := ⟨.hbm, 114, rfl⟩
abbrev main_v93 : Ref sig .tc := ⟨.hbm, 115, rfl⟩
abbrev main_v94 : Ref sig .tc := ⟨.hbm, 116, rfl⟩
abbrev main_cst_15 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_cst_16 : Ref sig .tc := ⟨.hbm, 125, rfl⟩
abbrev main_v102 : Ref sig .tc := ⟨.hbm, 126, rfl⟩
abbrev main_v103 : Ref sig .tc := ⟨.hbm, 127, rfl⟩
abbrev main_cst_17 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_cst_18 : Ref sig .tc := ⟨.hbm, 140, rfl⟩
abbrev main_v115 : Ref sig .tc := ⟨.hbm, 141, rfl⟩
abbrev main_v116 : Ref sig .tc := ⟨.hbm, 142, rfl⟩
abbrev main_cst_19 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_cst_20 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_cst_21 : Ref sig .tc := ⟨.hbm, 162, rfl⟩
abbrev main_v134 : Ref sig .tc := ⟨.hbm, 163, rfl⟩
abbrev main_v135 : Ref sig .tc := ⟨.hbm, 164, rfl⟩
abbrev main_cst_22 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_cst_23 : Ref sig .tc := ⟨.hbm, 173, rfl⟩
abbrev main_v143 : Ref sig .tc := ⟨.hbm, 174, rfl⟩
abbrev main_v144 : Ref sig .tc := ⟨.hbm, 175, rfl⟩
abbrev main_cst_24 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_v152 : Ref sig .tc := ⟨.hbm, 184, rfl⟩
abbrev main_v153 : Ref sig .tc := ⟨.hbm, 185, rfl⟩
abbrev main_v154 : Ref sig .tc := ⟨.hbm, 186, rfl⟩
abbrev main_v155 : Ref sig .tc := ⟨.hbm, 187, rfl⟩
abbrev main_cst_25 : Ref sig .tc := ⟨.hbm, 188, rfl⟩
abbrev main_v156 : Ref sig .tc := ⟨.hbm, 189, rfl⟩
abbrev main_v157 : Ref sig .tc := ⟨.hbm, 190, rfl⟩
abbrev main_cst_26 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_v162 : Ref sig .tc := ⟨.hbm, 196, rfl⟩
abbrev main_cst_27 : Ref sig .tc := ⟨.hbm, 197, rfl⟩
abbrev main_v163 : Ref sig .tc := ⟨.hbm, 198, rfl⟩
abbrev main_v164 : Ref sig .tc := ⟨.hbm, 199, rfl⟩
abbrev main_v165 : Ref sig .tc := ⟨.hbm, 200, rfl⟩
abbrev main_v166 : Ref sig .tc := ⟨.hbm, 201, rfl⟩
abbrev main_v167 : Ref sig .tc := ⟨.hbm, 202, rfl⟩
abbrev main_v168 : Ref sig .tc := ⟨.hbm, 203, rfl⟩
abbrev main_v169 : Ref sig .tc := ⟨.hbm, 204, rfl⟩
abbrev main_v170 : Ref sig .tc := ⟨.hbm, 205, rfl⟩
abbrev main_v171 : Ref sig .tc := ⟨.hbm, 206, rfl⟩
abbrev main_v172 : Ref sig .tc := ⟨.hbm, 207, rfl⟩
abbrev main_v173 : Ref sig .tc := ⟨.hbm, 208, rfl⟩
abbrev main_v174 : Ref sig .tc := ⟨.hbm, 209, rfl⟩
abbrev main_cst_28 : Ref sig .tc := ⟨.hbm, 210, rfl⟩
abbrev main_v175 : Ref sig .tc := ⟨.hbm, 211, rfl⟩
abbrev main_v176 : Ref sig .tc := ⟨.hbm, 212, rfl⟩
abbrev main_cst_29 : Ref sig .tc := ⟨.hbm, 213, rfl⟩
abbrev main_v177 : Ref sig .tc := ⟨.hbm, 214, rfl⟩
abbrev main_v178 : Ref sig .tc := ⟨.hbm, 215, rfl⟩
abbrev main_v179 : Ref sig .tc := ⟨.hbm, 216, rfl⟩
abbrev main_v180 : Ref sig .tc := ⟨.hbm, 217, rfl⟩
abbrev main_v181 : Ref sig .tc := ⟨.hbm, 218, rfl⟩
abbrev main_v182 : Ref sig .tc := ⟨.hbm, 219, rfl⟩
abbrev main_v183 : Ref sig .tc := ⟨.hbm, 220, rfl⟩
abbrev main_cst_30 : Ref sig .tc := ⟨.hbm, 221, rfl⟩
abbrev main_v184 : Ref sig .tc := ⟨.hbm, 222, rfl⟩
abbrev main_v185 : Ref sig .tc := ⟨.hbm, 223, rfl⟩
abbrev main_cst_31 : Ref sig .tc := ⟨.hbm, 224, rfl⟩
abbrev main_v186 : Ref sig .tc := ⟨.hbm, 225, rfl⟩
abbrev main_v187 : Ref sig .tc := ⟨.hbm, 226, rfl⟩
abbrev main_v188 : Ref sig .tc := ⟨.hbm, 227, rfl⟩
abbrev main_v189 : Ref sig .tc := ⟨.hbm, 228, rfl⟩
abbrev main_v190 : Ref sig .tc := ⟨.hbm, 229, rfl⟩
abbrev main_v191 : Ref sig .tc := ⟨.hbm, 230, rfl⟩
abbrev main_v192 : Ref sig .tc := ⟨.hbm, 231, rfl⟩
abbrev main_v193 : Ref sig .tc := ⟨.hbm, 232, rfl⟩
abbrev main_v194 : Ref sig .tc := ⟨.hbm, 233, rfl⟩
abbrev main_v195 : Ref sig .tc := ⟨.hbm, 234, rfl⟩
abbrev main_v196 : Ref sig .tc := ⟨.hbm, 235, rfl⟩
abbrev main_cst_32 : Ref sig .tc := ⟨.hbm, 236, rfl⟩
abbrev main_v197 : Ref sig .tc := ⟨.hbm, 237, rfl⟩
abbrev main_v198 : Ref sig .tc := ⟨.hbm, 238, rfl⟩
abbrev main_cst_33 : Ref sig .tc := ⟨.hbm, 239, rfl⟩
abbrev main_v199 : Ref sig .tc := ⟨.hbm, 240, rfl⟩
abbrev main_v200 : Ref sig .tc := ⟨.hbm, 241, rfl⟩
abbrev main_v201 : Ref sig .tc := ⟨.hbm, 242, rfl⟩
abbrev main_v202 : Ref sig .tc := ⟨.hbm, 243, rfl⟩
abbrev main_v203 : Ref sig .tc := ⟨.hbm, 244, rfl⟩
abbrev main_cst_34 : Ref sig .tc := ⟨.hbm, 245, rfl⟩
abbrev main_v204 : Ref sig .tc := ⟨.hbm, 246, rfl⟩
abbrev main_v205 : Ref sig .tc := ⟨.hbm, 247, rfl⟩
abbrev main_v206 : Ref sig .tc := ⟨.hbm, 248, rfl⟩
abbrev main_v207 : Ref sig .tc := ⟨.hbm, 249, rfl⟩
abbrev main_v208 : Ref sig .tc := ⟨.hbm, 250, rfl⟩
abbrev main_v209 : Ref sig .tc := ⟨.hbm, 251, rfl⟩
abbrev main_v210 : Ref sig .tc := ⟨.hbm, 252, rfl⟩
abbrev main_v211 : Ref sig .tc := ⟨.hbm, 253, rfl⟩
abbrev main_v212 : Ref sig .tc := ⟨.hbm, 254, rfl⟩
abbrev main_v213 : Ref sig .tc := ⟨.hbm, 255, rfl⟩
abbrev main_v214 : Ref sig .tc := ⟨.hbm, 256, rfl⟩
abbrev main_v215 : Ref sig .tc := ⟨.hbm, 257, rfl⟩
abbrev main_cst_35 : Ref sig .tc := ⟨.hbm, 258, rfl⟩
abbrev main_v216 : Ref sig .tc := ⟨.hbm, 259, rfl⟩
abbrev main_v217 : Ref sig .tc := ⟨.hbm, 260, rfl⟩
abbrev main_cst_36 : Ref sig .tc := ⟨.hbm, 261, rfl⟩
abbrev main_v218 : Ref sig .tc := ⟨.hbm, 262, rfl⟩
abbrev main_v219 : Ref sig .tc := ⟨.hbm, 263, rfl⟩
abbrev main_v220 : Ref sig .tc := ⟨.hbm, 264, rfl⟩
abbrev main_v221 : Ref sig .tc := ⟨.hbm, 265, rfl⟩
abbrev main_v222 : Ref sig .tc := ⟨.hbm, 266, rfl⟩
abbrev main_v223 : Ref sig .tc := ⟨.hbm, 267, rfl⟩
abbrev main_v224 : Ref sig .tc := ⟨.hbm, 268, rfl⟩
abbrev main_cst_37 : Ref sig .tc := ⟨.hbm, 269, rfl⟩
abbrev main_v225 : Ref sig .tc := ⟨.hbm, 270, rfl⟩
abbrev main_v226 : Ref sig .tc := ⟨.hbm, 271, rfl⟩
abbrev main_cst_38 : Ref sig .tc := ⟨.hbm, 272, rfl⟩
abbrev main_v227 : Ref sig .tc := ⟨.hbm, 273, rfl⟩
abbrev main_v228 : Ref sig .tc := ⟨.hbm, 274, rfl⟩
abbrev main_v229 : Ref sig .tc := ⟨.hbm, 275, rfl⟩
abbrev main_v230 : Ref sig .tc := ⟨.hbm, 276, rfl⟩
abbrev main_v231 : Ref sig .tc := ⟨.hbm, 277, rfl⟩
abbrev main_v232 : Ref sig .tc := ⟨.hbm, 278, rfl⟩
abbrev main_v233 : Ref sig .tc := ⟨.hbm, 279, rfl⟩
abbrev main_v234 : Ref sig .tc := ⟨.hbm, 280, rfl⟩
abbrev main_v235 : Ref sig .tc := ⟨.hbm, 281, rfl⟩
abbrev main_v236 : Ref sig .tc := ⟨.hbm, 282, rfl⟩
abbrev main_v237 : Ref sig .tc := ⟨.hbm, 283, rfl⟩
abbrev main_cst_39 : Ref sig .tc := ⟨.hbm, 284, rfl⟩
abbrev main_v238 : Ref sig .tc := ⟨.hbm, 285, rfl⟩
abbrev main_v239 : Ref sig .tc := ⟨.hbm, 286, rfl⟩
abbrev main_cst_40 : Ref sig .tc := ⟨.hbm, 287, rfl⟩
abbrev main_v240 : Ref sig .tc := ⟨.hbm, 288, rfl⟩
abbrev main_v241 : Ref sig .tc := ⟨.hbm, 289, rfl⟩
abbrev main_v242 : Ref sig .tc := ⟨.hbm, 290, rfl⟩
abbrev main_v243 : Ref sig .tc := ⟨.hbm, 291, rfl⟩
abbrev main_v244 : Ref sig .tc := ⟨.hbm, 292, rfl⟩
abbrev main_cst_41 : Ref sig .tc := ⟨.hbm, 293, rfl⟩
abbrev main_v245 : Ref sig .tc := ⟨.hbm, 294, rfl⟩
abbrev main_v246 : Ref sig .tc := ⟨.hbm, 295, rfl⟩
abbrev main_v247 : Ref sig .tc := ⟨.hbm, 296, rfl⟩
abbrev main_v248 : Ref sig .tc := ⟨.hbm, 297, rfl⟩
abbrev main_v249 : Ref sig .tc := ⟨.hbm, 298, rfl⟩
abbrev main_v250 : Ref sig .tc := ⟨.hbm, 299, rfl⟩
abbrev main_v251 : Ref sig .tc := ⟨.hbm, 300, rfl⟩
abbrev main_v252 : Ref sig .tc := ⟨.hbm, 301, rfl⟩
abbrev main_v253 : Ref sig .tc := ⟨.hbm, 302, rfl⟩
abbrev main_v254 : Ref sig .tc := ⟨.hbm, 303, rfl⟩
abbrev main_v255 : Ref sig .tc := ⟨.hbm, 304, rfl⟩
abbrev main_v256 : Ref sig .tc := ⟨.hbm, 305, rfl⟩
abbrev main_cst_42 : Ref sig .tc := ⟨.hbm, 306, rfl⟩
abbrev main_v257 : Ref sig .tc := ⟨.hbm, 307, rfl⟩
abbrev main_v258 : Ref sig .tc := ⟨.hbm, 308, rfl⟩
abbrev main_cst_43 : Ref sig .tc := ⟨.hbm, 309, rfl⟩
abbrev main_v259 : Ref sig .tc := ⟨.hbm, 310, rfl⟩
abbrev main_v260 : Ref sig .tc := ⟨.hbm, 311, rfl⟩
abbrev main_v261 : Ref sig .tc := ⟨.hbm, 312, rfl⟩
abbrev main_v262 : Ref sig .tc := ⟨.hbm, 313, rfl⟩
abbrev main_v263 : Ref sig .tc := ⟨.hbm, 314, rfl⟩
abbrev main_v264 : Ref sig .tc := ⟨.hbm, 315, rfl⟩
abbrev main_v265 : Ref sig .tc := ⟨.hbm, 316, rfl⟩
abbrev main_cst_44 : Ref sig .tc := ⟨.hbm, 317, rfl⟩
abbrev main_v266 : Ref sig .tc := ⟨.hbm, 318, rfl⟩
abbrev main_v267 : Ref sig .tc := ⟨.hbm, 319, rfl⟩
abbrev main_cst_45 : Ref sig .tc := ⟨.hbm, 320, rfl⟩
abbrev main_v268 : Ref sig .tc := ⟨.hbm, 321, rfl⟩
abbrev main_v269 : Ref sig .tc := ⟨.hbm, 322, rfl⟩
abbrev main_v270 : Ref sig .tc := ⟨.hbm, 323, rfl⟩
abbrev main_v271 : Ref sig .tc := ⟨.hbm, 324, rfl⟩
abbrev main_v272 : Ref sig .tc := ⟨.hbm, 325, rfl⟩
abbrev main_v273 : Ref sig .tc := ⟨.hbm, 326, rfl⟩
abbrev main_v274 : Ref sig .tc := ⟨.hbm, 327, rfl⟩
abbrev main_v275 : Ref sig .tc := ⟨.hbm, 328, rfl⟩
abbrev main_v276 : Ref sig .tc := ⟨.hbm, 329, rfl⟩
abbrev main_v277 : Ref sig .tc := ⟨.hbm, 330, rfl⟩
abbrev main_v278 : Ref sig .tc := ⟨.hbm, 331, rfl⟩
abbrev main_cst_46 : Ref sig .tc := ⟨.hbm, 332, rfl⟩
abbrev main_v279 : Ref sig .tc := ⟨.hbm, 333, rfl⟩
abbrev main_v280 : Ref sig .tc := ⟨.hbm, 334, rfl⟩
abbrev main_cst_47 : Ref sig .tc := ⟨.hbm, 335, rfl⟩
abbrev main_v281 : Ref sig .tc := ⟨.hbm, 336, rfl⟩
abbrev main_v282 : Ref sig .tc := ⟨.hbm, 337, rfl⟩
abbrev main_v283 : Ref sig .tc := ⟨.hbm, 338, rfl⟩
abbrev main_v284 : Ref sig .tc := ⟨.hbm, 339, rfl⟩
abbrev main_v285 : Ref sig .tc := ⟨.hbm, 340, rfl⟩
abbrev main_cst_48 : Ref sig .tc := ⟨.hbm, 341, rfl⟩
abbrev main_v286 : Ref sig .tc := ⟨.hbm, 342, rfl⟩
abbrev main_v287 : Ref sig .tc := ⟨.hbm, 343, rfl⟩
abbrev main_v288 : Ref sig .tc := ⟨.hbm, 344, rfl⟩
abbrev main_v289 : Ref sig .tc := ⟨.hbm, 345, rfl⟩
abbrev main_v290 : Ref sig .tc := ⟨.hbm, 346, rfl⟩
abbrev main_v291 : Ref sig .tc := ⟨.hbm, 347, rfl⟩
abbrev main_v292 : Ref sig .tc := ⟨.hbm, 348, rfl⟩
abbrev main_v293 : Ref sig .tc := ⟨.hbm, 349, rfl⟩
abbrev main_v294 : Ref sig .tc := ⟨.hbm, 350, rfl⟩
abbrev main_v295 : Ref sig .tc := ⟨.hbm, 351, rfl⟩
abbrev main_v296 : Ref sig .tc := ⟨.hbm, 352, rfl⟩
abbrev main_v297 : Ref sig .tc := ⟨.hbm, 353, rfl⟩
abbrev main_cst_49 : Ref sig .tc := ⟨.hbm, 354, rfl⟩
abbrev main_v298 : Ref sig .tc := ⟨.hbm, 355, rfl⟩
abbrev main_v299 : Ref sig .tc := ⟨.hbm, 356, rfl⟩
abbrev main_cst_50 : Ref sig .tc := ⟨.hbm, 357, rfl⟩
abbrev main_v300 : Ref sig .tc := ⟨.hbm, 358, rfl⟩
abbrev main_v301 : Ref sig .tc := ⟨.hbm, 359, rfl⟩
abbrev main_v302 : Ref sig .tc := ⟨.hbm, 360, rfl⟩
abbrev main_v303 : Ref sig .tc := ⟨.hbm, 361, rfl⟩
abbrev main_v304 : Ref sig .tc := ⟨.hbm, 362, rfl⟩
abbrev main_v305 : Ref sig .tc := ⟨.hbm, 363, rfl⟩
abbrev main_v306 : Ref sig .tc := ⟨.hbm, 364, rfl⟩
abbrev main_cst_51 : Ref sig .tc := ⟨.hbm, 365, rfl⟩
abbrev main_v307 : Ref sig .tc := ⟨.hbm, 366, rfl⟩
abbrev main_v308 : Ref sig .tc := ⟨.hbm, 367, rfl⟩
abbrev main_cst_52 : Ref sig .tc := ⟨.hbm, 368, rfl⟩
abbrev main_v309 : Ref sig .tc := ⟨.hbm, 369, rfl⟩
abbrev main_v310 : Ref sig .tc := ⟨.hbm, 370, rfl⟩
abbrev main_v311 : Ref sig .tc := ⟨.hbm, 371, rfl⟩
abbrev main_v312 : Ref sig .tc := ⟨.hbm, 372, rfl⟩
abbrev main_v313 : Ref sig .tc := ⟨.hbm, 373, rfl⟩
abbrev main_v314 : Ref sig .tc := ⟨.hbm, 374, rfl⟩
abbrev main_v315 : Ref sig .tc := ⟨.hbm, 375, rfl⟩
abbrev main_v316 : Ref sig .tc := ⟨.hbm, 376, rfl⟩
abbrev main_v317 : Ref sig .tc := ⟨.hbm, 377, rfl⟩
abbrev main_v318 : Ref sig .tc := ⟨.hbm, 378, rfl⟩
abbrev main_v319 : Ref sig .tc := ⟨.hbm, 379, rfl⟩
abbrev main_cst_53 : Ref sig .tc := ⟨.hbm, 380, rfl⟩
abbrev main_v320 : Ref sig .tc := ⟨.hbm, 381, rfl⟩
abbrev main_v321 : Ref sig .tc := ⟨.hbm, 382, rfl⟩
abbrev main_cst_54 : Ref sig .tc := ⟨.hbm, 383, rfl⟩
abbrev main_v322 : Ref sig .tc := ⟨.hbm, 384, rfl⟩
abbrev main_v323 : Ref sig .tc := ⟨.hbm, 385, rfl⟩
abbrev main_v324 : Ref sig .tc := ⟨.hbm, 386, rfl⟩
abbrev main_v325 : Ref sig .tc := ⟨.hbm, 387, rfl⟩
abbrev main_v326 : Ref sig .tc := ⟨.hbm, 388, rfl⟩
abbrev main_cst_55 : Ref sig .tc := ⟨.hbm, 389, rfl⟩
abbrev main_v327 : Ref sig .tc := ⟨.hbm, 390, rfl⟩
abbrev main_v328 : Ref sig .tc := ⟨.hbm, 391, rfl⟩
abbrev main_v329 : Ref sig .tc := ⟨.hbm, 392, rfl⟩
abbrev main_v330 : Ref sig .tc := ⟨.hbm, 393, rfl⟩
abbrev main_v331 : Ref sig .tc := ⟨.hbm, 394, rfl⟩
abbrev main_v332 : Ref sig .tc := ⟨.hbm, 395, rfl⟩
abbrev main_v333 : Ref sig .tc := ⟨.hbm, 396, rfl⟩
abbrev main_v334 : Ref sig .tc := ⟨.hbm, 397, rfl⟩
abbrev main_v335 : Ref sig .tc := ⟨.hbm, 398, rfl⟩
abbrev main_v336 : Ref sig .tc := ⟨.hbm, 399, rfl⟩
abbrev main_v337 : Ref sig .tc := ⟨.hbm, 400, rfl⟩
abbrev main_v338 : Ref sig .tc := ⟨.hbm, 401, rfl⟩
abbrev main_cst_56 : Ref sig .tc := ⟨.hbm, 402, rfl⟩
abbrev main_v339 : Ref sig .tc := ⟨.hbm, 403, rfl⟩
abbrev main_v340 : Ref sig .tc := ⟨.hbm, 404, rfl⟩
abbrev main_cst_57 : Ref sig .tc := ⟨.hbm, 405, rfl⟩
abbrev main_v341 : Ref sig .tc := ⟨.hbm, 406, rfl⟩
abbrev main_v342 : Ref sig .tc := ⟨.hbm, 407, rfl⟩
abbrev main_v343 : Ref sig .tc := ⟨.hbm, 408, rfl⟩
abbrev main_v344 : Ref sig .tc := ⟨.hbm, 409, rfl⟩
abbrev main_v345 : Ref sig .tc := ⟨.hbm, 410, rfl⟩
abbrev main_v346 : Ref sig .tc := ⟨.hbm, 411, rfl⟩
abbrev main_v347 : Ref sig .tc := ⟨.hbm, 412, rfl⟩
abbrev main_cst_58 : Ref sig .tc := ⟨.hbm, 413, rfl⟩
abbrev main_v348 : Ref sig .tc := ⟨.hbm, 414, rfl⟩
abbrev main_v349 : Ref sig .tc := ⟨.hbm, 415, rfl⟩
abbrev main_cst_59 : Ref sig .tc := ⟨.hbm, 416, rfl⟩
abbrev main_v350 : Ref sig .tc := ⟨.hbm, 417, rfl⟩
abbrev main_v351 : Ref sig .tc := ⟨.hbm, 418, rfl⟩
abbrev main_v352 : Ref sig .tc := ⟨.hbm, 419, rfl⟩
abbrev main_v353 : Ref sig .tc := ⟨.hbm, 420, rfl⟩
abbrev main_v354 : Ref sig .tc := ⟨.hbm, 421, rfl⟩
abbrev main_v355 : Ref sig .tc := ⟨.hbm, 422, rfl⟩
abbrev main_v356 : Ref sig .tc := ⟨.hbm, 423, rfl⟩
abbrev main_v357 : Ref sig .tc := ⟨.hbm, 424, rfl⟩
abbrev main_v358 : Ref sig .tc := ⟨.hbm, 425, rfl⟩
abbrev main_v359 : Ref sig .tc := ⟨.hbm, 426, rfl⟩
abbrev main_v360 : Ref sig .tc := ⟨.hbm, 427, rfl⟩
abbrev main_cst_60 : Ref sig .tc := ⟨.hbm, 428, rfl⟩
abbrev main_v361 : Ref sig .tc := ⟨.hbm, 429, rfl⟩
abbrev main_v362 : Ref sig .tc := ⟨.hbm, 430, rfl⟩
abbrev main_cst_61 : Ref sig .tc := ⟨.hbm, 431, rfl⟩
abbrev main_v363 : Ref sig .tc := ⟨.hbm, 432, rfl⟩
abbrev main_v364 : Ref sig .tc := ⟨.hbm, 433, rfl⟩
abbrev main_v365 : Ref sig .tc := ⟨.hbm, 434, rfl⟩
abbrev main_v366 : Ref sig .tc := ⟨.hbm, 435, rfl⟩
abbrev main_v367 : Ref sig .tc := ⟨.hbm, 436, rfl⟩
abbrev main_cst_62 : Ref sig .tc := ⟨.hbm, 437, rfl⟩
abbrev main_v368 : Ref sig .tc := ⟨.hbm, 438, rfl⟩
abbrev main_v369 : Ref sig .tc := ⟨.hbm, 439, rfl⟩
abbrev main_v370 : Ref sig .tc := ⟨.hbm, 440, rfl⟩
abbrev main_v371 : Ref sig .tc := ⟨.hbm, 441, rfl⟩
abbrev main_v372 : Ref sig .tc := ⟨.hbm, 442, rfl⟩
abbrev main_v373 : Ref sig .tc := ⟨.hbm, 443, rfl⟩
abbrev main_v374 : Ref sig .tc := ⟨.hbm, 444, rfl⟩
abbrev main_v375 : Ref sig .tc := ⟨.hbm, 445, rfl⟩
abbrev main_v376 : Ref sig .tc := ⟨.hbm, 446, rfl⟩
abbrev main_v377 : Ref sig .tc := ⟨.hbm, 447, rfl⟩
abbrev main_v378 : Ref sig .tc := ⟨.hbm, 448, rfl⟩
abbrev main_v379 : Ref sig .tc := ⟨.hbm, 449, rfl⟩
abbrev main_cst_63 : Ref sig .tc := ⟨.hbm, 450, rfl⟩
abbrev main_v380 : Ref sig .tc := ⟨.hbm, 451, rfl⟩
abbrev main_v381 : Ref sig .tc := ⟨.hbm, 452, rfl⟩
abbrev main_cst_64 : Ref sig .tc := ⟨.hbm, 453, rfl⟩
abbrev main_v382 : Ref sig .tc := ⟨.hbm, 454, rfl⟩
abbrev main_v383 : Ref sig .tc := ⟨.hbm, 455, rfl⟩
abbrev main_v384 : Ref sig .tc := ⟨.hbm, 456, rfl⟩
abbrev main_v385 : Ref sig .tc := ⟨.hbm, 457, rfl⟩
abbrev main_v386 : Ref sig .tc := ⟨.hbm, 458, rfl⟩
abbrev main_v387 : Ref sig .tc := ⟨.hbm, 459, rfl⟩
abbrev main_v388 : Ref sig .tc := ⟨.hbm, 460, rfl⟩
abbrev main_cst_65 : Ref sig .tc := ⟨.hbm, 461, rfl⟩
abbrev main_v389 : Ref sig .tc := ⟨.hbm, 462, rfl⟩
abbrev main_v390 : Ref sig .tc := ⟨.hbm, 463, rfl⟩
abbrev main_cst_66 : Ref sig .tc := ⟨.hbm, 464, rfl⟩
abbrev main_v391 : Ref sig .tc := ⟨.hbm, 465, rfl⟩
abbrev main_v392 : Ref sig .tc := ⟨.hbm, 466, rfl⟩
abbrev main_v393 : Ref sig .tc := ⟨.hbm, 467, rfl⟩
abbrev main_v394 : Ref sig .tc := ⟨.hbm, 468, rfl⟩
abbrev main_v395 : Ref sig .tc := ⟨.hbm, 469, rfl⟩
abbrev main_v396 : Ref sig .tc := ⟨.hbm, 470, rfl⟩
abbrev main_v397 : Ref sig .tc := ⟨.hbm, 471, rfl⟩
abbrev main_v398 : Ref sig .tc := ⟨.hbm, 472, rfl⟩
abbrev main_v399 : Ref sig .tc := ⟨.hbm, 473, rfl⟩
abbrev main_v400 : Ref sig .tc := ⟨.hbm, 474, rfl⟩
abbrev main_v401 : Ref sig .tc := ⟨.hbm, 475, rfl⟩
abbrev main_cst_67 : Ref sig .tc := ⟨.hbm, 476, rfl⟩
abbrev main_v402 : Ref sig .tc := ⟨.hbm, 477, rfl⟩
abbrev main_v403 : Ref sig .tc := ⟨.hbm, 478, rfl⟩
abbrev main_cst_68 : Ref sig .tc := ⟨.hbm, 479, rfl⟩
abbrev main_v404 : Ref sig .tc := ⟨.hbm, 480, rfl⟩
abbrev main_v405 : Ref sig .tc := ⟨.hbm, 481, rfl⟩
abbrev main_v406 : Ref sig .tc := ⟨.hbm, 482, rfl⟩
abbrev main_v407 : Ref sig .tc := ⟨.hbm, 483, rfl⟩
abbrev main_v408 : Ref sig .tc := ⟨.hbm, 484, rfl⟩
abbrev main_cst_69 : Ref sig .tc := ⟨.hbm, 485, rfl⟩
abbrev main_v409 : Ref sig .tc := ⟨.hbm, 486, rfl⟩
abbrev main_v410 : Ref sig .tc := ⟨.hbm, 487, rfl⟩
abbrev main_v411 : Ref sig .tc := ⟨.hbm, 488, rfl⟩
abbrev main_v412 : Ref sig .tc := ⟨.hbm, 489, rfl⟩
abbrev main_v413 : Ref sig .tc := ⟨.hbm, 490, rfl⟩
abbrev main_v414 : Ref sig .tc := ⟨.hbm, 491, rfl⟩
abbrev main_v415 : Ref sig .tc := ⟨.hbm, 492, rfl⟩
abbrev main_v416 : Ref sig .tc := ⟨.hbm, 493, rfl⟩
abbrev main_v417 : Ref sig .tc := ⟨.hbm, 494, rfl⟩
abbrev main_v418 : Ref sig .tc := ⟨.hbm, 495, rfl⟩
abbrev main_v419 : Ref sig .tc := ⟨.hbm, 496, rfl⟩
abbrev main_v420 : Ref sig .tc := ⟨.hbm, 497, rfl⟩
abbrev main_cst_70 : Ref sig .tc := ⟨.hbm, 498, rfl⟩
abbrev main_v421 : Ref sig .tc := ⟨.hbm, 499, rfl⟩
abbrev main_v422 : Ref sig .tc := ⟨.hbm, 500, rfl⟩
abbrev main_cst_71 : Ref sig .tc := ⟨.hbm, 501, rfl⟩
abbrev main_v423 : Ref sig .tc := ⟨.hbm, 502, rfl⟩
abbrev main_v424 : Ref sig .tc := ⟨.hbm, 503, rfl⟩
abbrev main_v425 : Ref sig .tc := ⟨.hbm, 504, rfl⟩
abbrev main_v426 : Ref sig .tc := ⟨.hbm, 505, rfl⟩
abbrev main_v427 : Ref sig .tc := ⟨.hbm, 506, rfl⟩
abbrev main_v428 : Ref sig .tc := ⟨.hbm, 507, rfl⟩
abbrev main_v429 : Ref sig .tc := ⟨.hbm, 508, rfl⟩
abbrev main_cst_72 : Ref sig .tc := ⟨.hbm, 509, rfl⟩
abbrev main_v430 : Ref sig .tc := ⟨.hbm, 510, rfl⟩
abbrev main_v431 : Ref sig .tc := ⟨.hbm, 511, rfl⟩
abbrev main_cst_73 : Ref sig .tc := ⟨.hbm, 512, rfl⟩
abbrev main_v432 : Ref sig .tc := ⟨.hbm, 513, rfl⟩
abbrev main_v433 : Ref sig .tc := ⟨.hbm, 514, rfl⟩
abbrev main_v434 : Ref sig .tc := ⟨.hbm, 515, rfl⟩
abbrev main_v435 : Ref sig .tc := ⟨.hbm, 516, rfl⟩
abbrev main_v436 : Ref sig .tc := ⟨.hbm, 517, rfl⟩
abbrev main_v437 : Ref sig .tc := ⟨.hbm, 518, rfl⟩
abbrev main_v438 : Ref sig .tc := ⟨.hbm, 519, rfl⟩
abbrev main_v439 : Ref sig .tc := ⟨.hbm, 520, rfl⟩
abbrev main_v440 : Ref sig .tc := ⟨.hbm, 521, rfl⟩
abbrev main_v441 : Ref sig .tc := ⟨.hbm, 522, rfl⟩
abbrev main_v442 : Ref sig .tc := ⟨.hbm, 523, rfl⟩
abbrev main_cst_74 : Ref sig .tc := ⟨.hbm, 524, rfl⟩
abbrev main_v443 : Ref sig .tc := ⟨.hbm, 525, rfl⟩
abbrev main_v444 : Ref sig .tc := ⟨.hbm, 526, rfl⟩
abbrev main_cst_75 : Ref sig .tc := ⟨.hbm, 527, rfl⟩
abbrev main_v445 : Ref sig .tc := ⟨.hbm, 528, rfl⟩
abbrev main_v446 : Ref sig .tc := ⟨.hbm, 529, rfl⟩
abbrev main_v447 : Ref sig .tc := ⟨.hbm, 530, rfl⟩
abbrev main_v448 : Ref sig .tc := ⟨.hbm, 531, rfl⟩
abbrev main_v449 : Ref sig .tc := ⟨.hbm, 532, rfl⟩
abbrev main_cst_76 : Ref sig .tc := ⟨.hbm, 533, rfl⟩
abbrev main_v450 : Ref sig .tc := ⟨.hbm, 534, rfl⟩
abbrev main_v451 : Ref sig .tc := ⟨.hbm, 535, rfl⟩
abbrev main_v452 : Ref sig .tc := ⟨.hbm, 536, rfl⟩
abbrev main_v453 : Ref sig .tc := ⟨.hbm, 537, rfl⟩
abbrev main_v454 : Ref sig .tc := ⟨.hbm, 538, rfl⟩
abbrev main_v455 : Ref sig .tc := ⟨.hbm, 539, rfl⟩
abbrev main_v456 : Ref sig .tc := ⟨.hbm, 540, rfl⟩
abbrev main_v457 : Ref sig .tc := ⟨.hbm, 541, rfl⟩
abbrev main_v458 : Ref sig .tc := ⟨.hbm, 542, rfl⟩
abbrev main_v459 : Ref sig .tc := ⟨.hbm, 543, rfl⟩
abbrev main_v460 : Ref sig .tc := ⟨.hbm, 544, rfl⟩
abbrev main_v461 : Ref sig .tc := ⟨.hbm, 545, rfl⟩
abbrev main_cst_77 : Ref sig .tc := ⟨.hbm, 546, rfl⟩
abbrev main_v462 : Ref sig .tc := ⟨.hbm, 547, rfl⟩
abbrev main_v463 : Ref sig .tc := ⟨.hbm, 548, rfl⟩
abbrev main_cst_78 : Ref sig .tc := ⟨.hbm, 549, rfl⟩
abbrev main_v464 : Ref sig .tc := ⟨.hbm, 550, rfl⟩
abbrev main_v465 : Ref sig .tc := ⟨.hbm, 551, rfl⟩
abbrev main_v466 : Ref sig .tc := ⟨.hbm, 552, rfl⟩
abbrev main_v467 : Ref sig .tc := ⟨.hbm, 553, rfl⟩
abbrev main_v468 : Ref sig .tc := ⟨.hbm, 554, rfl⟩
abbrev main_v469 : Ref sig .tc := ⟨.hbm, 555, rfl⟩
abbrev main_v470 : Ref sig .tc := ⟨.hbm, 556, rfl⟩
abbrev main_cst_79 : Ref sig .tc := ⟨.hbm, 557, rfl⟩
abbrev main_v471 : Ref sig .tc := ⟨.hbm, 558, rfl⟩
abbrev main_v472 : Ref sig .tc := ⟨.hbm, 559, rfl⟩
abbrev main_cst_80 : Ref sig .tc := ⟨.hbm, 560, rfl⟩
abbrev main_v473 : Ref sig .tc := ⟨.hbm, 561, rfl⟩
abbrev main_v474 : Ref sig .tc := ⟨.hbm, 562, rfl⟩
abbrev main_v475 : Ref sig .tc := ⟨.hbm, 563, rfl⟩
abbrev main_v476 : Ref sig .tc := ⟨.hbm, 564, rfl⟩
abbrev main_v477 : Ref sig .tc := ⟨.hbm, 565, rfl⟩
abbrev main_v478 : Ref sig .tc := ⟨.hbm, 566, rfl⟩
abbrev main_v479 : Ref sig .tc := ⟨.hbm, 567, rfl⟩
abbrev main_v480 : Ref sig .tc := ⟨.hbm, 568, rfl⟩
abbrev main_v481 : Ref sig .tc := ⟨.hbm, 569, rfl⟩
abbrev main_v482 : Ref sig .tc := ⟨.hbm, 570, rfl⟩
abbrev main_v483 : Ref sig .tc := ⟨.hbm, 571, rfl⟩
abbrev main_cst_81 : Ref sig .tc := ⟨.hbm, 572, rfl⟩
abbrev main_v484 : Ref sig .tc := ⟨.hbm, 573, rfl⟩
abbrev main_v485 : Ref sig .tc := ⟨.hbm, 574, rfl⟩
abbrev main_cst_82 : Ref sig .tc := ⟨.hbm, 575, rfl⟩
abbrev main_v486 : Ref sig .tc := ⟨.hbm, 576, rfl⟩
abbrev main_v487 : Ref sig .tc := ⟨.hbm, 577, rfl⟩
abbrev main_v488 : Ref sig .tc := ⟨.hbm, 578, rfl⟩
abbrev main_v489 : Ref sig .tc := ⟨.hbm, 579, rfl⟩
abbrev main_v490 : Ref sig .tc := ⟨.hbm, 580, rfl⟩
abbrev main_cst_83 : Ref sig .tc := ⟨.hbm, 581, rfl⟩
abbrev main_v491 : Ref sig .tc := ⟨.hbm, 582, rfl⟩
abbrev main_v492 : Ref sig .tc := ⟨.hbm, 583, rfl⟩
abbrev main_v493 : Ref sig .tc := ⟨.hbm, 584, rfl⟩
abbrev main_v494 : Ref sig .tc := ⟨.hbm, 585, rfl⟩
abbrev main_v495 : Ref sig .tc := ⟨.hbm, 586, rfl⟩
abbrev main_v496 : Ref sig .tc := ⟨.hbm, 587, rfl⟩
abbrev main_v497 : Ref sig .tc := ⟨.hbm, 588, rfl⟩
abbrev main_v498 : Ref sig .tc := ⟨.hbm, 589, rfl⟩
abbrev main_v499 : Ref sig .tc := ⟨.hbm, 590, rfl⟩
abbrev main_v500 : Ref sig .tc := ⟨.hbm, 591, rfl⟩
abbrev main_v501 : Ref sig .tc := ⟨.hbm, 592, rfl⟩
abbrev main_v502 : Ref sig .tc := ⟨.hbm, 593, rfl⟩
abbrev main_cst_84 : Ref sig .tc := ⟨.hbm, 594, rfl⟩
abbrev main_v503 : Ref sig .tc := ⟨.hbm, 595, rfl⟩
abbrev main_v504 : Ref sig .tc := ⟨.hbm, 596, rfl⟩
abbrev main_cst_85 : Ref sig .tc := ⟨.hbm, 597, rfl⟩
abbrev main_v505 : Ref sig .tc := ⟨.hbm, 598, rfl⟩
abbrev main_v506 : Ref sig .tc := ⟨.hbm, 599, rfl⟩
abbrev main_v507 : Ref sig .tc := ⟨.hbm, 600, rfl⟩
abbrev main_v508 : Ref sig .tc := ⟨.hbm, 601, rfl⟩
abbrev main_v509 : Ref sig .tc := ⟨.hbm, 602, rfl⟩
abbrev main_v510 : Ref sig .tc := ⟨.hbm, 603, rfl⟩
abbrev main_v511 : Ref sig .tc := ⟨.hbm, 604, rfl⟩
abbrev main_cst_86 : Ref sig .tc := ⟨.hbm, 605, rfl⟩
abbrev main_v512 : Ref sig .tc := ⟨.hbm, 606, rfl⟩
abbrev main_v513 : Ref sig .tc := ⟨.hbm, 607, rfl⟩
abbrev main_cst_87 : Ref sig .tc := ⟨.hbm, 608, rfl⟩
abbrev main_v514 : Ref sig .tc := ⟨.hbm, 609, rfl⟩
abbrev main_v515 : Ref sig .tc := ⟨.hbm, 610, rfl⟩
abbrev main_v516 : Ref sig .tc := ⟨.hbm, 611, rfl⟩
abbrev main_v517 : Ref sig .tc := ⟨.hbm, 612, rfl⟩
abbrev main_v518 : Ref sig .tc := ⟨.hbm, 613, rfl⟩
abbrev main_v519 : Ref sig .tc := ⟨.hbm, 614, rfl⟩
abbrev main_v520 : Ref sig .tc := ⟨.hbm, 615, rfl⟩
abbrev main_v521 : Ref sig .tc := ⟨.hbm, 616, rfl⟩

abbrev nD : Nat := 1
abbrev τ : Topo := Topo.v7x

variable {F : FTy → Type} [FloatOps F]

class Facts₀ : Prop where
  slices_S32x8191x384_S32x4096x384_0_4095_0 : S32x8191x384.Slices ![0, 4095, 0] S32x4096x384
  bcast_S384_S1x1x384_2 : S384.BroadcastsInDim S1x1x384 (![2] : Fin 1 → Fin S1x1x384.rank)
  bcast_S1x1x384_S32x4096x384_0_1_2 : S1x1x384.BroadcastsInDim S32x4096x384 (![0, 1, 2] : Fin 3 → Fin S32x4096x384.rank)
  slices_S32x4096x384_S32x4096x128_0_0_0 : S32x4096x384.Slices ![0, 0, 0] S32x4096x128
  slices_S32x4096x384_S32x4096x128_0_0_128 : S32x4096x384.Slices ![0, 0, 128] S32x4096x128
  slices_S32x4096x384_S32x4096x128_0_0_256 : S32x4096x384.Slices ![0, 0, 256] S32x4096x128
  bcast_S_S32x4096x128 : S_.BroadcastsInDim S32x4096x128 (![] : Fin 0 → Fin S32x4096x128.rank)
  shapeCasts_S32x4096x128_S32x2048x256 : S32x4096x128.ShapeCasts S32x2048x256
  bcast_S256_S1x1x256_2 : S256.BroadcastsInDim S1x1x256 (![2] : Fin 1 → Fin S1x1x256.rank)
  bcast_S1x1x256_S32x2048x256_0_1_2 : S1x1x256.BroadcastsInDim S32x2048x256 (![0, 1, 2] : Fin 3 → Fin S32x2048x256.rank)
  bcast_S_S32x2048x256 : S_.BroadcastsInDim S32x2048x256 (![] : Fin 0 → Fin S32x2048x256.rank)
  shapeCasts_S32x2048x256_S32x2048x2x128 : S32x2048x256.ShapeCasts S32x2048x2x128
  shapeCasts_S32x4096x128_S32x2048x2x128 : S32x4096x128.ShapeCasts S32x2048x2x128
  reducesTo_S32x2048x2x128_S32x2048x128_d2 : S32x2048x2x128.ReducesTo [2] S32x2048x128
  h_S_ : 0 < S_.numel
  slices_S32x8191x384_S32x2048x384_0_2047_0 : S32x8191x384.Slices ![0, 2047, 0] S32x2048x384
  bcast_S1x1x384_S32x2048x384_0_1_2 : S1x1x384.BroadcastsInDim S32x2048x384 (![0, 1, 2] : Fin 3 → Fin S32x2048x384.rank)
  slices_S32x2048x384_S32x2048x128_0_0_0 : S32x2048x384.Slices ![0, 0, 0] S32x2048x128
  slices_S32x2048x384_S32x2048x128_0_0_128 : S32x2048x384.Slices ![0, 0, 128] S32x2048x128
  slices_S32x2048x384_S32x2048x128_0_0_256 : S32x2048x384.Slices ![0, 0, 256] S32x2048x128
  bcast_S_S32x2048x128 : S_.BroadcastsInDim S32x2048x128 (![] : Fin 0 → Fin S32x2048x128.rank)
  shapeCasts_S32x2048x128_S32x1024x256 : S32x2048x128.ShapeCasts S32x1024x256
  bcast_S1x1x256_S32x1024x256_0_1_2 : S1x1x256.BroadcastsInDim S32x1024x256 (![0, 1, 2] : Fin 3 → Fin S32x1024x256.rank)
  bcast_S_S32x1024x256 : S_.BroadcastsInDim S32x1024x256 (![] : Fin 0 → Fin S32x1024x256.rank)
  shapeCasts_S32x1024x256_S32x1024x2x128 : S32x1024x256.ShapeCasts S32x1024x2x128
  shapeCasts_S32x2048x128_S32x1024x2x128 : S32x2048x128.ShapeCasts S32x1024x2x128
  reducesTo_S32x1024x2x128_S32x1024x128_d2 : S32x1024x2x128.ReducesTo [2] S32x1024x128
  slices_S32x8191x384_S32x1024x384_0_1023_0 : S32x8191x384.Slices ![0, 1023, 0] S32x1024x384
  bcast_S1x1x384_S32x1024x384_0_1_2 : S1x1x384.BroadcastsInDim S32x1024x384 (![0, 1, 2] : Fin 3 → Fin S32x1024x384.rank)
  slices_S32x1024x384_S32x1024x128_0_0_0 : S32x1024x384.Slices ![0, 0, 0] S32x1024x128
  slices_S32x1024x384_S32x1024x128_0_0_128 : S32x1024x384.Slices ![0, 0, 128] S32x1024x128
  slices_S32x1024x384_S32x1024x128_0_0_256 : S32x1024x384.Slices ![0, 0, 256] S32x1024x128
  bcast_S_S32x1024x128 : S_.BroadcastsInDim S32x1024x128 (![] : Fin 0 → Fin S32x1024x128.rank)
  shapeCasts_S32x1024x128_S32x512x256 : S32x1024x128.ShapeCasts S32x512x256
  bcast_S1x1x256_S32x512x256_0_1_2 : S1x1x256.BroadcastsInDim S32x512x256 (![0, 1, 2] : Fin 3 → Fin S32x512x256.rank)
  bcast_S_S32x512x256 : S_.BroadcastsInDim S32x512x256 (![] : Fin 0 → Fin S32x512x256.rank)
  shapeCasts_S32x512x256_S32x512x2x128 : S32x512x256.ShapeCasts S32x512x2x128
  shapeCasts_S32x1024x128_S32x512x2x128 : S32x1024x128.ShapeCasts S32x512x2x128
  reducesTo_S32x512x2x128_S32x512x128_d2 : S32x512x2x128.ReducesTo [2] S32x512x128
  slices_S32x8191x384_S32x512x384_0_511_0 : S32x8191x384.Slices ![0, 511, 0] S32x512x384
  bcast_S1x1x384_S32x512x384_0_1_2 : S1x1x384.BroadcastsInDim S32x512x384 (![0, 1, 2] : Fin 3 → Fin S32x512x384.rank)
  slices_S32x512x384_S32x512x128_0_0_0 : S32x512x384.Slices ![0, 0, 0] S32x512x128
  slices_S32x512x384_S32x512x128_0_0_128 : S32x512x384.Slices ![0, 0, 128] S32x512x128
  slices_S32x512x384_S32x512x128_0_0_256 : S32x512x384.Slices ![0, 0, 256] S32x512x128
  bcast_S_S32x512x128 : S_.BroadcastsInDim S32x512x128 (![] : Fin 0 → Fin S32x512x128.rank)
  shapeCasts_S32x512x128_S32x256x256 : S32x512x128.ShapeCasts S32x256x256
  bcast_S1x1x256_S32x256x256_0_1_2 : S1x1x256.BroadcastsInDim S32x256x256 (![0, 1, 2] : Fin 3 → Fin S32x256x256.rank)
  bcast_S_S32x256x256 : S_.BroadcastsInDim S32x256x256 (![] : Fin 0 → Fin S32x256x256.rank)
  shapeCasts_S32x256x256_S32x256x2x128 : S32x256x256.ShapeCasts S32x256x2x128
  shapeCasts_S32x512x128_S32x256x2x128 : S32x512x128.ShapeCasts S32x256x2x128
  reducesTo_S32x256x2x128_S32x256x128_d2 : S32x256x2x128.ReducesTo [2] S32x256x128
  slices_S32x8191x384_S32x256x384_0_255_0 : S32x8191x384.Slices ![0, 255, 0] S32x256x384
  bcast_S1x1x384_S32x256x384_0_1_2 : S1x1x384.BroadcastsInDim S32x256x384 (![0, 1, 2] : Fin 3 → Fin S32x256x384.rank)
  slices_S32x256x384_S32x256x128_0_0_0 : S32x256x384.Slices ![0, 0, 0] S32x256x128
  slices_S32x256x384_S32x256x128_0_0_128 : S32x256x384.Slices ![0, 0, 128] S32x256x128
  slices_S32x256x384_S32x256x128_0_0_256 : S32x256x384.Slices ![0, 0, 256] S32x256x128
  bcast_S_S32x256x128 : S_.BroadcastsInDim S32x256x128 (![] : Fin 0 → Fin S32x256x128.rank)
  shapeCasts_S32x256x128_S32x128x256 : S32x256x128.ShapeCasts S32x128x256
  bcast_S1x1x256_S32x128x256_0_1_2 : S1x1x256.BroadcastsInDim S32x128x256 (![0, 1, 2] : Fin 3 → Fin S32x128x256.rank)
  bcast_S_S32x128x256 : S_.BroadcastsInDim S32x128x256 (![] : Fin 0 → Fin S32x128x256.rank)
  shapeCasts_S32x128x256_S32x128x2x128 : S32x128x256.ShapeCasts S32x128x2x128
  shapeCasts_S32x256x128_S32x128x2x128 : S32x256x128.ShapeCasts S32x128x2x128
  reducesTo_S32x128x2x128_S32x128x128_d2 : S32x128x2x128.ReducesTo [2] S32x128x128
  slices_S32x8191x384_S32x128x384_0_127_0 : S32x8191x384.Slices ![0, 127, 0] S32x128x384
  bcast_S1x1x384_S32x128x384_0_1_2 : S1x1x384.BroadcastsInDim S32x128x384 (![0, 1, 2] : Fin 3 → Fin S32x128x384.rank)
  slices_S32x128x384_S32x128x128_0_0_0 : S32x128x384.Slices ![0, 0, 0] S32x128x128
  slices_S32x128x384_S32x128x128_0_0_128 : S32x128x384.Slices ![0, 0, 128] S32x128x128
  slices_S32x128x384_S32x128x128_0_0_256 : S32x128x384.Slices ![0, 0, 256] S32x128x128
  bcast_S_S32x128x128 : S_.BroadcastsInDim S32x128x128 (![] : Fin 0 → Fin S32x128x128.rank)
  shapeCasts_S32x128x128_S32x64x256 : S32x128x128.ShapeCasts S32x64x256
  bcast_S1x1x256_S32x64x256_0_1_2 : S1x1x256.BroadcastsInDim S32x64x256 (![0, 1, 2] : Fin 3 → Fin S32x64x256.rank)
  bcast_S_S32x64x256 : S_.BroadcastsInDim S32x64x256 (![] : Fin 0 → Fin S32x64x256.rank)
  shapeCasts_S32x64x256_S32x64x2x128 : S32x64x256.ShapeCasts S32x64x2x128
  shapeCasts_S32x128x128_S32x64x2x128 : S32x128x128.ShapeCasts S32x64x2x128
  reducesTo_S32x64x2x128_S32x64x128_d2 : S32x64x2x128.ReducesTo [2] S32x64x128
  slices_S32x8191x384_S32x64x384_0_63_0 : S32x8191x384.Slices ![0, 63, 0] S32x64x384
  bcast_S1x1x384_S32x64x384_0_1_2 : S1x1x384.BroadcastsInDim S32x64x384 (![0, 1, 2] : Fin 3 → Fin S32x64x384.rank)
  slices_S32x64x384_S32x64x128_0_0_0 : S32x64x384.Slices ![0, 0, 0] S32x64x128
  slices_S32x64x384_S32x64x128_0_0_128 : S32x64x384.Slices ![0, 0, 128] S32x64x128
  slices_S32x64x384_S32x64x128_0_0_256 : S32x64x384.Slices ![0, 0, 256] S32x64x128
  bcast_S_S32x64x128 : S_.BroadcastsInDim S32x64x128 (![] : Fin 0 → Fin S32x64x128.rank)
  shapeCasts_S32x64x128_S32x32x256 : S32x64x128.ShapeCasts S32x32x256
  bcast_S1x1x256_S32x32x256_0_1_2 : S1x1x256.BroadcastsInDim S32x32x256 (![0, 1, 2] : Fin 3 → Fin S32x32x256.rank)
  bcast_S_S32x32x256 : S_.BroadcastsInDim S32x32x256 (![] : Fin 0 → Fin S32x32x256.rank)
  shapeCasts_S32x32x256_S32x32x2x128 : S32x32x256.ShapeCasts S32x32x2x128
  shapeCasts_S32x64x128_S32x32x2x128 : S32x64x128.ShapeCasts S32x32x2x128
  reducesTo_S32x32x2x128_S32x32x128_d2 : S32x32x2x128.ReducesTo [2] S32x32x128
  slices_S32x8191x384_S32x32x384_0_31_0 : S32x8191x384.Slices ![0, 31, 0] S32x32x384
  bcast_S1x1x384_S32x32x384_0_1_2 : S1x1x384.BroadcastsInDim S32x32x384 (![0, 1, 2] : Fin 3 → Fin S32x32x384.rank)
  slices_S32x32x384_S32x32x128_0_0_0 : S32x32x384.Slices ![0, 0, 0] S32x32x128
  slices_S32x32x384_S32x32x128_0_0_128 : S32x32x384.Slices ![0, 0, 128] S32x32x128
  slices_S32x32x384_S32x32x128_0_0_256 : S32x32x384.Slices ![0, 0, 256] S32x32x128
  bcast_S_S32x32x128 : S_.BroadcastsInDim S32x32x128 (![] : Fin 0 → Fin S32x32x128.rank)
  shapeCasts_S32x32x128_S32x16x256 : S32x32x128.ShapeCasts S32x16x256
  bcast_S1x1x256_S32x16x256_0_1_2 : S1x1x256.BroadcastsInDim S32x16x256 (![0, 1, 2] : Fin 3 → Fin S32x16x256.rank)
  bcast_S_S32x16x256 : S_.BroadcastsInDim S32x16x256 (![] : Fin 0 → Fin S32x16x256.rank)
  shapeCasts_S32x16x256_S32x16x2x128 : S32x16x256.ShapeCasts S32x16x2x128
  shapeCasts_S32x32x128_S32x16x2x128 : S32x32x128.ShapeCasts S32x16x2x128
  reducesTo_S32x16x2x128_S32x16x128_d2 : S32x16x2x128.ReducesTo [2] S32x16x128
  slices_S32x8191x384_S32x16x384_0_15_0 : S32x8191x384.Slices ![0, 15, 0] S32x16x384
  bcast_S1x1x384_S32x16x384_0_1_2 : S1x1x384.BroadcastsInDim S32x16x384 (![0, 1, 2] : Fin 3 → Fin S32x16x384.rank)
  slices_S32x16x384_S32x16x128_0_0_0 : S32x16x384.Slices ![0, 0, 0] S32x16x128
  slices_S32x16x384_S32x16x128_0_0_128 : S32x16x384.Slices ![0, 0, 128] S32x16x128
  slices_S32x16x384_S32x16x128_0_0_256 : S32x16x384.Slices ![0, 0, 256] S32x16x128
  bcast_S_S32x16x128 : S_.BroadcastsInDim S32x16x128 (![] : Fin 0 → Fin S32x16x128.rank)
  shapeCasts_S32x16x128_S32x8x256 : S32x16x128.ShapeCasts S32x8x256
  bcast_S1x1x256_S32x8x256_0_1_2 : S1x1x256.BroadcastsInDim S32x8x256 (![0, 1, 2] : Fin 3 → Fin S32x8x256.rank)
  bcast_S_S32x8x256 : S_.BroadcastsInDim S32x8x256 (![] : Fin 0 → Fin S32x8x256.rank)
  shapeCasts_S32x8x256_S32x8x2x128 : S32x8x256.ShapeCasts S32x8x2x128
  shapeCasts_S32x16x128_S32x8x2x128 : S32x16x128.ShapeCasts S32x8x2x128
  reducesTo_S32x8x2x128_S32x8x128_d2 : S32x8x2x128.ReducesTo [2] S32x8x128
  slices_S32x8191x384_S32x8x384_0_7_0 : S32x8191x384.Slices ![0, 7, 0] S32x8x384
  bcast_S1x1x384_S32x8x384_0_1_2 : S1x1x384.BroadcastsInDim S32x8x384 (![0, 1, 2] : Fin 3 → Fin S32x8x384.rank)
  slices_S32x8x384_S32x8x128_0_0_0 : S32x8x384.Slices ![0, 0, 0] S32x8x128
  slices_S32x8x384_S32x8x128_0_0_128 : S32x8x384.Slices ![0, 0, 128] S32x8x128
  slices_S32x8x384_S32x8x128_0_0_256 : S32x8x384.Slices ![0, 0, 256] S32x8x128
  bcast_S_S32x8x128 : S_.BroadcastsInDim S32x8x128 (![] : Fin 0 → Fin S32x8x128.rank)
  shapeCasts_S32x8x128_S32x4x256 : S32x8x128.ShapeCasts S32x4x256
  bcast_S1x1x256_S32x4x256_0_1_2 : S1x1x256.BroadcastsInDim S32x4x256 (![0, 1, 2] : Fin 3 → Fin S32x4x256.rank)
  bcast_S_S32x4x256 : S_.BroadcastsInDim S32x4x256 (![] : Fin 0 → Fin S32x4x256.rank)
  shapeCasts_S32x4x256_S32x4x2x128 : S32x4x256.ShapeCasts S32x4x2x128
  shapeCasts_S32x8x128_S32x4x2x128 : S32x8x128.ShapeCasts S32x4x2x128
  reducesTo_S32x4x2x128_S32x4x128_d2 : S32x4x2x128.ReducesTo [2] S32x4x128
  slices_S32x8191x384_S32x4x384_0_3_0 : S32x8191x384.Slices ![0, 3, 0] S32x4x384
  bcast_S1x1x384_S32x4x384_0_1_2 : S1x1x384.BroadcastsInDim S32x4x384 (![0, 1, 2] : Fin 3 → Fin S32x4x384.rank)
  slices_S32x4x384_S32x4x128_0_0_0 : S32x4x384.Slices ![0, 0, 0] S32x4x128
  slices_S32x4x384_S32x4x128_0_0_128 : S32x4x384.Slices ![0, 0, 128] S32x4x128
  slices_S32x4x384_S32x4x128_0_0_256 : S32x4x384.Slices ![0, 0, 256] S32x4x128
  bcast_S_S32x4x128 : S_.BroadcastsInDim S32x4x128 (![] : Fin 0 → Fin S32x4x128.rank)
  shapeCasts_S32x4x128_S32x2x256 : S32x4x128.ShapeCasts S32x2x256
  bcast_S1x1x256_S32x2x256_0_1_2 : S1x1x256.BroadcastsInDim S32x2x256 (![0, 1, 2] : Fin 3 → Fin S32x2x256.rank)
  bcast_S_S32x2x256 : S_.BroadcastsInDim S32x2x256 (![] : Fin 0 → Fin S32x2x256.rank)
  shapeCasts_S32x2x256_S32x2x2x128 : S32x2x256.ShapeCasts S32x2x2x128
  shapeCasts_S32x4x128_S32x2x2x128 : S32x4x128.ShapeCasts S32x2x2x128
  reducesTo_S32x2x2x128_S32x2x128_d2 : S32x2x2x128.ReducesTo [2] S32x2x128
  slices_S32x8191x384_S32x2x384_0_1_0 : S32x8191x384.Slices ![0, 1, 0] S32x2x384
  bcast_S1x1x384_S32x2x384_0_1_2 : S1x1x384.BroadcastsInDim S32x2x384 (![0, 1, 2] : Fin 3 → Fin S32x2x384.rank)
  slices_S32x2x384_S32x2x128_0_0_0 : S32x2x384.Slices ![0, 0, 0] S32x2x128
  slices_S32x2x384_S32x2x128_0_0_128 : S32x2x384.Slices ![0, 0, 128] S32x2x128
  slices_S32x2x384_S32x2x128_0_0_256 : S32x2x384.Slices ![0, 0, 256] S32x2x128
  bcast_S_S32x2x128 : S_.BroadcastsInDim S32x2x128 (![] : Fin 0 → Fin S32x2x128.rank)
  shapeCasts_S32x2x128_S32x1x256 : S32x2x128.ShapeCasts S32x1x256
  bcast_S1x1x256_S32x1x256_0_1_2 : S1x1x256.BroadcastsInDim S32x1x256 (![0, 1, 2] : Fin 3 → Fin S32x1x256.rank)
  bcast_S_S32x1x256 : S_.BroadcastsInDim S32x1x256 (![] : Fin 0 → Fin S32x1x256.rank)
  shapeCasts_S32x1x256_S32x1x2x128 : S32x1x256.ShapeCasts S32x1x2x128
  shapeCasts_S32x2x128_S32x1x2x128 : S32x2x128.ShapeCasts S32x1x2x128
  reducesTo_S32x1x2x128_S32x1x128_d2 : S32x1x2x128.ReducesTo [2] S32x1x128
  slices_S32x8191x384_S32x1x384_0_0_0 : S32x8191x384.Slices ![0, 0, 0] S32x1x384
  bcast_S1x1x384_S32x1x384_0_1_2 : S1x1x384.BroadcastsInDim S32x1x384 (![0, 1, 2] : Fin 3 → Fin S32x1x384.rank)
  slices_S32x1x384_S32x1x128_0_0_0 : S32x1x384.Slices ![0, 0, 0] S32x1x128
  slices_S32x1x384_S32x1x128_0_0_128 : S32x1x384.Slices ![0, 0, 128] S32x1x128
  slices_S32x1x384_S32x1x128_0_0_256 : S32x1x384.Slices ![0, 0, 256] S32x1x128
  bcast_S_S32x1x128 : S_.BroadcastsInDim S32x1x128 (![] : Fin 0 → Fin S32x1x128.rank)
  concatenates_S32x1x128_S32x2x128_S32x4x128_S32x8x128_S32x16x128_S32x32x128_S32x64x128_S32x128x128_S32x256x128_S32x512x128_S32x1024x128_S32x2048x128_S32x4096x128_S32x8191x128_d1 : Shape.Concatenates [S32x1x128, S32x2x128, S32x4x128, S32x8x128, S32x16x128, S32x32x128, S32x64x128, S32x128x128, S32x256x128, S32x512x128, S32x1024x128, S32x2048x128, S32x4096x128] S32x8191x128 1
  bcast_S32x8191x128_S1x32x8191x128_1_2_3 : S32x8191x128.BroadcastsInDim S1x32x8191x128 (![1, 2, 3] : Fin 3 → Fin S1x32x8191x128.rank)
  concatenates_S1x32x8191x128_S1x32x8191x128_S2x32x8191x128_d0 : Shape.Concatenates [S1x32x8191x128, S1x32x8191x128] S2x32x8191x128 0
  dot_S32x8191x128_S384x128_S32x8191x384_2_1_01_0_n_n_wf : DotDims.WF S32x8191x128 S384x128 S32x8191x384 [2] [1] [0, 1] [0] [] []
  dot_S32x2048x256_S256x256_S32x2048x256_2_1_01_0_n_n_wf : DotDims.WF S32x2048x256 S256x256 S32x2048x256 [2] [1] [0, 1] [0] [] []
  dot_S32x2048x256_S384x256_S32x2048x384_2_1_01_0_n_n_wf : DotDims.WF S32x2048x256 S384x256 S32x2048x384 [2] [1] [0, 1] [0] [] []
  dot_S32x1024x256_S256x256_S32x1024x256_2_1_01_0_n_n_wf : DotDims.WF S32x1024x256 S256x256 S32x1024x256 [2] [1] [0, 1] [0] [] []
  dot_S32x1024x256_S384x256_S32x1024x384_2_1_01_0_n_n_wf : DotDims.WF S32x1024x256 S384x256 S32x1024x384 [2] [1] [0, 1] [0] [] []
  dot_S32x512x256_S256x256_S32x512x256_2_1_01_0_n_n_wf : DotDims.WF S32x512x256 S256x256 S32x512x256 [2] [1] [0, 1] [0] [] []
  dot_S32x512x256_S384x256_S32x512x384_2_1_01_0_n_n_wf : DotDims.WF S32x512x256 S384x256 S32x512x384 [2] [1] [0, 1] [0] [] []
  dot_S32x256x256_S256x256_S32x256x256_2_1_01_0_n_n_wf : DotDims.WF S32x256x256 S256x256 S32x256x256 [2] [1] [0, 1] [0] [] []
  dot_S32x256x256_S384x256_S32x256x384_2_1_01_0_n_n_wf : DotDims.WF S32x256x256 S384x256 S32x256x384 [2] [1] [0, 1] [0] [] []
  dot_S32x128x256_S256x256_S32x128x256_2_1_01_0_n_n_wf : DotDims.WF S32x128x256 S256x256 S32x128x256 [2] [1] [0, 1] [0] [] []
  dot_S32x128x256_S384x256_S32x128x384_2_1_01_0_n_n_wf : DotDims.WF S32x128x256 S384x256 S32x128x384 [2] [1] [0, 1] [0] [] []
  dot_S32x64x256_S256x256_S32x64x256_2_1_01_0_n_n_wf : DotDims.WF S32x64x256 S256x256 S32x64x256 [2] [1] [0, 1] [0] [] []
  dot_S32x64x256_S384x256_S32x64x384_2_1_01_0_n_n_wf : DotDims.WF S32x64x256 S384x256 S32x64x384 [2] [1] [0, 1] [0] [] []
  dot_S32x32x256_S256x256_S32x32x256_2_1_01_0_n_n_wf : DotDims.WF S32x32x256 S256x256 S32x32x256 [2] [1] [0, 1] [0] [] []
  dot_S32x32x256_S384x256_S32x32x384_2_1_01_0_n_n_wf : DotDims.WF S32x32x256 S384x256 S32x32x384 [2] [1] [0, 1] [0] [] []
  dot_S32x16x256_S256x256_S32x16x256_2_1_01_0_n_n_wf : DotDims.WF S32x16x256 S256x256 S32x16x256 [2] [1] [0, 1] [0] [] []
  dot_S32x16x256_S384x256_S32x16x384_2_1_01_0_n_n_wf : DotDims.WF S32x16x256 S384x256 S32x16x384 [2] [1] [0, 1] [0] [] []
  dot_S32x8x256_S256x256_S32x8x256_2_1_01_0_n_n_wf : DotDims.WF S32x8x256 S256x256 S32x8x256 [2] [1] [0, 1] [0] [] []
  dot_S32x8x256_S384x256_S32x8x384_2_1_01_0_n_n_wf : DotDims.WF S32x8x256 S384x256 S32x8x384 [2] [1] [0, 1] [0] [] []
  dot_S32x4x256_S256x256_S32x4x256_2_1_01_0_n_n_wf : DotDims.WF S32x4x256 S256x256 S32x4x256 [2] [1] [0, 1] [0] [] []
  dot_S32x4x256_S384x256_S32x4x384_2_1_01_0_n_n_wf : DotDims.WF S32x4x256 S384x256 S32x4x384 [2] [1] [0, 1] [0] [] []
  dot_S32x2x256_S256x256_S32x2x256_2_1_01_0_n_n_wf : DotDims.WF S32x2x256 S256x256 S32x2x256 [2] [1] [0, 1] [0] [] []
  dot_S32x2x256_S384x256_S32x2x384_2_1_01_0_n_n_wf : DotDims.WF S32x2x256 S384x256 S32x2x384 [2] [1] [0, 1] [0] [] []
  dot_S32x1x256_S256x256_S32x1x256_2_1_01_0_n_n_wf : DotDims.WF S32x1x256 S256x256 S32x1x256 [2] [1] [0, 1] [0] [] []
  dot_S32x1x256_S384x256_S32x1x384_2_1_01_0_n_n_wf : DotDims.WF S32x1x256 S384x256 S32x1x384 [2] [1] [0, 1] [0] [] []

variable [Facts₀]

def dot_S32x8191x128_S384x128_S32x8191x384_2_1_01_0_n_n : DotDims S32x8191x128 S384x128 S32x8191x384 where
  lhsContracting := [2]
  rhsContracting := [1]
  lhsNonContracting := [0, 1]
  rhsNonContracting := [0]
  lhsBatch := []
  rhsBatch := []
  wf := dot_S32x8191x128_S384x128_S32x8191x384_2_1_01_0_n_n_wf
def dot_S32x2048x256_S256x256_S32x2048x256_2_1_01_0_n_n : DotDims S32x2048x256 S256x256 S32x2048x256 where
  lhsContracting := [2]
  rhsContracting := [1]
  lhsNonContracting := [0, 1]
  rhsNonContracting := [0]
  lhsBatch := []
  rhsBatch := []
  wf := dot_S32x2048x256_S256x256_S32x2048x256_2_1_01_0_n_n_wf
def dot_S32x2048x256_S384x256_S32x2048x384_2_1_01_0_n_n : DotDims S32x2048x256 S384x256 S32x2048x384 where
  lhsContracting := [2]
  rhsContracting := [1]
  lhsNonContracting := [0, 1]
  rhsNonContracting := [0]
  lhsBatch := []
  rhsBatch := []
  wf := dot_S32x2048x256_S384x256_S32x2048x384_2_1_01_0_n_n_wf
def dot_S32x1024x256_S256x256_S32x1024x256_2_1_01_0_n_n : DotDims S32x1024x256 S256x256 S32x1024x256 where
  lhsContracting := [2]
  rhsContracting := [1]
  lhsNonContracting := [0, 1]
  rhsNonContracting := [0]
  lhsBatch := []
  rhsBatch := []
  wf := dot_S32x1024x256_S256x256_S32x1024x256_2_1_01_0_n_n_wf
def dot_S32x1024x256_S384x256_S32x1024x384_2_1_01_0_n_n : DotDims S32x1024x256 S384x256 S32x1024x384 where
  lhsContracting := [2]
  rhsContracting := [1]
  lhsNonContracting := [0, 1]
  rhsNonContracting := [0]
  lhsBatch := []
  rhsBatch := []
  wf := dot_S32x1024x256_S384x256_S32x1024x384_2_1_01_0_n_n_wf
def dot_S32x512x256_S256x256_S32x512x256_2_1_01_0_n_n : DotDims S32x512x256 S256x256 S32x512x256 where
  lhsContracting := [2]
  rhsContracting := [1]
  lhsNonContracting := [0, 1]
  rhsNonContracting := [0]
  lhsBatch := []
  rhsBatch := []
  wf := dot_S32x512x256_S256x256_S32x512x256_2_1_01_0_n_n_wf
def dot_S32x512x256_S384x256_S32x512x384_2_1_01_0_n_n : DotDims S32x512x256 S384x256 S32x512x384 where
  lhsContracting := [2]
  rhsContracting := [1]
  lhsNonContracting := [0, 1]
  rhsNonContracting := [0]
  lhsBatch := []
  rhsBatch := []
  wf := dot_S32x512x256_S384x256_S32x512x384_2_1_01_0_n_n_wf
def dot_S32x256x256_S256x256_S32x256x256_2_1_01_0_n_n : DotDims S32x256x256 S256x256 S32x256x256 where
  lhsContracting := [2]
  rhsContracting := [1]
  lhsNonContracting := [0, 1]
  rhsNonContracting := [0]
  lhsBatch := []
  rhsBatch := []
  wf := dot_S32x256x256_S256x256_S32x256x256_2_1_01_0_n_n_wf
def dot_S32x256x256_S384x256_S32x256x384_2_1_01_0_n_n : DotDims S32x256x256 S384x256 S32x256x384 where
  lhsContracting := [2]
  rhsContracting := [1]
  lhsNonContracting := [0, 1]
  rhsNonContracting := [0]
  lhsBatch := []
  rhsBatch := []
  wf := dot_S32x256x256_S384x256_S32x256x384_2_1_01_0_n_n_wf
def dot_S32x128x256_S256x256_S32x128x256_2_1_01_0_n_n : DotDims S32x128x256 S256x256 S32x128x256 where
  lhsContracting := [2]
  rhsContracting := [1]
  lhsNonContracting := [0, 1]
  rhsNonContracting := [0]
  lhsBatch := []
  rhsBatch := []
  wf := dot_S32x128x256_S256x256_S32x128x256_2_1_01_0_n_n_wf
def dot_S32x128x256_S384x256_S32x128x384_2_1_01_0_n_n : DotDims S32x128x256 S384x256 S32x128x384 where
  lhsContracting := [2]
  rhsContracting := [1]
  lhsNonContracting := [0, 1]
  rhsNonContracting := [0]
  lhsBatch := []
  rhsBatch := []
  wf := dot_S32x128x256_S384x256_S32x128x384_2_1_01_0_n_n_wf
def dot_S32x64x256_S256x256_S32x64x256_2_1_01_0_n_n : DotDims S32x64x256 S256x256 S32x64x256 where
  lhsContracting := [2]
  rhsContracting := [1]
  lhsNonContracting := [0, 1]
  rhsNonContracting := [0]
  lhsBatch := []
  rhsBatch := []
  wf := dot_S32x64x256_S256x256_S32x64x256_2_1_01_0_n_n_wf
def dot_S32x64x256_S384x256_S32x64x384_2_1_01_0_n_n : DotDims S32x64x256 S384x256 S32x64x384 where
  lhsContracting := [2]
  rhsContracting := [1]
  lhsNonContracting := [0, 1]
  rhsNonContracting := [0]
  lhsBatch := []
  rhsBatch := []
  wf := dot_S32x64x256_S384x256_S32x64x384_2_1_01_0_n_n_wf
def dot_S32x32x256_S256x256_S32x32x256_2_1_01_0_n_n : DotDims S32x32x256 S256x256 S32x32x256 where
  lhsContracting := [2]
  rhsContracting := [1]
  lhsNonContracting := [0, 1]
  rhsNonContracting := [0]
  lhsBatch := []
  rhsBatch := []
  wf := dot_S32x32x256_S256x256_S32x32x256_2_1_01_0_n_n_wf
def dot_S32x32x256_S384x256_S32x32x384_2_1_01_0_n_n : DotDims S32x32x256 S384x256 S32x32x384 where
  lhsContracting := [2]
  rhsContracting := [1]
  lhsNonContracting := [0, 1]
  rhsNonContracting := [0]
  lhsBatch := []
  rhsBatch := []
  wf := dot_S32x32x256_S384x256_S32x32x384_2_1_01_0_n_n_wf
def dot_S32x16x256_S256x256_S32x16x256_2_1_01_0_n_n : DotDims S32x16x256 S256x256 S32x16x256 where
  lhsContracting := [2]
  rhsContracting := [1]
  lhsNonContracting := [0, 1]
  rhsNonContracting := [0]
  lhsBatch := []
  rhsBatch := []
  wf := dot_S32x16x256_S256x256_S32x16x256_2_1_01_0_n_n_wf
def dot_S32x16x256_S384x256_S32x16x384_2_1_01_0_n_n : DotDims S32x16x256 S384x256 S32x16x384 where
  lhsContracting := [2]
  rhsContracting := [1]
  lhsNonContracting := [0, 1]
  rhsNonContracting := [0]
  lhsBatch := []
  rhsBatch := []
  wf := dot_S32x16x256_S384x256_S32x16x384_2_1_01_0_n_n_wf
def dot_S32x8x256_S256x256_S32x8x256_2_1_01_0_n_n : DotDims S32x8x256 S256x256 S32x8x256 where
  lhsContracting := [2]
  rhsContracting := [1]
  lhsNonContracting := [0, 1]
  rhsNonContracting := [0]
  lhsBatch := []
  rhsBatch := []
  wf := dot_S32x8x256_S256x256_S32x8x256_2_1_01_0_n_n_wf
def dot_S32x8x256_S384x256_S32x8x384_2_1_01_0_n_n : DotDims S32x8x256 S384x256 S32x8x384 where
  lhsContracting := [2]
  rhsContracting := [1]
  lhsNonContracting := [0, 1]
  rhsNonContracting := [0]
  lhsBatch := []
  rhsBatch := []
  wf := dot_S32x8x256_S384x256_S32x8x384_2_1_01_0_n_n_wf
def dot_S32x4x256_S256x256_S32x4x256_2_1_01_0_n_n : DotDims S32x4x256 S256x256 S32x4x256 where
  lhsContracting := [2]
  rhsContracting := [1]
  lhsNonContracting := [0, 1]
  rhsNonContracting := [0]
  lhsBatch := []
  rhsBatch := []
  wf := dot_S32x4x256_S256x256_S32x4x256_2_1_01_0_n_n_wf
def dot_S32x4x256_S384x256_S32x4x384_2_1_01_0_n_n : DotDims S32x4x256 S384x256 S32x4x384 where
  lhsContracting := [2]
  rhsContracting := [1]
  lhsNonContracting := [0, 1]
  rhsNonContracting := [0]
  lhsBatch := []
  rhsBatch := []
  wf := dot_S32x4x256_S384x256_S32x4x384_2_1_01_0_n_n_wf
def dot_S32x2x256_S256x256_S32x2x256_2_1_01_0_n_n : DotDims S32x2x256 S256x256 S32x2x256 where
  lhsContracting := [2]
  rhsContracting := [1]
  lhsNonContracting := [0, 1]
  rhsNonContracting := [0]
  lhsBatch := []
  rhsBatch := []
  wf := dot_S32x2x256_S256x256_S32x2x256_2_1_01_0_n_n_wf
def dot_S32x2x256_S384x256_S32x2x384_2_1_01_0_n_n : DotDims S32x2x256 S384x256 S32x2x384 where
  lhsContracting := [2]
  rhsContracting := [1]
  lhsNonContracting := [0, 1]
  rhsNonContracting := [0]
  lhsBatch := []
  rhsBatch := []
  wf := dot_S32x2x256_S384x256_S32x2x384_2_1_01_0_n_n_wf
def dot_S32x1x256_S256x256_S32x1x256_2_1_01_0_n_n : DotDims S32x1x256 S256x256 S32x1x256 where
  lhsContracting := [2]
  rhsContracting := [1]
  lhsNonContracting := [0, 1]
  rhsNonContracting := [0]
  lhsBatch := []
  rhsBatch := []
  wf := dot_S32x1x256_S256x256_S32x1x256_2_1_01_0_n_n_wf
def dot_S32x1x256_S384x256_S32x1x384_2_1_01_0_n_n : DotDims S32x1x256 S384x256 S32x1x384 where
  lhsContracting := [2]
  rhsContracting := [1]
  lhsNonContracting := [0, 1]
  rhsNonContracting := [0]
  lhsBatch := []
  rhsBatch := []
  wf := dot_S32x1x256_S384x256_S32x1x384_2_1_01_0_n_n_wf

class Facts : Prop extends Facts₀ where

variable [Facts]
-- ==== Proof.Spec.lean ====
/-
  The tree recurrence both programs compute, as plain functions on the extended reals.

  A complete binary tree of 8191 nodes in heap order (node i has children 2i+1 and 2i+2; level l is the 2^l
  nodes at heap positions 2^l - 1 … 2^(l+1) - 2). Every node carries a cell state c and a hidden state h,
  128 numbers each. With pre = (x·W_iouᵀ at the node) + (h of the two children, side by side)·U_iouᵀ + b_iou,
  read as three gate rows i | o | u of 128,
      c = σ(i) · tanh(u) + Σ_{a<2} f_a · c(child a),      f = σ((children's h)·U_fᵀ + b_f),
      h = σ(o) · tanh(c),
  and for a leaf the child terms are absent (c = σ(i) · tanh(u) + 0). σ is 1 / (1 + e^(-x)).
  The result is h of every node, in heap order, for every tree of the batch, twice (two identical stacks).
-/
import Idealize.ShloMosaic.PureOps.Ideal
import Idealize.ShloMosaic.PureOps.Ideal.Laws
import Idealize.ShloMosaic.Lib.ValueIdx

noncomputable section

namespace Cert.TreeSpec

open Idealize.ShloMosaic

/-- A node's cell state from its pre-activation row and the gated sum of its children's cells. -/
def cellOf (pre : Fin 384 → EReal) (cred : EReal) (d : Fin 128) : EReal :=
  Ideal.logistic (pre ⟨d.val, by omega⟩) * Ideal.tanh (pre ⟨256 + d.val, by omega⟩) + cred

/-- A node's hidden state from its pre-activation row and its cell state. -/
def hidOf (pre : Fin 384 → EReal) (c : EReal) (d : Fin 128) : EReal :=
  Ideal.logistic (pre ⟨128 + d.val, by omega⟩) * Ideal.tanh c

section Step
variable {n m : ℕ} (hm : m = 2 * n)

/-- The two children's hidden states of node j, side by side: entry k < 256 is child k / 128, lane k % 128. -/
def hcat (H : Fin m → Fin 128 → EReal) (j : Fin n) (k : Fin 256) : EReal :=
  H ⟨2 * j.val + k.val / 128, by have := j.isLt; have := k.isLt; omega⟩ ⟨k.val % 128, by omega⟩

/-- The forget gates of node j: 256 numbers, 128 per child. -/
def fgate (H : Fin m → Fin 128 → EReal) (Ufw : Fin 256 → Fin 256 → EReal) (Ufb : Fin 256 → EReal)
    (j : Fin n) (q : Fin 256) : EReal :=
  Ideal.logistic ((∑ k : Fin 256, hcat hm H j k * Ufw q k) + Ufb q)

/-- The children's cells, each through its forget gate, summed. -/
def cred (H C : Fin m → Fin 128 → EReal) (Ufw : Fin 256 → Fin 256 → EReal) (Ufb : Fin 256 → EReal)
    (j : Fin n) (d : Fin 128) : EReal :=
  ∑ a : Fin 2, fgate hm H Ufw Ufb j ⟨a.val * 128 + d.val, by have := a.isLt; omega⟩
    * C ⟨2 * j.val + a.val, by have := j.isLt; have := a.isLt; omega⟩ d

/-- The pre-activation row of node j: its own x-part, the children's hidden states through U_iou, the bias. -/
def preOf (ioux : Fin n → Fin 384 → EReal) (H : Fin m → Fin 128 → EReal) (Uiou : Fin 384 → Fin 256 → EReal)
    (biou : Fin 384 → EReal) (j : Fin n) (g : Fin 384) : EReal :=
  (ioux j g + ∑ k : Fin 256, hcat hm H j k * Uiou g k) + biou g

/-- One level's cell states from the level below. -/
def stepC (ioux : Fin n → Fin 384 → EReal) (H C : Fin m → Fin 128 → EReal) (Uiou : Fin 384 → Fin 256 → EReal)
    (biou : Fin 384 → EReal) (Ufw : Fin 256 → Fin 256 → EReal) (Ufb : Fin 256 → EReal) (j : Fin n) (d : Fin 128) : EReal :=
  cellOf (preOf hm ioux H Uiou biou j) (cred hm H C Ufw Ufb j d) d

/-- One level's hidden states from the level below. -/
def stepH (ioux : Fin n → Fin 384 → EReal) (H C : Fin m → Fin 128 → EReal) (Uiou : Fin 384 → Fin 256 → EReal)
    (biou : Fin 384 → EReal) (Ufw : Fin 256 → Fin 256 → EReal) (Ufb : Fin 256 → EReal) (j : Fin n) (d : Fin 128) : EReal :=
  hidOf (preOf hm ioux H Uiou biou j) (stepC hm ioux H C Uiou biou Ufw Ufb j d) d

end Step

/-- One tree's inputs as plain functions of their coordinates: its 8191 rows of x, and the shared weights. -/
structure Args where
  X : Fin 8191 → Fin 128 → EReal
  Wiou : Fin 384 → Fin 128 → EReal
  Uiou : Fin 384 → Fin 256 → EReal
  biou : Fin 384 → EReal
  Ufw : Fin 256 → Fin 256 → EReal
  Ufb : Fin 256 → EReal

/-- The x-part of a node's pre-activation: row `node` of x · W_iouᵀ. -/
def iouX (A : Args) (node : Fin 8191) (g : Fin 384) : EReal :=
  ∑ k : Fin 128, A.X node k * A.Wiou g k

/-- The x-parts of the n nodes of the level that starts at heap position `lo`. -/
def xrow {n : ℕ} (A : Args) (lo : ℕ) (h : lo + n ≤ 8191) (j : Fin n) (g : Fin 384) : EReal :=
  iouX A ⟨lo + j.val, by have := j.isLt; omega⟩ g

/-- The 4096 leaves (heap positions 4095 … 8190): no children. -/
def C12 (A : Args) : Fin 4096 → Fin 128 → EReal :=
  fun j d => cellOf (fun g => xrow A 4095 (by norm_num) j g + A.biou g) 0 d
def H12 (A : Args) : Fin 4096 → Fin 128 → EReal :=
  fun j d => hidOf (fun g => xrow A 4095 (by norm_num) j g + A.biou g) (C12 A j d) d

/-- Level 11 (2048 nodes, heap positions 2047 … 4094): cell and hidden state from the level below. -/
def C11 (A : Args) : Fin 2048 → Fin 128 → EReal :=
  stepC (m := 4096) (by norm_num) (xrow A 2047 (by norm_num)) (H12 A) (C12 A) A.Uiou A.biou A.Ufw A.Ufb
def H11 (A : Args) : Fin 2048 → Fin 128 → EReal :=
  stepH (m := 4096) (by norm_num) (xrow A 2047 (by norm_num)) (H12 A) (C12 A) A.Uiou A.biou A.Ufw A.Ufb

/-- Level 10 (1024 nodes, heap positions 1023 … 2046): cell and hidden state from the level below. -/
def C10 (A : Args) : Fin 1024 → Fin 128 → EReal :=
  stepC (m := 2048) (by norm_num) (xrow A 1023 (by norm_num)) (H11 A) (C11 A) A.Uiou A.biou A.Ufw A.Ufb
def H10 (A : Args) : Fin 1024 → Fin 128 → EReal :=
  stepH (m := 2048) (by norm_num) (xrow A 1023 (by norm_num)) (H11 A) (C11 A) A.Uiou A.biou A.Ufw A.Ufb

/-- Level 9 (512 nodes, heap positions 511 … 1022): cell and hidden state from the level below. -/
def C9 (A : Args) : Fin 512 → Fin 128 → EReal :=
  stepC (m := 1024) (by norm_num) (xrow A 511 (by norm_num)) (H10 A) (C10 A) A.Uiou A.biou A.Ufw A.Ufb
def H9 (A : Args) : Fin 512 → Fin 128 → EReal :=
  stepH (m := 1024) (by norm_num) (xrow A 511 (by norm_num)) (H10 A) (C10 A) A.Uiou A.biou A.Ufw A.Ufb

/-- Level 8 (256 nodes, heap positions 255 … 510): cell and hidden state from the level below. -/
def C8 (A : Args) : Fin 256 → Fin 128 → EReal :=
  stepC (m := 512) (by norm_num) (xrow A 255 (by norm_num)) (H9 A) (C9 A) A.Uiou A.biou A.Ufw A.Ufb
def H8 (A : Args) : Fin 256 → Fin 128 → EReal :=
  stepH (m := 512) (by norm_num) (xrow A 255 (by norm_num)) (H9 A) (C9 A) A.Uiou A.biou A.Ufw A.Ufb

/-- Level 7 (128 nodes, heap positions 127 … 254): cell and hidden state from the level below. -/
def C7 (A : Args) : Fin 128 → Fin 128 → EReal :=
  stepC (m := 256) (by norm_num) (xrow A 127 (by norm_num)) (H8 A) (C8 A) A.Uiou A.biou A.Ufw A.Ufb
def H7 (A : Args) : Fin 128 → Fin 128 → EReal :=
  stepH (m := 256) (by norm_num) (xrow A 127 (by norm_num)) (H8 A) (C8 A) A.Uiou A.biou A.Ufw A.Ufb

/-- Level 6 (64 nodes, heap positions 63 … 126): cell and hidden state from the level below. -/
def C6 (A : Args) : Fin 64 → Fin 128 → EReal :=
  stepC (m := 128) (by norm_num) (xrow A 63 (by norm_num)) (H7 A) (C7 A) A.Uiou A.biou A.Ufw A.Ufb
def H6 (A : Args) : Fin 64 → Fin 128 → EReal :=
  stepH (m := 128) (by norm_num) (xrow A 63 (by norm_num)) (H7 A) (C7 A) A.Uiou A.biou A.Ufw A.Ufb

/-- Level 5 (32 nodes, heap positions 31 … 62): cell and hidden state from the level below. -/
def C5 (A : Args) : Fin 32 → Fin 128 → EReal :=
  stepC (m := 64) (by norm_num) (xrow A 31 (by norm_num)) (H6 A) (C6 A) A.Uiou A.biou A.Ufw A.Ufb
def H5 (A : Args) : Fin 32 → Fin 128 → EReal :=
  stepH (m := 64) (by norm_num) (xrow A 31 (by norm_num)) (H6 A) (C6 A) A.Uiou A.biou A.Ufw A.Ufb

/-- Level 4 (16 nodes, heap positions 15 … 30): cell and hidden state from the level below. -/
def C4 (A : Args) : Fin 16 → Fin 128 → EReal :=
  stepC (m := 32) (by norm_num) (xrow A 15 (by norm_num)) (H5 A) (C5 A) A.Uiou A.biou A.Ufw A.Ufb
def H4 (A : Args) : Fin 16 → Fin 128 → EReal :=
  stepH (m := 32) (by norm_num) (xrow A 15 (by norm_num)) (H5 A) (C5 A) A.Uiou A.biou A.Ufw A.Ufb

/-- Level 3 (8 nodes, heap positions 7 … 14): cell and hidden state from the level below. -/
def C3 (A : Args) : Fin 8 → Fin 128 → EReal :=
  stepC (m := 16) (by norm_num) (xrow A 7 (by norm_num)) (H4 A) (C4 A) A.Uiou A.biou A.Ufw A.Ufb
def H3 (A : Args) : Fin 8 → Fin 128 → EReal :=
  stepH (m := 16) (by norm_num) (xrow A 7 (by norm_num)) (H4 A) (C4 A) A.Uiou A.biou A.Ufw A.Ufb

/-- Level 2 (4 nodes, heap positions 3 … 6): cell and hidden state from the level below. -/
def C2 (A : Args) : Fin 4 → Fin 128 → EReal :=
  stepC (m := 8) (by norm_num) (xrow A 3 (by norm_num)) (H3 A) (C3 A) A.Uiou A.biou A.Ufw A.Ufb
def H2 (A : Args) : Fin 4 → Fin 128 → EReal :=
  stepH (m := 8) (by norm_num) (xrow A 3 (by norm_num)) (H3 A) (C3 A) A.Uiou A.biou A.Ufw A.Ufb

/-- Level 1 (2 nodes, heap positions 1 … 2): cell and hidden state from the level below. -/
def C1 (A : Args) : Fin 2 → Fin 128 → EReal :=
  stepC (m := 4) (by norm_num) (xrow A 1 (by norm_num)) (H2 A) (C2 A) A.Uiou A.biou A.Ufw A.Ufb
def H1 (A : Args) : Fin 2 → Fin 128 → EReal :=
  stepH (m := 4) (by norm_num) (xrow A 1 (by norm_num)) (H2 A) (C2 A) A.Uiou A.biou A.Ufw A.Ufb

/-- Level 0 (1 node, heap positions 0 … 0): cell and hidden state from the level below. -/
def C0 (A : Args) : Fin 1 → Fin 128 → EReal :=
  stepC (m := 2) (by norm_num) (xrow A 0 (by norm_num)) (H1 A) (C1 A) A.Uiou A.biou A.Ufw A.Ufb
def H0 (A : Args) : Fin 1 → Fin 128 → EReal :=
  stepH (m := 2) (by norm_num) (xrow A 0 (by norm_num)) (H1 A) (C1 A) A.Uiou A.biou A.Ufw A.Ufb

/-- The hidden state of every node in heap order: node i belongs to the level l with 2^l - 1 ≤ i < 2^(l+1) - 1. -/
def heapH (A : Args) (node : Fin 8191) (d : Fin 128) : EReal :=
  if h0 : node.val < 1 then H0 A ⟨node.val - 0, by omega⟩ d else
  if h1 : node.val < 3 then H1 A ⟨node.val - 1, by omega⟩ d else
  if h2 : node.val < 7 then H2 A ⟨node.val - 3, by omega⟩ d else
  if h3 : node.val < 15 then H3 A ⟨node.val - 7, by omega⟩ d else
  if h4 : node.val < 31 then H4 A ⟨node.val - 15, by omega⟩ d else
  if h5 : node.val < 63 then H5 A ⟨node.val - 31, by omega⟩ d else
  if h6 : node.val < 127 then H6 A ⟨node.val - 63, by omega⟩ d else
  if h7 : node.val < 255 then H7 A ⟨node.val - 127, by omega⟩ d else
  if h8 : node.val < 511 then H8 A ⟨node.val - 255, by omega⟩ d else
  if h9 : node.val < 1023 then H9 A ⟨node.val - 511, by omega⟩ d else
  if h10 : node.val < 2047 then H10 A ⟨node.val - 1023, by omega⟩ d else
  if h11 : node.val < 4095 then H11 A ⟨node.val - 2047, by omega⟩ d else
  H12 A ⟨node.val - 4095, by omega⟩ d

/-- Tree `b` of the batch: the six argument arrays, as the programs hold them (row-major arrays over literal shapes),
    read as `Args`. -/
def argsOf (a0 : (⟨3, ![32, 8191, 128]⟩ : Shape).Idx → EReal) (a1 : (⟨2, ![384, 128]⟩ : Shape).Idx → EReal)
    (a2 : (⟨2, ![384, 256]⟩ : Shape).Idx → EReal) (a3 : (⟨1, ![384]⟩ : Shape).Idx → EReal)
    (a4 : (⟨2, ![256, 256]⟩ : Shape).Idx → EReal) (a5 : (⟨1, ![256]⟩ : Shape).Idx → EReal) (b : Fin 32) : Args where
  X n k := a0 (ValueIdx.ix3 b n k)
  Wiou g k := a1 (ValueIdx.ix2 g k)
  Uiou g k := a2 (ValueIdx.ix2 g k)
  biou g := a3 (ValueIdx.ix1 g)
  Ufw q k := a4 (ValueIdx.ix2 q k)
  Ufb q := a5 (ValueIdx.ix1 q)

/-- The whole result [2, 32, 8191, 128] as one function of the six argument arrays: both stacks hold the hidden
    state of every node of every tree. -/
def G (a0 : (⟨3, ![32, 8191, 128]⟩ : Shape).Idx → EReal) (a1 : (⟨2, ![384, 128]⟩ : Shape).Idx → EReal)
    (a2 : (⟨2, ![384, 256]⟩ : Shape).Idx → EReal) (a3 : (⟨1, ![384]⟩ : Shape).Idx → EReal)
    (a4 : (⟨2, ![256, 256]⟩ : Shape).Idx → EReal) (a5 : (⟨1, ![256]⟩ : Shape).Idx → EReal) :
    (⟨4, ![2, 32, 8191, 128]⟩ : Shape).Idx → EReal :=
  fun i => heapH (argsOf a0 a1 a2 a3 a4 a5 (i 1)) (i 2) (i 3)

end Cert.TreeSpec

end
-- ==== Proof.KPad.lean ====
/-
  The padded heap layout of the kernel's scratch rows.

  The kernel keeps the hidden and the cell states of a tree in arrays of 8192 rows in which node i of the heap sits
  at row i + 1: level l (2^l nodes) fills rows 2^l … 2^(l+1) - 1, the children of the node at row r are rows 2r and
  2r + 1, and row 0 is never used. `padH` and `padC` name what each row holds; read one row further on, `padH` is
  the heap order of the specification.
-/
import proofs.«149831_j26912265077353_2_alg».proof.Proof.Spec

noncomputable section

namespace Cert.TreeSpec

/-- Row r of the padded hidden-state array: node r - 1 of the heap, by the level whose rows hold r. -/
def padH (A : Args) (r : Fin 8192) (d : Fin 128) : EReal :=
  if h12 : 4096 ≤ r.val then H12 A ⟨r.val - 4096, by omega⟩ d else
  if h11 : 2048 ≤ r.val then H11 A ⟨r.val - 2048, by omega⟩ d else
  if h10 : 1024 ≤ r.val then H10 A ⟨r.val - 1024, by omega⟩ d else
  if h9 : 512 ≤ r.val then H9 A ⟨r.val - 512, by omega⟩ d else
  if h8 : 256 ≤ r.val then H8 A ⟨r.val - 256, by omega⟩ d else
  if h7 : 128 ≤ r.val then H7 A ⟨r.val - 128, by omega⟩ d else
  if h6 : 64 ≤ r.val then H6 A ⟨r.val - 64, by omega⟩ d else
  if h5 : 32 ≤ r.val then H5 A ⟨r.val - 32, by omega⟩ d else
  if h4 : 16 ≤ r.val then H4 A ⟨r.val - 16, by omega⟩ d else
  if h3 : 8 ≤ r.val then H3 A ⟨r.val - 8, by omega⟩ d else
  if h2 : 4 ≤ r.val then H2 A ⟨r.val - 4, by omega⟩ d else
  if h1 : 2 ≤ r.val then H1 A ⟨r.val - 2, by omega⟩ d else
  if h0 : 1 ≤ r.val then H0 A ⟨r.val - 1, by omega⟩ d else
  0

/-- Row r of the padded cell-state array. -/
def padC (A : Args) (r : Fin 8192) (d : Fin 128) : EReal :=
  if h12 : 4096 ≤ r.val then C12 A ⟨r.val - 4096, by omega⟩ d else
  if h11 : 2048 ≤ r.val then C11 A ⟨r.val - 2048, by omega⟩ d else
  if h10 : 1024 ≤ r.val then C10 A ⟨r.val - 1024, by omega⟩ d else
  if h9 : 512 ≤ r.val then C9 A ⟨r.val - 512, by omega⟩ d else
  if h8 : 256 ≤ r.val then C8 A ⟨r.val - 256, by omega⟩ d else
  if h7 : 128 ≤ r.val then C7 A ⟨r.val - 128, by omega⟩ d else
  if h6 : 64 ≤ r.val then C6 A ⟨r.val - 64, by omega⟩ d else
  if h5 : 32 ≤ r.val then C5 A ⟨r.val - 32, by omega⟩ d else
  if h4 : 16 ≤ r.val then C4 A ⟨r.val - 16, by omega⟩ d else
  if h3 : 8 ≤ r.val then C3 A ⟨r.val - 8, by omega⟩ d else
  if h2 : 4 ≤ r.val then C2 A ⟨r.val - 4, by omega⟩ d else
  if h1 : 2 ≤ r.val then C1 A ⟨r.val - 2, by omega⟩ d else
  if h0 : 1 ≤ r.val then C0 A ⟨r.val - 1, by omega⟩ d else
  0

theorem padH_lev12 (A : Args) (r : Fin 8192) (d : Fin 128) (h1 : 4096 ≤ r.val) (h2 : r.val < 8192) :
    padH A r d = H12 A ⟨r.val - 4096, by omega⟩ d := by
  unfold padH
  rw [dif_pos h1]

theorem padH_lev11 (A : Args) (r : Fin 8192) (d : Fin 128) (h1 : 2048 ≤ r.val) (h2 : r.val < 4096) :
    padH A r d = H11 A ⟨r.val - 2048, by omega⟩ d := by
  unfold padH
  rw [dif_neg (by omega), dif_pos h1]

theorem padH_lev10 (A : Args) (r : Fin 8192) (d : Fin 128) (h1 : 1024 ≤ r.val) (h2 : r.val < 2048) :
    padH A r d = H10 A ⟨r.val - 1024, by omega⟩ d := by
  unfold padH
  rw [dif_neg (by omega), dif_neg (by omega), dif_pos h1]

theorem padH_lev9 (A : Args) (r : Fin 8192) (d : Fin 128) (h1 : 512 ≤ r.val) (h2 : r.val < 1024) :
    padH A r d = H9 A ⟨r.val - 512, by omega⟩ d := by
  unfold padH
  rw [dif_neg (by omega), dif_neg (by omega), dif_neg (by omega), dif_pos h1]

theorem padH_lev8 (A : Args) (r : Fin 8192) (d : Fin 128) (h1 : 256 ≤ r.val) (h2 : r.val < 512) :
    padH A r d = H8 A ⟨r.val - 256, by omega⟩ d := by
  unfold padH
  rw [dif_neg (by omega), dif_neg (by omega), dif_neg (by omega), dif_neg (by omega), dif_pos h1]

theorem padH_lev7 (A : Args) (r : Fin 8192) (d : Fin 128) (h1 : 128 ≤ r.val) (h2 : r.val < 256) :
    padH A r d = H7 A ⟨r.val - 128, by omega⟩ d := by
  unfold padH
  rw [dif_neg (by omega), dif_neg (by omega), dif_neg (by omega), dif_neg (by omega), dif_neg (by omega), dif_pos h1]

theorem padH_lev6 (A : Args) (r : Fin 8192) (d : Fin 128) (h1 : 64 ≤ r.val) (h2 : r.val < 128) :
    padH A r d = H6 A ⟨r.val - 64, by omega⟩ d := by
  unfold padH
  rw [dif_neg (by omega), dif_neg (by omega), dif_neg (by omega), dif_neg (by omega), dif_neg (by omega), dif_neg (by omega), dif_pos h1]

theorem padH_lev5 (A : Args) (r : Fin 8192) (d : Fin 128) (h1 : 32 ≤ r.val) (h2 : r.val < 64) :
    padH A r d = H5 A ⟨r.val - 32, by omega⟩ d := by
  unfold padH
  rw [dif_neg (by omega), dif_neg (by omega), dif_neg (by omega), dif_neg (by omega), dif_neg (by omega), dif_neg (by omega), dif_neg (by omega), dif_pos h1]

theorem padH_lev4 (A : Args) (r : Fin 8192) (d : Fin 128) (h1 : 16 ≤ r.val) (h2 : r.val < 32) :
    padH A r d = H4 A ⟨r.val - 16, by omega⟩ d := by
  unfold padH
  rw [dif_neg (by omega), dif_neg (by omega), dif_neg (by omega), dif_neg (by omega), dif_neg (by omega), dif_neg (by omega), dif_neg (by omega), dif_neg (by omega), dif_pos h1]

theorem padH_lev3 (A : Args) (r : Fin 8192) (d : Fin 128) (h1 : 8 ≤ r.val) (h2 : r.val < 16) :
    padH A r d = H3 A ⟨r.val - 8, by omega⟩ d := by
  unfold padH
  rw [dif_neg (by omega), dif_neg (by omega), dif_neg (by omega), dif_neg (by omega), dif_neg (by omega), dif_neg (by omega), dif_neg (by omega), dif_neg (by omega), dif_neg (by omega), dif_pos h1]

theorem padH_lev2 (A : Args) (r : Fin 8192) (d : Fin 128) (h1 : 4 ≤ r.val) (h2 : r.val < 8) :
    padH A r d = H2 A ⟨r.val - 4, by omega⟩ d := by
  unfold padH
  rw [dif_neg (by omega), dif_neg (by omega), dif_neg (by omega), dif_neg (by omega), dif_neg (by omega), dif_neg (by omega), dif_neg (by omega), dif_neg (by omega), dif_neg (by omega), dif_neg (by omega), dif_pos h1]

theorem padH_lev1 (A : Args) (r : Fin 8192) (d : Fin 128) (h1 : 2 ≤ r.val) (h2 : r.val < 4) :
    padH A r d = H1 A ⟨r.val - 2, by omega⟩ d := by
  unfold padH
  rw [dif_neg (by omega), dif_neg (by omega), dif_neg (by omega), dif_neg (by omega), dif_neg (by omega), dif_neg (by omega), dif_neg (by omega), dif_neg (by omega), dif_neg (by omega), dif_neg (by omega), dif_neg (by omega), dif_pos h1]

theorem padH_lev0 (A : Args) (r : Fin 8192) (d : Fin 128) (h1 : 1 ≤ r.val) (h2 : r.val < 2) :
    padH A r d = H0 A ⟨r.val - 1, by omega⟩ d := by
  unfold padH
  rw [dif_neg (by omega), dif_neg (by omega), dif_neg (by omega), dif_neg (by omega), dif_neg (by omega), dif_neg (by omega), dif_neg (by omega), dif_neg (by omega), dif_neg (by omega), dif_neg (by omega), dif_neg (by omega), dif_neg (by omega), dif_pos h1]

theorem padC_lev12 (A : Args) (r : Fin 8192) (d : Fin 128) (h1 : 4096 ≤ r.val) (h2 : r.val < 8192) :
    padC A r d = C12 A ⟨r.val - 4096, by omega⟩ d := by
  unfold padC
  rw [dif_pos h1]

theorem padC_lev11 (A : Args) (r : Fin 8192) (d : Fin 128) (h1 : 2048 ≤ r.val) (h2 : r.val < 4096) :
    padC A r d = C11 A ⟨r.val - 2048, by omega⟩ d := by
  unfold padC
  rw [dif_neg (by omega), dif_pos h1]

theorem padC_lev10 (A : Args) (r : Fin 8192) (d : Fin 128) (h1 : 1024 ≤ r.val) (h2 : r.val < 2048) :
    padC A r d = C10 A ⟨r.val - 1024, by omega⟩ d := by
  unfold padC
  rw [dif_neg (by omega), dif_neg (by omega), dif_pos h1]

theorem padC_lev9 (A : Args) (r : Fin 8192) (d : Fin 128) (h1 : 512 ≤ r.val) (h2 : r.val < 1024) :
    padC A r d = C9 A ⟨r.val - 512, by omega⟩ d := by
  unfold padC
  rw [dif_neg (by omega), dif_neg (by omega), dif_neg (by omega), dif_pos h1]

theorem padC_lev8 (A : Args) (r : Fin 8192) (d : Fin 128) (h1 : 256 ≤ r.val) (h2 : r.val < 512) :
    padC A r d = C8 A ⟨r.val - 256, by omega⟩ d := by
  unfold padC
  rw [dif_neg (by omega), dif_neg (by omega), dif_neg (by omega), dif_neg (by omega), dif_pos h1]

theorem padC_lev7 (A : Args) (r : Fin 8192) (d : Fin 128) (h1 : 128 ≤ r.val) (h2 : r.val < 256) :
    padC A r d = C7 A ⟨r.val - 128, by omega⟩ d := by
  unfold padC
  rw [dif_neg (by omega), dif_neg (by omega), dif_neg (by omega), dif_neg (by omega), dif_neg (by omega), dif_pos h1]

theorem padC_lev6 (A : Args) (r : Fin 8192) (d : Fin 128) (h1 : 64 ≤ r.val) (h2 : r.val < 128) :
    padC A r d = C6 A ⟨r.val - 64, by omega⟩ d := by
  unfold padC
  rw [dif_neg (by omega), dif_neg (by omega), dif_neg (by omega), dif_neg (by omega), dif_neg (by omega), dif_neg (by omega), dif_pos h1]

theorem padC_lev5 (A : Args) (r : Fin 8192) (d : Fin 128) (h1 : 32 ≤ r.val) (h2 : r.val < 64) :
    padC A r d = C5 A ⟨r.val - 32, by omega⟩ d := by
  unfold padC
  rw [dif_neg (by omega), dif_neg (by omega), dif_neg (by omega), dif_neg (by omega), dif_neg (by omega), dif_neg (by omega), dif_neg (by omega), dif_pos h1]

theorem padC_lev4 (A : Args) (r : Fin 8192) (d : Fin 128) (h1 : 16 ≤ r.val) (h2 : r.val < 32) :
    padC A r d = C4 A ⟨r.val - 16, by omega⟩ d := by
  unfold padC
  rw [dif_neg (by omega), dif_neg (by omega), dif_neg (by omega), dif_neg (by omega), dif_neg (by omega), dif_neg (by omega), dif_neg (by omega), dif_neg (by omega), dif_pos h1]

theorem padC_lev3 (A : Args) (r : Fin 8192) (d : Fin 128) (h1 : 8 ≤ r.val) (h2 : r.val < 16) :
    padC A r d = C3 A ⟨r.val - 8, by omega⟩ d := by
  unfold padC
  rw [dif_neg (by omega), dif_neg (by omega), dif_neg (by omega), dif_neg (by omega), dif_neg (by omega), dif_neg (by omega), dif_neg (by omega), dif_neg (by omega), dif_neg (by omega), dif_pos h1]

theorem padC_lev2 (A : Args) (r : Fin 8192) (d : Fin 128) (h1 : 4 ≤ r.val) (h2 : r.val < 8) :
    padC A r d = C2 A ⟨r.val - 4, by omega⟩ d := by
  unfold padC
  rw [dif_neg (by omega), dif_neg (by omega), dif_neg (by omega), dif_neg (by omega), dif_neg (by omega), dif_neg (by omega), dif_neg (by omega), dif_neg (by omega), dif_neg (by omega), dif_neg (by omega), dif_pos h1]

theorem padC_lev1 (A : Args) (r : Fin 8192) (d : Fin 128) (h1 : 2 ≤ r.val) (h2 : r.val < 4) :
    padC A r d = C1 A ⟨r.val - 2, by omega⟩ d := by
  unfold padC
  rw [dif_neg (by omega), dif_neg (by omega), dif_neg (by omega), dif_neg (by omega), dif_neg (by omega), dif_neg (by omega), dif_neg (by omega), dif_neg (by omega), dif_neg (by omega), dif_neg (by omega), dif_neg (by omega), dif_pos h1]

theorem padC_lev0 (A : Args) (r : Fin 8192) (d : Fin 128) (h1 : 1 ≤ r.val) (h2 : r.val < 2) :
    padC A r d = C0 A ⟨r.val - 1, by omega⟩ d := by
  unfold padC
  rw [dif_neg (by omega), dif_neg (by omega), dif_neg (by omega), dif_neg (by omega), dif_neg (by omega), dif_neg (by omega), dif_neg (by omega), dif_neg (by omega), dif_neg (by omega), dif_neg (by omega), dif_neg (by omega), dif_neg (by omega), dif_pos h1]

theorem heapH_lev0 (A : Args) (node : Fin 8191) (d : Fin 128) (h1 : 0 ≤ node.val) (h2 : node.val < 1) :
    heapH A node d = H0 A ⟨node.val - 0, by omega⟩ d := by
  unfold heapH
  rw [dif_pos h2]

theorem heapH_lev1 (A : Args) (node : Fin 8191) (d : Fin 128) (h1 : 1 ≤ node.val) (h2 : node.val < 3) :
    heapH A node d = H1 A ⟨node.val - 1, by omega⟩ d := by
  unfold heapH
  rw [dif_neg (by omega), dif_pos h2]

theorem heapH_lev2 (A : Args) (node : Fin 8191) (d : Fin 128) (h1 : 3 ≤ node.val) (h2 : node.val < 7) :
    heapH A node d = H2 A ⟨node.val - 3, by omega⟩ d := by
  unfold heapH
  rw [dif_neg (by omega), dif_neg (by omega), dif_pos h2]

theorem heapH_lev3 (A : Args) (node : Fin 8191) (d : Fin 128) (h1 : 7 ≤ node.val) (h2 : node.val < 15) :
    heapH A node d = H3 A ⟨node.val - 7, by omega⟩ d := by
  unfold heapH
  rw [dif_neg (by omega), dif_neg (by omega), dif_neg (by omega), dif_pos h2]

theorem heapH_lev4 (A : Args) (node : Fin 8191) (d : Fin 128) (h1 : 15 ≤ node.val) (h2 : node.val < 31) :
    heapH A node d = H4 A ⟨node.val - 15, by omega⟩ d := by
  unfold heapH
  rw [dif_neg (by omega), dif_neg (by omega), dif_neg (by omega), dif_neg (by omega), dif_pos h2]

theorem heapH_lev5 (A : Args) (node : Fin 8191) (d : Fin 128) (h1 : 31 ≤ node.val) (h2 : node.val < 63) :
    heapH A node d = H5 A ⟨node.val - 31, by omega⟩ d := by
  unfold heapH
  rw [dif_neg (by omega), dif_neg (by omega), dif_neg (by omega), dif_neg (by omega), dif_neg (by omega), dif_pos h2]

theorem heapH_lev6 (A : Args) (node : Fin 8191) (d : Fin 128) (h1 : 63 ≤ node.val) (h2 : node.val < 127) :
    heapH A node d = H6 A ⟨node.val - 63, by omega⟩ d := by
  unfold heapH
  rw [dif_neg (by omega), dif_neg (by omega), dif_neg (by omega), dif_neg (by omega), dif_neg (by omega), dif_neg (by omega), dif_pos h2]

theorem heapH_lev7 (A : Args) (node : Fin 8191) (d : Fin 128) (h1 : 127 ≤ node.val) (h2 : node.val < 255) :
    heapH A node d = H7 A ⟨node.val - 127, by omega⟩ d := by
  unfold heapH
  rw [dif_neg (by omega), dif_neg (by omega), dif_neg (by omega), dif_neg (by omega), dif_neg (by omega), dif_neg (by omega), dif_neg (by omega), dif_pos h2]

theorem heapH_lev8 (A : Args) (node : Fin 8191) (d : Fin 128) (h1 : 255 ≤ node.val) (h2 : node.val < 511) :
    heapH A node d = H8 A ⟨node.val - 255, by omega⟩ d := by
  unfold heapH
  rw [dif_neg (by omega), dif_neg (by omega), dif_neg (by omega), dif_neg (by omega), dif_neg (by omega), dif_neg (by omega), dif_neg (by omega), dif_neg (by omega), dif_pos h2]

theorem heapH_lev9 (A : Args) (node : Fin 8191) (d : Fin 128) (h1 : 511 ≤ node.val) (h2 : node.val < 1023) :
    heapH A node d = H9 A ⟨node.val - 511, by omega⟩ d := by
  unfold heapH
  rw [dif_neg (by omega), dif_neg (by omega), dif_neg (by omega), dif_neg (by omega), dif_neg (by omega), dif_neg (by omega), dif_neg (by omega), dif_neg (by omega), dif_neg (by omega), dif_pos h2]

theorem heapH_lev10 (A : Args) (node : Fin 8191) (d : Fin 128) (h1 : 1023 ≤ node.val) (h2 : node.val < 2047) :
    heapH A node d = H10 A ⟨node.val - 1023, by omega⟩ d := by
  unfold heapH
  rw [dif_neg (by omega), dif_neg (by omega), dif_neg (by omega), dif_neg (by omega), dif_neg (by omega), dif_neg (by omega), dif_neg (by omega), dif_neg (by omega), dif_neg (by omega), dif_neg (by omega), dif_pos h2]

theorem heapH_lev11 (A : Args) (node : Fin 8191) (d : Fin 128) (h1 : 2047 ≤ node.val) (h2 : node.val < 4095) :
    heapH A node d = H11 A ⟨node.val - 2047, by omega⟩ d := by
  unfold heapH
  rw [dif_neg (by omega), dif_neg (by omega), dif_neg (by omega), dif_neg (by omega), dif_neg (by omega), dif_neg (by omega), dif_neg (by omega), dif_neg (by omega), dif_neg (by omega), dif_neg (by omega), dif_neg (by omega), dif_pos h2]

theorem heapH_lev12 (A : Args) (node : Fin 8191) (d : Fin 128) (h1 : 4095 ≤ node.val) (h2 : node.val < 8191) :
    heapH A node d = H12 A ⟨node.val - 4095, by omega⟩ d := by
  unfold heapH
  rw [dif_neg (by omega), dif_neg (by omega), dif_neg (by omega), dif_neg (by omega), dif_neg (by omega), dif_neg (by omega), dif_neg (by omega), dif_neg (by omega), dif_neg (by omega), dif_neg (by omega), dif_neg (by omega), dif_neg (by omega)]

/-- One row further on, the padded array is the heap order. -/
theorem padH_succ (A : Args) (node : Fin 8191) (d : Fin 128) :
    padH A ⟨node.val + 1, by have := node.isLt; omega⟩ d = heapH A node d := by
  have hn := node.isLt
  by_cases c0 : node.val + 1 < 2
  · rw [padH_lev0 A ⟨node.val + 1, by omega⟩ d (by show 1 ≤ node.val + 1; omega) (by show node.val + 1 < 2; omega),
      heapH_lev0 A node d (by omega) (by omega)]
    exact congrArg (fun i => H0 A i d) (Fin.ext (by show node.val + 1 - 1 = node.val - 0; omega))
  by_cases c1 : node.val + 1 < 4
  · rw [padH_lev1 A ⟨node.val + 1, by omega⟩ d (by show 2 ≤ node.val + 1; omega) (by show node.val + 1 < 4; omega),
      heapH_lev1 A node d (by omega) (by omega)]
    exact congrArg (fun i => H1 A i d) (Fin.ext (by show node.val + 1 - 2 = node.val - 1; omega))
  by_cases c2 : node.val + 1 < 8
  · rw [padH_lev2 A ⟨node.val + 1, by omega⟩ d (by show 4 ≤ node.val + 1; omega) (by show node.val + 1 < 8; omega),
      heapH_lev2 A node d (by omega) (by omega)]
    exact congrArg (fun i => H2 A i d) (Fin.ext (by show node.val + 1 - 4 = node.val - 3; omega))
  by_cases c3 : node.val + 1 < 16
  · rw [padH_lev3 A ⟨node.val + 1, by omega⟩ d (by show 8 ≤ node.val + 1; omega) (by show node.val + 1 < 16; omega),
      heapH_lev3 A node d (by omega) (by omega)]
    exact congrArg (fun i => H3 A i d) (Fin.ext (by show node.val + 1 - 8 = node.val - 7; omega))
  by_cases c4 : node.val + 1 < 32
  · rw [padH_lev4 A ⟨node.val + 1, by omega⟩ d (by show 16 ≤ node.val + 1; omega) (by show node.val + 1 < 32; omega),
      heapH_lev4 A node d (by omega) (by omega)]
    exact congrArg (fun i => H4 A i d) (Fin.ext (by show node.val + 1 - 16 = node.val - 15; omega))
  by_cases c5 : node.val + 1 < 64
  · rw [padH_lev5 A ⟨node.val + 1, by omega⟩ d (by show 32 ≤ node.val + 1; omega) (by show node.val + 1 < 64; omega),
      heapH_lev5 A node d (by omega) (by omega)]
    exact congrArg (fun i => H5 A i d) (Fin.ext (by show node.val + 1 - 32 = node.val - 31; omega))
  by_cases c6 : node.val + 1 < 128
  · rw [padH_lev6 A ⟨node.val + 1, by omega⟩ d (by show 64 ≤ node.val + 1; omega) (by show node.val + 1 < 128; omega),
      heapH_lev6 A node d (by omega) (by omega)]
    exact congrArg (fun i => H6 A i d) (Fin.ext (by show node.val + 1 - 64 = node.val - 63; omega))
  by_cases c7 : node.val + 1 < 256
  · rw [padH_lev7 A ⟨node.val + 1, by omega⟩ d (by show 128 ≤ node.val + 1; omega) (by show node.val + 1 < 256; omega),
      heapH_lev7 A node d (by omega) (by omega)]
    exact congrArg (fun i => H7 A i d) (Fin.ext (by show node.val + 1 - 128 = node.val - 127; omega))
  by_cases c8 : node.val + 1 < 512
  · rw [padH_lev8 A ⟨node.val + 1, by omega⟩ d (by show 256 ≤ node.val + 1; omega) (by show node.val + 1 < 512; omega),
      heapH_lev8 A node d (by omega) (by omega)]
    exact congrArg (fun i => H8 A i d) (Fin.ext (by show node.val + 1 - 256 = node.val - 255; omega))
  by_cases c9 : node.val + 1 < 1024
  · rw [padH_lev9 A ⟨node.val + 1, by omega⟩ d (by show 512 ≤ node.val + 1; omega) (by show node.val + 1 < 1024; omega),
      heapH_lev9 A node d (by omega) (by omega)]
    exact congrArg (fun i => H9 A i d) (Fin.ext (by show node.val + 1 - 512 = node.val - 511; omega))
  by_cases c10 : node.val + 1 < 2048
  · rw [padH_lev10 A ⟨node.val + 1, by omega⟩ d (by show 1024 ≤ node.val + 1; omega) (by show node.val + 1 < 2048; omega),
      heapH_lev10 A node d (by omega) (by omega)]
    exact congrArg (fun i => H10 A i d) (Fin.ext (by show node.val + 1 - 1024 = node.val - 1023; omega))
  by_cases c11 : node.val + 1 < 4096
  · rw [padH_lev11 A ⟨node.val + 1, by omega⟩ d (by show 2048 ≤ node.val + 1; omega) (by show node.val + 1 < 4096; omega),
      heapH_lev11 A node d (by omega) (by omega)]
    exact congrArg (fun i => H11 A i d) (Fin.ext (by show node.val + 1 - 2048 = node.val - 2047; omega))
  by_cases c12 : node.val + 1 < 8192
  · rw [padH_lev12 A ⟨node.val + 1, by omega⟩ d (by show 4096 ≤ node.val + 1; omega) (by show node.val + 1 < 8192; omega),
      heapH_lev12 A node d (by omega) (by omega)]
    exact congrArg (fun i => H12 A i d) (Fin.ext (by show node.val + 1 - 4096 = node.val - 4095; omega))
  omega

end Cert.TreeSpec

end
-- ==== Proof.LibRowPieces.lean ====
/-
  What a buffer of rows holds after writes of whole row ranges, read at a row.

  A two-dimensional buffer [m, n] is written in pieces, each a range of k consecutive whole rows starting at row o. After a
  list of such writes (newest first) the contents at row r are the payload of the newest piece whose range holds r, at the
  row's offset inside that range; a piece whose range does not hold r is passed over. A load of k' whole rows from row o'
  reads those contents at rows o' + j.
-/
import Idealize.ShloMosaic.Lib.Pipeline.Value
import Idealize.ShloMosaic.Lib.Pipeline.FrameBody
import Idealize.ShloMosaic.Lib.ValueIdx

noncomputable section

namespace Cert.KCanon

open Idealize.ShloMosaic Idealize.ShloMosaic.ValueIdx

variable {Val : EltTy → Type} [∀ e, Nonempty (Val e)] {e : EltTy} {m n : ℕ}

/-- The newest piece holds row r: the contents there are its payload at row r - o. -/
theorem canon_rows_hit {k : ℕ} (o : ℕ)
    (inb : ∀ a, (![o, 0] : Fin 2 → ℕ) a + (⟨2, ![k, n]⟩ : Shape).size a ≤ (⟨2, ![m, n]⟩ : Shape).size a)
    (w : (⟨2, ![k, n]⟩ : Shape).Idx → Val e) (L : List (View.Piece Val ⟨2, ![m, n]⟩ e)) (r : Fin m) (g : Fin n)
    (h1 : o ≤ r.val) (h2 : r.val < o + k) :
    View.canon ((⟨Rect.unit (s := ⟨2, ![m, n]⟩) ![o, 0] (⟨2, ![k, n]⟩ : Shape).size inb, w⟩ : View.Piece Val ⟨2, ![m, n]⟩ e) :: L)
        (ix2 r g)
      = w (ix2 ⟨r.val - o, by omega⟩ g) := by
  have he : (Rect.unit (s := ⟨2, ![m, n]⟩) ![o, 0] (⟨2, ![k, n]⟩ : Shape).size inb).emb (ix2 (⟨r.val - o, by omega⟩ : Fin k) g)
      = ix2 r g := by
    funext a; apply Fin.ext
    match a with
    | ⟨0, _⟩ => show o + 1 * (r.val - o) = r.val; omega
    | ⟨1, _⟩ => show 0 + 1 * g.val = g.val; omega
  rw [← he]
  exact View.canon_cons_emb (Rect.unit (s := ⟨2, ![m, n]⟩) ![o, 0] (⟨2, ![k, n]⟩ : Shape).size inb) w L _

/-- The newest piece does not hold row r: the contents there are what the older pieces left. -/
theorem canon_rows_miss {k : ℕ} (o : ℕ)
    (inb : ∀ a, (![o, 0] : Fin 2 → ℕ) a + (⟨2, ![k, n]⟩ : Shape).size a ≤ (⟨2, ![m, n]⟩ : Shape).size a)
    (w : (⟨2, ![k, n]⟩ : Shape).Idx → Val e) (L : List (View.Piece Val ⟨2, ![m, n]⟩ e)) (r : Fin m) (g : Fin n)
    (h : r.val < o ∨ o + k ≤ r.val) :
    View.canon ((⟨Rect.unit (s := ⟨2, ![m, n]⟩) ![o, 0] (⟨2, ![k, n]⟩ : Shape).size inb, w⟩ : View.Piece Val ⟨2, ![m, n]⟩ e) :: L)
        (ix2 r g)
      = View.canon L (ix2 r g) := by
  refine View.canon_cons_of_not_mem _ L ?_
  show ix2 r g ∉ (Rect.unit (s := ⟨2, ![m, n]⟩) ![o, 0] (⟨2, ![k, n]⟩ : Shape).size inb).set
  rw [Rect.mem_set_unit]
  intro hh
  have h0 := hh (0 : Fin 2)
  have e1 : ((ix2 r g : (⟨2, ![m, n]⟩ : Shape).Idx) (0 : Fin 2) : ℕ) = r.val := rfl
  have e2 : (![o, 0] : Fin 2 → ℕ) (0 : Fin 2) = o := rfl
  have e3 : (⟨2, ![k, n]⟩ : Shape).size (0 : Fin 2) = k := rfl
  rw [e1, e2, e3] at h0
  omega

/-- A load of k' whole rows from row o', after the writes L, read at (j, g): the contents at row o' + j. -/
theorem readCov_rows {sig : RefSig} {κ : Kind} {sp : Space} {k' : ℕ} (v : View sig κ sp ⟨2, ![m, n]⟩ e)
    (L : List (View.Piece Val ⟨2, ![m, n]⟩ e)) (o' : ℕ)
    (inb' : ∀ a, (![o', 0] : Fin 2 → ℕ) a + (⟨2, ![k', n]⟩ : Shape).size a ≤ (⟨2, ![m, n]⟩ : Shape).size a)
    (j : Fin k') (g : Fin n) (r : Fin m) (hr : r.val = o' + j.val) :
    v.readCov L (Rect.unit (s := ⟨2, ![m, n]⟩) ![o', 0] (⟨2, ![k', n]⟩ : Shape).size inb').toLoadRect (ix2 j g)
      = View.canon L (ix2 r g) := by
  rw [View.readCov_eq_canon']
  refine congrArg (View.canon L) ?_
  funext a; apply Fin.ext
  match a with
  | ⟨0, _⟩ => show o' + 1 * j.val = r.val; omega
  | ⟨1, _⟩ => show 0 + 1 * g.val = g.val; omega

/-- A [2, 1, N, c] buffer written one [1, 1, N, c] stack at a time: the newest piece is stack s. -/
theorem canon_stack_hit {N c : ℕ} (s0 : ℕ)
    (inb : ∀ a, (![s0, 0, 0, 0] : Fin 4 → ℕ) a + (![1, 1, N, c] : Fin 4 → ℕ) a ≤ (⟨4, ![2, 1, N, c]⟩ : Shape).size a)
    (w : (⟨4, ![1, 1, N, c]⟩ : Shape).Idx → Val e) (L : List (View.Piece Val ⟨4, ![2, 1, N, c]⟩ e))
    (s : Fin 2) (node : Fin N) (d : Fin c) (hs : s.val = s0) :
    View.canon ((⟨Rect.unit (s := ⟨4, ![2, 1, N, c]⟩) ![s0, 0, 0, 0] ![1, 1, N, c] inb, w⟩ : View.Piece Val ⟨4, ![2, 1, N, c]⟩ e) :: L)
        (ix4 s (0 : Fin 1) node d)
      = w (ix4 (0 : Fin 1) (0 : Fin 1) node d) := by
  have he : (Rect.unit (s := ⟨4, ![2, 1, N, c]⟩) ![s0, 0, 0, 0] ![1, 1, N, c] inb).emb (ix4 (0 : Fin 1) (0 : Fin 1) node d)
      = ix4 s (0 : Fin 1) node d := by
    funext a; apply Fin.ext
    match a with
    | ⟨0, _⟩ => show s0 + 1 * 0 = s.val; omega
    | ⟨1, _⟩ => show 0 + 1 * 0 = 0; rfl
    | ⟨2, _⟩ => show 0 + 1 * node.val = node.val; omega
    | ⟨3, _⟩ => show 0 + 1 * d.val = d.val; omega
  rw [← he]
  exact View.canon_cons_emb (Rect.unit (s := ⟨4, ![2, 1, N, c]⟩) ![s0, 0, 0, 0] ![1, 1, N, c] inb) w L _

/-- The newest piece is the other stack: the contents are what the older pieces left. -/
theorem canon_stack_miss {N c : ℕ} (s0 : ℕ)
    (inb : ∀ a, (![s0, 0, 0, 0] : Fin 4 → ℕ) a + (![1, 1, N, c] : Fin 4 → ℕ) a ≤ (⟨4, ![2, 1, N, c]⟩ : Shape).size a)
    (w : (⟨4, ![1, 1, N, c]⟩ : Shape).Idx → Val e) (L : List (View.Piece Val ⟨4, ![2, 1, N, c]⟩ e))
    (s : Fin 2) (node : Fin N) (d : Fin c) (hs : s.val ≠ s0) :
    View.canon ((⟨Rect.unit (s := ⟨4, ![2, 1, N, c]⟩) ![s0, 0, 0, 0] ![1, 1, N, c] inb, w⟩ : View.Piece Val ⟨4, ![2, 1, N, c]⟩ e) :: L)
        (ix4 s (0 : Fin 1) node d)
      = View.canon L (ix4 s (0 : Fin 1) node d) := by
  refine View.canon_cons_of_not_mem _ L ?_
  show ix4 s (0 : Fin 1) node d ∉ (Rect.unit (s := ⟨4, ![2, 1, N, c]⟩) ![s0, 0, 0, 0] ![1, 1, N, c] inb).set
  rw [Rect.mem_set_unit]
  intro hh
  have h0 := hh (0 : Fin 4)
  have e1 : ((ix4 s (0 : Fin 1) node d : (⟨4, ![2, 1, N, c]⟩ : Shape).Idx) (0 : Fin 4) : ℕ) = s.val := rfl
  have e2 : (![s0, 0, 0, 0] : Fin 4 → ℕ) (0 : Fin 4) = s0 := rfl
  have e3 : (![1, 1, N, c] : Fin 4 → ℕ) (0 : Fin 4) = 1 := rfl
  rw [e1, e2, e3] at h0
  omega

/-- An [N, c] array given two leading unit axes: the entries are the same. -/
theorem shapeCast_ab_11ab_apply {α : Type} {N c : ℕ} (x : (⟨2, ![N, c]⟩ : Shape).Idx → α)
    (h : (⟨2, ![N, c]⟩ : Shape).ShapeCasts ⟨4, ![1, 1, N, c]⟩) (u v : Fin 1) (node : Fin N) (d : Fin c) :
    shapeCast ⟨4, ![1, 1, N, c]⟩ x h (ix4 u v node d) = x (ix2 node d) :=
  shapeCast_apply x h _ _ (by
    have hu : u.val = 0 := by omega
    have hv : v.val = 0 := by omega
    rw [Shape.rowMajor_val_four, Shape.rowMajor_val_two]
    show node.val * c + d.val = ((u.val * 1 + v.val) * N + node.val) * c + d.val
    rw [hu, hv]; simp)

end Cert.KCanon

end
-- ==== Proof.LibWholeLoads.lean ====
/-
  Loads through whole staging buffers, read at an index.

  A staging buffer that is a whole memref holds exactly the block it was handed; a load of all of it reads that block, and a
  load of a range of rows of a [1, N, c] block reads the block at those rows.
-/
import Idealize.ShloMosaic.Lib.Pipeline.Value
import Idealize.ShloMosaic.Lib.Pipeline.Frame
import Idealize.ShloMosaic.Lib.Pipeline.FrameBody
import Idealize.ShloMosaic.Lib.ValueIdx

noncomputable section

namespace Cert.KLoads

open Idealize.ShloMosaic Idealize.ShloMosaic.ValueIdx

variable {sig : RefSig} {κ : Kind} {sp : Space} {e : EltTy} {Val : EltTy → Type}

/-- A load of the whole buffer reads its contents. -/
theorem load_whole {S : Shape} (m : Memref sig κ sp S e) (h : m.IsWhole) (x : S.Idx → Val e) {off : Fin S.rank → ℕ}
    (hz : off = fun _ => 0) (inb : ∀ a, off a + S.size a ≤ S.size a) :
    m.view.readAt Val (Rect.unit off S.size inb).toLoadRect (h.unread x) = x := by
  rw [View.readAt_eq_ld, h.read_unread, View.ld_unit_zero hz]

/-- A load of k whole rows of a [1, N, c] block from row o, read at (0, j, q): the block at row o + j. -/
theorem load_rows3 {N c k : ℕ} (m : Memref sig κ sp ⟨3, ![1, N, c]⟩ e) (h : m.IsWhole)
    (x : (⟨3, ![1, N, c]⟩ : Shape).Idx → Val e) (o : ℕ)
    (inb : ∀ a, (![0, o, 0] : Fin 3 → ℕ) a + (⟨3, ![1, k, c]⟩ : Shape).size a ≤ (⟨3, ![1, N, c]⟩ : Shape).size a)
    (j : Fin k) (q : Fin c) (r : Fin N) (hr : r.val = o + j.val) :
    m.view.readAt Val (Rect.unit (s := ⟨3, ![1, N, c]⟩) ![0, o, 0] (⟨3, ![1, k, c]⟩ : Shape).size inb).toLoadRect (h.unread x)
        (ix3 (0 : Fin 1) j q)
      = x (ix3 (0 : Fin 1) r q) := by
  rw [View.readAt_eq_ld, h.read_unread]
  show x _ = _
  refine congrArg x ?_
  funext a; apply Fin.ext
  match a with
  | ⟨0, _⟩ => show 0 + 1 * 0 = 0; rfl
  | ⟨1, _⟩ => show o + 1 * j.val = r.val; omega
  | ⟨2, _⟩ => show 0 + 1 * q.val = q.val; omega

end Cert.KLoads

end
-- ==== Proof.LibLayout.lean ====
/-
  Layout operations read at an index, for the shapes a row-batched kernel meets: a stack [a, b, c] of b rows per
  member flattened to [a·b, c] and back (row p·b + n of the flat array is row n of member p), a per-member row [a, c]
  given a unit middle axis [a, 1, c] and broadcast over the b rows of its member, and a vector [a] stood up as a
  column [a, 1].  Row-major order: the position of (p, n, d) in [a, b, c] is (p·b + n)·c + d.
-/
import Idealize.ShloMosaic.Lib.Pipeline.Value
import Idealize.ShloMosaic.Lib.ValueIdx
import Idealize.ShloMosaic.Lib.ValueLayout

noncomputable section

namespace Cert.LibLayout

open Idealize.ShloMosaic Idealize.ShloMosaic.ValueIdx

variable {α : Type}

/-- [a, b, c] flattened to [m, c] with m = a·b: row r = p·b + n of the result is row n of member p. -/
theorem shapeCast_abc_mc_apply {a b c m : ℕ} (x : (⟨3, ![a, b, c]⟩ : Shape).Idx → α)
    (h : (⟨3, ![a, b, c]⟩ : Shape).ShapeCasts ⟨2, ![m, c]⟩) (r : Fin m) (p : Fin a) (n : Fin b) (d : Fin c)
    (hr : r.val = p.val * b + n.val) : shapeCast ⟨2, ![m, c]⟩ x h (ix2 r d) = x (ix3 p n d) :=
  shapeCast_apply x h _ _ (by
    rw [Shape.rowMajor_val_three, Shape.rowMajor_val_two]
    show (p.val * b + n.val) * c + d.val = r.val * c + d.val
    rw [hr])

/-- [m, c] with m = a·b split to [a, b, c]: row n of member p is row r = p·b + n of the operand. -/
theorem shapeCast_mc_abc_apply {a b c m : ℕ} (x : (⟨2, ![m, c]⟩ : Shape).Idx → α)
    (h : (⟨2, ![m, c]⟩ : Shape).ShapeCasts ⟨3, ![a, b, c]⟩) (r : Fin m) (p : Fin a) (n : Fin b) (d : Fin c)
    (hr : r.val = p.val * b + n.val) : shapeCast ⟨3, ![a, b, c]⟩ x h (ix3 p n d) = x (ix2 r d) :=
  shapeCast_apply x h _ _ (by
    rw [Shape.rowMajor_val_three, Shape.rowMajor_val_two]
    show r.val * c + d.val = (p.val * b + n.val) * c + d.val
    rw [hr])

/-- [a, c] given a unit middle axis [a, 1, c]: the entries are the same. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (d : Fin c) :
    shapeCast ⟨3, ![a, 1, c]⟩ x h (ix3 p u d) = x (ix2 p d) :=
  shapeCast_apply x h _ _ (by
    have hu : u.val = 0 := by omega
    rw [Shape.rowMajor_val_three, Shape.rowMajor_val_two]
    show p.val * c + d.val = (p.val * 1 + u.val) * c + d.val
    rw [hu, Nat.mul_one, Nat.add_zero])

/-- [a, 1, c] broadcast over the middle axis to [a, b, c]: every row n of member p is the member's one row. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (n : Fin b) (d : Fin c) :
    broadcastTo ⟨3, ![a, b, c]⟩ v h (ix3 p n d) = v (ix3 p (0 : Fin 1) d) := by
  refine broadcastTo_apply v h (ix3 p n d) (ix3 p (0 : Fin 1) d) fun ax => ?_
  match ax with
  | ⟨0, _⟩ =>
    show p.val = if a = 1 then 0 else p.val
    split
    · have := p.isLt; omega
    · rfl
  | ⟨1, _⟩ => rfl
  | ⟨2, _⟩ =>
    show d.val = if c = 1 then 0 else d.val
    split
    · have := d.isLt; omega
    · rfl

/-- A per-member row [a, c] given a unit middle axis and broadcast over its member's b rows: entry (p, n, d) is the
    member's entry (p, d). -/
theorem keep_apply {a b c : ℕ} (x : (⟨2, ![a, c]⟩ : Shape).Idx → α)
    (h1 : (⟨2, ![a, c]⟩ : Shape).ShapeCasts ⟨3, ![a, 1, c]⟩) (h2 : (⟨3, ![a, 1, c]⟩ : Shape).Broadcasts ⟨3, ![a, b, c]⟩)
    (p : Fin a) (n : Fin b) (d : Fin c) :
    broadcastTo ⟨3, ![a, b, c]⟩ (shapeCast ⟨3, ![a, 1, c]⟩ x h1) h2 (ix3 p n d) = x (ix2 p d) := by
  rw [broadcastTo_a1c_abc_apply, shapeCast_ac_a1c_apply]

/-- A vector [a] stood up as a column [a, 1]. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A bias vector [b] as a row [1, b] broadcast down a rows: entry (p, q) is the bias at q. -/
theorem bias_apply {a b : ℕ} (x : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (p : Fin a) (q : Fin b) :
    broadcastTo ⟨2, ![a, b]⟩ (shapeCast ⟨2, ![1, b]⟩ x h1) h2 (ix2 p q) = x (ix1 q) := by
  rw [broadcastTo_1b_ab_apply, shapeCast_a_1a_apply]

end Cert.LibLayout

end
-- ==== Proof.LibPlainDot.lean ====
/-
  A plain matrix product read at an entry, at the ideal values.

  A kernel's `tpu.matmul` of an M×K by a K×N matrix (contract the left operand's columns against the right operand's rows,
  no batch axis) into the zero splat is, at the entry (a, b), the sum over the contracted coordinate c of
  `A (a, c) · B (c, b)`: no rounding, no chunk order. In particular an entry of the product reads only row `a` of the
  left operand — rows of the left operand that hold nothing meaningful spoil only their own rows of the product.
-/
import Idealize.ShloMosaic.Lib.ValueIdx
import Idealize.ShloMosaic.Lib.Pipeline.Value
import Idealize.ShloMosaic.PureOps.Ideal.Laws

noncomputable section

namespace Cert.PlainDot

open Idealize.ShloMosaic Idealize.ShloMosaic.ValueIdx

/-- A kernel's plain product of an M×K by a K×N matrix into the zero splat, read at an entry, is the sum over the
    contracted coordinate of the products of the entries. At the ideal values. -/
theorem matmul_zero_plain_apply {M K N : ℕ} {φ₁ φ₂ : FTy} (prec : Option ContractPrecision)
    (A : FVec Ideal ⟨2, ![M, K]⟩ φ₁) (B : FVec Ideal ⟨2, ![K, N]⟩ φ₂) (a : Fin M) (b : Fin N) :
    matmul (DotDims.plain M K N) prec A B (constant (F := Ideal) ⟨2, ![M, N]⟩ .f32 0x00000000#32) (ix2 a b)
      = ∑ c : Fin K, A (ix2 a c) * B (ix2 c b) := by
  show FloatOps.matmul _ prec A B _ (ix2 a b) = _
  rw [Ideal.matmul_constant_zero_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

end Cert.PlainDot

end
-- ==== Proof.KStep.lean ====
/-
  One level of the tree recurrence as the kernel's vector operations compute it, read at an index.

  The kernel holds a level's children as a [2n, 128] array (row r = child r), views it as [n, 256] (row j = the two
  children of node j side by side), multiplies by the transposed weights, adds the bias row, and views gates and cells
  as [n, 2, 128] to sum the gated child cells over the middle axis. Each lemma reads one of these vector terms at an
  entry and names the result in the plain functions of the specification; the hypotheses say what the operands are at
  their entries, so the lemmas chain in any grouping.
-/
import proofs.«149831_j26912265077353_2_alg».proof.Proof.Spec
import proofs.«149831_j26912265077353_2_alg».proof.Proof.LibLayout
import proofs.«149831_j26912265077353_2_alg».proof.Proof.LibPlainDot
import Idealize.ShloMosaic.Lib.ValueLayout
import Idealize.ShloMosaic.Lib.Pipeline.Value
import Idealize.ShloMosaic.PureOps.Ideal.Laws

noncomputable section

namespace Cert.KStep

open Idealize.ShloMosaic Idealize.ShloMosaic.ValueIdx Cert.TreeSpec

variable {n m : ℕ} (hm : m = 2 * n)

/-- The children array [m, 128] viewed as [n, 256]: entry (j, k) is child 2j + k / 128 of the level below, lane k % 128. -/
theorem hcat_apply (hc : FVec Ideal ⟨2, ![m, 128]⟩ .f32) (h : (⟨2, ![m, 128]⟩ : Shape).ShapeCasts ⟨2, ![n, 256]⟩)
    (hlt : FTy.bf16.bits < FTy.f32.bits) (H : Fin m → Fin 128 → EReal) (hH : ∀ r d, hc (ix2 r d) = H r d) (j : Fin n) (k : Fin 256) :
    (truncf .bf16 (shapeCast ⟨2, ![n, 256]⟩ hc h) hlt : FVec Ideal ⟨2, ![n, 256]⟩ .bf16) (ix2 j k) = hcat hm H j k := by
  rw [truncf_apply]
  have hj := j.isLt; have hk := k.isLt
  rw [shapeCast_apply hc h (ix2 j k) (ix2 ⟨2 * j.val + k.val / 128, by omega⟩ ⟨k.val % 128, by omega⟩) (by
    rw [Shape.rowMajor_val_two, Shape.rowMajor_val_two]
    show (2 * j.val + k.val / 128) * 128 + k.val % 128 = j.val * 256 + k.val
    omega)]
  exact hH _ _

/-- The forget gates: σ of (children side by side) · U_fᵀ + b_f, with the bias row broadcast down the n rows. -/
theorem fgate_apply (HC : FVec Ideal ⟨2, ![n, 256]⟩ .bf16) (UfT : FVec Ideal ⟨2, ![256, 256]⟩ .bf16)
    (ufb : FVec Ideal ⟨1, ![256]⟩ .f32)
    (h1 : (⟨1, ![256]⟩ : Shape).ShapeCasts ⟨2, ![1, 256]⟩) (h2 : (⟨2, ![1, 256]⟩ : Shape).Broadcasts ⟨2, ![n, 256]⟩)
    (H : Fin m → Fin 128 → EReal) (Ufw : Fin 256 → Fin 256 → EReal) (Ufb : Fin 256 → EReal)
    (hHC : ∀ j k, HC (ix2 j k) = hcat hm H j k) (hU : ∀ k q, UfT (ix2 k q) = Ufw q k) (hb : ∀ q, ufb (ix1 q) = Ufb q)
    (j : Fin n) (q : Fin 256) :
    logistic (addf (matmul (DotDims.plain n 256 256) none HC UfT (constant (F := Ideal) ⟨2, ![n, 256]⟩ .f32 0x00000000#32))
        (broadcastTo ⟨2, ![n, 256]⟩ (shapeCast ⟨2, ![1, 256]⟩ ufb h1) h2)) (ix2 j q)
      = fgate hm H Ufw Ufb j q := by
  show Ideal.logistic (matmul (DotDims.plain n 256 256) none HC UfT _ (ix2 j q) + broadcastTo _ _ h2 (ix2 j q)) = _
  rw [Cert.PlainDot.matmul_zero_plain_apply, Cert.LibLayout.bias_apply, hb]
  unfold fgate
  refine congrArg (fun s => Ideal.logistic (s + Ufb q)) (Finset.sum_congr rfl fun k _ => ?_)
  rw [hHC, hU]

/-- The same with a single row (n = 1), where the bias row needs no broadcast. -/
theorem fgate_apply_one (HC : FVec Ideal ⟨2, ![1, 256]⟩ .bf16) (UfT : FVec Ideal ⟨2, ![256, 256]⟩ .bf16)
    (ufb : FVec Ideal ⟨1, ![256]⟩ .f32) (h1 : (⟨1, ![256]⟩ : Shape).ShapeCasts ⟨2, ![1, 256]⟩)
    {m : ℕ} (hm : m = 2 * 1)
    (H : Fin m → Fin 128 → EReal) (Ufw : Fin 256 → Fin 256 → EReal) (Ufb : Fin 256 → EReal)
    (hHC : ∀ j k, HC (ix2 j k) = hcat hm H j k) (hU : ∀ k q, UfT (ix2 k q) = Ufw q k) (hb : ∀ q, ufb (ix1 q) = Ufb q)
    (j : Fin 1) (q : Fin 256) :
    logistic (addf (matmul (DotDims.plain 1 256 256) none HC UfT (constant (F := Ideal) ⟨2, ![1, 256]⟩ .f32 0x00000000#32))
        (shapeCast ⟨2, ![1, 256]⟩ ufb h1)) (ix2 j q)
      = fgate hm H Ufw Ufb j q := by
  show Ideal.logistic (matmul (DotDims.plain 1 256 256) none HC UfT _ (ix2 j q) + shapeCast _ ufb h1 (ix2 j q)) = _
  rw [Cert.PlainDot.matmul_zero_plain_apply, shapeCast_a_1a_apply, hb]
  unfold fgate
  refine congrArg (fun s => Ideal.logistic (s + Ufb q)) (Finset.sum_congr rfl fun k _ => ?_)
  rw [hHC, hU]

/-- The gated child cells summed over the two children: gates [n, 256] and cells [m, 128] both viewed as [n, 2, 128]. -/
theorem cred_apply (f : FVec Ideal ⟨2, ![n, 256]⟩ .f32) (cc : FVec Ideal ⟨2, ![m, 128]⟩ .f32)
    (hf : (⟨2, ![n, 256]⟩ : Shape).ShapeCasts ⟨3, ![n, 2, 128]⟩) (hcc : (⟨2, ![m, 128]⟩ : Shape).ShapeCasts ⟨3, ![n, 2, 128]⟩)
    (hred : (⟨3, ![n, 2, 128]⟩ : Shape).Reduces [(1 : Fin 3)] ⟨2, ![n, 128]⟩) (hφ : FKind.Formats .f32)
    (hacc : (0x00000000#32 : BitVec 32) = FKind.add.neutral .f32 hφ)
    (H C : Fin m → Fin 128 → EReal) (Ufw : Fin 256 → Fin 256 → EReal) (Ufb : Fin 256 → EReal)
    (hfg : ∀ j q, f (ix2 j q) = fgate hm H Ufw Ufb j q) (hC : ∀ r d, cc (ix2 r d) = C r d) (j : Fin n) (d : Fin 128) :
    multiReduction .add [(1 : Fin 3)] ⟨2, ![n, 128]⟩
        (mulf (shapeCast ⟨3, ![n, 2, 128]⟩ f hf) (shapeCast ⟨3, ![n, 2, 128]⟩ cc hcc)) 0x00000000#32 hred hφ hacc (ix2 j d)
      = TreeSpec.cred hm H C Ufw Ufb j d := by
  rw [Ideal.multiReduction_add_single]
  show (∑ a : Fin 2, mulf (shapeCast ⟨3, ![n, 2, 128]⟩ f hf) (shapeCast ⟨3, ![n, 2, 128]⟩ cc hcc) (hred.lift (ix2 j d) a)) = _
  unfold TreeSpec.cred
  refine Finset.sum_congr rfl fun a _ => ?_
  have hj := j.isLt; have ha := a.isLt
  have hl : hred.lift (ix2 j d) a = ix3 j a d := by
    funext ax
    match ax with
    | ⟨0, _⟩ => rfl
    | ⟨1, _⟩ => rfl
    | ⟨2, _⟩ => rfl
  rw [hl]
  show shapeCast ⟨3, ![n, 2, 128]⟩ f hf (ix3 j a d) * shapeCast ⟨3, ![n, 2, 128]⟩ cc hcc (ix3 j a d) = _
  rw [shapeCast_apply f hf (ix3 j a d) (ix2 j ⟨a.val * 128 + d.val, by omega⟩) (by
      rw [Shape.rowMajor_val_two, Shape.rowMajor_val_three]
      show j.val * 256 + (a.val * 128 + d.val) = (j.val * 2 + a.val) * 128 + d.val
      omega),
    shapeCast_apply cc hcc (ix3 j a d) (ix2 ⟨2 * j.val + a.val, by omega⟩ d) (by
      rw [Shape.rowMajor_val_two, Shape.rowMajor_val_three]
      show (2 * j.val + a.val) * 128 + d.val = (j.val * 2 + a.val) * 128 + d.val
      omega), hfg, hC]

/-- The pre-activation rows: x-part + (children side by side) · U_iouᵀ + b_iou. -/
theorem pre_apply (ioux : FVec Ideal ⟨2, ![n, 384]⟩ .f32) (HC : FVec Ideal ⟨2, ![n, 256]⟩ .bf16)
    (UiT : FVec Ideal ⟨2, ![256, 384]⟩ .bf16) (bi : FVec Ideal ⟨1, ![384]⟩ .f32)
    (h1 : (⟨1, ![384]⟩ : Shape).ShapeCasts ⟨2, ![1, 384]⟩) (h2 : (⟨2, ![1, 384]⟩ : Shape).Broadcasts ⟨2, ![n, 384]⟩)
    (X : Fin n → Fin 384 → EReal) (H : Fin m → Fin 128 → EReal) (Uiou : Fin 384 → Fin 256 → EReal) (biou : Fin 384 → EReal)
    (hX : ∀ j g, ioux (ix2 j g) = X j g) (hHC : ∀ j k, HC (ix2 j k) = hcat hm H j k)
    (hU : ∀ k g, UiT (ix2 k g) = Uiou g k) (hb : ∀ g, bi (ix1 g) = biou g) (j : Fin n) (g : Fin 384) :
    addf (addf ioux (matmul (DotDims.plain n 256 384) none HC UiT (constant (F := Ideal) ⟨2, ![n, 384]⟩ .f32 0x00000000#32)))
        (broadcastTo ⟨2, ![n, 384]⟩ (shapeCast ⟨2, ![1, 384]⟩ bi h1) h2) (ix2 j g)
      = preOf hm X H Uiou biou j g := by
  show (ioux (ix2 j g) + matmul (DotDims.plain n 256 384) none HC UiT _ (ix2 j g)) + broadcastTo _ _ h2 (ix2 j g) = _
  rw [Cert.PlainDot.matmul_zero_plain_apply, Cert.LibLayout.bias_apply, hb, hX]
  unfold preOf
  refine congrArg (fun s => (X j g + s) + biou g) (Finset.sum_congr rfl fun k _ => ?_)
  rw [hHC, hU]

/-- The same with a single row (n = 1), where the bias row needs no broadcast. -/
theorem pre_apply_one (ioux : FVec Ideal ⟨2, ![1, 384]⟩ .f32) (HC : FVec Ideal ⟨2, ![1, 256]⟩ .bf16)
    (UiT : FVec Ideal ⟨2, ![256, 384]⟩ .bf16) (bi : FVec Ideal ⟨1, ![384]⟩ .f32)
    (h1 : (⟨1, ![384]⟩ : Shape).ShapeCasts ⟨2, ![1, 384]⟩) {m : ℕ} (hm : m = 2 * 1)
    (X : Fin 1 → Fin 384 → EReal) (H : Fin m → Fin 128 → EReal) (Uiou : Fin 384 → Fin 256 → EReal) (biou : Fin 384 → EReal)
    (hX : ∀ j g, ioux (ix2 j g) = X j g) (hHC : ∀ j k, HC (ix2 j k) = hcat hm H j k)
    (hU : ∀ k g, UiT (ix2 k g) = Uiou g k) (hb : ∀ g, bi (ix1 g) = biou g) (j : Fin 1) (g : Fin 384) :
    addf (addf ioux (matmul (DotDims.plain 1 256 384) none HC UiT (constant (F := Ideal) ⟨2, ![1, 384]⟩ .f32 0x00000000#32)))
        (shapeCast ⟨2, ![1, 384]⟩ bi h1) (ix2 j g)
      = preOf hm X H Uiou biou j g := by
  show (ioux (ix2 j g) + matmul (DotDims.plain 1 256 384) none HC UiT _ (ix2 j g)) + shapeCast _ bi h1 (ix2 j g) = _
  rw [Cert.PlainDot.matmul_zero_plain_apply, shapeCast_a_1a_apply, hb, hX]
  unfold preOf
  refine congrArg (fun s => (X j g + s) + biou g) (Finset.sum_congr rfl fun k _ => ?_)
  rw [hHC, hU]

/-- A node's cell from the three gate column blocks of its pre-activation row and the children's gated cell sum. -/
theorem cell_apply (pre : FVec Ideal ⟨2, ![n, 384]⟩ .f32) (cr : FVec Ideal ⟨2, ![n, 128]⟩ .f32)
    (hs0 : (⟨2, ![n, 384]⟩ : Shape).Slices ![0, 0] ⟨2, ![n, 128]⟩) (hs2 : (⟨2, ![n, 384]⟩ : Shape).Slices ![0, 256] ⟨2, ![n, 128]⟩)
    (P : Fin n → Fin 384 → EReal) (hP : ∀ j g, pre (ix2 j g) = P j g) (j : Fin n) (d : Fin 128) :
    addf (mulf (logistic (extractStridedSlice ⟨2, ![n, 128]⟩ ![0, 0] pre hs0))
        (tanh (extractStridedSlice ⟨2, ![n, 128]⟩ ![0, 256] pre hs2))) cr (ix2 j d)
      = cellOf (P j) (cr (ix2 j d)) d := by
  have hd := d.isLt
  show Ideal.logistic (extractStridedSlice _ ![0, 0] pre hs0 (ix2 j d)) * Ideal.tanh (extractStridedSlice _ ![0, 256] pre hs2 (ix2 j d))
      + cr (ix2 j d) = _
  rw [slice2_axis1_apply 0 pre hs0 j d ⟨d.val, by omega⟩ (by simp),
    slice2_axis1_apply 256 pre hs2 j d ⟨256 + d.val, by omega⟩ rfl, hP, hP]
  rfl

/-- A node's hidden state from the output-gate column block of its pre-activation row and its cell. -/
theorem hid_apply (pre : FVec Ideal ⟨2, ![n, 384]⟩ .f32) (cv : FVec Ideal ⟨2, ![n, 128]⟩ .f32)
    (hs1 : (⟨2, ![n, 384]⟩ : Shape).Slices ![0, 128] ⟨2, ![n, 128]⟩)
    (P : Fin n → Fin 384 → EReal) (hP : ∀ j g, pre (ix2 j g) = P j g) (j : Fin n) (d : Fin 128) :
    mulf (logistic (extractStridedSlice ⟨2, ![n, 128]⟩ ![0, 128] pre hs1)) (tanh cv) (ix2 j d)
      = hidOf (P j) (cv (ix2 j d)) d := by
  have hd := d.isLt
  show Ideal.logistic (extractStridedSlice _ ![0, 128] pre hs1 (ix2 j d)) * Ideal.tanh (cv (ix2 j d)) = _
  rw [slice2_axis1_apply 128 pre hs1 j d ⟨128 + d.val, by omega⟩ rfl, hP]
  rfl

/-- Rows of x times W_iouᵀ: a [1, n, 128] block of x viewed as [n, 128], entry (j, g) of the product. -/
theorem xw_apply {n : ℕ} (x3 : FVec Ideal ⟨3, ![1, n, 128]⟩ .f32) (h : (⟨3, ![1, n, 128]⟩ : Shape).ShapeCasts ⟨2, ![n, 128]⟩)
    (hlt : FTy.bf16.bits < FTy.f32.bits) (WT : FVec Ideal ⟨2, ![128, 384]⟩ .bf16)
    (X : Fin n → Fin 128 → EReal) (W : Fin 384 → Fin 128 → EReal)
    (hx : ∀ j k, x3 (ix3 (0 : Fin 1) j k) = X j k) (hW : ∀ k g, WT (ix2 k g) = W g k) (j : Fin n) (g : Fin 384) :
    matmul (DotDims.plain n 128 384) none (truncf .bf16 (shapeCast ⟨2, ![n, 128]⟩ x3 h) hlt : FVec Ideal ⟨2, ![n, 128]⟩ .bf16) WT
        (constant (F := Ideal) ⟨2, ![n, 384]⟩ .f32 0x00000000#32) (ix2 j g)
      = ∑ k : Fin 128, X j k * W g k := by
  rw [Cert.PlainDot.matmul_zero_plain_apply]
  refine Finset.sum_congr rfl fun k _ => ?_
  rw [truncf_apply, shapeCast_1ab_ab_apply, hx, hW]

/-- A leaf's pre-activation row: its x-part plus the bias row broadcast down the rows. -/
theorem leafpre_apply {n : ℕ} (xw : FVec Ideal ⟨2, ![n, 384]⟩ .f32) (bi : FVec Ideal ⟨1, ![384]⟩ .f32)
    (h1 : (⟨1, ![384]⟩ : Shape).ShapeCasts ⟨2, ![1, 384]⟩) (h2 : (⟨2, ![1, 384]⟩ : Shape).Broadcasts ⟨2, ![n, 384]⟩)
    (X : Fin n → Fin 384 → EReal) (biou : Fin 384 → EReal)
    (hX : ∀ j g, xw (ix2 j g) = X j g) (hb : ∀ g, bi (ix1 g) = biou g) (j : Fin n) (g : Fin 384) :
    addf xw (broadcastTo ⟨2, ![n, 384]⟩ (shapeCast ⟨2, ![1, 384]⟩ bi h1) h2) (ix2 j g) = X j g + biou g := by
  show xw (ix2 j g) + broadcastTo _ _ h2 (ix2 j g) = _
  rw [Cert.LibLayout.bias_apply, hb, hX]

end Cert.KStep

end
-- ==== Proof.KLeaf.lean ====
/-
  The leaves and the x-part, as the kernel's payloads compute them, read at an entry.

  The kernel multiplies the internal nodes' rows of x (heap positions 0 … 4094) by W_iouᵀ once and keeps the product;
  the 4096 leaves' rows (positions 4095 … 8190) it multiplies, adds the bias row, and turns into cell and hidden state
  at once: a leaf has no children, so its cell is σ(i) · tanh(u) + 0.
-/
import proofs.«149831_j26912265077353_2_alg».proof.Proof.Gen.KernelIdeal.Skeleton
import proofs.«149831_j26912265077353_2_alg».proof.Proof.KStep

noncomputable section

namespace Cert.KLev

open Idealize.ShloMosaic Idealize.ShloMosaic.ValueIdx Cert.TreeSpec Cert.KernelIdeal Cert.KernelIdeal.Gen

/-- The kept product: row i of (x rows 0 … 4094) · W_iouᵀ. -/
theorem xpart (v2 : Vec Ideal S1x4095x128 .f32) (w1 : Vec Ideal S128x384 .bf16)
    (X : Fin 4095 → Fin 128 → EReal) (W : Fin 384 → Fin 128 → EReal)
    (hx : ∀ j k, v2 (ix3 (0 : Fin 1) j k) = X j k) (hW : ∀ k g, w1 (ix2 k g) = W g k) (i : Fin 4095) (g : Fin 384) :
    k0_pay2 (F := Ideal) v2 w1 (ix2 i g) = ∑ k : Fin 128, X i k * W g k := by
  unfold k0_pay2
  rw [shapeCast_self]
  exact Cert.KStep.xw_apply (n := 4095) v2 _ _ _ X W hx (fun k g => by rw [shapeCast_self]; exact hW k g) i g

/-- A leaf's pre-activation row. -/
theorem leafpre (b3 : Vec Ideal S384 .f32) (v11 : Vec Ideal S1x4096x128 .f32) (w1 : Vec Ideal S128x384 .bf16)
    (X : Fin 4096 → Fin 128 → EReal) (W : Fin 384 → Fin 128 → EReal) (biou : Fin 384 → EReal)
    (hx : ∀ j k, v11 (ix3 (0 : Fin 1) j k) = X j k) (hW : ∀ k g, w1 (ix2 k g) = W g k) (hb : ∀ g, b3 (ix1 g) = biou g)
    (j : Fin 4096) (g : Fin 384) :
    k0_pay3 (F := Ideal) b3 v11 w1 (ix2 j g) = (∑ k : Fin 128, X j k * W g k) + biou g := by
  unfold k0_pay3
  exact Cert.KStep.leafpre_apply (n := 4096) _ b3 _ _ (fun j g => ∑ k : Fin 128, X j k * W g k) biou
    (fun j g => Cert.KStep.xw_apply (n := 4096) v11 _ _ _ X W hx (fun k g => by rw [shapeCast_self]; exact hW k g) j g) hb j g

/-- A leaf's cell state. -/
theorem leafC (b3 : Vec Ideal S384 .f32) (v11 : Vec Ideal S1x4096x128 .f32) (w1 : Vec Ideal S128x384 .bf16)
    (X : Fin 4096 → Fin 128 → EReal) (W : Fin 384 → Fin 128 → EReal) (biou : Fin 384 → EReal)
    (hx : ∀ j k, v11 (ix3 (0 : Fin 1) j k) = X j k) (hW : ∀ k g, w1 (ix2 k g) = W g k) (hb : ∀ g, b3 (ix1 g) = biou g)
    (j : Fin 4096) (d : Fin 128) :
    k0_pay4 (F := Ideal) b3 v11 w1 (ix2 j d) = cellOf (fun g => (∑ k : Fin 128, X j k * W g k) + biou g) 0 d := by
  unfold k0_pay4
  refine (Cert.KStep.cell_apply (n := 4096) _ _ _ _ (fun j g => (∑ k : Fin 128, X j k * W g k) + biou g)
    (fun j g => leafpre b3 v11 w1 X W biou hx hW hb j g) j d).trans ?_
  show cellOf _ (Ideal.ofBits .f32 0x00000000#32) d = _
  rw [Ideal.ofBits_zero_f32]

/-- A leaf's hidden state. -/
theorem leafH (b3 : Vec Ideal S384 .f32) (v11 : Vec Ideal S1x4096x128 .f32) (w1 : Vec Ideal S128x384 .bf16)
    (X : Fin 4096 → Fin 128 → EReal) (W : Fin 384 → Fin 128 → EReal) (biou : Fin 384 → EReal)
    (hx : ∀ j k, v11 (ix3 (0 : Fin 1) j k) = X j k) (hW : ∀ k g, w1 (ix2 k g) = W g k) (hb : ∀ g, b3 (ix1 g) = biou g)
    (j : Fin 4096) (d : Fin 128) :
    k0_pay5 (F := Ideal) b3 v11 w1 (ix2 j d)
      = hidOf (fun g => (∑ k : Fin 128, X j k * W g k) + biou g)
          (cellOf (fun g => (∑ k : Fin 128, X j k * W g k) + biou g) 0 d) d := by
  unfold k0_pay5
  rw [shapeCast_self]
  refine (Cert.KStep.hid_apply (n := 4096) _ _ _ (fun j g => (∑ k : Fin 128, X j k * W g k) + biou g)
    (fun j g => leafpre b3 v11 w1 X W biou hx hW hb j g) j d).trans ?_
  rw [leafC b3 v11 w1 X W biou hx hW hb j d]

/-- The leaf cell as it is stored (a same-shape cast of it). -/
theorem leafCstored (b3 : Vec Ideal S384 .f32) (v11 : Vec Ideal S1x4096x128 .f32) (w1 : Vec Ideal S128x384 .bf16)
    (X : Fin 4096 → Fin 128 → EReal) (W : Fin 384 → Fin 128 → EReal) (biou : Fin 384 → EReal)
    (hx : ∀ j k, v11 (ix3 (0 : Fin 1) j k) = X j k) (hW : ∀ k g, w1 (ix2 k g) = W g k) (hb : ∀ g, b3 (ix1 g) = biou g)
    (j : Fin 4096) (d : Fin 128) :
    k0_pay6 (F := Ideal) (k0_pay4 (F := Ideal) b3 v11 w1) (ix2 j d)
      = cellOf (fun g => (∑ k : Fin 128, X j k * W g k) + biou g) 0 d := by
  unfold k0_pay6
  rw [shapeCast_self]
  exact leafC b3 v11 w1 X W biou hx hW hb j d

end Cert.KLev

end
-- ==== Proof.KLev11.lean ====
/-
  Level 11 of the tree (2048 nodes, 4096 children): the kernel's vector terms for the level's cell and hidden states,
  read at an entry, are one step of the recurrence applied to the children's rows.
-/
import proofs.«149831_j26912265077353_2_alg».proof.Proof.Gen.KernelIdeal.Skeleton
import proofs.«149831_j26912265077353_2_alg».proof.Proof.KStep

noncomputable section

namespace Cert.KLev

open Idealize.ShloMosaic Idealize.ShloMosaic.ValueIdx Cert.TreeSpec Cert.KernelIdeal Cert.KernelIdeal.Gen

/-- The children's hidden rows side by side, as the level's matrix products read them. -/
theorem hcat11 (vH : Vec Ideal S4096x128 .f32) (H : Fin 4096 → Fin 128 → EReal) (hH : ∀ r d, vH (ix2 r d) = H r d)
    (j : Fin 2048) (k : Fin 256) :
    (k0_pay7 (F := Ideal) vH) (ix2 j k) = hcat (by norm_num : 4096 = 2 * 2048) H j k :=
  Cert.KStep.hcat_apply (n := 2048) (m := 4096) (by norm_num : 4096 = 2 * 2048) vH _ _ H hH j k

/-- The level's pre-activation rows. -/
theorem pre11 (b3 : Vec Ideal S384 .f32) (b5 : Vec Ideal S256 .f32) (vH vC : Vec Ideal S4096x128 .f32) (w5 : Vec Ideal S256x256 .bf16)
    (vX : Vec Ideal S2048x384 .f32) (w3 : Vec Ideal S256x384 .bf16)
    (H C : Fin 4096 → Fin 128 → EReal) (X : Fin 2048 → Fin 384 → EReal) (Uiou : Fin 384 → Fin 256 → EReal) (biou : Fin 384 → EReal)
    (Ufw : Fin 256 → Fin 256 → EReal) (Ufb : Fin 256 → EReal)
    (hH : ∀ r d, vH (ix2 r d) = H r d) (hC : ∀ r d, vC (ix2 r d) = C r d) (hX : ∀ j g, vX (ix2 j g) = X j g)
    (hUf : ∀ k q, w5 (ix2 k q) = Ufw q k) (hUi : ∀ k g, w3 (ix2 k g) = Uiou g k) (hbi : ∀ g, b3 (ix1 g) = biou g) (hbf : ∀ q, b5 (ix1 q) = Ufb q)
    (j : Fin 2048) (g : Fin 384) :
    (k0_pay8 (F := Ideal) b3 vH vX w3) (ix2 j g) = preOf (by norm_num : 4096 = 2 * 2048) X H Uiou biou j g :=
  Cert.KStep.pre_apply (n := 2048) (m := 4096) (by norm_num : 4096 = 2 * 2048) vX (k0_pay7 (F := Ideal) vH) (shapeCast S256x384 w3 shapeCasts_S256x384_S256x384) b3 _ _
    X H Uiou biou hX (hcat11 vH H hH) (fun k g => by rw [shapeCast_self]; exact hUi k g) hbi j g

/-- The level's cell states. -/
theorem cell11 (b3 : Vec Ideal S384 .f32) (b5 : Vec Ideal S256 .f32) (vH vC : Vec Ideal S4096x128 .f32) (w5 : Vec Ideal S256x256 .bf16)
    (vX : Vec Ideal S2048x384 .f32) (w3 : Vec Ideal S256x384 .bf16)
    (H C : Fin 4096 → Fin 128 → EReal) (X : Fin 2048 → Fin 384 → EReal) (Uiou : Fin 384 → Fin 256 → EReal) (biou : Fin 384 → EReal)
    (Ufw : Fin 256 → Fin 256 → EReal) (Ufb : Fin 256 → EReal)
    (hH : ∀ r d, vH (ix2 r d) = H r d) (hC : ∀ r d, vC (ix2 r d) = C r d) (hX : ∀ j g, vX (ix2 j g) = X j g)
    (hUf : ∀ k q, w5 (ix2 k q) = Ufw q k) (hUi : ∀ k g, w3 (ix2 k g) = Uiou g k) (hbi : ∀ g, b3 (ix1 g) = biou g) (hbf : ∀ q, b5 (ix1 q) = Ufb q)
    (j : Fin 2048) (d : Fin 128) :
    (k0_pay9 (F := Ideal) b3 b5 vH vC w5 vX w3) (ix2 j d) = stepC (by norm_num : 4096 = 2 * 2048) X H C Uiou biou Ufw Ufb j d := by
  refine (Cert.KStep.cell_apply (n := 2048) (k0_pay8 (F := Ideal) b3 vH vX w3) _ _ _ (preOf (by norm_num : 4096 = 2 * 2048) X H Uiou biou)
    (pre11 b3 b5 vH vC w5 vX w3 H C X Uiou biou Ufw Ufb hH hC hX hUf hUi hbi hbf) j d).trans ?_
  unfold stepC
  refine congrArg (fun s => cellOf (preOf (by norm_num : 4096 = 2 * 2048) X H Uiou biou j) s d) ?_
  exact Cert.KStep.cred_apply (n := 2048) (m := 4096) (by norm_num : 4096 = 2 * 2048) _ vC _ _ _ _ _ H C Ufw Ufb
    (fun j q => Cert.KStep.fgate_apply (n := 2048) (m := 4096) (by norm_num : 4096 = 2 * 2048) (k0_pay7 (F := Ideal) vH) (shapeCast S256x256 w5 shapeCasts_S256x256_S256x256) b5 _ _
      H Ufw Ufb (hcat11 vH H hH) (fun k q => by rw [shapeCast_self]; exact hUf k q) hbf j q) hC j d

/-- The level's cell states as stored. -/
theorem c11 (b3 : Vec Ideal S384 .f32) (b5 : Vec Ideal S256 .f32) (vH vC : Vec Ideal S4096x128 .f32) (w5 : Vec Ideal S256x256 .bf16)
    (vX : Vec Ideal S2048x384 .f32) (w3 : Vec Ideal S256x384 .bf16)
    (H C : Fin 4096 → Fin 128 → EReal) (X : Fin 2048 → Fin 384 → EReal) (Uiou : Fin 384 → Fin 256 → EReal) (biou : Fin 384 → EReal)
    (Ufw : Fin 256 → Fin 256 → EReal) (Ufb : Fin 256 → EReal)
    (hH : ∀ r d, vH (ix2 r d) = H r d) (hC : ∀ r d, vC (ix2 r d) = C r d) (hX : ∀ j g, vX (ix2 j g) = X j g)
    (hUf : ∀ k q, w5 (ix2 k q) = Ufw q k) (hUi : ∀ k g, w3 (ix2 k g) = Uiou g k) (hbi : ∀ g, b3 (ix1 g) = biou g) (hbf : ∀ q, b5 (ix1 q) = Ufb q)
    (j : Fin 2048) (d : Fin 128) :
    k0_pay11 (F := Ideal) b3 b5 vH vC w5 vX w3 (ix2 j d) = Cert.TreeSpec.stepC (m := 4096) (by norm_num) X H C Uiou biou Ufw Ufb j d := by
  unfold k0_pay11
  rw [shapeCast_self]
  exact cell11 b3 b5 vH vC w5 vX w3 H C X Uiou biou Ufw Ufb hH hC hX hUf hUi hbi hbf j d

/-- The level's hidden states as stored. -/
theorem h11 (b3 : Vec Ideal S384 .f32) (b5 : Vec Ideal S256 .f32) (vH vC : Vec Ideal S4096x128 .f32) (w5 : Vec Ideal S256x256 .bf16)
    (vX : Vec Ideal S2048x384 .f32) (w3 : Vec Ideal S256x384 .bf16)
    (H C : Fin 4096 → Fin 128 → EReal) (X : Fin 2048 → Fin 384 → EReal) (Uiou : Fin 384 → Fin 256 → EReal) (biou : Fin 384 → EReal)
    (Ufw : Fin 256 → Fin 256 → EReal) (Ufb : Fin 256 → EReal)
    (hH : ∀ r d, vH (ix2 r d) = H r d) (hC : ∀ r d, vC (ix2 r d) = C r d) (hX : ∀ j g, vX (ix2 j g) = X j g)
    (hUf : ∀ k q, w5 (ix2 k q) = Ufw q k) (hUi : ∀ k g, w3 (ix2 k g) = Uiou g k) (hbi : ∀ g, b3 (ix1 g) = biou g) (hbf : ∀ q, b5 (ix1 q) = Ufb q)
    (j : Fin 2048) (d : Fin 128) :
    k0_pay10 (F := Ideal) b3 b5 vH vC w5 vX w3 (ix2 j d) = Cert.TreeSpec.stepH (m := 4096) (by norm_num) X H C Uiou biou Ufw Ufb j d := by
  unfold k0_pay10
  rw [shapeCast_self]
  refine (Cert.KStep.hid_apply (n := 2048) (k0_pay8 (F := Ideal) b3 vH vX w3) (k0_pay9 (F := Ideal) b3 b5 vH vC w5 vX w3) _ (preOf (by norm_num : 4096 = 2 * 2048) X H Uiou biou)
    (pre11 b3 b5 vH vC w5 vX w3 H C X Uiou biou Ufw Ufb hH hC hX hUf hUi hbi hbf) j d).trans ?_
  unfold stepH
  rw [cell11 b3 b5 vH vC w5 vX w3 H C X Uiou biou Ufw Ufb hH hC hX hUf hUi hbi hbf j d]

end Cert.KLev

end
-- ==== Proof.KLev10.lean ====
/-
  Level 10 of the tree (1024 nodes, 2048 children): the kernel's vector terms for the level's cell and hidden states,
  read at an entry, are one step of the recurrence applied to the children's rows.
-/
import proofs.«149831_j26912265077353_2_alg».proof.Proof.Gen.KernelIdeal.Skeleton
import proofs.«149831_j26912265077353_2_alg».proof.Proof.KStep

noncomputable section

namespace Cert.KLev

open Idealize.ShloMosaic Idealize.ShloMosaic.ValueIdx Cert.TreeSpec Cert.KernelIdeal Cert.KernelIdeal.Gen

/-- The children's hidden rows side by side, as the level's matrix products read them. -/
theorem hcat10 (vH : Vec Ideal S2048x128 .f32) (H : Fin 2048 → Fin 128 → EReal) (hH : ∀ r d, vH (ix2 r d) = H r d)
    (j : Fin 1024) (k : Fin 256) :
    (k0_pay12 (F := Ideal) vH) (ix2 j k) = hcat (by norm_num : 2048 = 2 * 1024) H j k :=
  Cert.KStep.hcat_apply (n := 1024) (m := 2048) (by norm_num : 2048 = 2 * 1024) vH _ _ H hH j k

/-- The level's pre-activation rows. -/
theorem pre10 (b3 : Vec Ideal S384 .f32) (b5 : Vec Ideal S256 .f32) (vH vC : Vec Ideal S2048x128 .f32) (w5 : Vec Ideal S256x256 .bf16)
    (vX : Vec Ideal S1024x384 .f32) (w3 : Vec Ideal S256x384 .bf16)
    (H C : Fin 2048 → Fin 128 → EReal) (X : Fin 1024 → Fin 384 → EReal) (Uiou : Fin 384 → Fin 256 → EReal) (biou : Fin 384 → EReal)
    (Ufw : Fin 256 → Fin 256 → EReal) (Ufb : Fin 256 → EReal)
    (hH : ∀ r d, vH (ix2 r d) = H r d) (hC : ∀ r d, vC (ix2 r d) = C r d) (hX : ∀ j g, vX (ix2 j g) = X j g)
    (hUf : ∀ k q, w5 (ix2 k q) = Ufw q k) (hUi : ∀ k g, w3 (ix2 k g) = Uiou g k) (hbi : ∀ g, b3 (ix1 g) = biou g) (hbf : ∀ q, b5 (ix1 q) = Ufb q)
    (j : Fin 1024) (g : Fin 384) :
    (k0_pay13 (F := Ideal) b3 vH vX w3) (ix2 j g) = preOf (by norm_num : 2048 = 2 * 1024) X H Uiou biou j g :=
  Cert.KStep.pre_apply (n := 1024) (m := 2048) (by norm_num : 2048 = 2 * 1024) vX (k0_pay12 (F := Ideal) vH) (shapeCast S256x384 w3 shapeCasts_S256x384_S256x384) b3 _ _
    X H Uiou biou hX (hcat10 vH H hH) (fun k g => by rw [shapeCast_self]; exact hUi k g) hbi j g

/-- The level's cell states. -/
theorem cell10 (b3 : Vec Ideal S384 .f32) (b5 : Vec Ideal S256 .f32) (vH vC : Vec Ideal S2048x128 .f32) (w5 : Vec Ideal S256x256 .bf16)
    (vX : Vec Ideal S1024x384 .f32) (w3 : Vec Ideal S256x384 .bf16)
    (H C : Fin 2048 → Fin 128 → EReal) (X : Fin 1024 → Fin 384 → EReal) (Uiou : Fin 384 → Fin 256 → EReal) (biou : Fin 384 → EReal)
    (Ufw : Fin 256 → Fin 256 → EReal) (Ufb : Fin 256 → EReal)
    (hH : ∀ r d, vH (ix2 r d) = H r d) (hC : ∀ r d, vC (ix2 r d) = C r d) (hX : ∀ j g, vX (ix2 j g) = X j g)
    (hUf : ∀ k q, w5 (ix2 k q) = Ufw q k) (hUi : ∀ k g, w3 (ix2 k g) = Uiou g k) (hbi : ∀ g, b3 (ix1 g) = biou g) (hbf : ∀ q, b5 (ix1 q) = Ufb q)
    (j : Fin 1024) (d : Fin 128) :
    (k0_pay14 (F := Ideal) b3 b5 vH vC w5 vX w3) (ix2 j d) = stepC (by norm_num : 2048 = 2 * 1024) X H C Uiou biou Ufw Ufb j d := by
  refine (Cert.KStep.cell_apply (n := 1024) (k0_pay13 (F := Ideal) b3 vH vX w3) _ _ _ (preOf (by norm_num : 2048 = 2 * 1024) X H Uiou biou)
    (pre10 b3 b5 vH vC w5 vX w3 H C X Uiou biou Ufw Ufb hH hC hX hUf hUi hbi hbf) j d).trans ?_
  unfold stepC
  refine congrArg (fun s => cellOf (preOf (by norm_num : 2048 = 2 * 1024) X H Uiou biou j) s d) ?_
  exact Cert.KStep.cred_apply (n := 1024) (m := 2048) (by norm_num : 2048 = 2 * 1024) _ vC _ _ _ _ _ H C Ufw Ufb
    (fun j q => Cert.KStep.fgate_apply (n := 1024) (m := 2048) (by norm_num : 2048 = 2 * 1024) (k0_pay12 (F := Ideal) vH) (shapeCast S256x256 w5 shapeCasts_S256x256_S256x256) b5 _ _
      H Ufw Ufb (hcat10 vH H hH) (fun k q => by rw [shapeCast_self]; exact hUf k q) hbf j q) hC j d

/-- The level's cell states as stored. -/
theorem c10 (b3 : Vec Ideal S384 .f32) (b5 : Vec Ideal S256 .f32) (vH vC : Vec Ideal S2048x128 .f32) (w5 : Vec Ideal S256x256 .bf16)
    (vX : Vec Ideal S1024x384 .f32) (w3 : Vec Ideal S256x384 .bf16)
    (H C : Fin 2048 → Fin 128 → EReal) (X : Fin 1024 → Fin 384 → EReal) (Uiou : Fin 384 → Fin 256 → EReal) (biou : Fin 384 → EReal)
    (Ufw : Fin 256 → Fin 256 → EReal) (Ufb : Fin 256 → EReal)
    (hH : ∀ r d, vH (ix2 r d) = H r d) (hC : ∀ r d, vC (ix2 r d) = C r d) (hX : ∀ j g, vX (ix2 j g) = X j g)
    (hUf : ∀ k q, w5 (ix2 k q) = Ufw q k) (hUi : ∀ k g, w3 (ix2 k g) = Uiou g k) (hbi : ∀ g, b3 (ix1 g) = biou g) (hbf : ∀ q, b5 (ix1 q) = Ufb q)
    (j : Fin 1024) (d : Fin 128) :
    k0_pay16 (F := Ideal) b3 b5 vH vC w5 vX w3 (ix2 j d) = Cert.TreeSpec.stepC (m := 2048) (by norm_num) X H C Uiou biou Ufw Ufb j d := by
  unfold k0_pay16
  rw [shapeCast_self]
  exact cell10 b3 b5 vH vC w5 vX w3 H C X Uiou biou Ufw Ufb hH hC hX hUf hUi hbi hbf j d

/-- The level's hidden states as stored. -/
theorem h10 (b3 : Vec Ideal S384 .f32) (b5 : Vec Ideal S256 .f32) (vH vC : Vec Ideal S2048x128 .f32) (w5 : Vec Ideal S256x256 .bf16)
    (vX : Vec Ideal S1024x384 .f32) (w3 : Vec Ideal S256x384 .bf16)
    (H C : Fin 2048 → Fin 128 → EReal) (X : Fin 1024 → Fin 384 → EReal) (Uiou : Fin 384 → Fin 256 → EReal) (biou : Fin 384 → EReal)
    (Ufw : Fin 256 → Fin 256 → EReal) (Ufb : Fin 256 → EReal)
    (hH : ∀ r d, vH (ix2 r d) = H r d) (hC : ∀ r d, vC (ix2 r d) = C r d) (hX : ∀ j g, vX (ix2 j g) = X j g)
    (hUf : ∀ k q, w5 (ix2 k q) = Ufw q k) (hUi : ∀ k g, w3 (ix2 k g) = Uiou g k) (hbi : ∀ g, b3 (ix1 g) = biou g) (hbf : ∀ q, b5 (ix1 q) = Ufb q)
    (j : Fin 1024) (d : Fin 128) :
    k0_pay15 (F := Ideal) b3 b5 vH vC w5 vX w3 (ix2 j d) = Cert.TreeSpec.stepH (m := 2048) (by norm_num) X H C Uiou biou Ufw Ufb j d := by
  unfold k0_pay15
  rw [shapeCast_self]
  refine (Cert.KStep.hid_apply (n := 1024) (k0_pay13 (F := Ideal) b3 vH vX w3) (k0_pay14 (F := Ideal) b3 b5 vH vC w5 vX w3) _ (preOf (by norm_num : 2048 = 2 * 1024) X H Uiou biou)
    (pre10 b3 b5 vH vC w5 vX w3 H C X Uiou biou Ufw Ufb hH hC hX hUf hUi hbi hbf) j d).trans ?_
  unfold stepH
  rw [cell10 b3 b5 vH vC w5 vX w3 H C X Uiou biou Ufw Ufb hH hC hX hUf hUi hbi hbf j d]

end Cert.KLev

end
-- ==== Proof.KLev9.lean ====
/-
  Level 9 of the tree (512 nodes, 1024 children): the kernel's vector terms for the level's cell and hidden states,
  read at an entry, are one step of the recurrence applied to the children's rows.
-/
import proofs.«149831_j26912265077353_2_alg».proof.Proof.Gen.KernelIdeal.Skeleton
import proofs.«149831_j26912265077353_2_alg».proof.Proof.KStep

noncomputable section

namespace Cert.KLev

open Idealize.ShloMosaic Idealize.ShloMosaic.ValueIdx Cert.TreeSpec Cert.KernelIdeal Cert.KernelIdeal.Gen

/-- The children's hidden rows side by side, as the level's matrix products read them. -/
theorem hcat9 (vH : Vec Ideal S1024x128 .f32) (H : Fin 1024 → Fin 128 → EReal) (hH : ∀ r d, vH (ix2 r d) = H r d)
    (j : Fin 512) (k : Fin 256) :
    (k0_pay17 (F := Ideal) vH) (ix2 j k) = hcat (by norm_num : 1024 = 2 * 512) H j k :=
  Cert.KStep.hcat_apply (n := 512) (m := 1024) (by norm_num : 1024 = 2 * 512) vH _ _ H hH j k

/-- The level's pre-activation rows. -/
theorem pre9 (b3 : Vec Ideal S384 .f32) (b5 : Vec Ideal S256 .f32) (vH vC : Vec Ideal S1024x128 .f32) (w5 : Vec Ideal S256x256 .bf16)
    (vX : Vec Ideal S512x384 .f32) (w3 : Vec Ideal S256x384 .bf16)
    (H C : Fin 1024 → Fin 128 → EReal) (X : Fin 512 → Fin 384 → EReal) (Uiou : Fin 384 → Fin 256 → EReal) (biou : Fin 384 → EReal)
    (Ufw : Fin 256 → Fin 256 → EReal) (Ufb : Fin 256 → EReal)
    (hH : ∀ r d, vH (ix2 r d) = H r d) (hC : ∀ r d, vC (ix2 r d) = C r d) (hX : ∀ j g, vX (ix2 j g) = X j g)
    (hUf : ∀ k q, w5 (ix2 k q) = Ufw q k) (hUi : ∀ k g, w3 (ix2 k g) = Uiou g k) (hbi : ∀ g, b3 (ix1 g) = biou g) (hbf : ∀ q, b5 (ix1 q) = Ufb q)
    (j : Fin 512) (g : Fin 384) :
    (k0_pay18 (F := Ideal) b3 vH vX w3) (ix2 j g) = preOf (by norm_num : 1024 = 2 * 512) X H Uiou biou j g :=
  Cert.KStep.pre_apply (n := 512) (m := 1024) (by norm_num : 1024 = 2 * 512) vX (k0_pay17 (F := Ideal) vH) (shapeCast S256x384 w3 shapeCasts_S256x384_S256x384) b3 _ _
    X H Uiou biou hX (hcat9 vH H hH) (fun k g => by rw [shapeCast_self]; exact hUi k g) hbi j g

/-- The level's cell states. -/
theorem cell9 (b3 : Vec Ideal S384 .f32) (b5 : Vec Ideal S256 .f32) (vH vC : Vec Ideal S1024x128 .f32) (w5 : Vec Ideal S256x256 .bf16)
    (vX : Vec Ideal S512x384 .f32) (w3 : Vec Ideal S256x384 .bf16)
    (H C : Fin 1024 → Fin 128 → EReal) (X : Fin 512 → Fin 384 → EReal) (Uiou : Fin 384 → Fin 256 → EReal) (biou : Fin 384 → EReal)
    (Ufw : Fin 256 → Fin 256 → EReal) (Ufb : Fin 256 → EReal)
    (hH : ∀ r d, vH (ix2 r d) = H r d) (hC : ∀ r d, vC (ix2 r d) = C r d) (hX : ∀ j g, vX (ix2 j g) = X j g)
    (hUf : ∀ k q, w5 (ix2 k q) = Ufw q k) (hUi : ∀ k g, w3 (ix2 k g) = Uiou g k) (hbi : ∀ g, b3 (ix1 g) = biou g) (hbf : ∀ q, b5 (ix1 q) = Ufb q)
    (j : Fin 512) (d : Fin 128) :
    (k0_pay19 (F := Ideal) b3 b5 vH vC w5 vX w3) (ix2 j d) = stepC (by norm_num : 1024 = 2 * 512) X H C Uiou biou Ufw Ufb j d := by
  refine (Cert.KStep.cell_apply (n := 512) (k0_pay18 (F := Ideal) b3 vH vX w3) _ _ _ (preOf (by norm_num : 1024 = 2 * 512) X H Uiou biou)
    (pre9 b3 b5 vH vC w5 vX w3 H C X Uiou biou Ufw Ufb hH hC hX hUf hUi hbi hbf) j d).trans ?_
  unfold stepC
  refine congrArg (fun s => cellOf (preOf (by norm_num : 1024 = 2 * 512) X H Uiou biou j) s d) ?_
  exact Cert.KStep.cred_apply (n := 512) (m := 1024) (by norm_num : 1024 = 2 * 512) _ vC _ _ _ _ _ H C Ufw Ufb
    (fun j q => Cert.KStep.fgate_apply (n := 512) (m := 1024) (by norm_num : 1024 = 2 * 512) (k0_pay17 (F := Ideal) vH) (shapeCast S256x256 w5 shapeCasts_S256x256_S256x256) b5 _ _
      H Ufw Ufb (hcat9 vH H hH) (fun k q => by rw [shapeCast_self]; exact hUf k q) hbf j q) hC j d

/-- The level's cell states as stored. -/
theorem c9 (b3 : Vec Ideal S384 .f32) (b5 : Vec Ideal S256 .f32) (vH vC : Vec Ideal S1024x128 .f32) (w5 : Vec Ideal S256x256 .bf16)
    (vX : Vec Ideal S512x384 .f32) (w3 : Vec Ideal S256x384 .bf16)
    (H C : Fin 1024 → Fin 128 → EReal) (X : Fin 512 → Fin 384 → EReal) (Uiou : Fin 384 → Fin 256 → EReal) (biou : Fin 384 → EReal)
    (Ufw : Fin 256 → Fin 256 → EReal) (Ufb : Fin 256 → EReal)
    (hH : ∀ r d, vH (ix2 r d) = H r d) (hC : ∀ r d, vC (ix2 r d) = C r d) (hX : ∀ j g, vX (ix2 j g) = X j g)
    (hUf : ∀ k q, w5 (ix2 k q) = Ufw q k) (hUi : ∀ k g, w3 (ix2 k g) = Uiou g k) (hbi : ∀ g, b3 (ix1 g) = biou g) (hbf : ∀ q, b5 (ix1 q) = Ufb q)
    (j : Fin 512) (d : Fin 128) :
    k0_pay21 (F := Ideal) b3 b5 vH vC w5 vX w3 (ix2 j d) = Cert.TreeSpec.stepC (m := 1024) (by norm_num) X H C Uiou biou Ufw Ufb j d := by
  unfold k0_pay21
  rw [shapeCast_self]
  exact cell9 b3 b5 vH vC w5 vX w3 H C X Uiou biou Ufw Ufb hH hC hX hUf hUi hbi hbf j d

/-- The level's hidden states as stored. -/
theorem h9 (b3 : Vec Ideal S384 .f32) (b5 : Vec Ideal S256 .f32) (vH vC : Vec Ideal S1024x128 .f32) (w5 : Vec Ideal S256x256 .bf16)
    (vX : Vec Ideal S512x384 .f32) (w3 : Vec Ideal S256x384 .bf16)
    (H C : Fin 1024 → Fin 128 → EReal) (X : Fin 512 → Fin 384 → EReal) (Uiou : Fin 384 → Fin 256 → EReal) (biou : Fin 384 → EReal)
    (Ufw : Fin 256 → Fin 256 → EReal) (Ufb : Fin 256 → EReal)
    (hH : ∀ r d, vH (ix2 r d) = H r d) (hC : ∀ r d, vC (ix2 r d) = C r d) (hX : ∀ j g, vX (ix2 j g) = X j g)
    (hUf : ∀ k q, w5 (ix2 k q) = Ufw q k) (hUi : ∀ k g, w3 (ix2 k g) = Uiou g k) (hbi : ∀ g, b3 (ix1 g) = biou g) (hbf : ∀ q, b5 (ix1 q) = Ufb q)
    (j : Fin 512) (d : Fin 128) :
    k0_pay20 (F := Ideal) b3 b5 vH vC w5 vX w3 (ix2 j d) = Cert.TreeSpec.stepH (m := 1024) (by norm_num) X H C Uiou biou Ufw Ufb j d := by
  unfold k0_pay20
  rw [shapeCast_self]
  refine (Cert.KStep.hid_apply (n := 512) (k0_pay18 (F := Ideal) b3 vH vX w3) (k0_pay19 (F := Ideal) b3 b5 vH vC w5 vX w3) _ (preOf (by norm_num : 1024 = 2 * 512) X H Uiou biou)
    (pre9 b3 b5 vH vC w5 vX w3 H C X Uiou biou Ufw Ufb hH hC hX hUf hUi hbi hbf) j d).trans ?_
  unfold stepH
  rw [cell9 b3 b5 vH vC w5 vX w3 H C X Uiou biou Ufw Ufb hH hC hX hUf hUi hbi hbf j d]

end Cert.KLev

end
-- ==== Proof.KLev8.lean ====
/-
  Level 8 of the tree (256 nodes, 512 children): the kernel's vector terms for the level's cell and hidden states,
  read at an entry, are one step of the recurrence applied to the children's rows.
-/
import proofs.«149831_j26912265077353_2_alg».proof.Proof.Gen.KernelIdeal.Skeleton
import proofs.«149831_j26912265077353_2_alg».proof.Proof.KStep

noncomputable section

namespace Cert.KLev

open Idealize.ShloMosaic Idealize.ShloMosaic.ValueIdx Cert.TreeSpec Cert.KernelIdeal Cert.KernelIdeal.Gen

/-- The children's hidden rows side by side, as the level's matrix products read them. -/
theorem hcat8 (vH : Vec Ideal S512x128 .f32) (H : Fin 512 → Fin 128 → EReal) (hH : ∀ r d, vH (ix2 r d) = H r d)
    (j : Fin 256) (k : Fin 256) :
    (k0_pay22 (F := Ideal) vH) (ix2 j k) = hcat (by norm_num : 512 = 2 * 256) H j k :=
  Cert.KStep.hcat_apply (n := 256) (m := 512) (by norm_num : 512 = 2 * 256) vH _ _ H hH j k

/-- The level's pre-activation rows. -/
theorem pre8 (b3 : Vec Ideal S384 .f32) (b5 : Vec Ideal S256 .f32) (vH vC : Vec Ideal S512x128 .f32) (w5 : Vec Ideal S256x256 .bf16)
    (vX : Vec Ideal S256x384 .f32) (w3 : Vec Ideal S256x384 .bf16)
    (H C : Fin 512 → Fin 128 → EReal) (X : Fin 256 → Fin 384 → EReal) (Uiou : Fin 384 → Fin 256 → EReal) (biou : Fin 384 → EReal)
    (Ufw : Fin 256 → Fin 256 → EReal) (Ufb : Fin 256 → EReal)
    (hH : ∀ r d, vH (ix2 r d) = H r d) (hC : ∀ r d, vC (ix2 r d) = C r d) (hX : ∀ j g, vX (ix2 j g) = X j g)
    (hUf : ∀ k q, w5 (ix2 k q) = Ufw q k) (hUi : ∀ k g, w3 (ix2 k g) = Uiou g k) (hbi : ∀ g, b3 (ix1 g) = biou g) (hbf : ∀ q, b5 (ix1 q) = Ufb q)
    (j : Fin 256) (g : Fin 384) :
    (k0_pay23 (F := Ideal) b3 vH vX w3) (ix2 j g) = preOf (by norm_num : 512 = 2 * 256) X H Uiou biou j g :=
  Cert.KStep.pre_apply (n := 256) (m := 512) (by norm_num : 512 = 2 * 256) vX (k0_pay22 (F := Ideal) vH) (shapeCast S256x384 w3 shapeCasts_S256x384_S256x384) b3 _ _
    X H Uiou biou hX (hcat8 vH H hH) (fun k g => by rw [shapeCast_self]; exact hUi k g) hbi j g

/-- The level's cell states. -/
theorem cell8 (b3 : Vec Ideal S384 .f32) (b5 : Vec Ideal S256 .f32) (vH vC : Vec Ideal S512x128 .f32) (w5 : Vec Ideal S256x256 .bf16)
    (vX : Vec Ideal S256x384 .f32) (w3 : Vec Ideal S256x384 .bf16)
    (H C : Fin 512 → Fin 128 → EReal) (X : Fin 256 → Fin 384 → EReal) (Uiou : Fin 384 → Fin 256 → EReal) (biou : Fin 384 → EReal)
    (Ufw : Fin 256 → Fin 256 → EReal) (Ufb : Fin 256 → EReal)
    (hH : ∀ r d, vH (ix2 r d) = H r d) (hC : ∀ r d, vC (ix2 r d) = C r d) (hX : ∀ j g, vX (ix2 j g) = X j g)
    (hUf : ∀ k q, w5 (ix2 k q) = Ufw q k) (hUi : ∀ k g, w3 (ix2 k g) = Uiou g k) (hbi : ∀ g, b3 (ix1 g) = biou g) (hbf : ∀ q, b5 (ix1 q) = Ufb q)
    (j : Fin 256) (d : Fin 128) :
    (k0_pay24 (F := Ideal) b3 b5 vH vC w5 vX w3) (ix2 j d) = stepC (by norm_num : 512 = 2 * 256) X H C Uiou biou Ufw Ufb j d := by
  refine (Cert.KStep.cell_apply (n := 256) (k0_pay23 (F := Ideal) b3 vH vX w3) _ _ _ (preOf (by norm_num : 512 = 2 * 256) X H Uiou biou)
    (pre8 b3 b5 vH vC w5 vX w3 H C X Uiou biou Ufw Ufb hH hC hX hUf hUi hbi hbf) j d).trans ?_
  unfold stepC
  refine congrArg (fun s => cellOf (preOf (by norm_num : 512 = 2 * 256) X H Uiou biou j) s d) ?_
  exact Cert.KStep.cred_apply (n := 256) (m := 512) (by norm_num : 512 = 2 * 256) _ vC _ _ _ _ _ H C Ufw Ufb
    (fun j q => Cert.KStep.fgate_apply (n := 256) (m := 512) (by norm_num : 512 = 2 * 256) (k0_pay22 (F := Ideal) vH) (shapeCast S256x256 w5 shapeCasts_S256x256_S256x256) b5 _ _
      H Ufw Ufb (hcat8 vH H hH) (fun k q => by rw [shapeCast_self]; exact hUf k q) hbf j q) hC j d

/-- The level's cell states as stored. -/
theorem c8 (b3 : Vec Ideal S384 .f32) (b5 : Vec Ideal S256 .f32) (vH vC : Vec Ideal S512x128 .f32) (w5 : Vec Ideal S256x256 .bf16)
    (vX : Vec Ideal S256x384 .f32) (w3 : Vec Ideal S256x384 .bf16)
    (H C : Fin 512 → Fin 128 → EReal) (X : Fin 256 → Fin 384 → EReal) (Uiou : Fin 384 → Fin 256 → EReal) (biou : Fin 384 → EReal)
    (Ufw : Fin 256 → Fin 256 → EReal) (Ufb : Fin 256 → EReal)
    (hH : ∀ r d, vH (ix2 r d) = H r d) (hC : ∀ r d, vC (ix2 r d) = C r d) (hX : ∀ j g, vX (ix2 j g) = X j g)
    (hUf : ∀ k q, w5 (ix2 k q) = Ufw q k) (hUi : ∀ k g, w3 (ix2 k g) = Uiou g k) (hbi : ∀ g, b3 (ix1 g) = biou g) (hbf : ∀ q, b5 (ix1 q) = Ufb q)
    (j : Fin 256) (d : Fin 128) :
    k0_pay26 (F := Ideal) b3 b5 vH vC w5 vX w3 (ix2 j d) = Cert.TreeSpec.stepC (m := 512) (by norm_num) X H C Uiou biou Ufw Ufb j d := by
  unfold k0_pay26
  rw [shapeCast_self]
  exact cell8 b3 b5 vH vC w5 vX w3 H C X Uiou biou Ufw Ufb hH hC hX hUf hUi hbi hbf j d

/-- The level's hidden states as stored. -/
theorem h8 (b3 : Vec Ideal S384 .f32) (b5 : Vec Ideal S256 .f32) (vH vC : Vec Ideal S512x128 .f32) (w5 : Vec Ideal S256x256 .bf16)
    (vX : Vec Ideal S256x384 .f32) (w3 : Vec Ideal S256x384 .bf16)
    (H C : Fin 512 → Fin 128 → EReal) (X : Fin 256 → Fin 384 → EReal) (Uiou : Fin 384 → Fin 256 → EReal) (biou : Fin 384 → EReal)
    (Ufw : Fin 256 → Fin 256 → EReal) (Ufb : Fin 256 → EReal)
    (hH : ∀ r d, vH (ix2 r d) = H r d) (hC : ∀ r d, vC (ix2 r d) = C r d) (hX : ∀ j g, vX (ix2 j g) = X j g)
    (hUf : ∀ k q, w5 (ix2 k q) = Ufw q k) (hUi : ∀ k g, w3 (ix2 k g) = Uiou g k) (hbi : ∀ g, b3 (ix1 g) = biou g) (hbf : ∀ q, b5 (ix1 q) = Ufb q)
    (j : Fin 256) (d : Fin 128) :
    k0_pay25 (F := Ideal) b3 b5 vH vC w5 vX w3 (ix2 j d) = Cert.TreeSpec.stepH (m := 512) (by norm_num) X H C Uiou biou Ufw Ufb j d := by
  unfold k0_pay25
  rw [shapeCast_self]
  refine (Cert.KStep.hid_apply (n := 256) (k0_pay23 (F := Ideal) b3 vH vX w3) (k0_pay24 (F := Ideal) b3 b5 vH vC w5 vX w3) _ (preOf (by norm_num : 512 = 2 * 256) X H Uiou biou)
    (pre8 b3 b5 vH vC w5 vX w3 H C X Uiou biou Ufw Ufb hH hC hX hUf hUi hbi hbf) j d).trans ?_
  unfold stepH
  rw [cell8 b3 b5 vH vC w5 vX w3 H C X Uiou biou Ufw Ufb hH hC hX hUf hUi hbi hbf j d]

end Cert.KLev

end
-- ==== Proof.KLev7.lean ====
/-
  Level 7 of the tree (128 nodes, 256 children): the kernel's vector terms for the level's cell and hidden states,
  read at an entry, are one step of the recurrence applied to the children's rows.
-/
import proofs.«149831_j26912265077353_2_alg».proof.Proof.Gen.KernelIdeal.Skeleton
import proofs.«149831_j26912265077353_2_alg».proof.Proof.KStep

noncomputable section

namespace Cert.KLev

open Idealize.ShloMosaic Idealize.ShloMosaic.ValueIdx Cert.TreeSpec Cert.KernelIdeal Cert.KernelIdeal.Gen

/-- The children's hidden rows side by side, as the level's matrix products read them. -/
theorem hcat7 (vH : Vec Ideal S256x128 .f32) (H : Fin 256 → Fin 128 → EReal) (hH : ∀ r d, vH (ix2 r d) = H r d)
    (j : Fin 128) (k : Fin 256) :
    (k0_pay27 (F := Ideal) vH) (ix2 j k) = hcat (by norm_num : 256 = 2 * 128) H j k :=
  Cert.KStep.hcat_apply (n := 128) (m := 256) (by norm_num : 256 = 2 * 128) vH _ _ H hH j k

/-- The level's pre-activation rows. -/
theorem pre7 (b3 : Vec Ideal S384 .f32) (b5 : Vec Ideal S256 .f32) (vH vC : Vec Ideal S256x128 .f32) (w5 : Vec Ideal S256x256 .bf16)
    (vX : Vec Ideal S128x384 .f32) (w3 : Vec Ideal S256x384 .bf16)
    (H C : Fin 256 → Fin 128 → EReal) (X : Fin 128 → Fin 384 → EReal) (Uiou : Fin 384 → Fin 256 → EReal) (biou : Fin 384 → EReal)
    (Ufw : Fin 256 → Fin 256 → EReal) (Ufb : Fin 256 → EReal)
    (hH : ∀ r d, vH (ix2 r d) = H r d) (hC : ∀ r d, vC (ix2 r d) = C r d) (hX : ∀ j g, vX (ix2 j g) = X j g)
    (hUf : ∀ k q, w5 (ix2 k q) = Ufw q k) (hUi : ∀ k g, w3 (ix2 k g) = Uiou g k) (hbi : ∀ g, b3 (ix1 g) = biou g) (hbf : ∀ q, b5 (ix1 q) = Ufb q)
    (j : Fin 128) (g : Fin 384) :
    (k0_pay28 (F := Ideal) b3 vH vX w3) (ix2 j g) = preOf (by norm_num : 256 = 2 * 128) X H Uiou biou j g :=
  Cert.KStep.pre_apply (n := 128) (m := 256) (by norm_num : 256 = 2 * 128) vX (k0_pay27 (F := Ideal) vH) (shapeCast S256x384 w3 shapeCasts_S256x384_S256x384) b3 _ _
    X H Uiou biou hX (hcat7 vH H hH) (fun k g => by rw [shapeCast_self]; exact hUi k g) hbi j g

/-- The level's cell states. -/
theorem cell7 (b3 : Vec Ideal S384 .f32) (b5 : Vec Ideal S256 .f32) (vH vC : Vec Ideal S256x128 .f32) (w5 : Vec Ideal S256x256 .bf16)
    (vX : Vec Ideal S128x384 .f32) (w3 : Vec Ideal S256x384 .bf16)
    (H C : Fin 256 → Fin 128 → EReal) (X : Fin 128 → Fin 384 → EReal) (Uiou : Fin 384 → Fin 256 → EReal) (biou : Fin 384 → EReal)
    (Ufw : Fin 256 → Fin 256 → EReal) (Ufb : Fin 256 → EReal)
    (hH : ∀ r d, vH (ix2 r d) = H r d) (hC : ∀ r d, vC (ix2 r d) = C r d) (hX : ∀ j g, vX (ix2 j g) = X j g)
    (hUf : ∀ k q, w5 (ix2 k q) = Ufw q k) (hUi : ∀ k g, w3 (ix2 k g) = Uiou g k) (hbi : ∀ g, b3 (ix1 g) = biou g) (hbf : ∀ q, b5 (ix1 q) = Ufb q)
    (j : Fin 128) (d : Fin 128) :
    (k0_pay29 (F := Ideal) b3 b5 vH vC w5 vX w3) (ix2 j d) = stepC (by norm_num : 256 = 2 * 128) X H C Uiou biou Ufw Ufb j d := by
  refine (Cert.KStep.cell_apply (n := 128) (k0_pay28 (F := Ideal) b3 vH vX w3) _ _ _ (preOf (by norm_num : 256 = 2 * 128) X H Uiou biou)
    (pre7 b3 b5 vH vC w5 vX w3 H C X Uiou biou Ufw Ufb hH hC hX hUf hUi hbi hbf) j d).trans ?_
  unfold stepC
  refine congrArg (fun s => cellOf (preOf (by norm_num : 256 = 2 * 128) X H Uiou biou j) s d) ?_
  exact Cert.KStep.cred_apply (n := 128) (m := 256) (by norm_num : 256 = 2 * 128) _ vC _ _ _ _ _ H C Ufw Ufb
    (fun j q => Cert.KStep.fgate_apply (n := 128) (m := 256) (by norm_num : 256 = 2 * 128) (k0_pay27 (F := Ideal) vH) (shapeCast S256x256 w5 shapeCasts_S256x256_S256x256) b5 _ _
      H Ufw Ufb (hcat7 vH H hH) (fun k q => by rw [shapeCast_self]; exact hUf k q) hbf j q) hC j d

/-- The level's cell states as stored. -/
theorem c7 (b3 : Vec Ideal S384 .f32) (b5 : Vec Ideal S256 .f32) (vH vC : Vec Ideal S256x128 .f32) (w5 : Vec Ideal S256x256 .bf16)
    (vX : Vec Ideal S128x384 .f32) (w3 : Vec Ideal S256x384 .bf16)
    (H C : Fin 256 → Fin 128 → EReal) (X : Fin 128 → Fin 384 → EReal) (Uiou : Fin 384 → Fin 256 → EReal) (biou : Fin 384 → EReal)
    (Ufw : Fin 256 → Fin 256 → EReal) (Ufb : Fin 256 → EReal)
    (hH : ∀ r d, vH (ix2 r d) = H r d) (hC : ∀ r d, vC (ix2 r d) = C r d) (hX : ∀ j g, vX (ix2 j g) = X j g)
    (hUf : ∀ k q, w5 (ix2 k q) = Ufw q k) (hUi : ∀ k g, w3 (ix2 k g) = Uiou g k) (hbi : ∀ g, b3 (ix1 g) = biou g) (hbf : ∀ q, b5 (ix1 q) = Ufb q)
    (j : Fin 128) (d : Fin 128) :
    k0_pay31 (F := Ideal) b3 b5 vH vC w5 vX w3 (ix2 j d) = Cert.TreeSpec.stepC (m := 256) (by norm_num) X H C Uiou biou Ufw Ufb j d := by
  unfold k0_pay31
  rw [shapeCast_self]
  exact cell7 b3 b5 vH vC w5 vX w3 H C X Uiou biou Ufw Ufb hH hC hX hUf hUi hbi hbf j d

/-- The level's hidden states as stored. -/
theorem h7 (b3 : Vec Ideal S384 .f32) (b5 : Vec Ideal S256 .f32) (vH vC : Vec Ideal S256x128 .f32) (w5 : Vec Ideal S256x256 .bf16)
    (vX : Vec Ideal S128x384 .f32) (w3 : Vec Ideal S256x384 .bf16)
    (H C : Fin 256 → Fin 128 → EReal) (X : Fin 128 → Fin 384 → EReal) (Uiou : Fin 384 → Fin 256 → EReal) (biou : Fin 384 → EReal)
    (Ufw : Fin 256 → Fin 256 → EReal) (Ufb : Fin 256 → EReal)
    (hH : ∀ r d, vH (ix2 r d) = H r d) (hC : ∀ r d, vC (ix2 r d) = C r d) (hX : ∀ j g, vX (ix2 j g) = X j g)
    (hUf : ∀ k q, w5 (ix2 k q) = Ufw q k) (hUi : ∀ k g, w3 (ix2 k g) = Uiou g k) (hbi : ∀ g, b3 (ix1 g) = biou g) (hbf : ∀ q, b5 (ix1 q) = Ufb q)
    (j : Fin 128) (d : Fin 128) :
    k0_pay30 (F := Ideal) b3 b5 vH vC w5 vX w3 (ix2 j d) = Cert.TreeSpec.stepH (m := 256) (by norm_num) X H C Uiou biou Ufw Ufb j d := by
  unfold k0_pay30
  rw [shapeCast_self]
  refine (Cert.KStep.hid_apply (n := 128) (k0_pay28 (F := Ideal) b3 vH vX w3) (k0_pay29 (F := Ideal) b3 b5 vH vC w5 vX w3) _ (preOf (by norm_num : 256 = 2 * 128) X H Uiou biou)
    (pre7 b3 b5 vH vC w5 vX w3 H C X Uiou biou Ufw Ufb hH hC hX hUf hUi hbi hbf) j d).trans ?_
  unfold stepH
  rw [cell7 b3 b5 vH vC w5 vX w3 H C X Uiou biou Ufw Ufb hH hC hX hUf hUi hbi hbf j d]

end Cert.KLev

end
-- ==== Proof.KLev6.lean ====
/-
  Level 6 of the tree (64 nodes, 128 children): the kernel's vector terms for the level's cell and hidden states,
  read at an entry, are one step of the recurrence applied to the children's rows.
-/
import proofs.«149831_j26912265077353_2_alg».proof.Proof.Gen.KernelIdeal.Skeleton
import proofs.«149831_j26912265077353_2_alg».proof.Proof.KStep

noncomputable section

namespace Cert.KLev

open Idealize.ShloMosaic Idealize.ShloMosaic.ValueIdx Cert.TreeSpec Cert.KernelIdeal Cert.KernelIdeal.Gen

/-- The children's hidden rows side by side, as the level's matrix products read them. -/
theorem hcat6 (vH : Vec Ideal S128x128 .f32) (H : Fin 128 → Fin 128 → EReal) (hH : ∀ r d, vH (ix2 r d) = H r d)
    (j : Fin 64) (k : Fin 256) :
    (k0_pay32 (F := Ideal) vH) (ix2 j k) = hcat (by norm_num : 128 = 2 * 64) H j k :=
  Cert.KStep.hcat_apply (n := 64) (m := 128) (by norm_num : 128 = 2 * 64) vH _ _ H hH j k

/-- The level's pre-activation rows. -/
theorem pre6 (b3 : Vec Ideal S384 .f32) (b5 : Vec Ideal S256 .f32) (vH vC : Vec Ideal S128x128 .f32) (w5 : Vec Ideal S256x256 .bf16)
    (vX : Vec Ideal S64x384 .f32) (w3 : Vec Ideal S256x384 .bf16)
    (H C : Fin 128 → Fin 128 → EReal) (X : Fin 64 → Fin 384 → EReal) (Uiou : Fin 384 → Fin 256 → EReal) (biou : Fin 384 → EReal)
    (Ufw : Fin 256 → Fin 256 → EReal) (Ufb : Fin 256 → EReal)
    (hH : ∀ r d, vH (ix2 r d) = H r d) (hC : ∀ r d, vC (ix2 r d) = C r d) (hX : ∀ j g, vX (ix2 j g) = X j g)
    (hUf : ∀ k q, w5 (ix2 k q) = Ufw q k) (hUi : ∀ k g, w3 (ix2 k g) = Uiou g k) (hbi : ∀ g, b3 (ix1 g) = biou g) (hbf : ∀ q, b5 (ix1 q) = Ufb q)
    (j : Fin 64) (g : Fin 384) :
    (k0_pay33 (F := Ideal) b3 (k0_pay32 (F := Ideal) vH) vX w3) (ix2 j g) = preOf (by norm_num : 128 = 2 * 64) X H Uiou biou j g :=
  Cert.KStep.pre_apply (n := 64) (m := 128) (by norm_num : 128 = 2 * 64) vX (k0_pay32 (F := Ideal) vH) (shapeCast S256x384 w3 shapeCasts_S256x384_S256x384) b3 _ _
    X H Uiou biou hX (hcat6 vH H hH) (fun k g => by rw [shapeCast_self]; exact hUi k g) hbi j g

/-- The level's cell states. -/
theorem cell6 (b3 : Vec Ideal S384 .f32) (b5 : Vec Ideal S256 .f32) (vH vC : Vec Ideal S128x128 .f32) (w5 : Vec Ideal S256x256 .bf16)
    (vX : Vec Ideal S64x384 .f32) (w3 : Vec Ideal S256x384 .bf16)
    (H C : Fin 128 → Fin 128 → EReal) (X : Fin 64 → Fin 384 → EReal) (Uiou : Fin 384 → Fin 256 → EReal) (biou : Fin 384 → EReal)
    (Ufw : Fin 256 → Fin 256 → EReal) (Ufb : Fin 256 → EReal)
    (hH : ∀ r d, vH (ix2 r d) = H r d) (hC : ∀ r d, vC (ix2 r d) = C r d) (hX : ∀ j g, vX (ix2 j g) = X j g)
    (hUf : ∀ k q, w5 (ix2 k q) = Ufw q k) (hUi : ∀ k g, w3 (ix2 k g) = Uiou g k) (hbi : ∀ g, b3 (ix1 g) = biou g) (hbf : ∀ q, b5 (ix1 q) = Ufb q)
    (j : Fin 64) (d : Fin 128) :
    (k0_pay34 (F := Ideal) b3 b5 vC (k0_pay32 (F := Ideal) vH) w5 vX w3) (ix2 j d) = stepC (by norm_num : 128 = 2 * 64) X H C Uiou biou Ufw Ufb j d := by
  refine (Cert.KStep.cell_apply (n := 64) (k0_pay33 (F := Ideal) b3 (k0_pay32 (F := Ideal) vH) vX w3) _ _ _ (preOf (by norm_num : 128 = 2 * 64) X H Uiou biou)
    (pre6 b3 b5 vH vC w5 vX w3 H C X Uiou biou Ufw Ufb hH hC hX hUf hUi hbi hbf) j d).trans ?_
  unfold stepC
  refine congrArg (fun s => cellOf (preOf (by norm_num : 128 = 2 * 64) X H Uiou biou j) s d) ?_
  exact Cert.KStep.cred_apply (n := 64) (m := 128) (by norm_num : 128 = 2 * 64) _ vC _ _ _ _ _ H C Ufw Ufb
    (fun j q => Cert.KStep.fgate_apply (n := 64) (m := 128) (by norm_num : 128 = 2 * 64) (k0_pay32 (F := Ideal) vH) (shapeCast S256x256 w5 shapeCasts_S256x256_S256x256) b5 _ _
      H Ufw Ufb (hcat6 vH H hH) (fun k q => by rw [shapeCast_self]; exact hUf k q) hbf j q) hC j d

/-- The level's cell states as stored. -/
theorem c6 (b3 : Vec Ideal S384 .f32) (b5 : Vec Ideal S256 .f32) (vH vC : Vec Ideal S128x128 .f32) (w5 : Vec Ideal S256x256 .bf16)
    (vX : Vec Ideal S64x384 .f32) (w3 : Vec Ideal S256x384 .bf16)
    (H C : Fin 128 → Fin 128 → EReal) (X : Fin 64 → Fin 384 → EReal) (Uiou : Fin 384 → Fin 256 → EReal) (biou : Fin 384 → EReal)
    (Ufw : Fin 256 → Fin 256 → EReal) (Ufb : Fin 256 → EReal)
    (hH : ∀ r d, vH (ix2 r d) = H r d) (hC : ∀ r d, vC (ix2 r d) = C r d) (hX : ∀ j g, vX (ix2 j g) = X j g)
    (hUf : ∀ k q, w5 (ix2 k q) = Ufw q k) (hUi : ∀ k g, w3 (ix2 k g) = Uiou g k) (hbi : ∀ g, b3 (ix1 g) = biou g) (hbf : ∀ q, b5 (ix1 q) = Ufb q)
    (j : Fin 64) (d : Fin 128) :
    k0_pay36 (F := Ideal) b3 b5 vC (k0_pay32 (F := Ideal) vH) w5 vX w3 (ix2 j d) = Cert.TreeSpec.stepC (m := 128) (by norm_num) X H C Uiou biou Ufw Ufb j d := by
  unfold k0_pay36
  rw [shapeCast_self]
  exact cell6 b3 b5 vH vC w5 vX w3 H C X Uiou biou Ufw Ufb hH hC hX hUf hUi hbi hbf j d

/-- The level's hidden states as stored. -/
theorem h6 (b3 : Vec Ideal S384 .f32) (b5 : Vec Ideal S256 .f32) (vH vC : Vec Ideal S128x128 .f32) (w5 : Vec Ideal S256x256 .bf16)
    (vX : Vec Ideal S64x384 .f32) (w3 : Vec Ideal S256x384 .bf16)
    (H C : Fin 128 → Fin 128 → EReal) (X : Fin 64 → Fin 384 → EReal) (Uiou : Fin 384 → Fin 256 → EReal) (biou : Fin 384 → EReal)
    (Ufw : Fin 256 → Fin 256 → EReal) (Ufb : Fin 256 → EReal)
    (hH : ∀ r d, vH (ix2 r d) = H r d) (hC : ∀ r d, vC (ix2 r d) = C r d) (hX : ∀ j g, vX (ix2 j g) = X j g)
    (hUf : ∀ k q, w5 (ix2 k q) = Ufw q k) (hUi : ∀ k g, w3 (ix2 k g) = Uiou g k) (hbi : ∀ g, b3 (ix1 g) = biou g) (hbf : ∀ q, b5 (ix1 q) = Ufb q)
    (j : Fin 64) (d : Fin 128) :
    k0_pay35 (F := Ideal) b3 b5 vC (k0_pay32 (F := Ideal) vH) w5 vX w3 (ix2 j d) = Cert.TreeSpec.stepH (m := 128) (by norm_num) X H C Uiou biou Ufw Ufb j d := by
  unfold k0_pay35
  rw [shapeCast_self]
  refine (Cert.KStep.hid_apply (n := 64) (k0_pay33 (F := Ideal) b3 (k0_pay32 (F := Ideal) vH) vX w3) (k0_pay34 (F := Ideal) b3 b5 vC (k0_pay32 (F := Ideal) vH) w5 vX w3) _ (preOf (by norm_num : 128 = 2 * 64) X H Uiou biou)
    (pre6 b3 b5 vH vC w5 vX w3 H C X Uiou biou Ufw Ufb hH hC hX hUf hUi hbi hbf) j d).trans ?_
  unfold stepH
  rw [cell6 b3 b5 vH vC w5 vX w3 H C X Uiou biou Ufw Ufb hH hC hX hUf hUi hbi hbf j d]

end Cert.KLev

end
-- ==== Proof.KLev5.lean ====
/-
  Level 5 of the tree (32 nodes, 64 children): the kernel's vector terms for the level's cell and hidden states,
  read at an entry, are one step of the recurrence applied to the children's rows.
-/
import proofs.«149831_j26912265077353_2_alg».proof.Proof.Gen.KernelIdeal.Skeleton
import proofs.«149831_j26912265077353_2_alg».proof.Proof.KStep

noncomputable section

namespace Cert.KLev

open Idealize.ShloMosaic Idealize.ShloMosaic.ValueIdx Cert.TreeSpec Cert.KernelIdeal Cert.KernelIdeal.Gen

/-- The children's hidden rows side by side, as the level's matrix products read them. -/
theorem hcat5 (vH : Vec Ideal S64x128 .f32) (H : Fin 64 → Fin 128 → EReal) (hH : ∀ r d, vH (ix2 r d) = H r d)
    (j : Fin 32) (k : Fin 256) :
    (k0_pay37 (F := Ideal) vH) (ix2 j k) = hcat (by norm_num : 64 = 2 * 32) H j k :=
  Cert.KStep.hcat_apply (n := 32) (m := 64) (by norm_num : 64 = 2 * 32) vH _ _ H hH j k

/-- The level's pre-activation rows. -/
theorem pre5 (b3 : Vec Ideal S384 .f32) (b5 : Vec Ideal S256 .f32) (vH vC : Vec Ideal S64x128 .f32) (w5 : Vec Ideal S256x256 .bf16)
    (vX : Vec Ideal S32x384 .f32) (w3 : Vec Ideal S256x384 .bf16)
    (H C : Fin 64 → Fin 128 → EReal) (X : Fin 32 → Fin 384 → EReal) (Uiou : Fin 384 → Fin 256 → EReal) (biou : Fin 384 → EReal)
    (Ufw : Fin 256 → Fin 256 → EReal) (Ufb : Fin 256 → EReal)
    (hH : ∀ r d, vH (ix2 r d) = H r d) (hC : ∀ r d, vC (ix2 r d) = C r d) (hX : ∀ j g, vX (ix2 j g) = X j g)
    (hUf : ∀ k q, w5 (ix2 k q) = Ufw q k) (hUi : ∀ k g, w3 (ix2 k g) = Uiou g k) (hbi : ∀ g, b3 (ix1 g) = biou g) (hbf : ∀ q, b5 (ix1 q) = Ufb q)
    (j : Fin 32) (g : Fin 384) :
    (k0_pay38 (F := Ideal) b3 (k0_pay37 (F := Ideal) vH) vX w3) (ix2 j g) = preOf (by norm_num : 64 = 2 * 32) X H Uiou biou j g :=
  Cert.KStep.pre_apply (n := 32) (m := 64) (by norm_num : 64 = 2 * 32) vX (k0_pay37 (F := Ideal) vH) (shapeCast S256x384 w3 shapeCasts_S256x384_S256x384) b3 _ _
    X H Uiou biou hX (hcat5 vH H hH) (fun k g => by rw [shapeCast_self]; exact hUi k g) hbi j g

/-- The level's cell states. -/
theorem cell5 (b3 : Vec Ideal S384 .f32) (b5 : Vec Ideal S256 .f32) (vH vC : Vec Ideal S64x128 .f32) (w5 : Vec Ideal S256x256 .bf16)
    (vX : Vec Ideal S32x384 .f32) (w3 : Vec Ideal S256x384 .bf16)
    (H C : Fin 64 → Fin 128 → EReal) (X : Fin 32 → Fin 384 → EReal) (Uiou : Fin 384 → Fin 256 → EReal) (biou : Fin 384 → EReal)
    (Ufw : Fin 256 → Fin 256 → EReal) (Ufb : Fin 256 → EReal)
    (hH : ∀ r d, vH (ix2 r d) = H r d) (hC : ∀ r d, vC (ix2 r d) = C r d) (hX : ∀ j g, vX (ix2 j g) = X j g)
    (hUf : ∀ k q, w5 (ix2 k q) = Ufw q k) (hUi : ∀ k g, w3 (ix2 k g) = Uiou g k) (hbi : ∀ g, b3 (ix1 g) = biou g) (hbf : ∀ q, b5 (ix1 q) = Ufb q)
    (j : Fin 32) (d : Fin 128) :
    (k0_pay39 (F := Ideal) b3 b5 vC (k0_pay37 (F := Ideal) vH) w5 vX w3) (ix2 j d) = stepC (by norm_num : 64 = 2 * 32) X H C Uiou biou Ufw Ufb j d := by
  refine (Cert.KStep.cell_apply (n := 32) (k0_pay38 (F := Ideal) b3 (k0_pay37 (F := Ideal) vH) vX w3) _ _ _ (preOf (by norm_num : 64 = 2 * 32) X H Uiou biou)
    (pre5 b3 b5 vH vC w5 vX w3 H C X Uiou biou Ufw Ufb hH hC hX hUf hUi hbi hbf) j d).trans ?_
  unfold stepC
  refine congrArg (fun s => cellOf (preOf (by norm_num : 64 = 2 * 32) X H Uiou biou j) s d) ?_
  exact Cert.KStep.cred_apply (n := 32) (m := 64) (by norm_num : 64 = 2 * 32) _ vC _ _ _ _ _ H C Ufw Ufb
    (fun j q => Cert.KStep.fgate_apply (n := 32) (m := 64) (by norm_num : 64 = 2 * 32) (k0_pay37 (F := Ideal) vH) (shapeCast S256x256 w5 shapeCasts_S256x256_S256x256) b5 _ _
      H Ufw Ufb (hcat5 vH H hH) (fun k q => by rw [shapeCast_self]; exact hUf k q) hbf j q) hC j d

/-- The level's cell states as stored. -/
theorem c5 (b3 : Vec Ideal S384 .f32) (b5 : Vec Ideal S256 .f32) (vH vC : Vec Ideal S64x128 .f32) (w5 : Vec Ideal S256x256 .bf16)
    (vX : Vec Ideal S32x384 .f32) (w3 : Vec Ideal S256x384 .bf16)
    (H C : Fin 64 → Fin 128 → EReal) (X : Fin 32 → Fin 384 → EReal) (Uiou : Fin 384 → Fin 256 → EReal) (biou : Fin 384 → EReal)
    (Ufw : Fin 256 → Fin 256 → EReal) (Ufb : Fin 256 → EReal)
    (hH : ∀ r d, vH (ix2 r d) = H r d) (hC : ∀ r d, vC (ix2 r d) = C r d) (hX : ∀ j g, vX (ix2 j g) = X j g)
    (hUf : ∀ k q, w5 (ix2 k q) = Ufw q k) (hUi : ∀ k g, w3 (ix2 k g) = Uiou g k) (hbi : ∀ g, b3 (ix1 g) = biou g) (hbf : ∀ q, b5 (ix1 q) = Ufb q)
    (j : Fin 32) (d : Fin 128) :
    k0_pay41 (F := Ideal) b3 b5 vC (k0_pay37 (F := Ideal) vH) w5 vX w3 (ix2 j d) = Cert.TreeSpec.stepC (m := 64) (by norm_num) X H C Uiou biou Ufw Ufb j d := by
  unfold k0_pay41
  rw [shapeCast_self]
  exact cell5 b3 b5 vH vC w5 vX w3 H C X Uiou biou Ufw Ufb hH hC hX hUf hUi hbi hbf j d

/-- The level's hidden states as stored. -/
theorem h5 (b3 : Vec Ideal S384 .f32) (b5 : Vec Ideal S256 .f32) (vH vC : Vec Ideal S64x128 .f32) (w5 : Vec Ideal S256x256 .bf16)
    (vX : Vec Ideal S32x384 .f32) (w3 : Vec Ideal S256x384 .bf16)
    (H C : Fin 64 → Fin 128 → EReal) (X : Fin 32 → Fin 384 → EReal) (Uiou : Fin 384 → Fin 256 → EReal) (biou : Fin 384 → EReal)
    (Ufw : Fin 256 → Fin 256 → EReal) (Ufb : Fin 256 → EReal)
    (hH : ∀ r d, vH (ix2 r d) = H r d) (hC : ∀ r d, vC (ix2 r d) = C r d) (hX : ∀ j g, vX (ix2 j g) = X j g)
    (hUf : ∀ k q, w5 (ix2 k q) = Ufw q k) (hUi : ∀ k g, w3 (ix2 k g) = Uiou g k) (hbi : ∀ g, b3 (ix1 g) = biou g) (hbf : ∀ q, b5 (ix1 q) = Ufb q)
    (j : Fin 32) (d : Fin 128) :
    k0_pay40 (F := Ideal) b3 b5 vC (k0_pay37 (F := Ideal) vH) w5 vX w3 (ix2 j d) = Cert.TreeSpec.stepH (m := 64) (by norm_num) X H C Uiou biou Ufw Ufb j d := by
  unfold k0_pay40
  rw [shapeCast_self]
  refine (Cert.KStep.hid_apply (n := 32) (k0_pay38 (F := Ideal) b3 (k0_pay37 (F := Ideal) vH) vX w3) (k0_pay39 (F := Ideal) b3 b5 vC (k0_pay37 (F := Ideal) vH) w5 vX w3) _ (preOf (by norm_num : 64 = 2 * 32) X H Uiou biou)
    (pre5 b3 b5 vH vC w5 vX w3 H C X Uiou biou Ufw Ufb hH hC hX hUf hUi hbi hbf) j d).trans ?_
  unfold stepH
  rw [cell5 b3 b5 vH vC w5 vX w3 H C X Uiou biou Ufw Ufb hH hC hX hUf hUi hbi hbf j d]

end Cert.KLev

end
-- ==== Proof.KLev4.lean ====
/-
  Level 4 of the tree (16 nodes, 32 children): the kernel's vector terms for the level's cell and hidden states,
  read at an entry, are one step of the recurrence applied to the children's rows.
-/
import proofs.«149831_j26912265077353_2_alg».proof.Proof.Gen.KernelIdeal.Skeleton
import proofs.«149831_j26912265077353_2_alg».proof.Proof.KStep

noncomputable section

namespace Cert.KLev

open Idealize.ShloMosaic Idealize.ShloMosaic.ValueIdx Cert.TreeSpec Cert.KernelIdeal Cert.KernelIdeal.Gen

/-- The children's hidden rows side by side, as the level's matrix products read them. -/
theorem hcat4 (vH : Vec Ideal S32x128 .f32) (H : Fin 32 → Fin 128 → EReal) (hH : ∀ r d, vH (ix2 r d) = H r d)
    (j : Fin 16) (k : Fin 256) :
    (k0_pay42 (F := Ideal) vH) (ix2 j k) = hcat (by norm_num : 32 = 2 * 16) H j k :=
  Cert.KStep.hcat_apply (n := 16) (m := 32) (by norm_num : 32 = 2 * 16) vH _ _ H hH j k

/-- The level's pre-activation rows. -/
theorem pre4 (b3 : Vec Ideal S384 .f32) (b5 : Vec Ideal S256 .f32) (vH vC : Vec Ideal S32x128 .f32) (w5 : Vec Ideal S256x256 .bf16)
    (vX : Vec Ideal S16x384 .f32) (w3 : Vec Ideal S256x384 .bf16)
    (H C : Fin 32 → Fin 128 → EReal) (X : Fin 16 → Fin 384 → EReal) (Uiou : Fin 384 → Fin 256 → EReal) (biou : Fin 384 → EReal)
    (Ufw : Fin 256 → Fin 256 → EReal) (Ufb : Fin 256 → EReal)
    (hH : ∀ r d, vH (ix2 r d) = H r d) (hC : ∀ r d, vC (ix2 r d) = C r d) (hX : ∀ j g, vX (ix2 j g) = X j g)
    (hUf : ∀ k q, w5 (ix2 k q) = Ufw q k) (hUi : ∀ k g, w3 (ix2 k g) = Uiou g k) (hbi : ∀ g, b3 (ix1 g) = biou g) (hbf : ∀ q, b5 (ix1 q) = Ufb q)
    (j : Fin 16) (g : Fin 384) :
    (k0_pay44 (F := Ideal) b3 (k0_pay42 (F := Ideal) vH) vX w3) (ix2 j g) = preOf (by norm_num : 32 = 2 * 16) X H Uiou biou j g :=
  Cert.KStep.pre_apply (n := 16) (m := 32) (by norm_num : 32 = 2 * 16) vX (k0_pay42 (F := Ideal) vH) (shapeCast S256x384 w3 shapeCasts_S256x384_S256x384) b3 _ _
    X H Uiou biou hX (hcat4 vH H hH) (fun k g => by rw [shapeCast_self]; exact hUi k g) hbi j g

/-- The level's cell states. -/
theorem cell4 (b3 : Vec Ideal S384 .f32) (b5 : Vec Ideal S256 .f32) (vH vC : Vec Ideal S32x128 .f32) (w5 : Vec Ideal S256x256 .bf16)
    (vX : Vec Ideal S16x384 .f32) (w3 : Vec Ideal S256x384 .bf16)
    (H C : Fin 32 → Fin 128 → EReal) (X : Fin 16 → Fin 384 → EReal) (Uiou : Fin 384 → Fin 256 → EReal) (biou : Fin 384 → EReal)
    (Ufw : Fin 256 → Fin 256 → EReal) (Ufb : Fin 256 → EReal)
    (hH : ∀ r d, vH (ix2 r d) = H r d) (hC : ∀ r d, vC (ix2 r d) = C r d) (hX : ∀ j g, vX (ix2 j g) = X j g)
    (hUf : ∀ k q, w5 (ix2 k q) = Ufw q k) (hUi : ∀ k g, w3 (ix2 k g) = Uiou g k) (hbi : ∀ g, b3 (ix1 g) = biou g) (hbf : ∀ q, b5 (ix1 q) = Ufb q)
    (j : Fin 16) (d : Fin 128) :
    (k0_pay45 (F := Ideal) b3 b5 vC (k0_pay42 (F := Ideal) vH) (k0_pay43 (F := Ideal) w5) vX w3) (ix2 j d) = stepC (by norm_num : 32 = 2 * 16) X H C Uiou biou Ufw Ufb j d := by
  refine (Cert.KStep.cell_apply (n := 16) (k0_pay44 (F := Ideal) b3 (k0_pay42 (F := Ideal) vH) vX w3) _ _ _ (preOf (by norm_num : 32 = 2 * 16) X H Uiou biou)
    (pre4 b3 b5 vH vC w5 vX w3 H C X Uiou biou Ufw Ufb hH hC hX hUf hUi hbi hbf) j d).trans ?_
  unfold stepC
  refine congrArg (fun s => cellOf (preOf (by norm_num : 32 = 2 * 16) X H Uiou biou j) s d) ?_
  exact Cert.KStep.cred_apply (n := 16) (m := 32) (by norm_num : 32 = 2 * 16) _ vC _ _ _ _ _ H C Ufw Ufb
    (fun j q => Cert.KStep.fgate_apply (n := 16) (m := 32) (by norm_num : 32 = 2 * 16) (k0_pay42 (F := Ideal) vH) (shapeCast S256x256 w5 shapeCasts_S256x256_S256x256) b5 _ _
      H Ufw Ufb (hcat4 vH H hH) (fun k q => by rw [shapeCast_self]; exact hUf k q) hbf j q) hC j d

/-- The level's cell states as stored. -/
theorem c4 (b3 : Vec Ideal S384 .f32) (b5 : Vec Ideal S256 .f32) (vH vC : Vec Ideal S32x128 .f32) (w5 : Vec Ideal S256x256 .bf16)
    (vX : Vec Ideal S16x384 .f32) (w3 : Vec Ideal S256x384 .bf16)
    (H C : Fin 32 → Fin 128 → EReal) (X : Fin 16 → Fin 384 → EReal) (Uiou : Fin 384 → Fin 256 → EReal) (biou : Fin 384 → EReal)
    (Ufw : Fin 256 → Fin 256 → EReal) (Ufb : Fin 256 → EReal)
    (hH : ∀ r d, vH (ix2 r d) = H r d) (hC : ∀ r d, vC (ix2 r d) = C r d) (hX : ∀ j g, vX (ix2 j g) = X j g)
    (hUf : ∀ k q, w5 (ix2 k q) = Ufw q k) (hUi : ∀ k g, w3 (ix2 k g) = Uiou g k) (hbi : ∀ g, b3 (ix1 g) = biou g) (hbf : ∀ q, b5 (ix1 q) = Ufb q)
    (j : Fin 16) (d : Fin 128) :
    k0_pay47 (F := Ideal) b3 b5 vC (k0_pay42 (F := Ideal) vH) (k0_pay43 (F := Ideal) w5) vX w3 (ix2 j d) = Cert.TreeSpec.stepC (m := 32) (by norm_num) X H C Uiou biou Ufw Ufb j d := by
  unfold k0_pay47
  rw [shapeCast_self]
  exact cell4 b3 b5 vH vC w5 vX w3 H C X Uiou biou Ufw Ufb hH hC hX hUf hUi hbi hbf j d

/-- The level's hidden states as stored. -/
theorem h4 (b3 : Vec Ideal S384 .f32) (b5 : Vec Ideal S256 .f32) (vH vC : Vec Ideal S32x128 .f32) (w5 : Vec Ideal S256x256 .bf16)
    (vX : Vec Ideal S16x384 .f32) (w3 : Vec Ideal S256x384 .bf16)
    (H C : Fin 32 → Fin 128 → EReal) (X : Fin 16 → Fin 384 → EReal) (Uiou : Fin 384 → Fin 256 → EReal) (biou : Fin 384 → EReal)
    (Ufw : Fin 256 → Fin 256 → EReal) (Ufb : Fin 256 → EReal)
    (hH : ∀ r d, vH (ix2 r d) = H r d) (hC : ∀ r d, vC (ix2 r d) = C r d) (hX : ∀ j g, vX (ix2 j g) = X j g)
    (hUf : ∀ k q, w5 (ix2 k q) = Ufw q k) (hUi : ∀ k g, w3 (ix2 k g) = Uiou g k) (hbi : ∀ g, b3 (ix1 g) = biou g) (hbf : ∀ q, b5 (ix1 q) = Ufb q)
    (j : Fin 16) (d : Fin 128) :
    k0_pay46 (F := Ideal) b3 b5 vC (k0_pay42 (F := Ideal) vH) (k0_pay43 (F := Ideal) w5) vX w3 (ix2 j d) = Cert.TreeSpec.stepH (m := 32) (by norm_num) X H C Uiou biou Ufw Ufb j d := by
  unfold k0_pay46
  rw [shapeCast_self]
  refine (Cert.KStep.hid_apply (n := 16) (k0_pay44 (F := Ideal) b3 (k0_pay42 (F := Ideal) vH) vX w3) (k0_pay45 (F := Ideal) b3 b5 vC (k0_pay42 (F := Ideal) vH) (k0_pay43 (F := Ideal) w5) vX w3) _ (preOf (by norm_num : 32 = 2 * 16) X H Uiou biou)
    (pre4 b3 b5 vH vC w5 vX w3 H C X Uiou biou Ufw Ufb hH hC hX hUf hUi hbi hbf) j d).trans ?_
  unfold stepH
  rw [cell4 b3 b5 vH vC w5 vX w3 H C X Uiou biou Ufw Ufb hH hC hX hUf hUi hbi hbf j d]

end Cert.KLev

end
-- ==== Proof.KLev3.lean ====
/-
  Level 3 of the tree (8 nodes, 16 children): the kernel's vector terms for the level's cell and hidden states,
  read at an entry, are one step of the recurrence applied to the children's rows.
-/
import proofs.«149831_j26912265077353_2_alg».proof.Proof.Gen.KernelIdeal.Skeleton
import proofs.«149831_j26912265077353_2_alg».proof.Proof.KStep

noncomputable section

namespace Cert.KLev

open Idealize.ShloMosaic Idealize.ShloMosaic.ValueIdx Cert.TreeSpec Cert.KernelIdeal Cert.KernelIdeal.Gen

/-- The children's hidden rows side by side, as the level's matrix products read them. -/
theorem hcat3 (vH : Vec Ideal S16x128 .f32) (H : Fin 16 → Fin 128 → EReal) (hH : ∀ r d, vH (ix2 r d) = H r d)
    (j : Fin 8) (k : Fin 256) :
    (k0_pay48 (F := Ideal) vH) (ix2 j k) = hcat (by norm_num : 16 = 2 * 8) H j k :=
  Cert.KStep.hcat_apply (n := 8) (m := 16) (by norm_num : 16 = 2 * 8) vH _ _ H hH j k

/-- The level's pre-activation rows. -/
theorem pre3 (b3 : Vec Ideal S384 .f32) (b5 : Vec Ideal S256 .f32) (vH vC : Vec Ideal S16x128 .f32) (w5 : Vec Ideal S256x256 .bf16)
    (vX : Vec Ideal S8x384 .f32) (w3 : Vec Ideal S256x384 .bf16)
    (H C : Fin 16 → Fin 128 → EReal) (X : Fin 8 → Fin 384 → EReal) (Uiou : Fin 384 → Fin 256 → EReal) (biou : Fin 384 → EReal)
    (Ufw : Fin 256 → Fin 256 → EReal) (Ufb : Fin 256 → EReal)
    (hH : ∀ r d, vH (ix2 r d) = H r d) (hC : ∀ r d, vC (ix2 r d) = C r d) (hX : ∀ j g, vX (ix2 j g) = X j g)
    (hUf : ∀ k q, w5 (ix2 k q) = Ufw q k) (hUi : ∀ k g, w3 (ix2 k g) = Uiou g k) (hbi : ∀ g, b3 (ix1 g) = biou g) (hbf : ∀ q, b5 (ix1 q) = Ufb q)
    (j : Fin 8) (g : Fin 384) :
    (k0_pay50 (F := Ideal) b3 (k0_pay48 (F := Ideal) vH) vX w3) (ix2 j g) = preOf (by norm_num : 16 = 2 * 8) X H Uiou biou j g :=
  Cert.KStep.pre_apply (n := 8) (m := 16) (by norm_num : 16 = 2 * 8) vX (k0_pay48 (F := Ideal) vH) (shapeCast S256x384 w3 shapeCasts_S256x384_S256x384) b3 _ _
    X H Uiou biou hX (hcat3 vH H hH) (fun k g => by rw [shapeCast_self]; exact hUi k g) hbi j g

/-- The level's cell states. -/
theorem cell3 (b3 : Vec Ideal S384 .f32) (b5 : Vec Ideal S256 .f32) (vH vC : Vec Ideal S16x128 .f32) (w5 : Vec Ideal S256x256 .bf16)
    (vX : Vec Ideal S8x384 .f32) (w3 : Vec Ideal S256x384 .bf16)
    (H C : Fin 16 → Fin 128 → EReal) (X : Fin 8 → Fin 384 → EReal) (Uiou : Fin 384 → Fin 256 → EReal) (biou : Fin 384 → EReal)
    (Ufw : Fin 256 → Fin 256 → EReal) (Ufb : Fin 256 → EReal)
    (hH : ∀ r d, vH (ix2 r d) = H r d) (hC : ∀ r d, vC (ix2 r d) = C r d) (hX : ∀ j g, vX (ix2 j g) = X j g)
    (hUf : ∀ k q, w5 (ix2 k q) = Ufw q k) (hUi : ∀ k g, w3 (ix2 k g) = Uiou g k) (hbi : ∀ g, b3 (ix1 g) = biou g) (hbf : ∀ q, b5 (ix1 q) = Ufb q)
    (j : Fin 8) (d : Fin 128) :
    (k0_pay51 (F := Ideal) b3 b5 vC (k0_pay48 (F := Ideal) vH) (k0_pay49 (F := Ideal) vH w5) vX w3) (ix2 j d) = stepC (by norm_num : 16 = 2 * 8) X H C Uiou biou Ufw Ufb j d := by
  refine (Cert.KStep.cell_apply (n := 8) (k0_pay50 (F := Ideal) b3 (k0_pay48 (F := Ideal) vH) vX w3) _ _ _ (preOf (by norm_num : 16 = 2 * 8) X H Uiou biou)
    (pre3 b3 b5 vH vC w5 vX w3 H C X Uiou biou Ufw Ufb hH hC hX hUf hUi hbi hbf) j d).trans ?_
  unfold stepC
  refine congrArg (fun s => cellOf (preOf (by norm_num : 16 = 2 * 8) X H Uiou biou j) s d) ?_
  exact Cert.KStep.cred_apply (n := 8) (m := 16) (by norm_num : 16 = 2 * 8) _ vC _ _ _ _ _ H C Ufw Ufb
    (fun j q => Cert.KStep.fgate_apply (n := 8) (m := 16) (by norm_num : 16 = 2 * 8) (k0_pay48 (F := Ideal) vH) (shapeCast S256x256 w5 shapeCasts_S256x256_S256x256) b5 _ _
      H Ufw Ufb (hcat3 vH H hH) (fun k q => by rw [shapeCast_self]; exact hUf k q) hbf j q) hC j d

/-- The level's cell states as stored. -/
theorem c3 (b3 : Vec Ideal S384 .f32) (b5 : Vec Ideal S256 .f32) (vH vC : Vec Ideal S16x128 .f32) (w5 : Vec Ideal S256x256 .bf16)
    (vX : Vec Ideal S8x384 .f32) (w3 : Vec Ideal S256x384 .bf16)
    (H C : Fin 16 → Fin 128 → EReal) (X : Fin 8 → Fin 384 → EReal) (Uiou : Fin 384 → Fin 256 → EReal) (biou : Fin 384 → EReal)
    (Ufw : Fin 256 → Fin 256 → EReal) (Ufb : Fin 256 → EReal)
    (hH : ∀ r d, vH (ix2 r d) = H r d) (hC : ∀ r d, vC (ix2 r d) = C r d) (hX : ∀ j g, vX (ix2 j g) = X j g)
    (hUf : ∀ k q, w5 (ix2 k q) = Ufw q k) (hUi : ∀ k g, w3 (ix2 k g) = Uiou g k) (hbi : ∀ g, b3 (ix1 g) = biou g) (hbf : ∀ q, b5 (ix1 q) = Ufb q)
    (j : Fin 8) (d : Fin 128) :
    k0_pay53 (F := Ideal) b3 b5 vC (k0_pay48 (F := Ideal) vH) (k0_pay49 (F := Ideal) vH w5) vX w3 (ix2 j d) = Cert.TreeSpec.stepC (m := 16) (by norm_num) X H C Uiou biou Ufw Ufb j d := by
  unfold k0_pay53
  rw [shapeCast_self]
  exact cell3 b3 b5 vH vC w5 vX w3 H C X Uiou biou Ufw Ufb hH hC hX hUf hUi hbi hbf j d

/-- The level's hidden states as stored. -/
theorem h3 (b3 : Vec Ideal S384 .f32) (b5 : Vec Ideal S256 .f32) (vH vC : Vec Ideal S16x128 .f32) (w5 : Vec Ideal S256x256 .bf16)
    (vX : Vec Ideal S8x384 .f32) (w3 : Vec Ideal S256x384 .bf16)
    (H C : Fin 16 → Fin 128 → EReal) (X : Fin 8 → Fin 384 → EReal) (Uiou : Fin 384 → Fin 256 → EReal) (biou : Fin 384 → EReal)
    (Ufw : Fin 256 → Fin 256 → EReal) (Ufb : Fin 256 → EReal)
    (hH : ∀ r d, vH (ix2 r d) = H r d) (hC : ∀ r d, vC (ix2 r d) = C r d) (hX : ∀ j g, vX (ix2 j g) = X j g)
    (hUf : ∀ k q, w5 (ix2 k q) = Ufw q k) (hUi : ∀ k g, w3 (ix2 k g) = Uiou g k) (hbi : ∀ g, b3 (ix1 g) = biou g) (hbf : ∀ q, b5 (ix1 q) = Ufb q)
    (j : Fin 8) (d : Fin 128) :
    k0_pay52 (F := Ideal) b3 b5 vC (k0_pay48 (F := Ideal) vH) (k0_pay49 (F := Ideal) vH w5) vX w3 (ix2 j d) = Cert.TreeSpec.stepH (m := 16) (by norm_num) X H C Uiou biou Ufw Ufb j d := by
  unfold k0_pay52
  rw [shapeCast_self]
  refine (Cert.KStep.hid_apply (n := 8) (k0_pay50 (F := Ideal) b3 (k0_pay48 (F := Ideal) vH) vX w3) (k0_pay51 (F := Ideal) b3 b5 vC (k0_pay48 (F := Ideal) vH) (k0_pay49 (F := Ideal) vH w5) vX w3) _ (preOf (by norm_num : 16 = 2 * 8) X H Uiou biou)
    (pre3 b3 b5 vH vC w5 vX w3 H C X Uiou biou Ufw Ufb hH hC hX hUf hUi hbi hbf) j d).trans ?_
  unfold stepH
  rw [cell3 b3 b5 vH vC w5 vX w3 H C X Uiou biou Ufw Ufb hH hC hX hUf hUi hbi hbf j d]

end Cert.KLev

end
-- ==== Proof.KLev2.lean ====
/-
  Level 2 of the tree (4 nodes, 8 children): the kernel's vector terms for the level's cell and hidden states,
  read at an entry, are one step of the recurrence applied to the children's rows.
-/
import proofs.«149831_j26912265077353_2_alg».proof.Proof.Gen.KernelIdeal.Skeleton
import proofs.«149831_j26912265077353_2_alg».proof.Proof.KStep

noncomputable section

namespace Cert.KLev

open Idealize.ShloMosaic Idealize.ShloMosaic.ValueIdx Cert.TreeSpec Cert.KernelIdeal Cert.KernelIdeal.Gen

/-- The children's hidden rows side by side, as the level's matrix products read them. -/
theorem hcat2 (vH : Vec Ideal S8x128 .f32) (H : Fin 8 → Fin 128 → EReal) (hH : ∀ r d, vH (ix2 r d) = H r d)
    (j : Fin 4) (k : Fin 256) :
    (k0_pay54 (F := Ideal) vH) (ix2 j k) = hcat (by norm_num : 8 = 2 * 4) H j k :=
  Cert.KStep.hcat_apply (n := 4) (m := 8) (by norm_num : 8 = 2 * 4) vH _ _ H hH j k

/-- The level's pre-activation rows. -/
theorem pre2 (b3 : Vec Ideal S384 .f32) (b5 : Vec Ideal S256 .f32) (vH vC : Vec Ideal S8x128 .f32) (w5 : Vec Ideal S256x256 .bf16)
    (vX : Vec Ideal S4x384 .f32) (w3 : Vec Ideal S256x384 .bf16)
    (H C : Fin 8 → Fin 128 → EReal) (X : Fin 4 → Fin 384 → EReal) (Uiou : Fin 384 → Fin 256 → EReal) (biou : Fin 384 → EReal)
    (Ufw : Fin 256 → Fin 256 → EReal) (Ufb : Fin 256 → EReal)
    (hH : ∀ r d, vH (ix2 r d) = H r d) (hC : ∀ r d, vC (ix2 r d) = C r d) (hX : ∀ j g, vX (ix2 j g) = X j g)
    (hUf : ∀ k q, w5 (ix2 k q) = Ufw q k) (hUi : ∀ k g, w3 (ix2 k g) = Uiou g k) (hbi : ∀ g, b3 (ix1 g) = biou g) (hbf : ∀ q, b5 (ix1 q) = Ufb q)
    (j : Fin 4) (g : Fin 384) :
    (k0_pay57 (F := Ideal) b3 (k0_pay54 (F := Ideal) vH) vX w3) (ix2 j g) = preOf (by norm_num : 8 = 2 * 4) X H Uiou biou j g :=
  Cert.KStep.pre_apply (n := 4) (m := 8) (by norm_num : 8 = 2 * 4) vX (k0_pay54 (F := Ideal) vH) (shapeCast S256x384 w3 shapeCasts_S256x384_S256x384) b3 _ _
    X H Uiou biou hX (hcat2 vH H hH) (fun k g => by rw [shapeCast_self]; exact hUi k g) hbi j g

/-- The level's cell states. -/
theorem cell2 (b3 : Vec Ideal S384 .f32) (b5 : Vec Ideal S256 .f32) (vH vC : Vec Ideal S8x128 .f32) (w5 : Vec Ideal S256x256 .bf16)
    (vX : Vec Ideal S4x384 .f32) (w3 : Vec Ideal S256x384 .bf16)
    (H C : Fin 8 → Fin 128 → EReal) (X : Fin 4 → Fin 384 → EReal) (Uiou : Fin 384 → Fin 256 → EReal) (biou : Fin 384 → EReal)
    (Ufw : Fin 256 → Fin 256 → EReal) (Ufb : Fin 256 → EReal)
    (hH : ∀ r d, vH (ix2 r d) = H r d) (hC : ∀ r d, vC (ix2 r d) = C r d) (hX : ∀ j g, vX (ix2 j g) = X j g)
    (hUf : ∀ k q, w5 (ix2 k q) = Ufw q k) (hUi : ∀ k g, w3 (ix2 k g) = Uiou g k) (hbi : ∀ g, b3 (ix1 g) = biou g) (hbf : ∀ q, b5 (ix1 q) = Ufb q)
    (j : Fin 4) (d : Fin 128) :
    (k0_pay58 (F := Ideal) b3 vC (k0_pay54 (F := Ideal) vH) (k0_pay55 (F := Ideal) vH w5) (k0_pay56 (F := Ideal) b5) vX w3) (ix2 j d) = stepC (by norm_num : 8 = 2 * 4) X H C Uiou biou Ufw Ufb j d := by
  refine (Cert.KStep.cell_apply (n := 4) (k0_pay57 (F := Ideal) b3 (k0_pay54 (F := Ideal) vH) vX w3) _ _ _ (preOf (by norm_num : 8 = 2 * 4) X H Uiou biou)
    (pre2 b3 b5 vH vC w5 vX w3 H C X Uiou biou Ufw Ufb hH hC hX hUf hUi hbi hbf) j d).trans ?_
  unfold stepC
  refine congrArg (fun s => cellOf (preOf (by norm_num : 8 = 2 * 4) X H Uiou biou j) s d) ?_
  exact Cert.KStep.cred_apply (n := 4) (m := 8) (by norm_num : 8 = 2 * 4)
    (logistic (addf (k0_pay55 (F := Ideal) vH w5) (k0_pay56 (F := Ideal) b5))) vC _ _ _ _ _ H C Ufw Ufb
    (fun j q => Cert.KStep.fgate_apply (n := 4) (m := 8) (by norm_num : 8 = 2 * 4) (k0_pay54 (F := Ideal) vH) (shapeCast S256x256 w5 shapeCasts_S256x256_S256x256) b5
      shapeCasts_S256_S1x256 broadcasts_S1x256_S4x256
      H Ufw Ufb (hcat2 vH H hH) (fun k q => by rw [shapeCast_self]; exact hUf k q) hbf j q) hC j d

/-- The level's cell states as stored. -/
theorem c2 (b3 : Vec Ideal S384 .f32) (b5 : Vec Ideal S256 .f32) (vH vC : Vec Ideal S8x128 .f32) (w5 : Vec Ideal S256x256 .bf16)
    (vX : Vec Ideal S4x384 .f32) (w3 : Vec Ideal S256x384 .bf16)
    (H C : Fin 8 → Fin 128 → EReal) (X : Fin 4 → Fin 384 → EReal) (Uiou : Fin 384 → Fin 256 → EReal) (biou : Fin 384 → EReal)
    (Ufw : Fin 256 → Fin 256 → EReal) (Ufb : Fin 256 → EReal)
    (hH : ∀ r d, vH (ix2 r d) = H r d) (hC : ∀ r d, vC (ix2 r d) = C r d) (hX : ∀ j g, vX (ix2 j g) = X j g)
    (hUf : ∀ k q, w5 (ix2 k q) = Ufw q k) (hUi : ∀ k g, w3 (ix2 k g) = Uiou g k) (hbi : ∀ g, b3 (ix1 g) = biou g) (hbf : ∀ q, b5 (ix1 q) = Ufb q)
    (j : Fin 4) (d : Fin 128) :
    k0_pay60 (F := Ideal) b3 vC (k0_pay54 (F := Ideal) vH) (k0_pay55 (F := Ideal) vH w5) (k0_pay56 (F := Ideal) b5) vX w3 (ix2 j d) = Cert.TreeSpec.stepC (m := 8) (by norm_num) X H C Uiou biou Ufw Ufb j d := by
  unfold k0_pay60
  rw [shapeCast_self]
  exact cell2 b3 b5 vH vC w5 vX w3 H C X Uiou biou Ufw Ufb hH hC hX hUf hUi hbi hbf j d

/-- The level's hidden states as stored. -/
theorem h2 (b3 : Vec Ideal S384 .f32) (b5 : Vec Ideal S256 .f32) (vH vC : Vec Ideal S8x128 .f32) (w5 : Vec Ideal S256x256 .bf16)
    (vX : Vec Ideal S4x384 .f32) (w3 : Vec Ideal S256x384 .bf16)
    (H C : Fin 8 → Fin 128 → EReal) (X : Fin 4 → Fin 384 → EReal) (Uiou : Fin 384 → Fin 256 → EReal) (biou : Fin 384 → EReal)
    (Ufw : Fin 256 → Fin 256 → EReal) (Ufb : Fin 256 → EReal)
    (hH : ∀ r d, vH (ix2 r d) = H r d) (hC : ∀ r d, vC (ix2 r d) = C r d) (hX : ∀ j g, vX (ix2 j g) = X j g)
    (hUf : ∀ k q, w5 (ix2 k q) = Ufw q k) (hUi : ∀ k g, w3 (ix2 k g) = Uiou g k) (hbi : ∀ g, b3 (ix1 g) = biou g) (hbf : ∀ q, b5 (ix1 q) = Ufb q)
    (j : Fin 4) (d : Fin 128) :
    k0_pay59 (F := Ideal) b3 vC (k0_pay54 (F := Ideal) vH) (k0_pay55 (F := Ideal) vH w5) (k0_pay56 (F := Ideal) b5) vX w3 (ix2 j d) = Cert.TreeSpec.stepH (m := 8) (by norm_num) X H C Uiou biou Ufw Ufb j d := by
  unfold k0_pay59
  rw [shapeCast_self]
  refine (Cert.KStep.hid_apply (n := 4) (k0_pay57 (F := Ideal) b3 (k0_pay54 (F := Ideal) vH) vX w3) (k0_pay58 (F := Ideal) b3 vC (k0_pay54 (F := Ideal) vH) (k0_pay55 (F := Ideal) vH w5) (k0_pay56 (F := Ideal) b5) vX w3) _ (preOf (by norm_num : 8 = 2 * 4) X H Uiou biou)
    (pre2 b3 b5 vH vC w5 vX w3 H C X Uiou biou Ufw Ufb hH hC hX hUf hUi hbi hbf) j d).trans ?_
  unfold stepH
  rw [cell2 b3 b5 vH vC w5 vX w3 H C X Uiou biou Ufw Ufb hH hC hX hUf hUi hbi hbf j d]

end Cert.KLev

end
-- ==== Proof.KLev1.lean ====
/-
  Level 1 of the tree (2 nodes, 4 children): the kernel's vector terms for the level's cell and hidden states,
  read at an entry, are one step of the recurrence applied to the children's rows.
-/
import proofs.«149831_j26912265077353_2_alg».proof.Proof.Gen.KernelIdeal.Skeleton
import proofs.«149831_j26912265077353_2_alg».proof.Proof.KStep

noncomputable section

namespace Cert.KLev

open Idealize.ShloMosaic Idealize.ShloMosaic.ValueIdx Cert.TreeSpec Cert.KernelIdeal Cert.KernelIdeal.Gen

/-- The children's hidden rows side by side, as the level's matrix products read them. -/
theorem hcat1 (vH : Vec Ideal S4x128 .f32) (H : Fin 4 → Fin 128 → EReal) (hH : ∀ r d, vH (ix2 r d) = H r d)
    (j : Fin 2) (k : Fin 256) :
    (k0_pay61 (F := Ideal) vH) (ix2 j k) = hcat (by norm_num : 4 = 2 * 2) H j k :=
  Cert.KStep.hcat_apply (n := 2) (m := 4) (by norm_num : 4 = 2 * 2) vH _ _ H hH j k

/-- The level's pre-activation rows. -/
theorem pre1 (b3 : Vec Ideal S384 .f32) (b5 : Vec Ideal S256 .f32) (vH vC : Vec Ideal S4x128 .f32) (w5 : Vec Ideal S256x256 .bf16)
    (vX : Vec Ideal S2x384 .f32) (w3 : Vec Ideal S256x384 .bf16)
    (H C : Fin 4 → Fin 128 → EReal) (X : Fin 2 → Fin 384 → EReal) (Uiou : Fin 384 → Fin 256 → EReal) (biou : Fin 384 → EReal)
    (Ufw : Fin 256 → Fin 256 → EReal) (Ufb : Fin 256 → EReal)
    (hH : ∀ r d, vH (ix2 r d) = H r d) (hC : ∀ r d, vC (ix2 r d) = C r d) (hX : ∀ j g, vX (ix2 j g) = X j g)
    (hUf : ∀ k q, w5 (ix2 k q) = Ufw q k) (hUi : ∀ k g, w3 (ix2 k g) = Uiou g k) (hbi : ∀ g, b3 (ix1 g) = biou g) (hbf : ∀ q, b5 (ix1 q) = Ufb q)
    (j : Fin 2) (g : Fin 384) :
    (k0_pay63 (F := Ideal) b3 (k0_pay61 (F := Ideal) vH) vX w3) (ix2 j g) = preOf (by norm_num : 4 = 2 * 2) X H Uiou biou j g :=
  Cert.KStep.pre_apply (n := 2) (m := 4) (by norm_num : 4 = 2 * 2) vX (k0_pay61 (F := Ideal) vH) (shapeCast S256x384 w3 shapeCasts_S256x384_S256x384) b3 _ _
    X H Uiou biou hX (hcat1 vH H hH) (fun k g => by rw [shapeCast_self]; exact hUi k g) hbi j g

/-- The level's cell states. -/
theorem cell1 (b3 : Vec Ideal S384 .f32) (b5 : Vec Ideal S256 .f32) (vH vC : Vec Ideal S4x128 .f32) (w5 : Vec Ideal S256x256 .bf16)
    (vX : Vec Ideal S2x384 .f32) (w3 : Vec Ideal S256x384 .bf16)
    (H C : Fin 4 → Fin 128 → EReal) (X : Fin 2 → Fin 384 → EReal) (Uiou : Fin 384 → Fin 256 → EReal) (biou : Fin 384 → EReal)
    (Ufw : Fin 256 → Fin 256 → EReal) (Ufb : Fin 256 → EReal)
    (hH : ∀ r d, vH (ix2 r d) = H r d) (hC : ∀ r d, vC (ix2 r d) = C r d) (hX : ∀ j g, vX (ix2 j g) = X j g)
    (hUf : ∀ k q, w5 (ix2 k q) = Ufw q k) (hUi : ∀ k g, w3 (ix2 k g) = Uiou g k) (hbi : ∀ g, b3 (ix1 g) = biou g) (hbf : ∀ q, b5 (ix1 q) = Ufb q)
    (j : Fin 2) (d : Fin 128) :
    (k0_pay64 (F := Ideal) b3 vC (k0_pay61 (F := Ideal) vH) (k0_pay62 (F := Ideal) b5 vH w5) vX w3) (ix2 j d) = stepC (by norm_num : 4 = 2 * 2) X H C Uiou biou Ufw Ufb j d := by
  refine (Cert.KStep.cell_apply (n := 2) (k0_pay63 (F := Ideal) b3 (k0_pay61 (F := Ideal) vH) vX w3) _ _ _ (preOf (by norm_num : 4 = 2 * 2) X H Uiou biou)
    (pre1 b3 b5 vH vC w5 vX w3 H C X Uiou biou Ufw Ufb hH hC hX hUf hUi hbi hbf) j d).trans ?_
  unfold stepC
  refine congrArg (fun s => cellOf (preOf (by norm_num : 4 = 2 * 2) X H Uiou biou j) s d) ?_
  exact Cert.KStep.cred_apply (n := 2) (m := 4) (by norm_num : 4 = 2 * 2) _ vC _ _ _ _ _ H C Ufw Ufb
    (fun j q => Cert.KStep.fgate_apply (n := 2) (m := 4) (by norm_num : 4 = 2 * 2) (k0_pay61 (F := Ideal) vH) (shapeCast S256x256 w5 shapeCasts_S256x256_S256x256) b5 _ _
      H Ufw Ufb (hcat1 vH H hH) (fun k q => by rw [shapeCast_self]; exact hUf k q) hbf j q) hC j d

/-- The level's cell states as stored. -/
theorem c1 (b3 : Vec Ideal S384 .f32) (b5 : Vec Ideal S256 .f32) (vH vC : Vec Ideal S4x128 .f32) (w5 : Vec Ideal S256x256 .bf16)
    (vX : Vec Ideal S2x384 .f32) (w3 : Vec Ideal S256x384 .bf16)
    (H C : Fin 4 → Fin 128 → EReal) (X : Fin 2 → Fin 384 → EReal) (Uiou : Fin 384 → Fin 256 → EReal) (biou : Fin 384 → EReal)
    (Ufw : Fin 256 → Fin 256 → EReal) (Ufb : Fin 256 → EReal)
    (hH : ∀ r d, vH (ix2 r d) = H r d) (hC : ∀ r d, vC (ix2 r d) = C r d) (hX : ∀ j g, vX (ix2 j g) = X j g)
    (hUf : ∀ k q, w5 (ix2 k q) = Ufw q k) (hUi : ∀ k g, w3 (ix2 k g) = Uiou g k) (hbi : ∀ g, b3 (ix1 g) = biou g) (hbf : ∀ q, b5 (ix1 q) = Ufb q)
    (j : Fin 2) (d : Fin 128) :
    k0_pay66 (F := Ideal) b3 vC (k0_pay61 (F := Ideal) vH) (k0_pay62 (F := Ideal) b5 vH w5) vX w3 (ix2 j d) = Cert.TreeSpec.stepC (m := 4) (by norm_num) X H C Uiou biou Ufw Ufb j d := by
  unfold k0_pay66
  rw [shapeCast_self]
  exact cell1 b3 b5 vH vC w5 vX w3 H C X Uiou biou Ufw Ufb hH hC hX hUf hUi hbi hbf j d

/-- The level's hidden states as stored. -/
theorem h1 (b3 : Vec Ideal S384 .f32) (b5 : Vec Ideal S256 .f32) (vH vC : Vec Ideal S4x128 .f32) (w5 : Vec Ideal S256x256 .bf16)
    (vX : Vec Ideal S2x384 .f32) (w3 : Vec Ideal S256x384 .bf16)
    (H C : Fin 4 → Fin 128 → EReal) (X : Fin 2 → Fin 384 → EReal) (Uiou : Fin 384 → Fin 256 → EReal) (biou : Fin 384 → EReal)
    (Ufw : Fin 256 → Fin 256 → EReal) (Ufb : Fin 256 → EReal)
    (hH : ∀ r d, vH (ix2 r d) = H r d) (hC : ∀ r d, vC (ix2 r d) = C r d) (hX : ∀ j g, vX (ix2 j g) = X j g)
    (hUf : ∀ k q, w5 (ix2 k q) = Ufw q k) (hUi : ∀ k g, w3 (ix2 k g) = Uiou g k) (hbi : ∀ g, b3 (ix1 g) = biou g) (hbf : ∀ q, b5 (ix1 q) = Ufb q)
    (j : Fin 2) (d : Fin 128) :
    k0_pay65 (F := Ideal) b3 vC (k0_pay61 (F := Ideal) vH) (k0_pay62 (F := Ideal) b5 vH w5) vX w3 (ix2 j d) = Cert.TreeSpec.stepH (m := 4) (by norm_num) X H C Uiou biou Ufw Ufb j d := by
  unfold k0_pay65
  rw [shapeCast_self]
  refine (Cert.KStep.hid_apply (n := 2) (k0_pay63 (F := Ideal) b3 (k0_pay61 (F := Ideal) vH) vX w3) (k0_pay64 (F := Ideal) b3 vC (k0_pay61 (F := Ideal) vH) (k0_pay62 (F := Ideal) b5 vH w5) vX w3) _ (preOf (by norm_num : 4 = 2 * 2) X H Uiou biou)
    (pre1 b3 b5 vH vC w5 vX w3 H C X Uiou biou Ufw Ufb hH hC hX hUf hUi hbi hbf) j d).trans ?_
  unfold stepH
  rw [cell1 b3 b5 vH vC w5 vX w3 H C X Uiou biou Ufw Ufb hH hC hX hUf hUi hbi hbf j d]

end Cert.KLev

end
-- ==== Proof.KLev0.lean ====
/-
  Level 0 of the tree (the root, 2 children): the kernel's vector terms for the root's cell and hidden state, read at
  an entry, are one step of the recurrence applied to the two children's rows. With a single row the bias rows are
  added as they stand, and the gated child cells arrive as one product over [1, 2, 128].
-/
import proofs.«149831_j26912265077353_2_alg».proof.Proof.Gen.KernelIdeal.Skeleton
import proofs.«149831_j26912265077353_2_alg».proof.Proof.KStep

noncomputable section

namespace Cert.KLev

open Idealize.ShloMosaic Idealize.ShloMosaic.ValueIdx Cert.TreeSpec Cert.KernelIdeal Cert.KernelIdeal.Gen

/-- The two children's hidden rows side by side, as the root's matrix products read them. -/
theorem hcat0 (vH : Vec Ideal S2x128 .f32) (H : Fin 2 → Fin 128 → EReal) (hH : ∀ r d, vH (ix2 r d) = H r d)
    (j : Fin 1) (k : Fin 256) :
    (k0_pay67 (F := Ideal) vH) (ix2 j k) = hcat (by norm_num : 2 = 2 * 1) H j k :=
  Cert.KStep.hcat_apply (n := 1) (m := 2) (by norm_num : 2 = 2 * 1) vH _ _ H hH j k

/-- The root's pre-activation row. -/
theorem pre0 (b3 : Vec Ideal S384 .f32) (b5 : Vec Ideal S256 .f32) (vH vC : Vec Ideal S2x128 .f32) (w5 : Vec Ideal S256x256 .bf16)
    (vX : Vec Ideal S1x384 .f32) (w3 : Vec Ideal S256x384 .bf16)
    (H C : Fin 2 → Fin 128 → EReal) (X : Fin 1 → Fin 384 → EReal) (Uiou : Fin 384 → Fin 256 → EReal) (biou : Fin 384 → EReal)
    (Ufw : Fin 256 → Fin 256 → EReal) (Ufb : Fin 256 → EReal)
    (hH : ∀ r d, vH (ix2 r d) = H r d) (hC : ∀ r d, vC (ix2 r d) = C r d) (hX : ∀ j g, vX (ix2 j g) = X j g)
    (hUf : ∀ k q, w5 (ix2 k q) = Ufw q k) (hUi : ∀ k g, w3 (ix2 k g) = Uiou g k) (hbi : ∀ g, b3 (ix1 g) = biou g) (hbf : ∀ q, b5 (ix1 q) = Ufb q)
    (j : Fin 1) (g : Fin 384) :
    (k0_pay69 (F := Ideal) b3 (k0_pay67 (F := Ideal) vH) vX w3) (ix2 j g) = preOf (by norm_num : 2 = 2 * 1) X H Uiou biou j g :=
  Cert.KStep.pre_apply_one vX (k0_pay67 (F := Ideal) vH) (shapeCast S256x384 w3 shapeCasts_S256x384_S256x384) b3 _ (by norm_num : 2 = 2 * 1)
    X H Uiou biou hX (hcat0 vH H hH) (fun k g => by rw [shapeCast_self]; exact hUi k g) hbi j g

/-- The root's cell state. -/
theorem cell0 (b3 : Vec Ideal S384 .f32) (b5 : Vec Ideal S256 .f32) (vH vC : Vec Ideal S2x128 .f32) (w5 : Vec Ideal S256x256 .bf16)
    (vX : Vec Ideal S1x384 .f32) (w3 : Vec Ideal S256x384 .bf16)
    (H C : Fin 2 → Fin 128 → EReal) (X : Fin 1 → Fin 384 → EReal) (Uiou : Fin 384 → Fin 256 → EReal) (biou : Fin 384 → EReal)
    (Ufw : Fin 256 → Fin 256 → EReal) (Ufb : Fin 256 → EReal)
    (hH : ∀ r d, vH (ix2 r d) = H r d) (hC : ∀ r d, vC (ix2 r d) = C r d) (hX : ∀ j g, vX (ix2 j g) = X j g)
    (hUf : ∀ k q, w5 (ix2 k q) = Ufw q k) (hUi : ∀ k g, w3 (ix2 k g) = Uiou g k) (hbi : ∀ g, b3 (ix1 g) = biou g) (hbf : ∀ q, b5 (ix1 q) = Ufb q)
    (j : Fin 1) (d : Fin 128) :
    (k0_pay70 (F := Ideal) b3 (k0_pay67 (F := Ideal) vH) (k0_pay68 (F := Ideal) b5 vH vC w5) vX w3) (ix2 j d) = stepC (by norm_num : 2 = 2 * 1) X H C Uiou biou Ufw Ufb j d := by
  refine (Cert.KStep.cell_apply (n := 1) (k0_pay69 (F := Ideal) b3 (k0_pay67 (F := Ideal) vH) vX w3) _ _ _ (preOf (by norm_num : 2 = 2 * 1) X H Uiou biou)
    (pre0 b3 b5 vH vC w5 vX w3 H C X Uiou biou Ufw Ufb hH hC hX hUf hUi hbi hbf) j d).trans ?_
  unfold stepC
  refine congrArg (fun s => cellOf (preOf (by norm_num : 2 = 2 * 1) X H Uiou biou j) s d) ?_
  exact Cert.KStep.cred_apply (n := 1) (m := 2) (by norm_num : 2 = 2 * 1) _ vC _ _ _ _ _ H C Ufw Ufb
    (fun j q => Cert.KStep.fgate_apply_one (k0_pay67 (F := Ideal) vH) (shapeCast S256x256 w5 shapeCasts_S256x256_S256x256) b5 _ (by norm_num : 2 = 2 * 1)
      H Ufw Ufb (hcat0 vH H hH) (fun k q => by rw [shapeCast_self]; exact hUf k q) hbf j q) hC j d

/-- The root's hidden state as stored. -/
theorem h0 (b3 : Vec Ideal S384 .f32) (b5 : Vec Ideal S256 .f32) (vH vC : Vec Ideal S2x128 .f32) (w5 : Vec Ideal S256x256 .bf16)
    (vX : Vec Ideal S1x384 .f32) (w3 : Vec Ideal S256x384 .bf16)
    (H C : Fin 2 → Fin 128 → EReal) (X : Fin 1 → Fin 384 → EReal) (Uiou : Fin 384 → Fin 256 → EReal) (biou : Fin 384 → EReal)
    (Ufw : Fin 256 → Fin 256 → EReal) (Ufb : Fin 256 → EReal)
    (hH : ∀ r d, vH (ix2 r d) = H r d) (hC : ∀ r d, vC (ix2 r d) = C r d) (hX : ∀ j g, vX (ix2 j g) = X j g)
    (hUf : ∀ k q, w5 (ix2 k q) = Ufw q k) (hUi : ∀ k g, w3 (ix2 k g) = Uiou g k) (hbi : ∀ g, b3 (ix1 g) = biou g) (hbf : ∀ q, b5 (ix1 q) = Ufb q)
    (j : Fin 1) (d : Fin 128) :
    k0_pay71 (F := Ideal) b3 (k0_pay67 (F := Ideal) vH) (k0_pay68 (F := Ideal) b5 vH vC w5) vX w3 (ix2 j d) = Cert.TreeSpec.stepH (m := 2) (by norm_num) X H C Uiou biou Ufw Ufb j d := by
  unfold k0_pay71
  rw [shapeCast_self]
  refine (Cert.KStep.hid_apply (n := 1) (k0_pay69 (F := Ideal) b3 (k0_pay67 (F := Ideal) vH) vX w3) (k0_pay70 (F := Ideal) b3 (k0_pay67 (F := Ideal) vH) (k0_pay68 (F := Ideal) b5 vH vC w5) vX w3) _ (preOf (by norm_num : 2 = 2 * 1) X H Uiou biou)
    (pre0 b3 b5 vH vC w5 vX w3 H C X Uiou biou Ufw Ufb hH hC hX hUf hUi hbi hbf) j d).trans ?_
  unfold stepH
  rw [cell0 b3 b5 vH vC w5 vX w3 H C X Uiou biou Ufw Ufb hH hC hX hUf hUi hbi hbf j d]

end Cert.KLev

end
-- ==== Proof.KInv.lean ====
/-
  What the kernel's three scratch arrays hold while its body runs, level by level.

  The body fills the x-part array once (row i + 1 = node i's row of x · W_iouᵀ, internal nodes only), then the padded
  hidden and cell arrays from the leaves upward: after the level with 2^l nodes has been stored, every row from 2^l on
  holds what the padded layout says (`padH`, `padC`). Each level reads its children's rows, which the level before
  stored, and its own rows of the x-part.
-/
import proofs.«149831_j26912265077353_2_alg».proof.Proof.Gen.KernelIdeal.Frame
import proofs.«149831_j26912265077353_2_alg».proof.Proof.KPad
import proofs.«149831_j26912265077353_2_alg».proof.Proof.LibRowPieces
import proofs.«149831_j26912265077353_2_alg».proof.Proof.LibWholeLoads
import proofs.«149831_j26912265077353_2_alg».proof.Proof.KLeaf
import proofs.«149831_j26912265077353_2_alg».proof.Proof.KLev11
import proofs.«149831_j26912265077353_2_alg».proof.Proof.KLev10
import proofs.«149831_j26912265077353_2_alg».proof.Proof.KLev9
import proofs.«149831_j26912265077353_2_alg».proof.Proof.KLev8
import proofs.«149831_j26912265077353_2_alg».proof.Proof.KLev7
import proofs.«149831_j26912265077353_2_alg».proof.Proof.KLev6
import proofs.«149831_j26912265077353_2_alg».proof.Proof.KLev5
import proofs.«149831_j26912265077353_2_alg».proof.Proof.KLev4
import proofs.«149831_j26912265077353_2_alg».proof.Proof.KLev3
import proofs.«149831_j26912265077353_2_alg».proof.Proof.KLev2
import proofs.«149831_j26912265077353_2_alg».proof.Proof.KLev1
import proofs.«149831_j26912265077353_2_alg».proof.Proof.KLev0

set_option maxRecDepth 16384

noncomputable section

namespace Cert.KInv

open Idealize.ShloMosaic Idealize.ShloMosaic.ValueIdx Cert.TreeSpec Cert.KernelIdeal Cert.KernelIdeal.Gen

/-- One grid point's blocks read as one tree's inputs: the block of x is the tree's rows, the weight blocks arrive
    transposed. -/
def blockArgs (x0 : Vec Ideal S1x8191x128 .f32) (x1 : Vec Ideal S128x384 .bf16) (x2 : Vec Ideal S256x384 .bf16)
    (x3 : Vec Ideal S384 .f32) (x4 : Vec Ideal S256x256 .bf16) (x5 : Vec Ideal S256 .f32) : Args where
  X n k := x0 (ix3 (0 : Fin 1) n k)
  Wiou g k := x1 (ix2 k g)
  Uiou g k := x2 (ix2 k g)
  biou g := x3 (ix1 g)
  Ufw q k := x4 (ix2 k q)
  Ufb q := x5 (ix1 q)

variable (c : Dev nD) (arg1 : Memref sig .tc .vmem S1x8191x128 .f32) (harg1 : arg1.IsWhole) (arg2 : Memref sig .tc .vmem S128x384 .bf16) (harg2 : arg2.IsWhole) (arg3 : Memref sig .tc .vmem S256x384 .bf16) (harg3 : arg3.IsWhole) (arg4 : Memref sig .tc .vmem S384 .f32) (harg4 : arg4.IsWhole) (arg5 : Memref sig .tc .vmem S256x256 .bf16) (harg5 : arg5.IsWhole) (arg6 : Memref sig .tc .vmem S256 .f32) (harg6 : arg6.IsWhole) (arg7 : Memref sig .tc .vmem S2x1x8191x128 .f32) (harg7 : arg7.IsWhole) (arg8 : Memref sig .tc .vmem S8192x128 .f32) (harg8 : arg8.IsWhole) (arg9 : Memref sig .tc .vmem S8192x128 .f32) (harg9 : arg9.IsWhole) (arg10 : Memref sig .tc .vmem S4096x384 .f32) (harg10 : arg10.IsWhole)
    (x0 : Vec Ideal S1x8191x128 .f32) (x1 : Vec Ideal S128x384 .bf16) (x2 : Vec Ideal S256x384 .bf16) (x3 : Vec Ideal S384 .f32) (x4 : Vec Ideal S256x256 .bf16) (x5 : Vec Ideal S256 .f32)

/-- The x-part array: row r ≥ 1 holds node r - 1's row of x · W_iouᵀ. -/
theorem inv_X (r : Fin 4096) (g : Fin 384) (hr : 1 ≤ r.val) :
    View.canon (kernelRun0_A.sl.HS2_1 (F := Ideal) c arg1 harg1 arg2 harg2 x0 x1) (ix2 r g)
      = iouX (blockArgs x0 x1 x2 x3 x4 x5) ⟨r.val - 1, by have := r.isLt; omega⟩ g := by
  have hlt := r.isLt
  unfold kernelRun0_A.sl.HS2_1
  refine (Cert.KCanon.canon_rows_hit 1 _ _ _ r g hr (by omega)).trans ?_
  refine (Cert.KLev.xpart _ _ (fun j k => x0 (ix3 (0 : Fin 1) ⟨j.val, by have := j.isLt; omega⟩ k)) (fun g k => x1 (ix2 k g))
    (fun j k => Cert.KLoads.load_rows3 arg1 harg1 x0 0 _ j k ⟨j.val, by have := j.isLt; omega⟩ (by simp))
    (fun k g => congrFun (Cert.KLoads.load_whole arg2 harg2 x1 (by funext a; fin_cases a <;> rfl) _) (ix2 k g)) ⟨r.val - 1, by omega⟩ g).trans ?_
  rfl

/-- After the leaves: rows 4096 … 8191 of the hidden array. -/
theorem inv_H1 (r : Fin 8192) (d : Fin 128) (hr : 4096 ≤ r.val) :
    View.canon (kernelRun0_A.sl.HS0_1 (F := Ideal) c arg1 harg1 arg2 harg2 arg4 harg4 x0 x1 x3) (ix2 r d) = padH (blockArgs x0 x1 x2 x3 x4 x5) r d := by
  have hlt := r.isLt
  unfold kernelRun0_A.sl.HS0_1
  refine (Cert.KCanon.canon_rows_hit 4096 _ _ _ r d hr (by omega)).trans ?_
  rw [padH_lev12 _ r d hr (by omega)]
  refine (Cert.KLev.leafH _ _ _ (fun j k => x0 (ix3 (0 : Fin 1) ⟨4095 + j.val, by have := j.isLt; omega⟩ k)) (fun g k => x1 (ix2 k g))
    (fun g => x3 (ix1 g))
    (fun j k => Cert.KLoads.load_rows3 arg1 harg1 x0 4095 _ j k ⟨4095 + j.val, by have := j.isLt; omega⟩ rfl)
    (fun k g => congrFun (Cert.KLoads.load_whole arg2 harg2 x1 (by funext a; fin_cases a <;> rfl) _) (ix2 k g))
    (fun g => congrFun (Cert.KLoads.load_whole arg4 harg4 x3 (by funext a; fin_cases a; rfl) _) (ix1 g)) ⟨r.val - 4096, by omega⟩ d).trans ?_
  rfl

/-- After the leaves: rows 4096 … 8191 of the cell array. -/
theorem inv_C1 (r : Fin 8192) (d : Fin 128) (hr : 4096 ≤ r.val) :
    View.canon (kernelRun0_A.sl.HS1_1 (F := Ideal) c arg1 harg1 arg2 harg2 arg4 harg4 x0 x1 x3) (ix2 r d) = padC (blockArgs x0 x1 x2 x3 x4 x5) r d := by
  have hlt := r.isLt
  unfold kernelRun0_A.sl.HS1_1 kernelRun0_A.sl.r_2
  refine (Cert.KCanon.canon_rows_hit 4096 _ _ _ r d hr (by omega)).trans ?_
  rw [padC_lev12 _ r d hr (by omega)]
  refine (Cert.KLev.leafCstored _ _ _ (fun j k => x0 (ix3 (0 : Fin 1) ⟨4095 + j.val, by have := j.isLt; omega⟩ k)) (fun g k => x1 (ix2 k g))
    (fun g => x3 (ix1 g))
    (fun j k => Cert.KLoads.load_rows3 arg1 harg1 x0 4095 _ j k ⟨4095 + j.val, by have := j.isLt; omega⟩ rfl)
    (fun k g => congrFun (Cert.KLoads.load_whole arg2 harg2 x1 (by funext a; fin_cases a <;> rfl) _) (ix2 k g))
    (fun g => congrFun (Cert.KLoads.load_whole arg4 harg4 x3 (by funext a; fin_cases a; rfl) _) (ix1 g)) ⟨r.val - 4096, by omega⟩ d).trans ?_
  rfl

/-- After level 11 (2048 nodes): rows 2048 … 8191 of the hidden array. -/
theorem inv_H2 (r : Fin 8192) (d : Fin 128) (hr : 2048 ≤ r.val) :
    View.canon (kernelRun0_A.sl.HS0_2 (F := Ideal) c arg1 harg1 arg2 harg2 arg3 harg3 arg4 harg4 arg5 harg5 arg6 harg6 arg8 arg9 arg10 x0 x1 x2 x3 x4 x5) (ix2 r d) = padH (blockArgs x0 x1 x2 x3 x4 x5) r d := by
  have hlt := r.isLt
  have hH : ∀ r' d', (kernelRun0_A.sl.v37 (F := Ideal) c arg1 harg1 arg2 harg2 arg4 harg4 arg8 x0 x1 x3) (ix2 r' d') = H12 (blockArgs x0 x1 x2 x3 x4 x5) r' d' := fun r' d' => by
    have := r'.isLt
    unfold kernelRun0_A.sl.v37
    rw [Cert.KCanon.readCov_rows _ _ 4096 _ r' d' ⟨4096 + r'.val, by omega⟩ rfl,
      inv_H1 c arg1 harg1 arg2 harg2 arg4 harg4 x0 x1 x2 x3 x4 x5 ⟨4096 + r'.val, by omega⟩ d' (by show 4096 ≤ 4096 + r'.val; omega),
      padH_lev12 _ _ d' (by show 4096 ≤ 4096 + r'.val; omega) (by show 4096 + r'.val < 8192; omega)]
    exact congrArg (fun i => H12 (blockArgs x0 x1 x2 x3 x4 x5) i d') (Fin.ext (by show 4096 + r'.val - 4096 = r'.val; omega))
  have hC : ∀ r' d', (kernelRun0_A.sl.v38 (F := Ideal) c arg1 harg1 arg2 harg2 arg4 harg4 arg9 x0 x1 x3) (ix2 r' d') = C12 (blockArgs x0 x1 x2 x3 x4 x5) r' d' := fun r' d' => by
    have := r'.isLt
    unfold kernelRun0_A.sl.v38
    rw [Cert.KCanon.readCov_rows _ _ 4096 _ r' d' ⟨4096 + r'.val, by omega⟩ rfl,
      inv_C1 c arg1 harg1 arg2 harg2 arg4 harg4 x0 x1 x2 x3 x4 x5 ⟨4096 + r'.val, by omega⟩ d' (by show 4096 ≤ 4096 + r'.val; omega),
      padC_lev12 _ _ d' (by show 4096 ≤ 4096 + r'.val; omega) (by show 4096 + r'.val < 8192; omega)]
    exact congrArg (fun i => C12 (blockArgs x0 x1 x2 x3 x4 x5) i d') (Fin.ext (by show 4096 + r'.val - 4096 = r'.val; omega))
  have hX : ∀ j g, (kernelRun0_A.sl.v52 (F := Ideal) c arg1 harg1 arg2 harg2 arg10 x0 x1) (ix2 j g) = xrow (blockArgs x0 x1 x2 x3 x4 x5) 2047 (by norm_num) j g := fun j g => by
    have := j.isLt
    unfold kernelRun0_A.sl.v52
    rw [Cert.KCanon.readCov_rows _ _ 2048 _ j g ⟨2048 + j.val, by omega⟩ rfl,
      inv_X c arg1 harg1 arg2 harg2 x0 x1 x2 x3 x4 x5 ⟨2048 + j.val, by omega⟩ g (by show 1 ≤ 2048 + j.val; omega)]
    unfold xrow
    exact congrArg (fun i => iouX (blockArgs x0 x1 x2 x3 x4 x5) i g) (Fin.ext (by show 2048 + j.val - 1 = 2047 + j.val; omega))
  have hUf : ∀ k q, View.readAt (Elt Ideal) arg5.view (Rect.unit ![0, 0] S256x256.size inb_S256x256_S256x256_0_0).toLoadRect (harg5.unread x4) (ix2 k q) = (blockArgs x0 x1 x2 x3 x4 x5).Ufw q k :=
    fun k q => congrFun (Cert.KLoads.load_whole arg5 harg5 x4 (by funext a; fin_cases a <;> rfl) _) (ix2 k q)
  have hUi : ∀ k g, View.readAt (Elt Ideal) arg3.view (Rect.unit ![0, 0] S256x384.size inb_S256x384_S256x384_0_0).toLoadRect (harg3.unread x2) (ix2 k g) = (blockArgs x0 x1 x2 x3 x4 x5).Uiou g k :=
    fun k g => congrFun (Cert.KLoads.load_whole arg3 harg3 x2 (by funext a; fin_cases a <;> rfl) _) (ix2 k g)
  have hbi : ∀ g, (kernelRun0_A.sl.r (F := Ideal) c arg4 harg4 x3) (ix1 g) = (blockArgs x0 x1 x2 x3 x4 x5).biou g := fun g => by
    unfold kernelRun0_A.sl.r
    exact congrFun (Cert.KLoads.load_whole arg4 harg4 x3 (by funext a; fin_cases a; rfl) _) (ix1 g)
  have hbf : ∀ q, (kernelRun0_A.sl.r_1 (F := Ideal) c arg6 harg6 x5) (ix1 q) = (blockArgs x0 x1 x2 x3 x4 x5).Ufb q := fun q => by
    unfold kernelRun0_A.sl.r_1
    exact congrFun (Cert.KLoads.load_whole arg6 harg6 x5 (by funext a; fin_cases a; rfl) _) (ix1 q)
  unfold kernelRun0_A.sl.HS0_2
  by_cases hin : r.val < 4096
  · refine (Cert.KCanon.canon_rows_hit 2048 _ _ _ r d hr hin).trans ?_
    rw [padH_lev11 _ r d hr hin]
    exact Cert.KLev.h11 _ _ _ _ _ _ _ (H12 (blockArgs x0 x1 x2 x3 x4 x5)) (C12 (blockArgs x0 x1 x2 x3 x4 x5)) (xrow (blockArgs x0 x1 x2 x3 x4 x5) 2047 (by norm_num)) (blockArgs x0 x1 x2 x3 x4 x5).Uiou (blockArgs x0 x1 x2 x3 x4 x5).biou (blockArgs x0 x1 x2 x3 x4 x5).Ufw (blockArgs x0 x1 x2 x3 x4 x5).Ufb
      hH hC hX hUf hUi hbi hbf ⟨r.val - 2048, by omega⟩ d
  · refine (Cert.KCanon.canon_rows_miss 2048 _ _ _ r d (Or.inr (by omega))).trans ?_
    exact inv_H1 c arg1 harg1 arg2 harg2 arg4 harg4 x0 x1 x2 x3 x4 x5 r d (by omega)

/-- After level 11 (2048 nodes): rows 2048 … 8191 of the cell array. -/
theorem inv_C2 (r : Fin 8192) (d : Fin 128) (hr : 2048 ≤ r.val) :
    View.canon (kernelRun0_A.sl.HS1_2 (F := Ideal) c arg1 harg1 arg2 harg2 arg3 harg3 arg4 harg4 arg5 harg5 arg6 harg6 arg8 arg9 arg10 x0 x1 x2 x3 x4 x5) (ix2 r d) = padC (blockArgs x0 x1 x2 x3 x4 x5) r d := by
  have hlt := r.isLt
  have hH : ∀ r' d', (kernelRun0_A.sl.v37 (F := Ideal) c arg1 harg1 arg2 harg2 arg4 harg4 arg8 x0 x1 x3) (ix2 r' d') = H12 (blockArgs x0 x1 x2 x3 x4 x5) r' d' := fun r' d' => by
    have := r'.isLt
    unfold kernelRun0_A.sl.v37
    rw [Cert.KCanon.readCov_rows _ _ 4096 _ r' d' ⟨4096 + r'.val, by omega⟩ rfl,
      inv_H1 c arg1 harg1 arg2 harg2 arg4 harg4 x0 x1 x2 x3 x4 x5 ⟨4096 + r'.val, by omega⟩ d' (by show 4096 ≤ 4096 + r'.val; omega),
      padH_lev12 _ _ d' (by show 4096 ≤ 4096 + r'.val; omega) (by show 4096 + r'.val < 8192; omega)]
    exact congrArg (fun i => H12 (blockArgs x0 x1 x2 x3 x4 x5) i d') (Fin.ext (by show 4096 + r'.val - 4096 = r'.val; omega))
  have hC : ∀ r' d', (kernelRun0_A.sl.v38 (F := Ideal) c arg1 harg1 arg2 harg2 arg4 harg4 arg9 x0 x1 x3) (ix2 r' d') = C12 (blockArgs x0 x1 x2 x3 x4 x5) r' d' := fun r' d' => by
    have := r'.isLt
    unfold kernelRun0_A.sl.v38
    rw [Cert.KCanon.readCov_rows _ _ 4096 _ r' d' ⟨4096 + r'.val, by omega⟩ rfl,
      inv_C1 c arg1 harg1 arg2 harg2 arg4 harg4 x0 x1 x2 x3 x4 x5 ⟨4096 + r'.val, by omega⟩ d' (by show 4096 ≤ 4096 + r'.val; omega),
      padC_lev12 _ _ d' (by show 4096 ≤ 4096 + r'.val; omega) (by show 4096 + r'.val < 8192; omega)]
    exact congrArg (fun i => C12 (blockArgs x0 x1 x2 x3 x4 x5) i d') (Fin.ext (by show 4096 + r'.val - 4096 = r'.val; omega))
  have hX : ∀ j g, (kernelRun0_A.sl.v52 (F := Ideal) c arg1 harg1 arg2 harg2 arg10 x0 x1) (ix2 j g) = xrow (blockArgs x0 x1 x2 x3 x4 x5) 2047 (by norm_num) j g := fun j g => by
    have := j.isLt
    unfold kernelRun0_A.sl.v52
    rw [Cert.KCanon.readCov_rows _ _ 2048 _ j g ⟨2048 + j.val, by omega⟩ rfl,
      inv_X c arg1 harg1 arg2 harg2 x0 x1 x2 x3 x4 x5 ⟨2048 + j.val, by omega⟩ g (by show 1 ≤ 2048 + j.val; omega)]
    unfold xrow
    exact congrArg (fun i => iouX (blockArgs x0 x1 x2 x3 x4 x5) i g) (Fin.ext (by show 2048 + j.val - 1 = 2047 + j.val; omega))
  have hUf : ∀ k q, View.readAt (Elt Ideal) arg5.view (Rect.unit ![0, 0] S256x256.size inb_S256x256_S256x256_0_0).toLoadRect (harg5.unread x4) (ix2 k q) = (blockArgs x0 x1 x2 x3 x4 x5).Ufw q k :=
    fun k q => congrFun (Cert.KLoads.load_whole arg5 harg5 x4 (by funext a; fin_cases a <;> rfl) _) (ix2 k q)
  have hUi : ∀ k g, View.readAt (Elt Ideal) arg3.view (Rect.unit ![0, 0] S256x384.size inb_S256x384_S256x384_0_0).toLoadRect (harg3.unread x2) (ix2 k g) = (blockArgs x0 x1 x2 x3 x4 x5).Uiou g k :=
    fun k g => congrFun (Cert.KLoads.load_whole arg3 harg3 x2 (by funext a; fin_cases a <;> rfl) _) (ix2 k g)
  have hbi : ∀ g, (kernelRun0_A.sl.r (F := Ideal) c arg4 harg4 x3) (ix1 g) = (blockArgs x0 x1 x2 x3 x4 x5).biou g := fun g => by
    unfold kernelRun0_A.sl.r
    exact congrFun (Cert.KLoads.load_whole arg4 harg4 x3 (by funext a; fin_cases a; rfl) _) (ix1 g)
  have hbf : ∀ q, (kernelRun0_A.sl.r_1 (F := Ideal) c arg6 harg6 x5) (ix1 q) = (blockArgs x0 x1 x2 x3 x4 x5).Ufb q := fun q => by
    unfold kernelRun0_A.sl.r_1
    exact congrFun (Cert.KLoads.load_whole arg6 harg6 x5 (by funext a; fin_cases a; rfl) _) (ix1 q)
  unfold kernelRun0_A.sl.HS1_2
  by_cases hin : r.val < 4096
  · refine (Cert.KCanon.canon_rows_hit 2048 _ _ _ r d hr hin).trans ?_
    rw [padC_lev11 _ r d hr hin]
    exact Cert.KLev.c11 _ _ _ _ _ _ _ (H12 (blockArgs x0 x1 x2 x3 x4 x5)) (C12 (blockArgs x0 x1 x2 x3 x4 x5)) (xrow (blockArgs x0 x1 x2 x3 x4 x5) 2047 (by norm_num)) (blockArgs x0 x1 x2 x3 x4 x5).Uiou (blockArgs x0 x1 x2 x3 x4 x5).biou (blockArgs x0 x1 x2 x3 x4 x5).Ufw (blockArgs x0 x1 x2 x3 x4 x5).Ufb
      hH hC hX hUf hUi hbi hbf ⟨r.val - 2048, by omega⟩ d
  · refine (Cert.KCanon.canon_rows_miss 2048 _ _ _ r d (Or.inr (by omega))).trans ?_
    exact inv_C1 c arg1 harg1 arg2 harg2 arg4 harg4 x0 x1 x2 x3 x4 x5 r d (by omega)

/-- After level 10 (1024 nodes): rows 1024 … 8191 of the hidden array. -/
theorem inv_H3 (r : Fin 8192) (d : Fin 128) (hr : 1024 ≤ r.val) :
    View.canon (kernelRun0_A.sl.HS0_3 (F := Ideal) c arg1 harg1 arg2 harg2 arg3 harg3 arg4 harg4 arg5 harg5 arg6 harg6 arg8 arg9 arg10 x0 x1 x2 x3 x4 x5) (ix2 r d) = padH (blockArgs x0 x1 x2 x3 x4 x5) r d := by
  have hlt := r.isLt
  have hH : ∀ r' d', (kernelRun0_A.sl.v76 (F := Ideal) c arg1 harg1 arg2 harg2 arg3 harg3 arg4 harg4 arg5 harg5 arg6 harg6 arg8 arg9 arg10 x0 x1 x2 x3 x4 x5) (ix2 r' d') = H11 (blockArgs x0 x1 x2 x3 x4 x5) r' d' := fun r' d' => by
    have := r'.isLt
    unfold kernelRun0_A.sl.v76
    rw [Cert.KCanon.readCov_rows _ _ 2048 _ r' d' ⟨2048 + r'.val, by omega⟩ rfl,
      inv_H2 c arg1 harg1 arg2 harg2 arg3 harg3 arg4 harg4 arg5 harg5 arg6 harg6 arg8 arg9 arg10 x0 x1 x2 x3 x4 x5 ⟨2048 + r'.val, by omega⟩ d' (by show 2048 ≤ 2048 + r'.val; omega),
      padH_lev11 _ _ d' (by show 2048 ≤ 2048 + r'.val; omega) (by show 2048 + r'.val < 4096; omega)]
    exact congrArg (fun i => H11 (blockArgs x0 x1 x2 x3 x4 x5) i d') (Fin.ext (by show 2048 + r'.val - 2048 = r'.val; omega))
  have hC : ∀ r' d', (kernelRun0_A.sl.v77 (F := Ideal) c arg1 harg1 arg2 harg2 arg3 harg3 arg4 harg4 arg5 harg5 arg6 harg6 arg8 arg9 arg10 x0 x1 x2 x3 x4 x5) (ix2 r' d') = C11 (blockArgs x0 x1 x2 x3 x4 x5) r' d' := fun r' d' => by
    have := r'.isLt
    unfold kernelRun0_A.sl.v77
    rw [Cert.KCanon.readCov_rows _ _ 2048 _ r' d' ⟨2048 + r'.val, by omega⟩ rfl,
      inv_C2 c arg1 harg1 arg2 harg2 arg3 harg3 arg4 harg4 arg5 harg5 arg6 harg6 arg8 arg9 arg10 x0 x1 x2 x3 x4 x5 ⟨2048 + r'.val, by omega⟩ d' (by show 2048 ≤ 2048 + r'.val; omega),
      padC_lev11 _ _ d' (by show 2048 ≤ 2048 + r'.val; omega) (by show 2048 + r'.val < 4096; omega)]
    exact congrArg (fun i => C11 (blockArgs x0 x1 x2 x3 x4 x5) i d') (Fin.ext (by show 2048 + r'.val - 2048 = r'.val; omega))
  have hX : ∀ j g, (kernelRun0_A.sl.v91 (F := Ideal) c arg1 harg1 arg2 harg2 arg10 x0 x1) (ix2 j g) = xrow (blockArgs x0 x1 x2 x3 x4 x5) 1023 (by norm_num) j g := fun j g => by
    have := j.isLt
    unfold kernelRun0_A.sl.v91
    rw [Cert.KCanon.readCov_rows _ _ 1024 _ j g ⟨1024 + j.val, by omega⟩ rfl,
      inv_X c arg1 harg1 arg2 harg2 x0 x1 x2 x3 x4 x5 ⟨1024 + j.val, by omega⟩ g (by show 1 ≤ 1024 + j.val; omega)]
    unfold xrow
    exact congrArg (fun i => iouX (blockArgs x0 x1 x2 x3 x4 x5) i g) (Fin.ext (by show 1024 + j.val - 1 = 1023 + j.val; omega))
  have hUf : ∀ k q, View.readAt (Elt Ideal) arg5.view (Rect.unit ![0, 0] S256x256.size inb_S256x256_S256x256_0_0).toLoadRect (harg5.unread x4) (ix2 k q) = (blockArgs x0 x1 x2 x3 x4 x5).Ufw q k :=
    fun k q => congrFun (Cert.KLoads.load_whole arg5 harg5 x4 (by funext a; fin_cases a <;> rfl) _) (ix2 k q)
  have hUi : ∀ k g, View.readAt (Elt Ideal) arg3.view (Rect.unit ![0, 0] S256x384.size inb_S256x384_S256x384_0_0).toLoadRect (harg3.unread x2) (ix2 k g) = (blockArgs x0 x1 x2 x3 x4 x5).Uiou g k :=
    fun k g => congrFun (Cert.KLoads.load_whole arg3 harg3 x2 (by funext a; fin_cases a <;> rfl) _) (ix2 k g)
  have hbi : ∀ g, (kernelRun0_A.sl.r (F := Ideal) c arg4 harg4 x3) (ix1 g) = (blockArgs x0 x1 x2 x3 x4 x5).biou g := fun g => by
    unfold kernelRun0_A.sl.r
    exact congrFun (Cert.KLoads.load_whole arg4 harg4 x3 (by funext a; fin_cases a; rfl) _) (ix1 g)
  have hbf : ∀ q, (kernelRun0_A.sl.r_1 (F := Ideal) c arg6 harg6 x5) (ix1 q) = (blockArgs x0 x1 x2 x3 x4 x5).Ufb q := fun q => by
    unfold kernelRun0_A.sl.r_1
    exact congrFun (Cert.KLoads.load_whole arg6 harg6 x5 (by funext a; fin_cases a; rfl) _) (ix1 q)
  unfold kernelRun0_A.sl.HS0_3
  by_cases hin : r.val < 2048
  · refine (Cert.KCanon.canon_rows_hit 1024 _ _ _ r d hr hin).trans ?_
    rw [padH_lev10 _ r d hr hin]
    exact Cert.KLev.h10 _ _ _ _ _ _ _ (H11 (blockArgs x0 x1 x2 x3 x4 x5)) (C11 (blockArgs x0 x1 x2 x3 x4 x5)) (xrow (blockArgs x0 x1 x2 x3 x4 x5) 1023 (by norm_num)) (blockArgs x0 x1 x2 x3 x4 x5).Uiou (blockArgs x0 x1 x2 x3 x4 x5).biou (blockArgs x0 x1 x2 x3 x4 x5).Ufw (blockArgs x0 x1 x2 x3 x4 x5).Ufb
      hH hC hX hUf hUi hbi hbf ⟨r.val - 1024, by omega⟩ d
  · refine (Cert.KCanon.canon_rows_miss 1024 _ _ _ r d (Or.inr (by omega))).trans ?_
    exact inv_H2 c arg1 harg1 arg2 harg2 arg3 harg3 arg4 harg4 arg5 harg5 arg6 harg6 arg8 arg9 arg10 x0 x1 x2 x3 x4 x5 r d (by omega)

/-- After level 10 (1024 nodes): rows 1024 … 8191 of the cell array. -/
theorem inv_C3 (r : Fin 8192) (d : Fin 128) (hr : 1024 ≤ r.val) :
    View.canon (kernelRun0_A.sl.HS1_3 (F := Ideal) c arg1 harg1 arg2 harg2 arg3 harg3 arg4 harg4 arg5 harg5 arg6 harg6 arg8 arg9 arg10 x0 x1 x2 x3 x4 x5) (ix2 r d) = padC (blockArgs x0 x1 x2 x3 x4 x5) r d := by
  have hlt := r.isLt
  have hH : ∀ r' d', (kernelRun0_A.sl.v76 (F := Ideal) c arg1 harg1 arg2 harg2 arg3 harg3 arg4 harg4 arg5 harg5 arg6 harg6 arg8 arg9 arg10 x0 x1 x2 x3 x4 x5) (ix2 r' d') = H11 (blockArgs x0 x1 x2 x3 x4 x5) r' d' := fun r' d' => by
    have := r'.isLt
    unfold kernelRun0_A.sl.v76
    rw [Cert.KCanon.readCov_rows _ _ 2048 _ r' d' ⟨2048 + r'.val, by omega⟩ rfl,
      inv_H2 c arg1 harg1 arg2 harg2 arg3 harg3 arg4 harg4 arg5 harg5 arg6 harg6 arg8 arg9 arg10 x0 x1 x2 x3 x4 x5 ⟨2048 + r'.val, by omega⟩ d' (by show 2048 ≤ 2048 + r'.val; omega),
      padH_lev11 _ _ d' (by show 2048 ≤ 2048 + r'.val; omega) (by show 2048 + r'.val < 4096; omega)]
    exact congrArg (fun i => H11 (blockArgs x0 x1 x2 x3 x4 x5) i d') (Fin.ext (by show 2048 + r'.val - 2048 = r'.val; omega))
  have hC : ∀ r' d', (kernelRun0_A.sl.v77 (F := Ideal) c arg1 harg1 arg2 harg2 arg3 harg3 arg4 harg4 arg5 harg5 arg6 harg6 arg8 arg9 arg10 x0 x1 x2 x3 x4 x5) (ix2 r' d') = C11 (blockArgs x0 x1 x2 x3 x4 x5) r' d' := fun r' d' => by
    have := r'.isLt
    unfold kernelRun0_A.sl.v77
    rw [Cert.KCanon.readCov_rows _ _ 2048 _ r' d' ⟨2048 + r'.val, by omega⟩ rfl,
      inv_C2 c arg1 harg1 arg2 harg2 arg3 harg3 arg4 harg4 arg5 harg5 arg6 harg6 arg8 arg9 arg10 x0 x1 x2 x3 x4 x5 ⟨2048 + r'.val, by omega⟩ d' (by show 2048 ≤ 2048 + r'.val; omega),
      padC_lev11 _ _ d' (by show 2048 ≤ 2048 + r'.val; omega) (by show 2048 + r'.val < 4096; omega)]
    exact congrArg (fun i => C11 (blockArgs x0 x1 x2 x3 x4 x5) i d') (Fin.ext (by show 2048 + r'.val - 2048 = r'.val; omega))
  have hX : ∀ j g, (kernelRun0_A.sl.v91 (F := Ideal) c arg1 harg1 arg2 harg2 arg10 x0 x1) (ix2 j g) = xrow (blockArgs x0 x1 x2 x3 x4 x5) 1023 (by norm_num) j g := fun j g => by
    have := j.isLt
    unfold kernelRun0_A.sl.v91
    rw [Cert.KCanon.readCov_rows _ _ 1024 _ j g ⟨1024 + j.val, by omega⟩ rfl,
      inv_X c arg1 harg1 arg2 harg2 x0 x1 x2 x3 x4 x5 ⟨1024 + j.val, by omega⟩ g (by show 1 ≤ 1024 + j.val; omega)]
    unfold xrow
    exact congrArg (fun i => iouX (blockArgs x0 x1 x2 x3 x4 x5) i g) (Fin.ext (by show 1024 + j.val - 1 = 1023 + j.val; omega))
  have hUf : ∀ k q, View.readAt (Elt Ideal) arg5.view (Rect.unit ![0, 0] S256x256.size inb_S256x256_S256x256_0_0).toLoadRect (harg5.unread x4) (ix2 k q) = (blockArgs x0 x1 x2 x3 x4 x5).Ufw q k :=
    fun k q => congrFun (Cert.KLoads.load_whole arg5 harg5 x4 (by funext a; fin_cases a <;> rfl) _) (ix2 k q)
  have hUi : ∀ k g, View.readAt (Elt Ideal) arg3.view (Rect.unit ![0, 0] S256x384.size inb_S256x384_S256x384_0_0).toLoadRect (harg3.unread x2) (ix2 k g) = (blockArgs x0 x1 x2 x3 x4 x5).Uiou g k :=
    fun k g => congrFun (Cert.KLoads.load_whole arg3 harg3 x2 (by funext a; fin_cases a <;> rfl) _) (ix2 k g)
  have hbi : ∀ g, (kernelRun0_A.sl.r (F := Ideal) c arg4 harg4 x3) (ix1 g) = (blockArgs x0 x1 x2 x3 x4 x5).biou g := fun g => by
    unfold kernelRun0_A.sl.r
    exact congrFun (Cert.KLoads.load_whole arg4 harg4 x3 (by funext a; fin_cases a; rfl) _) (ix1 g)
  have hbf : ∀ q, (kernelRun0_A.sl.r_1 (F := Ideal) c arg6 harg6 x5) (ix1 q) = (blockArgs x0 x1 x2 x3 x4 x5).Ufb q := fun q => by
    unfold kernelRun0_A.sl.r_1
    exact congrFun (Cert.KLoads.load_whole arg6 harg6 x5 (by funext a; fin_cases a; rfl) _) (ix1 q)
  unfold kernelRun0_A.sl.HS1_3
  by_cases hin : r.val < 2048
  · refine (Cert.KCanon.canon_rows_hit 1024 _ _ _ r d hr hin).trans ?_
    rw [padC_lev10 _ r d hr hin]
    exact Cert.KLev.c10 _ _ _ _ _ _ _ (H11 (blockArgs x0 x1 x2 x3 x4 x5)) (C11 (blockArgs x0 x1 x2 x3 x4 x5)) (xrow (blockArgs x0 x1 x2 x3 x4 x5) 1023 (by norm_num)) (blockArgs x0 x1 x2 x3 x4 x5).Uiou (blockArgs x0 x1 x2 x3 x4 x5).biou (blockArgs x0 x1 x2 x3 x4 x5).Ufw (blockArgs x0 x1 x2 x3 x4 x5).Ufb
      hH hC hX hUf hUi hbi hbf ⟨r.val - 1024, by omega⟩ d
  · refine (Cert.KCanon.canon_rows_miss 1024 _ _ _ r d (Or.inr (by omega))).trans ?_
    exact inv_C2 c arg1 harg1 arg2 harg2 arg3 harg3 arg4 harg4 arg5 harg5 arg6 harg6 arg8 arg9 arg10 x0 x1 x2 x3 x4 x5 r d (by omega)

/-- After level 9 (512 nodes): rows 512 … 8191 of the hidden array. -/
theorem inv_H4 (r : Fin 8192) (d : Fin 128) (hr : 512 ≤ r.val) :
    View.canon (kernelRun0_A.sl.HS0_4 (F := Ideal) c arg1 harg1 arg2 harg2 arg3 harg3 arg4 harg4 arg5 harg5 arg6 harg6 arg8 arg9 arg10 x0 x1 x2 x3 x4 x5) (ix2 r d) = padH (blockArgs x0 x1 x2 x3 x4 x5) r d := by
  have hlt := r.isLt
  have hH : ∀ r' d', (kernelRun0_A.sl.v115 (F := Ideal) c arg1 harg1 arg2 harg2 arg3 harg3 arg4 harg4 arg5 harg5 arg6 harg6 arg8 arg9 arg10 x0 x1 x2 x3 x4 x5) (ix2 r' d') = H10 (blockArgs x0 x1 x2 x3 x4 x5) r' d' := fun r' d' => by
    have := r'.isLt
    unfold kernelRun0_A.sl.v115
    rw [Cert.KCanon.readCov_rows _ _ 1024 _ r' d' ⟨1024 + r'.val, by omega⟩ rfl,
      inv_H3 c arg1 harg1 arg2 harg2 arg3 harg3 arg4 harg4 arg5 harg5 arg6 harg6 arg8 arg9 arg10 x0 x1 x2 x3 x4 x5 ⟨1024 + r'.val, by omega⟩ d' (by show 1024 ≤ 1024 + r'.val; omega),
      padH_lev10 _ _ d' (by show 1024 ≤ 1024 + r'.val; omega) (by show 1024 + r'.val < 2048; omega)]
    exact congrArg (fun i => H10 (blockArgs x0 x1 x2 x3 x4 x5) i d') (Fin.ext (by show 1024 + r'.val - 1024 = r'.val; omega))
  have hC : ∀ r' d', (kernelRun0_A.sl.v116 (F := Ideal) c arg1 harg1 arg2 harg2 arg3 harg3 arg4 harg4 arg5 harg5 arg6 harg6 arg8 arg9 arg10 x0 x1 x2 x3 x4 x5) (ix2 r' d') = C10 (blockArgs x0 x1 x2 x3 x4 x5) r' d' := fun r' d' => by
    have := r'.isLt
    unfold kernelRun0_A.sl.v116
    rw [Cert.KCanon.readCov_rows _ _ 1024 _ r' d' ⟨1024 + r'.val, by omega⟩ rfl,
      inv_C3 c arg1 harg1 arg2 harg2 arg3 harg3 arg4 harg4 arg5 harg5 arg6 harg6 arg8 arg9 arg10 x0 x1 x2 x3 x4 x5 ⟨1024 + r'.val, by omega⟩ d' (by show 1024 ≤ 1024 + r'.val; omega),
      padC_lev10 _ _ d' (by show 1024 ≤ 1024 + r'.val; omega) (by show 1024 + r'.val < 2048; omega)]
    exact congrArg (fun i => C10 (blockArgs x0 x1 x2 x3 x4 x5) i d') (Fin.ext (by show 1024 + r'.val - 1024 = r'.val; omega))
  have hX : ∀ j g, (kernelRun0_A.sl.v130 (F := Ideal) c arg1 harg1 arg2 harg2 arg10 x0 x1) (ix2 j g) = xrow (blockArgs x0 x1 x2 x3 x4 x5) 511 (by norm_num) j g := fun j g => by
    have := j.isLt
    unfold kernelRun0_A.sl.v130
    rw [Cert.KCanon.readCov_rows _ _ 512 _ j g ⟨512 + j.val, by omega⟩ rfl,
      inv_X c arg1 harg1 arg2 harg2 x0 x1 x2 x3 x4 x5 ⟨512 + j.val, by omega⟩ g (by show 1 ≤ 512 + j.val; omega)]
    unfold xrow
    exact congrArg (fun i => iouX (blockArgs x0 x1 x2 x3 x4 x5) i g) (Fin.ext (by show 512 + j.val - 1 = 511 + j.val; omega))
  have hUf : ∀ k q, View.readAt (Elt Ideal) arg5.view (Rect.unit ![0, 0] S256x256.size inb_S256x256_S256x256_0_0).toLoadRect (harg5.unread x4) (ix2 k q) = (blockArgs x0 x1 x2 x3 x4 x5).Ufw q k :=
    fun k q => congrFun (Cert.KLoads.load_whole arg5 harg5 x4 (by funext a; fin_cases a <;> rfl) _) (ix2 k q)
  have hUi : ∀ k g, View.readAt (Elt Ideal) arg3.view (Rect.unit ![0, 0] S256x384.size inb_S256x384_S256x384_0_0).toLoadRect (harg3.unread x2) (ix2 k g) = (blockArgs x0 x1 x2 x3 x4 x5).Uiou g k :=
    fun k g => congrFun (Cert.KLoads.load_whole arg3 harg3 x2 (by funext a; fin_cases a <;> rfl) _) (ix2 k g)
  have hbi : ∀ g, (kernelRun0_A.sl.r (F := Ideal) c arg4 harg4 x3) (ix1 g) = (blockArgs x0 x1 x2 x3 x4 x5).biou g := fun g => by
    unfold kernelRun0_A.sl.r
    exact congrFun (Cert.KLoads.load_whole arg4 harg4 x3 (by funext a; fin_cases a; rfl) _) (ix1 g)
  have hbf : ∀ q, (kernelRun0_A.sl.r_1 (F := Ideal) c arg6 harg6 x5) (ix1 q) = (blockArgs x0 x1 x2 x3 x4 x5).Ufb q := fun q => by
    unfold kernelRun0_A.sl.r_1
    exact congrFun (Cert.KLoads.load_whole arg6 harg6 x5 (by funext a; fin_cases a; rfl) _) (ix1 q)
  unfold kernelRun0_A.sl.HS0_4
  by_cases hin : r.val < 1024
  · refine (Cert.KCanon.canon_rows_hit 512 _ _ _ r d hr hin).trans ?_
    rw [padH_lev9 _ r d hr hin]
    exact Cert.KLev.h9 _ _ _ _ _ _ _ (H10 (blockArgs x0 x1 x2 x3 x4 x5)) (C10 (blockArgs x0 x1 x2 x3 x4 x5)) (xrow (blockArgs x0 x1 x2 x3 x4 x5) 511 (by norm_num)) (blockArgs x0 x1 x2 x3 x4 x5).Uiou (blockArgs x0 x1 x2 x3 x4 x5).biou (blockArgs x0 x1 x2 x3 x4 x5).Ufw (blockArgs x0 x1 x2 x3 x4 x5).Ufb
      hH hC hX hUf hUi hbi hbf ⟨r.val - 512, by omega⟩ d
  · refine (Cert.KCanon.canon_rows_miss 512 _ _ _ r d (Or.inr (by omega))).trans ?_
    exact inv_H3 c arg1 harg1 arg2 harg2 arg3 harg3 arg4 harg4 arg5 harg5 arg6 harg6 arg8 arg9 arg10 x0 x1 x2 x3 x4 x5 r d (by omega)

/-- After level 9 (512 nodes): rows 512 … 8191 of the cell array. -/
theorem inv_C4 (r : Fin 8192) (d : Fin 128) (hr : 512 ≤ r.val) :
    View.canon (kernelRun0_A.sl.HS1_4 (F := Ideal) c arg1 harg1 arg2 harg2 arg3 harg3 arg4 harg4 arg5 harg5 arg6 harg6 arg8 arg9 arg10 x0 x1 x2 x3 x4 x5) (ix2 r d) = padC (blockArgs x0 x1 x2 x3 x4 x5) r d := by
  have hlt := r.isLt
  have hH : ∀ r' d', (kernelRun0_A.sl.v115 (F := Ideal) c arg1 harg1 arg2 harg2 arg3 harg3 arg4 harg4 arg5 harg5 arg6 harg6 arg8 arg9 arg10 x0 x1 x2 x3 x4 x5) (ix2 r' d') = H10 (blockArgs x0 x1 x2 x3 x4 x5) r' d' := fun r' d' => by
    have := r'.isLt
    unfold kernelRun0_A.sl.v115
    rw [Cert.KCanon.readCov_rows _ _ 1024 _ r' d' ⟨1024 + r'.val, by omega⟩ rfl,
      inv_H3 c arg1 harg1 arg2 harg2 arg3 harg3 arg4 harg4 arg5 harg5 arg6 harg6 arg8 arg9 arg10 x0 x1 x2 x3 x4 x5 ⟨1024 + r'.val, by omega⟩ d' (by show 1024 ≤ 1024 + r'.val; omega),
      padH_lev10 _ _ d' (by show 1024 ≤ 1024 + r'.val; omega) (by show 1024 + r'.val < 2048; omega)]
    exact congrArg (fun i => H10 (blockArgs x0 x1 x2 x3 x4 x5) i d') (Fin.ext (by show 1024 + r'.val - 1024 = r'.val; omega))
  have hC : ∀ r' d', (kernelRun0_A.sl.v116 (F := Ideal) c arg1 harg1 arg2 harg2 arg3 harg3 arg4 harg4 arg5 harg5 arg6 harg6 arg8 arg9 arg10 x0 x1 x2 x3 x4 x5) (ix2 r' d') = C10 (blockArgs x0 x1 x2 x3 x4 x5) r' d' := fun r' d' => by
    have := r'.isLt
    unfold kernelRun0_A.sl.v116
    rw [Cert.KCanon.readCov_rows _ _ 1024 _ r' d' ⟨1024 + r'.val, by omega⟩ rfl,
      inv_C3 c arg1 harg1 arg2 harg2 arg3 harg3 arg4 harg4 arg5 harg5 arg6 harg6 arg8 arg9 arg10 x0 x1 x2 x3 x4 x5 ⟨1024 + r'.val, by omega⟩ d' (by show 1024 ≤ 1024 + r'.val; omega),
      padC_lev10 _ _ d' (by show 1024 ≤ 1024 + r'.val; omega) (by show 1024 + r'.val < 2048; omega)]
    exact congrArg (fun i => C10 (blockArgs x0 x1 x2 x3 x4 x5) i d') (Fin.ext (by show 1024 + r'.val - 1024 = r'.val; omega))
  have hX : ∀ j g, (kernelRun0_A.sl.v130 (F := Ideal) c arg1 harg1 arg2 harg2 arg10 x0 x1) (ix2 j g) = xrow (blockArgs x0 x1 x2 x3 x4 x5) 511 (by norm_num) j g := fun j g => by
    have := j.isLt
    unfold kernelRun0_A.sl.v130
    rw [Cert.KCanon.readCov_rows _ _ 512 _ j g ⟨512 + j.val, by omega⟩ rfl,
      inv_X c arg1 harg1 arg2 harg2 x0 x1 x2 x3 x4 x5 ⟨512 + j.val, by omega⟩ g (by show 1 ≤ 512 + j.val; omega)]
    unfold xrow
    exact congrArg (fun i => iouX (blockArgs x0 x1 x2 x3 x4 x5) i g) (Fin.ext (by show 512 + j.val - 1 = 511 + j.val; omega))
  have hUf : ∀ k q, View.readAt (Elt Ideal) arg5.view (Rect.unit ![0, 0] S256x256.size inb_S256x256_S256x256_0_0).toLoadRect (harg5.unread x4) (ix2 k q) = (blockArgs x0 x1 x2 x3 x4 x5).Ufw q k :=
    fun k q => congrFun (Cert.KLoads.load_whole arg5 harg5 x4 (by funext a; fin_cases a <;> rfl) _) (ix2 k q)
  have hUi : ∀ k g, View.readAt (Elt Ideal) arg3.view (Rect.unit ![0, 0] S256x384.size inb_S256x384_S256x384_0_0).toLoadRect (harg3.unread x2) (ix2 k g) = (blockArgs x0 x1 x2 x3 x4 x5).Uiou g k :=
    fun k g => congrFun (Cert.KLoads.load_whole arg3 harg3 x2 (by funext a; fin_cases a <;> rfl) _) (ix2 k g)
  have hbi : ∀ g, (kernelRun0_A.sl.r (F := Ideal) c arg4 harg4 x3) (ix1 g) = (blockArgs x0 x1 x2 x3 x4 x5).biou g := fun g => by
    unfold kernelRun0_A.sl.r
    exact congrFun (Cert.KLoads.load_whole arg4 harg4 x3 (by funext a; fin_cases a; rfl) _) (ix1 g)
  have hbf : ∀ q, (kernelRun0_A.sl.r_1 (F := Ideal) c arg6 harg6 x5) (ix1 q) = (blockArgs x0 x1 x2 x3 x4 x5).Ufb q := fun q => by
    unfold kernelRun0_A.sl.r_1
    exact congrFun (Cert.KLoads.load_whole arg6 harg6 x5 (by funext a; fin_cases a; rfl) _) (ix1 q)
  unfold kernelRun0_A.sl.HS1_4
  by_cases hin : r.val < 1024
  · refine (Cert.KCanon.canon_rows_hit 512 _ _ _ r d hr hin).trans ?_
    rw [padC_lev9 _ r d hr hin]
    exact Cert.KLev.c9 _ _ _ _ _ _ _ (H10 (blockArgs x0 x1 x2 x3 x4 x5)) (C10 (blockArgs x0 x1 x2 x3 x4 x5)) (xrow (blockArgs x0 x1 x2 x3 x4 x5) 511 (by norm_num)) (blockArgs x0 x1 x2 x3 x4 x5).Uiou (blockArgs x0 x1 x2 x3 x4 x5).biou (blockArgs x0 x1 x2 x3 x4 x5).Ufw (blockArgs x0 x1 x2 x3 x4 x5).Ufb
      hH hC hX hUf hUi hbi hbf ⟨r.val - 512, by omega⟩ d
  · refine (Cert.KCanon.canon_rows_miss 512 _ _ _ r d (Or.inr (by omega))).trans ?_
    exact inv_C3 c arg1 harg1 arg2 harg2 arg3 harg3 arg4 harg4 arg5 harg5 arg6 harg6 arg8 arg9 arg10 x0 x1 x2 x3 x4 x5 r d (by omega)

/-- After level 8 (256 nodes): rows 256 … 8191 of the hidden array. -/
theorem inv_H5 (r : Fin 8192) (d : Fin 128) (hr : 256 ≤ r.val) :
    View.canon (kernelRun0_A.sl.HS0_5 (F := Ideal) c arg1 harg1 arg2 harg2 arg3 harg3 arg4 harg4 arg5 harg5 arg6 harg6 arg8 arg9 arg10 x0 x1 x2 x3 x4 x5) (ix2 r d) = padH (blockArgs x0 x1 x2 x3 x4 x5) r d := by
  have hlt := r.isLt
  have hH : ∀ r' d', (kernelRun0_A.sl.v (F := Ideal) c arg1 harg1 arg2 harg2 arg3 harg3 arg4 harg4 arg5 harg5 arg6 harg6 arg8 arg9 arg10 x0 x1 x2 x3 x4 x5) (ix2 r' d') = H9 (blockArgs x0 x1 x2 x3 x4 x5) r' d' := fun r' d' => by
    have := r'.isLt
    unfold kernelRun0_A.sl.v
    rw [Cert.KCanon.readCov_rows _ _ 512 _ r' d' ⟨512 + r'.val, by omega⟩ rfl,
      inv_H4 c arg1 harg1 arg2 harg2 arg3 harg3 arg4 harg4 arg5 harg5 arg6 harg6 arg8 arg9 arg10 x0 x1 x2 x3 x4 x5 ⟨512 + r'.val, by omega⟩ d' (by show 512 ≤ 512 + r'.val; omega),
      padH_lev9 _ _ d' (by show 512 ≤ 512 + r'.val; omega) (by show 512 + r'.val < 1024; omega)]
    exact congrArg (fun i => H9 (blockArgs x0 x1 x2 x3 x4 x5) i d') (Fin.ext (by show 512 + r'.val - 512 = r'.val; omega))
  have hC : ∀ r' d', (kernelRun0_A.sl.v155 (F := Ideal) c arg1 harg1 arg2 harg2 arg3 harg3 arg4 harg4 arg5 harg5 arg6 harg6 arg8 arg9 arg10 x0 x1 x2 x3 x4 x5) (ix2 r' d') = C9 (blockArgs x0 x1 x2 x3 x4 x5) r' d' := fun r' d' => by
    have := r'.isLt
    unfold kernelRun0_A.sl.v155
    rw [Cert.KCanon.readCov_rows _ _ 512 _ r' d' ⟨512 + r'.val, by omega⟩ rfl,
      inv_C4 c arg1 harg1 arg2 harg2 arg3 harg3 arg4 harg4 arg5 harg5 arg6 harg6 arg8 arg9 arg10 x0 x1 x2 x3 x4 x5 ⟨512 + r'.val, by omega⟩ d' (by show 512 ≤ 512 + r'.val; omega),
      padC_lev9 _ _ d' (by show 512 ≤ 512 + r'.val; omega) (by show 512 + r'.val < 1024; omega)]
    exact congrArg (fun i => C9 (blockArgs x0 x1 x2 x3 x4 x5) i d') (Fin.ext (by show 512 + r'.val - 512 = r'.val; omega))
  have hX : ∀ j g, (kernelRun0_A.sl.v169 (F := Ideal) c arg1 harg1 arg2 harg2 arg10 x0 x1) (ix2 j g) = xrow (blockArgs x0 x1 x2 x3 x4 x5) 255 (by norm_num) j g := fun j g => by
    have := j.isLt
    unfold kernelRun0_A.sl.v169
    rw [Cert.KCanon.readCov_rows _ _ 256 _ j g ⟨256 + j.val, by omega⟩ rfl,
      inv_X c arg1 harg1 arg2 harg2 x0 x1 x2 x3 x4 x5 ⟨256 + j.val, by omega⟩ g (by show 1 ≤ 256 + j.val; omega)]
    unfold xrow
    exact congrArg (fun i => iouX (blockArgs x0 x1 x2 x3 x4 x5) i g) (Fin.ext (by show 256 + j.val - 1 = 255 + j.val; omega))
  have hUf : ∀ k q, View.readAt (Elt Ideal) arg5.view (Rect.unit ![0, 0] S256x256.size inb_S256x256_S256x256_0_0).toLoadRect (harg5.unread x4) (ix2 k q) = (blockArgs x0 x1 x2 x3 x4 x5).Ufw q k :=
    fun k q => congrFun (Cert.KLoads.load_whole arg5 harg5 x4 (by funext a; fin_cases a <;> rfl) _) (ix2 k q)
  have hUi : ∀ k g, View.readAt (Elt Ideal) arg3.view (Rect.unit ![0, 0] S256x384.size inb_S256x384_S256x384_0_0).toLoadRect (harg3.unread x2) (ix2 k g) = (blockArgs x0 x1 x2 x3 x4 x5).Uiou g k :=
    fun k g => congrFun (Cert.KLoads.load_whole arg3 harg3 x2 (by funext a; fin_cases a <;> rfl) _) (ix2 k g)
  have hbi : ∀ g, (kernelRun0_A.sl.r (F := Ideal) c arg4 harg4 x3) (ix1 g) = (blockArgs x0 x1 x2 x3 x4 x5).biou g := fun g => by
    unfold kernelRun0_A.sl.r
    exact congrFun (Cert.KLoads.load_whole arg4 harg4 x3 (by funext a; fin_cases a; rfl) _) (ix1 g)
  have hbf : ∀ q, (kernelRun0_A.sl.r_1 (F := Ideal) c arg6 harg6 x5) (ix1 q) = (blockArgs x0 x1 x2 x3 x4 x5).Ufb q := fun q => by
    unfold kernelRun0_A.sl.r_1
    exact congrFun (Cert.KLoads.load_whole arg6 harg6 x5 (by funext a; fin_cases a; rfl) _) (ix1 q)
  unfold kernelRun0_A.sl.HS0_5
  by_cases hin : r.val < 512
  · refine (Cert.KCanon.canon_rows_hit 256 _ _ _ r d hr hin).trans ?_
    rw [padH_lev8 _ r d hr hin]
    exact Cert.KLev.h8 _ _ _ _ _ _ _ (H9 (blockArgs x0 x1 x2 x3 x4 x5)) (C9 (blockArgs x0 x1 x2 x3 x4 x5)) (xrow (blockArgs x0 x1 x2 x3 x4 x5) 255 (by norm_num)) (blockArgs x0 x1 x2 x3 x4 x5).Uiou (blockArgs x0 x1 x2 x3 x4 x5).biou (blockArgs x0 x1 x2 x3 x4 x5).Ufw (blockArgs x0 x1 x2 x3 x4 x5).Ufb
      hH hC hX hUf hUi hbi hbf ⟨r.val - 256, by omega⟩ d
  · refine (Cert.KCanon.canon_rows_miss 256 _ _ _ r d (Or.inr (by omega))).trans ?_
    exact inv_H4 c arg1 harg1 arg2 harg2 arg3 harg3 arg4 harg4 arg5 harg5 arg6 harg6 arg8 arg9 arg10 x0 x1 x2 x3 x4 x5 r d (by omega)

/-- After level 8 (256 nodes): rows 256 … 8191 of the cell array. -/
theorem inv_C5 (r : Fin 8192) (d : Fin 128) (hr : 256 ≤ r.val) :
    View.canon (kernelRun0_A.sl.HS1_5 (F := Ideal) c arg1 harg1 arg2 harg2 arg3 harg3 arg4 harg4 arg5 harg5 arg6 harg6 arg8 arg9 arg10 x0 x1 x2 x3 x4 x5) (ix2 r d) = padC (blockArgs x0 x1 x2 x3 x4 x5) r d := by
  have hlt := r.isLt
  have hH : ∀ r' d', (kernelRun0_A.sl.v (F := Ideal) c arg1 harg1 arg2 harg2 arg3 harg3 arg4 harg4 arg5 harg5 arg6 harg6 arg8 arg9 arg10 x0 x1 x2 x3 x4 x5) (ix2 r' d') = H9 (blockArgs x0 x1 x2 x3 x4 x5) r' d' := fun r' d' => by
    have := r'.isLt
    unfold kernelRun0_A.sl.v
    rw [Cert.KCanon.readCov_rows _ _ 512 _ r' d' ⟨512 + r'.val, by omega⟩ rfl,
      inv_H4 c arg1 harg1 arg2 harg2 arg3 harg3 arg4 harg4 arg5 harg5 arg6 harg6 arg8 arg9 arg10 x0 x1 x2 x3 x4 x5 ⟨512 + r'.val, by omega⟩ d' (by show 512 ≤ 512 + r'.val; omega),
      padH_lev9 _ _ d' (by show 512 ≤ 512 + r'.val; omega) (by show 512 + r'.val < 1024; omega)]
    exact congrArg (fun i => H9 (blockArgs x0 x1 x2 x3 x4 x5) i d') (Fin.ext (by show 512 + r'.val - 512 = r'.val; omega))
  have hC : ∀ r' d', (kernelRun0_A.sl.v155 (F := Ideal) c arg1 harg1 arg2 harg2 arg3 harg3 arg4 harg4 arg5 harg5 arg6 harg6 arg8 arg9 arg10 x0 x1 x2 x3 x4 x5) (ix2 r' d') = C9 (blockArgs x0 x1 x2 x3 x4 x5) r' d' := fun r' d' => by
    have := r'.isLt
    unfold kernelRun0_A.sl.v155
    rw [Cert.KCanon.readCov_rows _ _ 512 _ r' d' ⟨512 + r'.val, by omega⟩ rfl,
      inv_C4 c arg1 harg1 arg2 harg2 arg3 harg3 arg4 harg4 arg5 harg5 arg6 harg6 arg8 arg9 arg10 x0 x1 x2 x3 x4 x5 ⟨512 + r'.val, by omega⟩ d' (by show 512 ≤ 512 + r'.val; omega),
      padC_lev9 _ _ d' (by show 512 ≤ 512 + r'.val; omega) (by show 512 + r'.val < 1024; omega)]
    exact congrArg (fun i => C9 (blockArgs x0 x1 x2 x3 x4 x5) i d') (Fin.ext (by show 512 + r'.val - 512 = r'.val; omega))
  have hX : ∀ j g, (kernelRun0_A.sl.v169 (F := Ideal) c arg1 harg1 arg2 harg2 arg10 x0 x1) (ix2 j g) = xrow (blockArgs x0 x1 x2 x3 x4 x5) 255 (by norm_num) j g := fun j g => by
    have := j.isLt
    unfold kernelRun0_A.sl.v169
    rw [Cert.KCanon.readCov_rows _ _ 256 _ j g ⟨256 + j.val, by omega⟩ rfl,
      inv_X c arg1 harg1 arg2 harg2 x0 x1 x2 x3 x4 x5 ⟨256 + j.val, by omega⟩ g (by show 1 ≤ 256 + j.val; omega)]
    unfold xrow
    exact congrArg (fun i => iouX (blockArgs x0 x1 x2 x3 x4 x5) i g) (Fin.ext (by show 256 + j.val - 1 = 255 + j.val; omega))
  have hUf : ∀ k q, View.readAt (Elt Ideal) arg5.view (Rect.unit ![0, 0] S256x256.size inb_S256x256_S256x256_0_0).toLoadRect (harg5.unread x4) (ix2 k q) = (blockArgs x0 x1 x2 x3 x4 x5).Ufw q k :=
    fun k q => congrFun (Cert.KLoads.load_whole arg5 harg5 x4 (by funext a; fin_cases a <;> rfl) _) (ix2 k q)
  have hUi : ∀ k g, View.readAt (Elt Ideal) arg3.view (Rect.unit ![0, 0] S256x384.size inb_S256x384_S256x384_0_0).toLoadRect (harg3.unread x2) (ix2 k g) = (blockArgs x0 x1 x2 x3 x4 x5).Uiou g k :=
    fun k g => congrFun (Cert.KLoads.load_whole arg3 harg3 x2 (by funext a; fin_cases a <;> rfl) _) (ix2 k g)
  have hbi : ∀ g, (kernelRun0_A.sl.r (F := Ideal) c arg4 harg4 x3) (ix1 g) = (blockArgs x0 x1 x2 x3 x4 x5).biou g := fun g => by
    unfold kernelRun0_A.sl.r
    exact congrFun (Cert.KLoads.load_whole arg4 harg4 x3 (by funext a; fin_cases a; rfl) _) (ix1 g)
  have hbf : ∀ q, (kernelRun0_A.sl.r_1 (F := Ideal) c arg6 harg6 x5) (ix1 q) = (blockArgs x0 x1 x2 x3 x4 x5).Ufb q := fun q => by
    unfold kernelRun0_A.sl.r_1
    exact congrFun (Cert.KLoads.load_whole arg6 harg6 x5 (by funext a; fin_cases a; rfl) _) (ix1 q)
  unfold kernelRun0_A.sl.HS1_5
  by_cases hin : r.val < 512
  · refine (Cert.KCanon.canon_rows_hit 256 _ _ _ r d hr hin).trans ?_
    rw [padC_lev8 _ r d hr hin]
    exact Cert.KLev.c8 _ _ _ _ _ _ _ (H9 (blockArgs x0 x1 x2 x3 x4 x5)) (C9 (blockArgs x0 x1 x2 x3 x4 x5)) (xrow (blockArgs x0 x1 x2 x3 x4 x5) 255 (by norm_num)) (blockArgs x0 x1 x2 x3 x4 x5).Uiou (blockArgs x0 x1 x2 x3 x4 x5).biou (blockArgs x0 x1 x2 x3 x4 x5).Ufw (blockArgs x0 x1 x2 x3 x4 x5).Ufb
      hH hC hX hUf hUi hbi hbf ⟨r.val - 256, by omega⟩ d
  · refine (Cert.KCanon.canon_rows_miss 256 _ _ _ r d (Or.inr (by omega))).trans ?_
    exact inv_C4 c arg1 harg1 arg2 harg2 arg3 harg3 arg4 harg4 arg5 harg5 arg6 harg6 arg8 arg9 arg10 x0 x1 x2 x3 x4 x5 r d (by omega)

/-- After level 7 (128 nodes): rows 128 … 8191 of the hidden array. -/
theorem inv_H6 (r : Fin 8192) (d : Fin 128) (hr : 128 ≤ r.val) :
    View.canon (kernelRun0_A.sl.HS0_6 (F := Ideal) c arg1 harg1 arg2 harg2 arg3 harg3 arg4 harg4 arg5 harg5 arg6 harg6 arg8 arg9 arg10 x0 x1 x2 x3 x4 x5) (ix2 r d) = padH (blockArgs x0 x1 x2 x3 x4 x5) r d := by
  have hlt := r.isLt
  have hH : ∀ r' d', (kernelRun0_A.sl.v193 (F := Ideal) c arg1 harg1 arg2 harg2 arg3 harg3 arg4 harg4 arg5 harg5 arg6 harg6 arg8 arg9 arg10 x0 x1 x2 x3 x4 x5) (ix2 r' d') = H8 (blockArgs x0 x1 x2 x3 x4 x5) r' d' := fun r' d' => by
    have := r'.isLt
    unfold kernelRun0_A.sl.v193
    rw [Cert.KCanon.readCov_rows _ _ 256 _ r' d' ⟨256 + r'.val, by omega⟩ rfl,
      inv_H5 c arg1 harg1 arg2 harg2 arg3 harg3 arg4 harg4 arg5 harg5 arg6 harg6 arg8 arg9 arg10 x0 x1 x2 x3 x4 x5 ⟨256 + r'.val, by omega⟩ d' (by show 256 ≤ 256 + r'.val; omega),
      padH_lev8 _ _ d' (by show 256 ≤ 256 + r'.val; omega) (by show 256 + r'.val < 512; omega)]
    exact congrArg (fun i => H8 (blockArgs x0 x1 x2 x3 x4 x5) i d') (Fin.ext (by show 256 + r'.val - 256 = r'.val; omega))
  have hC : ∀ r' d', (kernelRun0_A.sl.v194 (F := Ideal) c arg1 harg1 arg2 harg2 arg3 harg3 arg4 harg4 arg5 harg5 arg6 harg6 arg8 arg9 arg10 x0 x1 x2 x3 x4 x5) (ix2 r' d') = C8 (blockArgs x0 x1 x2 x3 x4 x5) r' d' := fun r' d' => by
    have := r'.isLt
    unfold kernelRun0_A.sl.v194
    rw [Cert.KCanon.readCov_rows _ _ 256 _ r' d' ⟨256 + r'.val, by omega⟩ rfl,
      inv_C5 c arg1 harg1 arg2 harg2 arg3 harg3 arg4 harg4 arg5 harg5 arg6 harg6 arg8 arg9 arg10 x0 x1 x2 x3 x4 x5 ⟨256 + r'.val, by omega⟩ d' (by show 256 ≤ 256 + r'.val; omega),
      padC_lev8 _ _ d' (by show 256 ≤ 256 + r'.val; omega) (by show 256 + r'.val < 512; omega)]
    exact congrArg (fun i => C8 (blockArgs x0 x1 x2 x3 x4 x5) i d') (Fin.ext (by show 256 + r'.val - 256 = r'.val; omega))
  have hX : ∀ j g, (kernelRun0_A.sl.v208 (F := Ideal) c arg1 harg1 arg2 harg2 arg10 x0 x1) (ix2 j g) = xrow (blockArgs x0 x1 x2 x3 x4 x5) 127 (by norm_num) j g := fun j g => by
    have := j.isLt
    unfold kernelRun0_A.sl.v208
    rw [Cert.KCanon.readCov_rows _ _ 128 _ j g ⟨128 + j.val, by omega⟩ rfl,
      inv_X c arg1 harg1 arg2 harg2 x0 x1 x2 x3 x4 x5 ⟨128 + j.val, by omega⟩ g (by show 1 ≤ 128 + j.val; omega)]
    unfold xrow
    exact congrArg (fun i => iouX (blockArgs x0 x1 x2 x3 x4 x5) i g) (Fin.ext (by show 128 + j.val - 1 = 127 + j.val; omega))
  have hUf : ∀ k q, View.readAt (Elt Ideal) arg5.view (Rect.unit ![0, 0] S256x256.size inb_S256x256_S256x256_0_0).toLoadRect (harg5.unread x4) (ix2 k q) = (blockArgs x0 x1 x2 x3 x4 x5).Ufw q k :=
    fun k q => congrFun (Cert.KLoads.load_whole arg5 harg5 x4 (by funext a; fin_cases a <;> rfl) _) (ix2 k q)
  have hUi : ∀ k g, View.readAt (Elt Ideal) arg3.view (Rect.unit ![0, 0] S256x384.size inb_S256x384_S256x384_0_0).toLoadRect (harg3.unread x2) (ix2 k g) = (blockArgs x0 x1 x2 x3 x4 x5).Uiou g k :=
    fun k g => congrFun (Cert.KLoads.load_whole arg3 harg3 x2 (by funext a; fin_cases a <;> rfl) _) (ix2 k g)
  have hbi : ∀ g, (kernelRun0_A.sl.r (F := Ideal) c arg4 harg4 x3) (ix1 g) = (blockArgs x0 x1 x2 x3 x4 x5).biou g := fun g => by
    unfold kernelRun0_A.sl.r
    exact congrFun (Cert.KLoads.load_whole arg4 harg4 x3 (by funext a; fin_cases a; rfl) _) (ix1 g)
  have hbf : ∀ q, (kernelRun0_A.sl.r_1 (F := Ideal) c arg6 harg6 x5) (ix1 q) = (blockArgs x0 x1 x2 x3 x4 x5).Ufb q := fun q => by
    unfold kernelRun0_A.sl.r_1
    exact congrFun (Cert.KLoads.load_whole arg6 harg6 x5 (by funext a; fin_cases a; rfl) _) (ix1 q)
  unfold kernelRun0_A.sl.HS0_6
  by_cases hin : r.val < 256
  · refine (Cert.KCanon.canon_rows_hit 128 _ _ _ r d hr hin).trans ?_
    rw [padH_lev7 _ r d hr hin]
    exact Cert.KLev.h7 _ _ _ _ _ _ _ (H8 (blockArgs x0 x1 x2 x3 x4 x5)) (C8 (blockArgs x0 x1 x2 x3 x4 x5)) (xrow (blockArgs x0 x1 x2 x3 x4 x5) 127 (by norm_num)) (blockArgs x0 x1 x2 x3 x4 x5).Uiou (blockArgs x0 x1 x2 x3 x4 x5).biou (blockArgs x0 x1 x2 x3 x4 x5).Ufw (blockArgs x0 x1 x2 x3 x4 x5).Ufb
      hH hC hX hUf hUi hbi hbf ⟨r.val - 128, by omega⟩ d
  · refine (Cert.KCanon.canon_rows_miss 128 _ _ _ r d (Or.inr (by omega))).trans ?_
    exact inv_H5 c arg1 harg1 arg2 harg2 arg3 harg3 arg4 harg4 arg5 harg5 arg6 harg6 arg8 arg9 arg10 x0 x1 x2 x3 x4 x5 r d (by omega)

/-- After level 7 (128 nodes): rows 128 … 8191 of the cell array. -/
theorem inv_C6 (r : Fin 8192) (d : Fin 128) (hr : 128 ≤ r.val) :
    View.canon (kernelRun0_A.sl.HS1_6 (F := Ideal) c arg1 harg1 arg2 harg2 arg3 harg3 arg4 harg4 arg5 harg5 arg6 harg6 arg8 arg9 arg10 x0 x1 x2 x3 x4 x5) (ix2 r d) = padC (blockArgs x0 x1 x2 x3 x4 x5) r d := by
  have hlt := r.isLt
  have hH : ∀ r' d', (kernelRun0_A.sl.v193 (F := Ideal) c arg1 harg1 arg2 harg2 arg3 harg3 arg4 harg4 arg5 harg5 arg6 harg6 arg8 arg9 arg10 x0 x1 x2 x3 x4 x5) (ix2 r' d') = H8 (blockArgs x0 x1 x2 x3 x4 x5) r' d' := fun r' d' => by
    have := r'.isLt
    unfold kernelRun0_A.sl.v193
    rw [Cert.KCanon.readCov_rows _ _ 256 _ r' d' ⟨256 + r'.val, by omega⟩ rfl,
      inv_H5 c arg1 harg1 arg2 harg2 arg3 harg3 arg4 harg4 arg5 harg5 arg6 harg6 arg8 arg9 arg10 x0 x1 x2 x3 x4 x5 ⟨256 + r'.val, by omega⟩ d' (by show 256 ≤ 256 + r'.val; omega),
      padH_lev8 _ _ d' (by show 256 ≤ 256 + r'.val; omega) (by show 256 + r'.val < 512; omega)]
    exact congrArg (fun i => H8 (blockArgs x0 x1 x2 x3 x4 x5) i d') (Fin.ext (by show 256 + r'.val - 256 = r'.val; omega))
  have hC : ∀ r' d', (kernelRun0_A.sl.v194 (F := Ideal) c arg1 harg1 arg2 harg2 arg3 harg3 arg4 harg4 arg5 harg5 arg6 harg6 arg8 arg9 arg10 x0 x1 x2 x3 x4 x5) (ix2 r' d') = C8 (blockArgs x0 x1 x2 x3 x4 x5) r' d' := fun r' d' => by
    have := r'.isLt
    unfold kernelRun0_A.sl.v194
    rw [Cert.KCanon.readCov_rows _ _ 256 _ r' d' ⟨256 + r'.val, by omega⟩ rfl,
      inv_C5 c arg1 harg1 arg2 harg2 arg3 harg3 arg4 harg4 arg5 harg5 arg6 harg6 arg8 arg9 arg10 x0 x1 x2 x3 x4 x5 ⟨256 + r'.val, by omega⟩ d' (by show 256 ≤ 256 + r'.val; omega),
      padC_lev8 _ _ d' (by show 256 ≤ 256 + r'.val; omega) (by show 256 + r'.val < 512; omega)]
    exact congrArg (fun i => C8 (blockArgs x0 x1 x2 x3 x4 x5) i d') (Fin.ext (by show 256 + r'.val - 256 = r'.val; omega))
  have hX : ∀ j g, (kernelRun0_A.sl.v208 (F := Ideal) c arg1 harg1 arg2 harg2 arg10 x0 x1) (ix2 j g) = xrow (blockArgs x0 x1 x2 x3 x4 x5) 127 (by norm_num) j g := fun j g => by
    have := j.isLt
    unfold kernelRun0_A.sl.v208
    rw [Cert.KCanon.readCov_rows _ _ 128 _ j g ⟨128 + j.val, by omega⟩ rfl,
      inv_X c arg1 harg1 arg2 harg2 x0 x1 x2 x3 x4 x5 ⟨128 + j.val, by omega⟩ g (by show 1 ≤ 128 + j.val; omega)]
    unfold xrow
    exact congrArg (fun i => iouX (blockArgs x0 x1 x2 x3 x4 x5) i g) (Fin.ext (by show 128 + j.val - 1 = 127 + j.val; omega))
  have hUf : ∀ k q, View.readAt (Elt Ideal) arg5.view (Rect.unit ![0, 0] S256x256.size inb_S256x256_S256x256_0_0).toLoadRect (harg5.unread x4) (ix2 k q) = (blockArgs x0 x1 x2 x3 x4 x5).Ufw q k :=
    fun k q => congrFun (Cert.KLoads.load_whole arg5 harg5 x4 (by funext a; fin_cases a <;> rfl) _) (ix2 k q)
  have hUi : ∀ k g, View.readAt (Elt Ideal) arg3.view (Rect.unit ![0, 0] S256x384.size inb_S256x384_S256x384_0_0).toLoadRect (harg3.unread x2) (ix2 k g) = (blockArgs x0 x1 x2 x3 x4 x5).Uiou g k :=
    fun k g => congrFun (Cert.KLoads.load_whole arg3 harg3 x2 (by funext a; fin_cases a <;> rfl) _) (ix2 k g)
  have hbi : ∀ g, (kernelRun0_A.sl.r (F := Ideal) c arg4 harg4 x3) (ix1 g) = (blockArgs x0 x1 x2 x3 x4 x5).biou g := fun g => by
    unfold kernelRun0_A.sl.r
    exact congrFun (Cert.KLoads.load_whole arg4 harg4 x3 (by funext a; fin_cases a; rfl) _) (ix1 g)
  have hbf : ∀ q, (kernelRun0_A.sl.r_1 (F := Ideal) c arg6 harg6 x5) (ix1 q) = (blockArgs x0 x1 x2 x3 x4 x5).Ufb q := fun q => by
    unfold kernelRun0_A.sl.r_1
    exact congrFun (Cert.KLoads.load_whole arg6 harg6 x5 (by funext a; fin_cases a; rfl) _) (ix1 q)
  unfold kernelRun0_A.sl.HS1_6
  by_cases hin : r.val < 256
  · refine (Cert.KCanon.canon_rows_hit 128 _ _ _ r d hr hin).trans ?_
    rw [padC_lev7 _ r d hr hin]
    exact Cert.KLev.c7 _ _ _ _ _ _ _ (H8 (blockArgs x0 x1 x2 x3 x4 x5)) (C8 (blockArgs x0 x1 x2 x3 x4 x5)) (xrow (blockArgs x0 x1 x2 x3 x4 x5) 127 (by norm_num)) (blockArgs x0 x1 x2 x3 x4 x5).Uiou (blockArgs x0 x1 x2 x3 x4 x5).biou (blockArgs x0 x1 x2 x3 x4 x5).Ufw (blockArgs x0 x1 x2 x3 x4 x5).Ufb
      hH hC hX hUf hUi hbi hbf ⟨r.val - 128, by omega⟩ d
  · refine (Cert.KCanon.canon_rows_miss 128 _ _ _ r d (Or.inr (by omega))).trans ?_
    exact inv_C5 c arg1 harg1 arg2 harg2 arg3 harg3 arg4 harg4 arg5 harg5 arg6 harg6 arg8 arg9 arg10 x0 x1 x2 x3 x4 x5 r d (by omega)

/-- After level 6 (64 nodes): rows 64 … 8191 of the hidden array. -/
theorem inv_H7 (r : Fin 8192) (d : Fin 128) (hr : 64 ≤ r.val) :
    View.canon (kernelRun0_A.sl.HS0_7 (F := Ideal) c arg1 harg1 arg2 harg2 arg3 harg3 arg4 harg4 arg5 harg5 arg6 harg6 arg8 arg9 arg10 x0 x1 x2 x3 x4 x5) (ix2 r d) = padH (blockArgs x0 x1 x2 x3 x4 x5) r d := by
  have hlt := r.isLt
  have hH : ∀ r' d', (kernelRun0_A.sl.v232 (F := Ideal) c arg1 harg1 arg2 harg2 arg3 harg3 arg4 harg4 arg5 harg5 arg6 harg6 arg8 arg9 arg10 x0 x1 x2 x3 x4 x5) (ix2 r' d') = H7 (blockArgs x0 x1 x2 x3 x4 x5) r' d' := fun r' d' => by
    have := r'.isLt
    unfold kernelRun0_A.sl.v232
    rw [Cert.KCanon.readCov_rows _ _ 128 _ r' d' ⟨128 + r'.val, by omega⟩ rfl,
      inv_H6 c arg1 harg1 arg2 harg2 arg3 harg3 arg4 harg4 arg5 harg5 arg6 harg6 arg8 arg9 arg10 x0 x1 x2 x3 x4 x5 ⟨128 + r'.val, by omega⟩ d' (by show 128 ≤ 128 + r'.val; omega),
      padH_lev7 _ _ d' (by show 128 ≤ 128 + r'.val; omega) (by show 128 + r'.val < 256; omega)]
    exact congrArg (fun i => H7 (blockArgs x0 x1 x2 x3 x4 x5) i d') (Fin.ext (by show 128 + r'.val - 128 = r'.val; omega))
  have hC : ∀ r' d', (kernelRun0_A.sl.v233 (F := Ideal) c arg1 harg1 arg2 harg2 arg3 harg3 arg4 harg4 arg5 harg5 arg6 harg6 arg8 arg9 arg10 x0 x1 x2 x3 x4 x5) (ix2 r' d') = C7 (blockArgs x0 x1 x2 x3 x4 x5) r' d' := fun r' d' => by
    have := r'.isLt
    unfold kernelRun0_A.sl.v233
    rw [Cert.KCanon.readCov_rows _ _ 128 _ r' d' ⟨128 + r'.val, by omega⟩ rfl,
      inv_C6 c arg1 harg1 arg2 harg2 arg3 harg3 arg4 harg4 arg5 harg5 arg6 harg6 arg8 arg9 arg10 x0 x1 x2 x3 x4 x5 ⟨128 + r'.val, by omega⟩ d' (by show 128 ≤ 128 + r'.val; omega),
      padC_lev7 _ _ d' (by show 128 ≤ 128 + r'.val; omega) (by show 128 + r'.val < 256; omega)]
    exact congrArg (fun i => C7 (blockArgs x0 x1 x2 x3 x4 x5) i d') (Fin.ext (by show 128 + r'.val - 128 = r'.val; omega))
  have hX : ∀ j g, (kernelRun0_A.sl.v247 (F := Ideal) c arg1 harg1 arg2 harg2 arg10 x0 x1) (ix2 j g) = xrow (blockArgs x0 x1 x2 x3 x4 x5) 63 (by norm_num) j g := fun j g => by
    have := j.isLt
    unfold kernelRun0_A.sl.v247
    rw [Cert.KCanon.readCov_rows _ _ 64 _ j g ⟨64 + j.val, by omega⟩ rfl,
      inv_X c arg1 harg1 arg2 harg2 x0 x1 x2 x3 x4 x5 ⟨64 + j.val, by omega⟩ g (by show 1 ≤ 64 + j.val; omega)]
    unfold xrow
    exact congrArg (fun i => iouX (blockArgs x0 x1 x2 x3 x4 x5) i g) (Fin.ext (by show 64 + j.val - 1 = 63 + j.val; omega))
  have hUf : ∀ k q, View.readAt (Elt Ideal) arg5.view (Rect.unit ![0, 0] S256x256.size inb_S256x256_S256x256_0_0).toLoadRect (harg5.unread x4) (ix2 k q) = (blockArgs x0 x1 x2 x3 x4 x5).Ufw q k :=
    fun k q => congrFun (Cert.KLoads.load_whole arg5 harg5 x4 (by funext a; fin_cases a <;> rfl) _) (ix2 k q)
  have hUi : ∀ k g, View.readAt (Elt Ideal) arg3.view (Rect.unit ![0, 0] S256x384.size inb_S256x384_S256x384_0_0).toLoadRect (harg3.unread x2) (ix2 k g) = (blockArgs x0 x1 x2 x3 x4 x5).Uiou g k :=
    fun k g => congrFun (Cert.KLoads.load_whole arg3 harg3 x2 (by funext a; fin_cases a <;> rfl) _) (ix2 k g)
  have hbi : ∀ g, (kernelRun0_A.sl.r (F := Ideal) c arg4 harg4 x3) (ix1 g) = (blockArgs x0 x1 x2 x3 x4 x5).biou g := fun g => by
    unfold kernelRun0_A.sl.r
    exact congrFun (Cert.KLoads.load_whole arg4 harg4 x3 (by funext a; fin_cases a; rfl) _) (ix1 g)
  have hbf : ∀ q, (kernelRun0_A.sl.r_1 (F := Ideal) c arg6 harg6 x5) (ix1 q) = (blockArgs x0 x1 x2 x3 x4 x5).Ufb q := fun q => by
    unfold kernelRun0_A.sl.r_1
    exact congrFun (Cert.KLoads.load_whole arg6 harg6 x5 (by funext a; fin_cases a; rfl) _) (ix1 q)
  unfold kernelRun0_A.sl.HS0_7
  by_cases hin : r.val < 128
  · refine (Cert.KCanon.canon_rows_hit 64 _ _ _ r d hr hin).trans ?_
    rw [padH_lev6 _ r d hr hin]
    exact Cert.KLev.h6 _ _ _ _ _ _ _ (H7 (blockArgs x0 x1 x2 x3 x4 x5)) (C7 (blockArgs x0 x1 x2 x3 x4 x5)) (xrow (blockArgs x0 x1 x2 x3 x4 x5) 63 (by norm_num)) (blockArgs x0 x1 x2 x3 x4 x5).Uiou (blockArgs x0 x1 x2 x3 x4 x5).biou (blockArgs x0 x1 x2 x3 x4 x5).Ufw (blockArgs x0 x1 x2 x3 x4 x5).Ufb
      hH hC hX hUf hUi hbi hbf ⟨r.val - 64, by omega⟩ d
  · refine (Cert.KCanon.canon_rows_miss 64 _ _ _ r d (Or.inr (by omega))).trans ?_
    exact inv_H6 c arg1 harg1 arg2 harg2 arg3 harg3 arg4 harg4 arg5 harg5 arg6 harg6 arg8 arg9 arg10 x0 x1 x2 x3 x4 x5 r d (by omega)

/-- After level 6 (64 nodes): rows 64 … 8191 of the cell array. -/
theorem inv_C7 (r : Fin 8192) (d : Fin 128) (hr : 64 ≤ r.val) :
    View.canon (kernelRun0_A.sl.HS1_7 (F := Ideal) c arg1 harg1 arg2 harg2 arg3 harg3 arg4 harg4 arg5 harg5 arg6 harg6 arg8 arg9 arg10 x0 x1 x2 x3 x4 x5) (ix2 r d) = padC (blockArgs x0 x1 x2 x3 x4 x5) r d := by
  have hlt := r.isLt
  have hH : ∀ r' d', (kernelRun0_A.sl.v232 (F := Ideal) c arg1 harg1 arg2 harg2 arg3 harg3 arg4 harg4 arg5 harg5 arg6 harg6 arg8 arg9 arg10 x0 x1 x2 x3 x4 x5) (ix2 r' d') = H7 (blockArgs x0 x1 x2 x3 x4 x5) r' d' := fun r' d' => by
    have := r'.isLt
    unfold kernelRun0_A.sl.v232
    rw [Cert.KCanon.readCov_rows _ _ 128 _ r' d' ⟨128 + r'.val, by omega⟩ rfl,
      inv_H6 c arg1 harg1 arg2 harg2 arg3 harg3 arg4 harg4 arg5 harg5 arg6 harg6 arg8 arg9 arg10 x0 x1 x2 x3 x4 x5 ⟨128 + r'.val, by omega⟩ d' (by show 128 ≤ 128 + r'.val; omega),
      padH_lev7 _ _ d' (by show 128 ≤ 128 + r'.val; omega) (by show 128 + r'.val < 256; omega)]
    exact congrArg (fun i => H7 (blockArgs x0 x1 x2 x3 x4 x5) i d') (Fin.ext (by show 128 + r'.val - 128 = r'.val; omega))
  have hC : ∀ r' d', (kernelRun0_A.sl.v233 (F := Ideal) c arg1 harg1 arg2 harg2 arg3 harg3 arg4 harg4 arg5 harg5 arg6 harg6 arg8 arg9 arg10 x0 x1 x2 x3 x4 x5) (ix2 r' d') = C7 (blockArgs x0 x1 x2 x3 x4 x5) r' d' := fun r' d' => by
    have := r'.isLt
    unfold kernelRun0_A.sl.v233
    rw [Cert.KCanon.readCov_rows _ _ 128 _ r' d' ⟨128 + r'.val, by omega⟩ rfl,
      inv_C6 c arg1 harg1 arg2 harg2 arg3 harg3 arg4 harg4 arg5 harg5 arg6 harg6 arg8 arg9 arg10 x0 x1 x2 x3 x4 x5 ⟨128 + r'.val, by omega⟩ d' (by show 128 ≤ 128 + r'.val; omega),
      padC_lev7 _ _ d' (by show 128 ≤ 128 + r'.val; omega) (by show 128 + r'.val < 256; omega)]
    exact congrArg (fun i => C7 (blockArgs x0 x1 x2 x3 x4 x5) i d') (Fin.ext (by show 128 + r'.val - 128 = r'.val; omega))
  have hX : ∀ j g, (kernelRun0_A.sl.v247 (F := Ideal) c arg1 harg1 arg2 harg2 arg10 x0 x1) (ix2 j g) = xrow (blockArgs x0 x1 x2 x3 x4 x5) 63 (by norm_num) j g := fun j g => by
    have := j.isLt
    unfold kernelRun0_A.sl.v247
    rw [Cert.KCanon.readCov_rows _ _ 64 _ j g ⟨64 + j.val, by omega⟩ rfl,
      inv_X c arg1 harg1 arg2 harg2 x0 x1 x2 x3 x4 x5 ⟨64 + j.val, by omega⟩ g (by show 1 ≤ 64 + j.val; omega)]
    unfold xrow
    exact congrArg (fun i => iouX (blockArgs x0 x1 x2 x3 x4 x5) i g) (Fin.ext (by show 64 + j.val - 1 = 63 + j.val; omega))
  have hUf : ∀ k q, View.readAt (Elt Ideal) arg5.view (Rect.unit ![0, 0] S256x256.size inb_S256x256_S256x256_0_0).toLoadRect (harg5.unread x4) (ix2 k q) = (blockArgs x0 x1 x2 x3 x4 x5).Ufw q k :=
    fun k q => congrFun (Cert.KLoads.load_whole arg5 harg5 x4 (by funext a; fin_cases a <;> rfl) _) (ix2 k q)
  have hUi : ∀ k g, View.readAt (Elt Ideal) arg3.view (Rect.unit ![0, 0] S256x384.size inb_S256x384_S256x384_0_0).toLoadRect (harg3.unread x2) (ix2 k g) = (blockArgs x0 x1 x2 x3 x4 x5).Uiou g k :=
    fun k g => congrFun (Cert.KLoads.load_whole arg3 harg3 x2 (by funext a; fin_cases a <;> rfl) _) (ix2 k g)
  have hbi : ∀ g, (kernelRun0_A.sl.r (F := Ideal) c arg4 harg4 x3) (ix1 g) = (blockArgs x0 x1 x2 x3 x4 x5).biou g := fun g => by
    unfold kernelRun0_A.sl.r
    exact congrFun (Cert.KLoads.load_whole arg4 harg4 x3 (by funext a; fin_cases a; rfl) _) (ix1 g)
  have hbf : ∀ q, (kernelRun0_A.sl.r_1 (F := Ideal) c arg6 harg6 x5) (ix1 q) = (blockArgs x0 x1 x2 x3 x4 x5).Ufb q := fun q => by
    unfold kernelRun0_A.sl.r_1
    exact congrFun (Cert.KLoads.load_whole arg6 harg6 x5 (by funext a; fin_cases a; rfl) _) (ix1 q)
  unfold kernelRun0_A.sl.HS1_7
  by_cases hin : r.val < 128
  · refine (Cert.KCanon.canon_rows_hit 64 _ _ _ r d hr hin).trans ?_
    rw [padC_lev6 _ r d hr hin]
    exact Cert.KLev.c6 _ _ _ _ _ _ _ (H7 (blockArgs x0 x1 x2 x3 x4 x5)) (C7 (blockArgs x0 x1 x2 x3 x4 x5)) (xrow (blockArgs x0 x1 x2 x3 x4 x5) 63 (by norm_num)) (blockArgs x0 x1 x2 x3 x4 x5).Uiou (blockArgs x0 x1 x2 x3 x4 x5).biou (blockArgs x0 x1 x2 x3 x4 x5).Ufw (blockArgs x0 x1 x2 x3 x4 x5).Ufb
      hH hC hX hUf hUi hbi hbf ⟨r.val - 64, by omega⟩ d
  · refine (Cert.KCanon.canon_rows_miss 64 _ _ _ r d (Or.inr (by omega))).trans ?_
    exact inv_C6 c arg1 harg1 arg2 harg2 arg3 harg3 arg4 harg4 arg5 harg5 arg6 harg6 arg8 arg9 arg10 x0 x1 x2 x3 x4 x5 r d (by omega)

/-- After level 5 (32 nodes): rows 32 … 8191 of the hidden array. -/
theorem inv_H8 (r : Fin 8192) (d : Fin 128) (hr : 32 ≤ r.val) :
    View.canon (kernelRun0_A.sl.HS0_8 (F := Ideal) c arg1 harg1 arg2 harg2 arg3 harg3 arg4 harg4 arg5 harg5 arg6 harg6 arg8 arg9 arg10 x0 x1 x2 x3 x4 x5) (ix2 r d) = padH (blockArgs x0 x1 x2 x3 x4 x5) r d := by
  have hlt := r.isLt
  have hH : ∀ r' d', (kernelRun0_A.sl.v271 (F := Ideal) c arg1 harg1 arg2 harg2 arg3 harg3 arg4 harg4 arg5 harg5 arg6 harg6 arg8 arg9 arg10 x0 x1 x2 x3 x4 x5) (ix2 r' d') = H6 (blockArgs x0 x1 x2 x3 x4 x5) r' d' := fun r' d' => by
    have := r'.isLt
    unfold kernelRun0_A.sl.v271
    rw [Cert.KCanon.readCov_rows _ _ 64 _ r' d' ⟨64 + r'.val, by omega⟩ rfl,
      inv_H7 c arg1 harg1 arg2 harg2 arg3 harg3 arg4 harg4 arg5 harg5 arg6 harg6 arg8 arg9 arg10 x0 x1 x2 x3 x4 x5 ⟨64 + r'.val, by omega⟩ d' (by show 64 ≤ 64 + r'.val; omega),
      padH_lev6 _ _ d' (by show 64 ≤ 64 + r'.val; omega) (by show 64 + r'.val < 128; omega)]
    exact congrArg (fun i => H6 (blockArgs x0 x1 x2 x3 x4 x5) i d') (Fin.ext (by show 64 + r'.val - 64 = r'.val; omega))
  have hC : ∀ r' d', (kernelRun0_A.sl.v272 (F := Ideal) c arg1 harg1 arg2 harg2 arg3 harg3 arg4 harg4 arg5 harg5 arg6 harg6 arg8 arg9 arg10 x0 x1 x2 x3 x4 x5) (ix2 r' d') = C6 (blockArgs x0 x1 x2 x3 x4 x5) r' d' := fun r' d' => by
    have := r'.isLt
    unfold kernelRun0_A.sl.v272
    rw [Cert.KCanon.readCov_rows _ _ 64 _ r' d' ⟨64 + r'.val, by omega⟩ rfl,
      inv_C7 c arg1 harg1 arg2 harg2 arg3 harg3 arg4 harg4 arg5 harg5 arg6 harg6 arg8 arg9 arg10 x0 x1 x2 x3 x4 x5 ⟨64 + r'.val, by omega⟩ d' (by show 64 ≤ 64 + r'.val; omega),
      padC_lev6 _ _ d' (by show 64 ≤ 64 + r'.val; omega) (by show 64 + r'.val < 128; omega)]
    exact congrArg (fun i => C6 (blockArgs x0 x1 x2 x3 x4 x5) i d') (Fin.ext (by show 64 + r'.val - 64 = r'.val; omega))
  have hX : ∀ j g, (kernelRun0_A.sl.v286 (F := Ideal) c arg1 harg1 arg2 harg2 arg10 x0 x1) (ix2 j g) = xrow (blockArgs x0 x1 x2 x3 x4 x5) 31 (by norm_num) j g := fun j g => by
    have := j.isLt
    unfold kernelRun0_A.sl.v286
    rw [Cert.KCanon.readCov_rows _ _ 32 _ j g ⟨32 + j.val, by omega⟩ rfl,
      inv_X c arg1 harg1 arg2 harg2 x0 x1 x2 x3 x4 x5 ⟨32 + j.val, by omega⟩ g (by show 1 ≤ 32 + j.val; omega)]
    unfold xrow
    exact congrArg (fun i => iouX (blockArgs x0 x1 x2 x3 x4 x5) i g) (Fin.ext (by show 32 + j.val - 1 = 31 + j.val; omega))
  have hUf : ∀ k q, View.readAt (Elt Ideal) arg5.view (Rect.unit ![0, 0] S256x256.size inb_S256x256_S256x256_0_0).toLoadRect (harg5.unread x4) (ix2 k q) = (blockArgs x0 x1 x2 x3 x4 x5).Ufw q k :=
    fun k q => congrFun (Cert.KLoads.load_whole arg5 harg5 x4 (by funext a; fin_cases a <;> rfl) _) (ix2 k q)
  have hUi : ∀ k g, View.readAt (Elt Ideal) arg3.view (Rect.unit ![0, 0] S256x384.size inb_S256x384_S256x384_0_0).toLoadRect (harg3.unread x2) (ix2 k g) = (blockArgs x0 x1 x2 x3 x4 x5).Uiou g k :=
    fun k g => congrFun (Cert.KLoads.load_whole arg3 harg3 x2 (by funext a; fin_cases a <;> rfl) _) (ix2 k g)
  have hbi : ∀ g, (kernelRun0_A.sl.r (F := Ideal) c arg4 harg4 x3) (ix1 g) = (blockArgs x0 x1 x2 x3 x4 x5).biou g := fun g => by
    unfold kernelRun0_A.sl.r
    exact congrFun (Cert.KLoads.load_whole arg4 harg4 x3 (by funext a; fin_cases a; rfl) _) (ix1 g)
  have hbf : ∀ q, (kernelRun0_A.sl.r_1 (F := Ideal) c arg6 harg6 x5) (ix1 q) = (blockArgs x0 x1 x2 x3 x4 x5).Ufb q := fun q => by
    unfold kernelRun0_A.sl.r_1
    exact congrFun (Cert.KLoads.load_whole arg6 harg6 x5 (by funext a; fin_cases a; rfl) _) (ix1 q)
  unfold kernelRun0_A.sl.HS0_8
  by_cases hin : r.val < 64
  · refine (Cert.KCanon.canon_rows_hit 32 _ _ _ r d hr hin).trans ?_
    rw [padH_lev5 _ r d hr hin]
    exact Cert.KLev.h5 _ _ _ _ _ _ _ (H6 (blockArgs x0 x1 x2 x3 x4 x5)) (C6 (blockArgs x0 x1 x2 x3 x4 x5)) (xrow (blockArgs x0 x1 x2 x3 x4 x5) 31 (by norm_num)) (blockArgs x0 x1 x2 x3 x4 x5).Uiou (blockArgs x0 x1 x2 x3 x4 x5).biou (blockArgs x0 x1 x2 x3 x4 x5).Ufw (blockArgs x0 x1 x2 x3 x4 x5).Ufb
      hH hC hX hUf hUi hbi hbf ⟨r.val - 32, by omega⟩ d
  · refine (Cert.KCanon.canon_rows_miss 32 _ _ _ r d (Or.inr (by omega))).trans ?_
    exact inv_H7 c arg1 harg1 arg2 harg2 arg3 harg3 arg4 harg4 arg5 harg5 arg6 harg6 arg8 arg9 arg10 x0 x1 x2 x3 x4 x5 r d (by omega)

/-- After level 5 (32 nodes): rows 32 … 8191 of the cell array. -/
theorem inv_C8 (r : Fin 8192) (d : Fin 128) (hr : 32 ≤ r.val) :
    View.canon (kernelRun0_A.sl.HS1_8 (F := Ideal) c arg1 harg1 arg2 harg2 arg3 harg3 arg4 harg4 arg5 harg5 arg6 harg6 arg8 arg9 arg10 x0 x1 x2 x3 x4 x5) (ix2 r d) = padC (blockArgs x0 x1 x2 x3 x4 x5) r d := by
  have hlt := r.isLt
  have hH : ∀ r' d', (kernelRun0_A.sl.v271 (F := Ideal) c arg1 harg1 arg2 harg2 arg3 harg3 arg4 harg4 arg5 harg5 arg6 harg6 arg8 arg9 arg10 x0 x1 x2 x3 x4 x5) (ix2 r' d') = H6 (blockArgs x0 x1 x2 x3 x4 x5) r' d' := fun r' d' => by
    have := r'.isLt
    unfold kernelRun0_A.sl.v271
    rw [Cert.KCanon.readCov_rows _ _ 64 _ r' d' ⟨64 + r'.val, by omega⟩ rfl,
      inv_H7 c arg1 harg1 arg2 harg2 arg3 harg3 arg4 harg4 arg5 harg5 arg6 harg6 arg8 arg9 arg10 x0 x1 x2 x3 x4 x5 ⟨64 + r'.val, by omega⟩ d' (by show 64 ≤ 64 + r'.val; omega),
      padH_lev6 _ _ d' (by show 64 ≤ 64 + r'.val; omega) (by show 64 + r'.val < 128; omega)]
    exact congrArg (fun i => H6 (blockArgs x0 x1 x2 x3 x4 x5) i d') (Fin.ext (by show 64 + r'.val - 64 = r'.val; omega))
  have hC : ∀ r' d', (kernelRun0_A.sl.v272 (F := Ideal) c arg1 harg1 arg2 harg2 arg3 harg3 arg4 harg4 arg5 harg5 arg6 harg6 arg8 arg9 arg10 x0 x1 x2 x3 x4 x5) (ix2 r' d') = C6 (blockArgs x0 x1 x2 x3 x4 x5) r' d' := fun r' d' => by
    have := r'.isLt
    unfold kernelRun0_A.sl.v272
    rw [Cert.KCanon.readCov_rows _ _ 64 _ r' d' ⟨64 + r'.val, by omega⟩ rfl,
      inv_C7 c arg1 harg1 arg2 harg2 arg3 harg3 arg4 harg4 arg5 harg5 arg6 harg6 arg8 arg9 arg10 x0 x1 x2 x3 x4 x5 ⟨64 + r'.val, by omega⟩ d' (by show 64 ≤ 64 + r'.val; omega),
      padC_lev6 _ _ d' (by show 64 ≤ 64 + r'.val; omega) (by show 64 + r'.val < 128; omega)]
    exact congrArg (fun i => C6 (blockArgs x0 x1 x2 x3 x4 x5) i d') (Fin.ext (by show 64 + r'.val - 64 = r'.val; omega))
  have hX : ∀ j g, (kernelRun0_A.sl.v286 (F := Ideal) c arg1 harg1 arg2 harg2 arg10 x0 x1) (ix2 j g) = xrow (blockArgs x0 x1 x2 x3 x4 x5) 31 (by norm_num) j g := fun j g => by
    have := j.isLt
    unfold kernelRun0_A.sl.v286
    rw [Cert.KCanon.readCov_rows _ _ 32 _ j g ⟨32 + j.val, by omega⟩ rfl,
      inv_X c arg1 harg1 arg2 harg2 x0 x1 x2 x3 x4 x5 ⟨32 + j.val, by omega⟩ g (by show 1 ≤ 32 + j.val; omega)]
    unfold xrow
    exact congrArg (fun i => iouX (blockArgs x0 x1 x2 x3 x4 x5) i g) (Fin.ext (by show 32 + j.val - 1 = 31 + j.val; omega))
  have hUf : ∀ k q, View.readAt (Elt Ideal) arg5.view (Rect.unit ![0, 0] S256x256.size inb_S256x256_S256x256_0_0).toLoadRect (harg5.unread x4) (ix2 k q) = (blockArgs x0 x1 x2 x3 x4 x5).Ufw q k :=
    fun k q => congrFun (Cert.KLoads.load_whole arg5 harg5 x4 (by funext a; fin_cases a <;> rfl) _) (ix2 k q)
  have hUi : ∀ k g, View.readAt (Elt Ideal) arg3.view (Rect.unit ![0, 0] S256x384.size inb_S256x384_S256x384_0_0).toLoadRect (harg3.unread x2) (ix2 k g) = (blockArgs x0 x1 x2 x3 x4 x5).Uiou g k :=
    fun k g => congrFun (Cert.KLoads.load_whole arg3 harg3 x2 (by funext a; fin_cases a <;> rfl) _) (ix2 k g)
  have hbi : ∀ g, (kernelRun0_A.sl.r (F := Ideal) c arg4 harg4 x3) (ix1 g) = (blockArgs x0 x1 x2 x3 x4 x5).biou g := fun g => by
    unfold kernelRun0_A.sl.r
    exact congrFun (Cert.KLoads.load_whole arg4 harg4 x3 (by funext a; fin_cases a; rfl) _) (ix1 g)
  have hbf : ∀ q, (kernelRun0_A.sl.r_1 (F := Ideal) c arg6 harg6 x5) (ix1 q) = (blockArgs x0 x1 x2 x3 x4 x5).Ufb q := fun q => by
    unfold kernelRun0_A.sl.r_1
    exact congrFun (Cert.KLoads.load_whole arg6 harg6 x5 (by funext a; fin_cases a; rfl) _) (ix1 q)
  unfold kernelRun0_A.sl.HS1_8
  by_cases hin : r.val < 64
  · refine (Cert.KCanon.canon_rows_hit 32 _ _ _ r d hr hin).trans ?_
    rw [padC_lev5 _ r d hr hin]
    exact Cert.KLev.c5 _ _ _ _ _ _ _ (H6 (blockArgs x0 x1 x2 x3 x4 x5)) (C6 (blockArgs x0 x1 x2 x3 x4 x5)) (xrow (blockArgs x0 x1 x2 x3 x4 x5) 31 (by norm_num)) (blockArgs x0 x1 x2 x3 x4 x5).Uiou (blockArgs x0 x1 x2 x3 x4 x5).biou (blockArgs x0 x1 x2 x3 x4 x5).Ufw (blockArgs x0 x1 x2 x3 x4 x5).Ufb
      hH hC hX hUf hUi hbi hbf ⟨r.val - 32, by omega⟩ d
  · refine (Cert.KCanon.canon_rows_miss 32 _ _ _ r d (Or.inr (by omega))).trans ?_
    exact inv_C7 c arg1 harg1 arg2 harg2 arg3 harg3 arg4 harg4 arg5 harg5 arg6 harg6 arg8 arg9 arg10 x0 x1 x2 x3 x4 x5 r d (by omega)

/-- After level 4 (16 nodes): rows 16 … 8191 of the hidden array. -/
theorem inv_H9 (r : Fin 8192) (d : Fin 128) (hr : 16 ≤ r.val) :
    View.canon (kernelRun0_A.sl.HS0_9 (F := Ideal) c arg1 harg1 arg2 harg2 arg3 harg3 arg4 harg4 arg5 harg5 arg6 harg6 arg8 arg9 arg10 x0 x1 x2 x3 x4 x5) (ix2 r d) = padH (blockArgs x0 x1 x2 x3 x4 x5) r d := by
  have hlt := r.isLt
  have hH : ∀ r' d', (kernelRun0_A.sl.v310 (F := Ideal) c arg1 harg1 arg2 harg2 arg3 harg3 arg4 harg4 arg5 harg5 arg6 harg6 arg8 arg9 arg10 x0 x1 x2 x3 x4 x5) (ix2 r' d') = H5 (blockArgs x0 x1 x2 x3 x4 x5) r' d' := fun r' d' => by
    have := r'.isLt
    unfold kernelRun0_A.sl.v310
    rw [Cert.KCanon.readCov_rows _ _ 32 _ r' d' ⟨32 + r'.val, by omega⟩ rfl,
      inv_H8 c arg1 harg1 arg2 harg2 arg3 harg3 arg4 harg4 arg5 harg5 arg6 harg6 arg8 arg9 arg10 x0 x1 x2 x3 x4 x5 ⟨32 + r'.val, by omega⟩ d' (by show 32 ≤ 32 + r'.val; omega),
      padH_lev5 _ _ d' (by show 32 ≤ 32 + r'.val; omega) (by show 32 + r'.val < 64; omega)]
    exact congrArg (fun i => H5 (blockArgs x0 x1 x2 x3 x4 x5) i d') (Fin.ext (by show 32 + r'.val - 32 = r'.val; omega))
  have hC : ∀ r' d', (kernelRun0_A.sl.v311 (F := Ideal) c arg1 harg1 arg2 harg2 arg3 harg3 arg4 harg4 arg5 harg5 arg6 harg6 arg8 arg9 arg10 x0 x1 x2 x3 x4 x5) (ix2 r' d') = C5 (blockArgs x0 x1 x2 x3 x4 x5) r' d' := fun r' d' => by
    have := r'.isLt
    unfold kernelRun0_A.sl.v311
    rw [Cert.KCanon.readCov_rows _ _ 32 _ r' d' ⟨32 + r'.val, by omega⟩ rfl,
      inv_C8 c arg1 harg1 arg2 harg2 arg3 harg3 arg4 harg4 arg5 harg5 arg6 harg6 arg8 arg9 arg10 x0 x1 x2 x3 x4 x5 ⟨32 + r'.val, by omega⟩ d' (by show 32 ≤ 32 + r'.val; omega),
      padC_lev5 _ _ d' (by show 32 ≤ 32 + r'.val; omega) (by show 32 + r'.val < 64; omega)]
    exact congrArg (fun i => C5 (blockArgs x0 x1 x2 x3 x4 x5) i d') (Fin.ext (by show 32 + r'.val - 32 = r'.val; omega))
  have hX : ∀ j g, (kernelRun0_A.sl.v325 (F := Ideal) c arg1 harg1 arg2 harg2 arg10 x0 x1) (ix2 j g) = xrow (blockArgs x0 x1 x2 x3 x4 x5) 15 (by norm_num) j g := fun j g => by
    have := j.isLt
    unfold kernelRun0_A.sl.v325
    rw [Cert.KCanon.readCov_rows _ _ 16 _ j g ⟨16 + j.val, by omega⟩ rfl,
      inv_X c arg1 harg1 arg2 harg2 x0 x1 x2 x3 x4 x5 ⟨16 + j.val, by omega⟩ g (by show 1 ≤ 16 + j.val; omega)]
    unfold xrow
    exact congrArg (fun i => iouX (blockArgs x0 x1 x2 x3 x4 x5) i g) (Fin.ext (by show 16 + j.val - 1 = 15 + j.val; omega))
  have hUf : ∀ k q, View.readAt (Elt Ideal) arg5.view (Rect.unit ![0, 0] S256x256.size inb_S256x256_S256x256_0_0).toLoadRect (harg5.unread x4) (ix2 k q) = (blockArgs x0 x1 x2 x3 x4 x5).Ufw q k :=
    fun k q => congrFun (Cert.KLoads.load_whole arg5 harg5 x4 (by funext a; fin_cases a <;> rfl) _) (ix2 k q)
  have hUi : ∀ k g, View.readAt (Elt Ideal) arg3.view (Rect.unit ![0, 0] S256x384.size inb_S256x384_S256x384_0_0).toLoadRect (harg3.unread x2) (ix2 k g) = (blockArgs x0 x1 x2 x3 x4 x5).Uiou g k :=
    fun k g => congrFun (Cert.KLoads.load_whole arg3 harg3 x2 (by funext a; fin_cases a <;> rfl) _) (ix2 k g)
  have hbi : ∀ g, (kernelRun0_A.sl.r (F := Ideal) c arg4 harg4 x3) (ix1 g) = (blockArgs x0 x1 x2 x3 x4 x5).biou g := fun g => by
    unfold kernelRun0_A.sl.r
    exact congrFun (Cert.KLoads.load_whole arg4 harg4 x3 (by funext a; fin_cases a; rfl) _) (ix1 g)
  have hbf : ∀ q, (kernelRun0_A.sl.r_1 (F := Ideal) c arg6 harg6 x5) (ix1 q) = (blockArgs x0 x1 x2 x3 x4 x5).Ufb q := fun q => by
    unfold kernelRun0_A.sl.r_1
    exact congrFun (Cert.KLoads.load_whole arg6 harg6 x5 (by funext a; fin_cases a; rfl) _) (ix1 q)
  unfold kernelRun0_A.sl.HS0_9
  by_cases hin : r.val < 32
  · refine (Cert.KCanon.canon_rows_hit 16 _ _ _ r d hr hin).trans ?_
    rw [padH_lev4 _ r d hr hin]
    exact Cert.KLev.h4 _ _ _ _ _ _ _ (H5 (blockArgs x0 x1 x2 x3 x4 x5)) (C5 (blockArgs x0 x1 x2 x3 x4 x5)) (xrow (blockArgs x0 x1 x2 x3 x4 x5) 15 (by norm_num)) (blockArgs x0 x1 x2 x3 x4 x5).Uiou (blockArgs x0 x1 x2 x3 x4 x5).biou (blockArgs x0 x1 x2 x3 x4 x5).Ufw (blockArgs x0 x1 x2 x3 x4 x5).Ufb
      hH hC hX hUf hUi hbi hbf ⟨r.val - 16, by omega⟩ d
  · refine (Cert.KCanon.canon_rows_miss 16 _ _ _ r d (Or.inr (by omega))).trans ?_
    exact inv_H8 c arg1 harg1 arg2 harg2 arg3 harg3 arg4 harg4 arg5 harg5 arg6 harg6 arg8 arg9 arg10 x0 x1 x2 x3 x4 x5 r d (by omega)

/-- After level 4 (16 nodes): rows 16 … 8191 of the cell array. -/
theorem inv_C9 (r : Fin 8192) (d : Fin 128) (hr : 16 ≤ r.val) :
    View.canon (kernelRun0_A.sl.HS1_9 (F := Ideal) c arg1 harg1 arg2 harg2 arg3 harg3 arg4 harg4 arg5 harg5 arg6 harg6 arg8 arg9 arg10 x0 x1 x2 x3 x4 x5) (ix2 r d) = padC (blockArgs x0 x1 x2 x3 x4 x5) r d := by
  have hlt := r.isLt
  have hH : ∀ r' d', (kernelRun0_A.sl.v310 (F := Ideal) c arg1 harg1 arg2 harg2 arg3 harg3 arg4 harg4 arg5 harg5 arg6 harg6 arg8 arg9 arg10 x0 x1 x2 x3 x4 x5) (ix2 r' d') = H5 (blockArgs x0 x1 x2 x3 x4 x5) r' d' := fun r' d' => by
    have := r'.isLt
    unfold kernelRun0_A.sl.v310
    rw [Cert.KCanon.readCov_rows _ _ 32 _ r' d' ⟨32 + r'.val, by omega⟩ rfl,
      inv_H8 c arg1 harg1 arg2 harg2 arg3 harg3 arg4 harg4 arg5 harg5 arg6 harg6 arg8 arg9 arg10 x0 x1 x2 x3 x4 x5 ⟨32 + r'.val, by omega⟩ d' (by show 32 ≤ 32 + r'.val; omega),
      padH_lev5 _ _ d' (by show 32 ≤ 32 + r'.val; omega) (by show 32 + r'.val < 64; omega)]
    exact congrArg (fun i => H5 (blockArgs x0 x1 x2 x3 x4 x5) i d') (Fin.ext (by show 32 + r'.val - 32 = r'.val; omega))
  have hC : ∀ r' d', (kernelRun0_A.sl.v311 (F := Ideal) c arg1 harg1 arg2 harg2 arg3 harg3 arg4 harg4 arg5 harg5 arg6 harg6 arg8 arg9 arg10 x0 x1 x2 x3 x4 x5) (ix2 r' d') = C5 (blockArgs x0 x1 x2 x3 x4 x5) r' d' := fun r' d' => by
    have := r'.isLt
    unfold kernelRun0_A.sl.v311
    rw [Cert.KCanon.readCov_rows _ _ 32 _ r' d' ⟨32 + r'.val, by omega⟩ rfl,
      inv_C8 c arg1 harg1 arg2 harg2 arg3 harg3 arg4 harg4 arg5 harg5 arg6 harg6 arg8 arg9 arg10 x0 x1 x2 x3 x4 x5 ⟨32 + r'.val, by omega⟩ d' (by show 32 ≤ 32 + r'.val; omega),
      padC_lev5 _ _ d' (by show 32 ≤ 32 + r'.val; omega) (by show 32 + r'.val < 64; omega)]
    exact congrArg (fun i => C5 (blockArgs x0 x1 x2 x3 x4 x5) i d') (Fin.ext (by show 32 + r'.val - 32 = r'.val; omega))
  have hX : ∀ j g, (kernelRun0_A.sl.v325 (F := Ideal) c arg1 harg1 arg2 harg2 arg10 x0 x1) (ix2 j g) = xrow (blockArgs x0 x1 x2 x3 x4 x5) 15 (by norm_num) j g := fun j g => by
    have := j.isLt
    unfold kernelRun0_A.sl.v325
    rw [Cert.KCanon.readCov_rows _ _ 16 _ j g ⟨16 + j.val, by omega⟩ rfl,
      inv_X c arg1 harg1 arg2 harg2 x0 x1 x2 x3 x4 x5 ⟨16 + j.val, by omega⟩ g (by show 1 ≤ 16 + j.val; omega)]
    unfold xrow
    exact congrArg (fun i => iouX (blockArgs x0 x1 x2 x3 x4 x5) i g) (Fin.ext (by show 16 + j.val - 1 = 15 + j.val; omega))
  have hUf : ∀ k q, View.readAt (Elt Ideal) arg5.view (Rect.unit ![0, 0] S256x256.size inb_S256x256_S256x256_0_0).toLoadRect (harg5.unread x4) (ix2 k q) = (blockArgs x0 x1 x2 x3 x4 x5).Ufw q k :=
    fun k q => congrFun (Cert.KLoads.load_whole arg5 harg5 x4 (by funext a; fin_cases a <;> rfl) _) (ix2 k q)
  have hUi : ∀ k g, View.readAt (Elt Ideal) arg3.view (Rect.unit ![0, 0] S256x384.size inb_S256x384_S256x384_0_0).toLoadRect (harg3.unread x2) (ix2 k g) = (blockArgs x0 x1 x2 x3 x4 x5).Uiou g k :=
    fun k g => congrFun (Cert.KLoads.load_whole arg3 harg3 x2 (by funext a; fin_cases a <;> rfl) _) (ix2 k g)
  have hbi : ∀ g, (kernelRun0_A.sl.r (F := Ideal) c arg4 harg4 x3) (ix1 g) = (blockArgs x0 x1 x2 x3 x4 x5).biou g := fun g => by
    unfold kernelRun0_A.sl.r
    exact congrFun (Cert.KLoads.load_whole arg4 harg4 x3 (by funext a; fin_cases a; rfl) _) (ix1 g)
  have hbf : ∀ q, (kernelRun0_A.sl.r_1 (F := Ideal) c arg6 harg6 x5) (ix1 q) = (blockArgs x0 x1 x2 x3 x4 x5).Ufb q := fun q => by
    unfold kernelRun0_A.sl.r_1
    exact congrFun (Cert.KLoads.load_whole arg6 harg6 x5 (by funext a; fin_cases a; rfl) _) (ix1 q)
  unfold kernelRun0_A.sl.HS1_9
  by_cases hin : r.val < 32
  · refine (Cert.KCanon.canon_rows_hit 16 _ _ _ r d hr hin).trans ?_
    rw [padC_lev4 _ r d hr hin]
    exact Cert.KLev.c4 _ _ _ _ _ _ _ (H5 (blockArgs x0 x1 x2 x3 x4 x5)) (C5 (blockArgs x0 x1 x2 x3 x4 x5)) (xrow (blockArgs x0 x1 x2 x3 x4 x5) 15 (by norm_num)) (blockArgs x0 x1 x2 x3 x4 x5).Uiou (blockArgs x0 x1 x2 x3 x4 x5).biou (blockArgs x0 x1 x2 x3 x4 x5).Ufw (blockArgs x0 x1 x2 x3 x4 x5).Ufb
      hH hC hX hUf hUi hbi hbf ⟨r.val - 16, by omega⟩ d
  · refine (Cert.KCanon.canon_rows_miss 16 _ _ _ r d (Or.inr (by omega))).trans ?_
    exact inv_C8 c arg1 harg1 arg2 harg2 arg3 harg3 arg4 harg4 arg5 harg5 arg6 harg6 arg8 arg9 arg10 x0 x1 x2 x3 x4 x5 r d (by omega)

/-- After level 3 (8 nodes): rows 8 … 8191 of the hidden array. -/
theorem inv_H10 (r : Fin 8192) (d : Fin 128) (hr : 8 ≤ r.val) :
    View.canon (kernelRun0_A.sl.HS0_10 (F := Ideal) c arg1 harg1 arg2 harg2 arg3 harg3 arg4 harg4 arg5 harg5 arg6 harg6 arg8 arg9 arg10 x0 x1 x2 x3 x4 x5) (ix2 r d) = padH (blockArgs x0 x1 x2 x3 x4 x5) r d := by
  have hlt := r.isLt
  have hH : ∀ r' d', (kernelRun0_A.sl.v349 (F := Ideal) c arg1 harg1 arg2 harg2 arg3 harg3 arg4 harg4 arg5 harg5 arg6 harg6 arg8 arg9 arg10 x0 x1 x2 x3 x4 x5) (ix2 r' d') = H4 (blockArgs x0 x1 x2 x3 x4 x5) r' d' := fun r' d' => by
    have := r'.isLt
    unfold kernelRun0_A.sl.v349
    rw [Cert.KCanon.readCov_rows _ _ 16 _ r' d' ⟨16 + r'.val, by omega⟩ rfl,
      inv_H9 c arg1 harg1 arg2 harg2 arg3 harg3 arg4 harg4 arg5 harg5 arg6 harg6 arg8 arg9 arg10 x0 x1 x2 x3 x4 x5 ⟨16 + r'.val, by omega⟩ d' (by show 16 ≤ 16 + r'.val; omega),
      padH_lev4 _ _ d' (by show 16 ≤ 16 + r'.val; omega) (by show 16 + r'.val < 32; omega)]
    exact congrArg (fun i => H4 (blockArgs x0 x1 x2 x3 x4 x5) i d') (Fin.ext (by show 16 + r'.val - 16 = r'.val; omega))
  have hC : ∀ r' d', (kernelRun0_A.sl.v350 (F := Ideal) c arg1 harg1 arg2 harg2 arg3 harg3 arg4 harg4 arg5 harg5 arg6 harg6 arg8 arg9 arg10 x0 x1 x2 x3 x4 x5) (ix2 r' d') = C4 (blockArgs x0 x1 x2 x3 x4 x5) r' d' := fun r' d' => by
    have := r'.isLt
    unfold kernelRun0_A.sl.v350
    rw [Cert.KCanon.readCov_rows _ _ 16 _ r' d' ⟨16 + r'.val, by omega⟩ rfl,
      inv_C9 c arg1 harg1 arg2 harg2 arg3 harg3 arg4 harg4 arg5 harg5 arg6 harg6 arg8 arg9 arg10 x0 x1 x2 x3 x4 x5 ⟨16 + r'.val, by omega⟩ d' (by show 16 ≤ 16 + r'.val; omega),
      padC_lev4 _ _ d' (by show 16 ≤ 16 + r'.val; omega) (by show 16 + r'.val < 32; omega)]
    exact congrArg (fun i => C4 (blockArgs x0 x1 x2 x3 x4 x5) i d') (Fin.ext (by show 16 + r'.val - 16 = r'.val; omega))
  have hX : ∀ j g, (kernelRun0_A.sl.v364 (F := Ideal) c arg1 harg1 arg2 harg2 arg10 x0 x1) (ix2 j g) = xrow (blockArgs x0 x1 x2 x3 x4 x5) 7 (by norm_num) j g := fun j g => by
    have := j.isLt
    unfold kernelRun0_A.sl.v364
    rw [Cert.KCanon.readCov_rows _ _ 8 _ j g ⟨8 + j.val, by omega⟩ rfl,
      inv_X c arg1 harg1 arg2 harg2 x0 x1 x2 x3 x4 x5 ⟨8 + j.val, by omega⟩ g (by show 1 ≤ 8 + j.val; omega)]
    unfold xrow
    exact congrArg (fun i => iouX (blockArgs x0 x1 x2 x3 x4 x5) i g) (Fin.ext (by show 8 + j.val - 1 = 7 + j.val; omega))
  have hUf : ∀ k q, View.readAt (Elt Ideal) arg5.view (Rect.unit ![0, 0] S256x256.size inb_S256x256_S256x256_0_0).toLoadRect (harg5.unread x4) (ix2 k q) = (blockArgs x0 x1 x2 x3 x4 x5).Ufw q k :=
    fun k q => congrFun (Cert.KLoads.load_whole arg5 harg5 x4 (by funext a; fin_cases a <;> rfl) _) (ix2 k q)
  have hUi : ∀ k g, View.readAt (Elt Ideal) arg3.view (Rect.unit ![0, 0] S256x384.size inb_S256x384_S256x384_0_0).toLoadRect (harg3.unread x2) (ix2 k g) = (blockArgs x0 x1 x2 x3 x4 x5).Uiou g k :=
    fun k g => congrFun (Cert.KLoads.load_whole arg3 harg3 x2 (by funext a; fin_cases a <;> rfl) _) (ix2 k g)
  have hbi : ∀ g, (kernelRun0_A.sl.r (F := Ideal) c arg4 harg4 x3) (ix1 g) = (blockArgs x0 x1 x2 x3 x4 x5).biou g := fun g => by
    unfold kernelRun0_A.sl.r
    exact congrFun (Cert.KLoads.load_whole arg4 harg4 x3 (by funext a; fin_cases a; rfl) _) (ix1 g)
  have hbf : ∀ q, (kernelRun0_A.sl.r_1 (F := Ideal) c arg6 harg6 x5) (ix1 q) = (blockArgs x0 x1 x2 x3 x4 x5).Ufb q := fun q => by
    unfold kernelRun0_A.sl.r_1
    exact congrFun (Cert.KLoads.load_whole arg6 harg6 x5 (by funext a; fin_cases a; rfl) _) (ix1 q)
  unfold kernelRun0_A.sl.HS0_10
  by_cases hin : r.val < 16
  · refine (Cert.KCanon.canon_rows_hit 8 _ _ _ r d hr hin).trans ?_
    rw [padH_lev3 _ r d hr hin]
    exact Cert.KLev.h3 _ _ _ _ _ _ _ (H4 (blockArgs x0 x1 x2 x3 x4 x5)) (C4 (blockArgs x0 x1 x2 x3 x4 x5)) (xrow (blockArgs x0 x1 x2 x3 x4 x5) 7 (by norm_num)) (blockArgs x0 x1 x2 x3 x4 x5).Uiou (blockArgs x0 x1 x2 x3 x4 x5).biou (blockArgs x0 x1 x2 x3 x4 x5).Ufw (blockArgs x0 x1 x2 x3 x4 x5).Ufb
      hH hC hX hUf hUi hbi hbf ⟨r.val - 8, by omega⟩ d
  · refine (Cert.KCanon.canon_rows_miss 8 _ _ _ r d (Or.inr (by omega))).trans ?_
    exact inv_H9 c arg1 harg1 arg2 harg2 arg3 harg3 arg4 harg4 arg5 harg5 arg6 harg6 arg8 arg9 arg10 x0 x1 x2 x3 x4 x5 r d (by omega)

/-- After level 3 (8 nodes): rows 8 … 8191 of the cell array. -/
theorem inv_C10 (r : Fin 8192) (d : Fin 128) (hr : 8 ≤ r.val) :
    View.canon (kernelRun0_A.sl.HS1_10 (F := Ideal) c arg1 harg1 arg2 harg2 arg3 harg3 arg4 harg4 arg5 harg5 arg6 harg6 arg8 arg9 arg10 x0 x1 x2 x3 x4 x5) (ix2 r d) = padC (blockArgs x0 x1 x2 x3 x4 x5) r d := by
  have hlt := r.isLt
  have hH : ∀ r' d', (kernelRun0_A.sl.v349 (F := Ideal) c arg1 harg1 arg2 harg2 arg3 harg3 arg4 harg4 arg5 harg5 arg6 harg6 arg8 arg9 arg10 x0 x1 x2 x3 x4 x5) (ix2 r' d') = H4 (blockArgs x0 x1 x2 x3 x4 x5) r' d' := fun r' d' => by
    have := r'.isLt
    unfold kernelRun0_A.sl.v349
    rw [Cert.KCanon.readCov_rows _ _ 16 _ r' d' ⟨16 + r'.val, by omega⟩ rfl,
      inv_H9 c arg1 harg1 arg2 harg2 arg3 harg3 arg4 harg4 arg5 harg5 arg6 harg6 arg8 arg9 arg10 x0 x1 x2 x3 x4 x5 ⟨16 + r'.val, by omega⟩ d' (by show 16 ≤ 16 + r'.val; omega),
      padH_lev4 _ _ d' (by show 16 ≤ 16 + r'.val; omega) (by show 16 + r'.val < 32; omega)]
    exact congrArg (fun i => H4 (blockArgs x0 x1 x2 x3 x4 x5) i d') (Fin.ext (by show 16 + r'.val - 16 = r'.val; omega))
  have hC : ∀ r' d', (kernelRun0_A.sl.v350 (F := Ideal) c arg1 harg1 arg2 harg2 arg3 harg3 arg4 harg4 arg5 harg5 arg6 harg6 arg8 arg9 arg10 x0 x1 x2 x3 x4 x5) (ix2 r' d') = C4 (blockArgs x0 x1 x2 x3 x4 x5) r' d' := fun r' d' => by
    have := r'.isLt
    unfold kernelRun0_A.sl.v350
    rw [Cert.KCanon.readCov_rows _ _ 16 _ r' d' ⟨16 + r'.val, by omega⟩ rfl,
      inv_C9 c arg1 harg1 arg2 harg2 arg3 harg3 arg4 harg4 arg5 harg5 arg6 harg6 arg8 arg9 arg10 x0 x1 x2 x3 x4 x5 ⟨16 + r'.val, by omega⟩ d' (by show 16 ≤ 16 + r'.val; omega),
      padC_lev4 _ _ d' (by show 16 ≤ 16 + r'.val; omega) (by show 16 + r'.val < 32; omega)]
    exact congrArg (fun i => C4 (blockArgs x0 x1 x2 x3 x4 x5) i d') (Fin.ext (by show 16 + r'.val - 16 = r'.val; omega))
  have hX : ∀ j g, (kernelRun0_A.sl.v364 (F := Ideal) c arg1 harg1 arg2 harg2 arg10 x0 x1) (ix2 j g) = xrow (blockArgs x0 x1 x2 x3 x4 x5) 7 (by norm_num) j g := fun j g => by
    have := j.isLt
    unfold kernelRun0_A.sl.v364
    rw [Cert.KCanon.readCov_rows _ _ 8 _ j g ⟨8 + j.val, by omega⟩ rfl,
      inv_X c arg1 harg1 arg2 harg2 x0 x1 x2 x3 x4 x5 ⟨8 + j.val, by omega⟩ g (by show 1 ≤ 8 + j.val; omega)]
    unfold xrow
    exact congrArg (fun i => iouX (blockArgs x0 x1 x2 x3 x4 x5) i g) (Fin.ext (by show 8 + j.val - 1 = 7 + j.val; omega))
  have hUf : ∀ k q, View.readAt (Elt Ideal) arg5.view (Rect.unit ![0, 0] S256x256.size inb_S256x256_S256x256_0_0).toLoadRect (harg5.unread x4) (ix2 k q) = (blockArgs x0 x1 x2 x3 x4 x5).Ufw q k :=
    fun k q => congrFun (Cert.KLoads.load_whole arg5 harg5 x4 (by funext a; fin_cases a <;> rfl) _) (ix2 k q)
  have hUi : ∀ k g, View.readAt (Elt Ideal) arg3.view (Rect.unit ![0, 0] S256x384.size inb_S256x384_S256x384_0_0).toLoadRect (harg3.unread x2) (ix2 k g) = (blockArgs x0 x1 x2 x3 x4 x5).Uiou g k :=
    fun k g => congrFun (Cert.KLoads.load_whole arg3 harg3 x2 (by funext a; fin_cases a <;> rfl) _) (ix2 k g)
  have hbi : ∀ g, (kernelRun0_A.sl.r (F := Ideal) c arg4 harg4 x3) (ix1 g) = (blockArgs x0 x1 x2 x3 x4 x5).biou g := fun g => by
    unfold kernelRun0_A.sl.r
    exact congrFun (Cert.KLoads.load_whole arg4 harg4 x3 (by funext a; fin_cases a; rfl) _) (ix1 g)
  have hbf : ∀ q, (kernelRun0_A.sl.r_1 (F := Ideal) c arg6 harg6 x5) (ix1 q) = (blockArgs x0 x1 x2 x3 x4 x5).Ufb q := fun q => by
    unfold kernelRun0_A.sl.r_1
    exact congrFun (Cert.KLoads.load_whole arg6 harg6 x5 (by funext a; fin_cases a; rfl) _) (ix1 q)
  unfold kernelRun0_A.sl.HS1_10
  by_cases hin : r.val < 16
  · refine (Cert.KCanon.canon_rows_hit 8 _ _ _ r d hr hin).trans ?_
    rw [padC_lev3 _ r d hr hin]
    exact Cert.KLev.c3 _ _ _ _ _ _ _ (H4 (blockArgs x0 x1 x2 x3 x4 x5)) (C4 (blockArgs x0 x1 x2 x3 x4 x5)) (xrow (blockArgs x0 x1 x2 x3 x4 x5) 7 (by norm_num)) (blockArgs x0 x1 x2 x3 x4 x5).Uiou (blockArgs x0 x1 x2 x3 x4 x5).biou (blockArgs x0 x1 x2 x3 x4 x5).Ufw (blockArgs x0 x1 x2 x3 x4 x5).Ufb
      hH hC hX hUf hUi hbi hbf ⟨r.val - 8, by omega⟩ d
  · refine (Cert.KCanon.canon_rows_miss 8 _ _ _ r d (Or.inr (by omega))).trans ?_
    exact inv_C9 c arg1 harg1 arg2 harg2 arg3 harg3 arg4 harg4 arg5 harg5 arg6 harg6 arg8 arg9 arg10 x0 x1 x2 x3 x4 x5 r d (by omega)

/-- After level 2 (4 nodes): rows 4 … 8191 of the hidden array. -/
theorem inv_H11 (r : Fin 8192) (d : Fin 128) (hr : 4 ≤ r.val) :
    View.canon (kernelRun0_A.sl.HS0_11 (F := Ideal) c arg1 harg1 arg2 harg2 arg3 harg3 arg4 harg4 arg5 harg5 arg6 harg6 arg8 arg9 arg10 x0 x1 x2 x3 x4 x5) (ix2 r d) = padH (blockArgs x0 x1 x2 x3 x4 x5) r d := by
  have hlt := r.isLt
  have hH : ∀ r' d', (kernelRun0_A.sl.v388 (F := Ideal) c arg1 harg1 arg2 harg2 arg3 harg3 arg4 harg4 arg5 harg5 arg6 harg6 arg8 arg9 arg10 x0 x1 x2 x3 x4 x5) (ix2 r' d') = H3 (blockArgs x0 x1 x2 x3 x4 x5) r' d' := fun r' d' => by
    have := r'.isLt
    unfold kernelRun0_A.sl.v388
    rw [Cert.KCanon.readCov_rows _ _ 8 _ r' d' ⟨8 + r'.val, by omega⟩ rfl,
      inv_H10 c arg1 harg1 arg2 harg2 arg3 harg3 arg4 harg4 arg5 harg5 arg6 harg6 arg8 arg9 arg10 x0 x1 x2 x3 x4 x5 ⟨8 + r'.val, by omega⟩ d' (by show 8 ≤ 8 + r'.val; omega),
      padH_lev3 _ _ d' (by show 8 ≤ 8 + r'.val; omega) (by show 8 + r'.val < 16; omega)]
    exact congrArg (fun i => H3 (blockArgs x0 x1 x2 x3 x4 x5) i d') (Fin.ext (by show 8 + r'.val - 8 = r'.val; omega))
  have hC : ∀ r' d', (kernelRun0_A.sl.v389 (F := Ideal) c arg1 harg1 arg2 harg2 arg3 harg3 arg4 harg4 arg5 harg5 arg6 harg6 arg8 arg9 arg10 x0 x1 x2 x3 x4 x5) (ix2 r' d') = C3 (blockArgs x0 x1 x2 x3 x4 x5) r' d' := fun r' d' => by
    have := r'.isLt
    unfold kernelRun0_A.sl.v389
    rw [Cert.KCanon.readCov_rows _ _ 8 _ r' d' ⟨8 + r'.val, by omega⟩ rfl,
      inv_C10 c arg1 harg1 arg2 harg2 arg3 harg3 arg4 harg4 arg5 harg5 arg6 harg6 arg8 arg9 arg10 x0 x1 x2 x3 x4 x5 ⟨8 + r'.val, by omega⟩ d' (by show 8 ≤ 8 + r'.val; omega),
      padC_lev3 _ _ d' (by show 8 ≤ 8 + r'.val; omega) (by show 8 + r'.val < 16; omega)]
    exact congrArg (fun i => C3 (blockArgs x0 x1 x2 x3 x4 x5) i d') (Fin.ext (by show 8 + r'.val - 8 = r'.val; omega))
  have hX : ∀ j g, (kernelRun0_A.sl.v403 (F := Ideal) c arg1 harg1 arg2 harg2 arg10 x0 x1) (ix2 j g) = xrow (blockArgs x0 x1 x2 x3 x4 x5) 3 (by norm_num) j g := fun j g => by
    have := j.isLt
    unfold kernelRun0_A.sl.v403
    rw [Cert.KCanon.readCov_rows _ _ 4 _ j g ⟨4 + j.val, by omega⟩ rfl,
      inv_X c arg1 harg1 arg2 harg2 x0 x1 x2 x3 x4 x5 ⟨4 + j.val, by omega⟩ g (by show 1 ≤ 4 + j.val; omega)]
    unfold xrow
    exact congrArg (fun i => iouX (blockArgs x0 x1 x2 x3 x4 x5) i g) (Fin.ext (by show 4 + j.val - 1 = 3 + j.val; omega))
  have hUf : ∀ k q, View.readAt (Elt Ideal) arg5.view (Rect.unit ![0, 0] S256x256.size inb_S256x256_S256x256_0_0).toLoadRect (harg5.unread x4) (ix2 k q) = (blockArgs x0 x1 x2 x3 x4 x5).Ufw q k :=
    fun k q => congrFun (Cert.KLoads.load_whole arg5 harg5 x4 (by funext a; fin_cases a <;> rfl) _) (ix2 k q)
  have hUi : ∀ k g, View.readAt (Elt Ideal) arg3.view (Rect.unit ![0, 0] S256x384.size inb_S256x384_S256x384_0_0).toLoadRect (harg3.unread x2) (ix2 k g) = (blockArgs x0 x1 x2 x3 x4 x5).Uiou g k :=
    fun k g => congrFun (Cert.KLoads.load_whole arg3 harg3 x2 (by funext a; fin_cases a <;> rfl) _) (ix2 k g)
  have hbi : ∀ g, (kernelRun0_A.sl.r (F := Ideal) c arg4 harg4 x3) (ix1 g) = (blockArgs x0 x1 x2 x3 x4 x5).biou g := fun g => by
    unfold kernelRun0_A.sl.r
    exact congrFun (Cert.KLoads.load_whole arg4 harg4 x3 (by funext a; fin_cases a; rfl) _) (ix1 g)
  have hbf : ∀ q, (kernelRun0_A.sl.r_1 (F := Ideal) c arg6 harg6 x5) (ix1 q) = (blockArgs x0 x1 x2 x3 x4 x5).Ufb q := fun q => by
    unfold kernelRun0_A.sl.r_1
    exact congrFun (Cert.KLoads.load_whole arg6 harg6 x5 (by funext a; fin_cases a; rfl) _) (ix1 q)
  unfold kernelRun0_A.sl.HS0_11
  by_cases hin : r.val < 8
  · refine (Cert.KCanon.canon_rows_hit 4 _ _ _ r d hr hin).trans ?_
    rw [padH_lev2 _ r d hr hin]
    exact Cert.KLev.h2 _ _ _ _ _ _ _ (H3 (blockArgs x0 x1 x2 x3 x4 x5)) (C3 (blockArgs x0 x1 x2 x3 x4 x5)) (xrow (blockArgs x0 x1 x2 x3 x4 x5) 3 (by norm_num)) (blockArgs x0 x1 x2 x3 x4 x5).Uiou (blockArgs x0 x1 x2 x3 x4 x5).biou (blockArgs x0 x1 x2 x3 x4 x5).Ufw (blockArgs x0 x1 x2 x3 x4 x5).Ufb
      hH hC hX hUf hUi hbi hbf ⟨r.val - 4, by omega⟩ d
  · refine (Cert.KCanon.canon_rows_miss 4 _ _ _ r d (Or.inr (by omega))).trans ?_
    exact inv_H10 c arg1 harg1 arg2 harg2 arg3 harg3 arg4 harg4 arg5 harg5 arg6 harg6 arg8 arg9 arg10 x0 x1 x2 x3 x4 x5 r d (by omega)

/-- After level 2 (4 nodes): rows 4 … 8191 of the cell array. -/
theorem inv_C11 (r : Fin 8192) (d : Fin 128) (hr : 4 ≤ r.val) :
    View.canon (kernelRun0_A.sl.HS1_11 (F := Ideal) c arg1 harg1 arg2 harg2 arg3 harg3 arg4 harg4 arg5 harg5 arg6 harg6 arg8 arg9 arg10 x0 x1 x2 x3 x4 x5) (ix2 r d) = padC (blockArgs x0 x1 x2 x3 x4 x5) r d := by
  have hlt := r.isLt
  have hH : ∀ r' d', (kernelRun0_A.sl.v388 (F := Ideal) c arg1 harg1 arg2 harg2 arg3 harg3 arg4 harg4 arg5 harg5 arg6 harg6 arg8 arg9 arg10 x0 x1 x2 x3 x4 x5) (ix2 r' d') = H3 (blockArgs x0 x1 x2 x3 x4 x5) r' d' := fun r' d' => by
    have := r'.isLt
    unfold kernelRun0_A.sl.v388
    rw [Cert.KCanon.readCov_rows _ _ 8 _ r' d' ⟨8 + r'.val, by omega⟩ rfl,
      inv_H10 c arg1 harg1 arg2 harg2 arg3 harg3 arg4 harg4 arg5 harg5 arg6 harg6 arg8 arg9 arg10 x0 x1 x2 x3 x4 x5 ⟨8 + r'.val, by omega⟩ d' (by show 8 ≤ 8 + r'.val; omega),
      padH_lev3 _ _ d' (by show 8 ≤ 8 + r'.val; omega) (by show 8 + r'.val < 16; omega)]
    exact congrArg (fun i => H3 (blockArgs x0 x1 x2 x3 x4 x5) i d') (Fin.ext (by show 8 + r'.val - 8 = r'.val; omega))
  have hC : ∀ r' d', (kernelRun0_A.sl.v389 (F := Ideal) c arg1 harg1 arg2 harg2 arg3 harg3 arg4 harg4 arg5 harg5 arg6 harg6 arg8 arg9 arg10 x0 x1 x2 x3 x4 x5) (ix2 r' d') = C3 (blockArgs x0 x1 x2 x3 x4 x5) r' d' := fun r' d' => by
    have := r'.isLt
    unfold kernelRun0_A.sl.v389
    rw [Cert.KCanon.readCov_rows _ _ 8 _ r' d' ⟨8 + r'.val, by omega⟩ rfl,
      inv_C10 c arg1 harg1 arg2 harg2 arg3 harg3 arg4 harg4 arg5 harg5 arg6 harg6 arg8 arg9 arg10 x0 x1 x2 x3 x4 x5 ⟨8 + r'.val, by omega⟩ d' (by show 8 ≤ 8 + r'.val; omega),
      padC_lev3 _ _ d' (by show 8 ≤ 8 + r'.val; omega) (by show 8 + r'.val < 16; omega)]
    exact congrArg (fun i => C3 (blockArgs x0 x1 x2 x3 x4 x5) i d') (Fin.ext (by show 8 + r'.val - 8 = r'.val; omega))
  have hX : ∀ j g, (kernelRun0_A.sl.v403 (F := Ideal) c arg1 harg1 arg2 harg2 arg10 x0 x1) (ix2 j g) = xrow (blockArgs x0 x1 x2 x3 x4 x5) 3 (by norm_num) j g := fun j g => by
    have := j.isLt
    unfold kernelRun0_A.sl.v403
    rw [Cert.KCanon.readCov_rows _ _ 4 _ j g ⟨4 + j.val, by omega⟩ rfl,
      inv_X c arg1 harg1 arg2 harg2 x0 x1 x2 x3 x4 x5 ⟨4 + j.val, by omega⟩ g (by show 1 ≤ 4 + j.val; omega)]
    unfold xrow
    exact congrArg (fun i => iouX (blockArgs x0 x1 x2 x3 x4 x5) i g) (Fin.ext (by show 4 + j.val - 1 = 3 + j.val; omega))
  have hUf : ∀ k q, View.readAt (Elt Ideal) arg5.view (Rect.unit ![0, 0] S256x256.size inb_S256x256_S256x256_0_0).toLoadRect (harg5.unread x4) (ix2 k q) = (blockArgs x0 x1 x2 x3 x4 x5).Ufw q k :=
    fun k q => congrFun (Cert.KLoads.load_whole arg5 harg5 x4 (by funext a; fin_cases a <;> rfl) _) (ix2 k q)
  have hUi : ∀ k g, View.readAt (Elt Ideal) arg3.view (Rect.unit ![0, 0] S256x384.size inb_S256x384_S256x384_0_0).toLoadRect (harg3.unread x2) (ix2 k g) = (blockArgs x0 x1 x2 x3 x4 x5).Uiou g k :=
    fun k g => congrFun (Cert.KLoads.load_whole arg3 harg3 x2 (by funext a; fin_cases a <;> rfl) _) (ix2 k g)
  have hbi : ∀ g, (kernelRun0_A.sl.r (F := Ideal) c arg4 harg4 x3) (ix1 g) = (blockArgs x0 x1 x2 x3 x4 x5).biou g := fun g => by
    unfold kernelRun0_A.sl.r
    exact congrFun (Cert.KLoads.load_whole arg4 harg4 x3 (by funext a; fin_cases a; rfl) _) (ix1 g)
  have hbf : ∀ q, (kernelRun0_A.sl.r_1 (F := Ideal) c arg6 harg6 x5) (ix1 q) = (blockArgs x0 x1 x2 x3 x4 x5).Ufb q := fun q => by
    unfold kernelRun0_A.sl.r_1
    exact congrFun (Cert.KLoads.load_whole arg6 harg6 x5 (by funext a; fin_cases a; rfl) _) (ix1 q)
  unfold kernelRun0_A.sl.HS1_11
  by_cases hin : r.val < 8
  · refine (Cert.KCanon.canon_rows_hit 4 _ _ _ r d hr hin).trans ?_
    rw [padC_lev2 _ r d hr hin]
    exact Cert.KLev.c2 _ _ _ _ _ _ _ (H3 (blockArgs x0 x1 x2 x3 x4 x5)) (C3 (blockArgs x0 x1 x2 x3 x4 x5)) (xrow (blockArgs x0 x1 x2 x3 x4 x5) 3 (by norm_num)) (blockArgs x0 x1 x2 x3 x4 x5).Uiou (blockArgs x0 x1 x2 x3 x4 x5).biou (blockArgs x0 x1 x2 x3 x4 x5).Ufw (blockArgs x0 x1 x2 x3 x4 x5).Ufb
      hH hC hX hUf hUi hbi hbf ⟨r.val - 4, by omega⟩ d
  · refine (Cert.KCanon.canon_rows_miss 4 _ _ _ r d (Or.inr (by omega))).trans ?_
    exact inv_C10 c arg1 harg1 arg2 harg2 arg3 harg3 arg4 harg4 arg5 harg5 arg6 harg6 arg8 arg9 arg10 x0 x1 x2 x3 x4 x5 r d (by omega)

/-- After level 1 (2 nodes): rows 2 … 8191 of the hidden array. -/
theorem inv_H12 (r : Fin 8192) (d : Fin 128) (hr : 2 ≤ r.val) :
    View.canon (kernelRun0_A.sl.HS0_12 (F := Ideal) c arg1 harg1 arg2 harg2 arg3 harg3 arg4 harg4 arg5 harg5 arg6 harg6 arg8 arg9 arg10 x0 x1 x2 x3 x4 x5) (ix2 r d) = padH (blockArgs x0 x1 x2 x3 x4 x5) r d := by
  have hlt := r.isLt
  have hH : ∀ r' d', (kernelRun0_A.sl.v427 (F := Ideal) c arg1 harg1 arg2 harg2 arg3 harg3 arg4 harg4 arg5 harg5 arg6 harg6 arg8 arg9 arg10 x0 x1 x2 x3 x4 x5) (ix2 r' d') = H2 (blockArgs x0 x1 x2 x3 x4 x5) r' d' := fun r' d' => by
    have := r'.isLt
    unfold kernelRun0_A.sl.v427
    rw [Cert.KCanon.readCov_rows _ _ 4 _ r' d' ⟨4 + r'.val, by omega⟩ rfl,
      inv_H11 c arg1 harg1 arg2 harg2 arg3 harg3 arg4 harg4 arg5 harg5 arg6 harg6 arg8 arg9 arg10 x0 x1 x2 x3 x4 x5 ⟨4 + r'.val, by omega⟩ d' (by show 4 ≤ 4 + r'.val; omega),
      padH_lev2 _ _ d' (by show 4 ≤ 4 + r'.val; omega) (by show 4 + r'.val < 8; omega)]
    exact congrArg (fun i => H2 (blockArgs x0 x1 x2 x3 x4 x5) i d') (Fin.ext (by show 4 + r'.val - 4 = r'.val; omega))
  have hC : ∀ r' d', (kernelRun0_A.sl.v428 (F := Ideal) c arg1 harg1 arg2 harg2 arg3 harg3 arg4 harg4 arg5 harg5 arg6 harg6 arg8 arg9 arg10 x0 x1 x2 x3 x4 x5) (ix2 r' d') = C2 (blockArgs x0 x1 x2 x3 x4 x5) r' d' := fun r' d' => by
    have := r'.isLt
    unfold kernelRun0_A.sl.v428
    rw [Cert.KCanon.readCov_rows _ _ 4 _ r' d' ⟨4 + r'.val, by omega⟩ rfl,
      inv_C11 c arg1 harg1 arg2 harg2 arg3 harg3 arg4 harg4 arg5 harg5 arg6 harg6 arg8 arg9 arg10 x0 x1 x2 x3 x4 x5 ⟨4 + r'.val, by omega⟩ d' (by show 4 ≤ 4 + r'.val; omega),
      padC_lev2 _ _ d' (by show 4 ≤ 4 + r'.val; omega) (by show 4 + r'.val < 8; omega)]
    exact congrArg (fun i => C2 (blockArgs x0 x1 x2 x3 x4 x5) i d') (Fin.ext (by show 4 + r'.val - 4 = r'.val; omega))
  have hX : ∀ j g, (kernelRun0_A.sl.v442 (F := Ideal) c arg1 harg1 arg2 harg2 arg10 x0 x1) (ix2 j g) = xrow (blockArgs x0 x1 x2 x3 x4 x5) 1 (by norm_num) j g := fun j g => by
    have := j.isLt
    unfold kernelRun0_A.sl.v442
    rw [Cert.KCanon.readCov_rows _ _ 2 _ j g ⟨2 + j.val, by omega⟩ rfl,
      inv_X c arg1 harg1 arg2 harg2 x0 x1 x2 x3 x4 x5 ⟨2 + j.val, by omega⟩ g (by show 1 ≤ 2 + j.val; omega)]
    unfold xrow
    exact congrArg (fun i => iouX (blockArgs x0 x1 x2 x3 x4 x5) i g) (Fin.ext (by show 2 + j.val - 1 = 1 + j.val; omega))
  have hUf : ∀ k q, View.readAt (Elt Ideal) arg5.view (Rect.unit ![0, 0] S256x256.size inb_S256x256_S256x256_0_0).toLoadRect (harg5.unread x4) (ix2 k q) = (blockArgs x0 x1 x2 x3 x4 x5).Ufw q k :=
    fun k q => congrFun (Cert.KLoads.load_whole arg5 harg5 x4 (by funext a; fin_cases a <;> rfl) _) (ix2 k q)
  have hUi : ∀ k g, View.readAt (Elt Ideal) arg3.view (Rect.unit ![0, 0] S256x384.size inb_S256x384_S256x384_0_0).toLoadRect (harg3.unread x2) (ix2 k g) = (blockArgs x0 x1 x2 x3 x4 x5).Uiou g k :=
    fun k g => congrFun (Cert.KLoads.load_whole arg3 harg3 x2 (by funext a; fin_cases a <;> rfl) _) (ix2 k g)
  have hbi : ∀ g, (kernelRun0_A.sl.r (F := Ideal) c arg4 harg4 x3) (ix1 g) = (blockArgs x0 x1 x2 x3 x4 x5).biou g := fun g => by
    unfold kernelRun0_A.sl.r
    exact congrFun (Cert.KLoads.load_whole arg4 harg4 x3 (by funext a; fin_cases a; rfl) _) (ix1 g)
  have hbf : ∀ q, (kernelRun0_A.sl.r_1 (F := Ideal) c arg6 harg6 x5) (ix1 q) = (blockArgs x0 x1 x2 x3 x4 x5).Ufb q := fun q => by
    unfold kernelRun0_A.sl.r_1
    exact congrFun (Cert.KLoads.load_whole arg6 harg6 x5 (by funext a; fin_cases a; rfl) _) (ix1 q)
  unfold kernelRun0_A.sl.HS0_12
  by_cases hin : r.val < 4
  · refine (Cert.KCanon.canon_rows_hit 2 _ _ _ r d hr hin).trans ?_
    rw [padH_lev1 _ r d hr hin]
    exact Cert.KLev.h1 _ _ _ _ _ _ _ (H2 (blockArgs x0 x1 x2 x3 x4 x5)) (C2 (blockArgs x0 x1 x2 x3 x4 x5)) (xrow (blockArgs x0 x1 x2 x3 x4 x5) 1 (by norm_num)) (blockArgs x0 x1 x2 x3 x4 x5).Uiou (blockArgs x0 x1 x2 x3 x4 x5).biou (blockArgs x0 x1 x2 x3 x4 x5).Ufw (blockArgs x0 x1 x2 x3 x4 x5).Ufb
      hH hC hX hUf hUi hbi hbf ⟨r.val - 2, by omega⟩ d
  · refine (Cert.KCanon.canon_rows_miss 2 _ _ _ r d (Or.inr (by omega))).trans ?_
    exact inv_H11 c arg1 harg1 arg2 harg2 arg3 harg3 arg4 harg4 arg5 harg5 arg6 harg6 arg8 arg9 arg10 x0 x1 x2 x3 x4 x5 r d (by omega)

/-- After level 1 (2 nodes): rows 2 … 8191 of the cell array. -/
theorem inv_C12 (r : Fin 8192) (d : Fin 128) (hr : 2 ≤ r.val) :
    View.canon (kernelRun0_A.sl.HS1_12 (F := Ideal) c arg1 harg1 arg2 harg2 arg3 harg3 arg4 harg4 arg5 harg5 arg6 harg6 arg8 arg9 arg10 x0 x1 x2 x3 x4 x5) (ix2 r d) = padC (blockArgs x0 x1 x2 x3 x4 x5) r d := by
  have hlt := r.isLt
  have hH : ∀ r' d', (kernelRun0_A.sl.v427 (F := Ideal) c arg1 harg1 arg2 harg2 arg3 harg3 arg4 harg4 arg5 harg5 arg6 harg6 arg8 arg9 arg10 x0 x1 x2 x3 x4 x5) (ix2 r' d') = H2 (blockArgs x0 x1 x2 x3 x4 x5) r' d' := fun r' d' => by
    have := r'.isLt
    unfold kernelRun0_A.sl.v427
    rw [Cert.KCanon.readCov_rows _ _ 4 _ r' d' ⟨4 + r'.val, by omega⟩ rfl,
      inv_H11 c arg1 harg1 arg2 harg2 arg3 harg3 arg4 harg4 arg5 harg5 arg6 harg6 arg8 arg9 arg10 x0 x1 x2 x3 x4 x5 ⟨4 + r'.val, by omega⟩ d' (by show 4 ≤ 4 + r'.val; omega),
      padH_lev2 _ _ d' (by show 4 ≤ 4 + r'.val; omega) (by show 4 + r'.val < 8; omega)]
    exact congrArg (fun i => H2 (blockArgs x0 x1 x2 x3 x4 x5) i d') (Fin.ext (by show 4 + r'.val - 4 = r'.val; omega))
  have hC : ∀ r' d', (kernelRun0_A.sl.v428 (F := Ideal) c arg1 harg1 arg2 harg2 arg3 harg3 arg4 harg4 arg5 harg5 arg6 harg6 arg8 arg9 arg10 x0 x1 x2 x3 x4 x5) (ix2 r' d') = C2 (blockArgs x0 x1 x2 x3 x4 x5) r' d' := fun r' d' => by
    have := r'.isLt
    unfold kernelRun0_A.sl.v428
    rw [Cert.KCanon.readCov_rows _ _ 4 _ r' d' ⟨4 + r'.val, by omega⟩ rfl,
      inv_C11 c arg1 harg1 arg2 harg2 arg3 harg3 arg4 harg4 arg5 harg5 arg6 harg6 arg8 arg9 arg10 x0 x1 x2 x3 x4 x5 ⟨4 + r'.val, by omega⟩ d' (by show 4 ≤ 4 + r'.val; omega),
      padC_lev2 _ _ d' (by show 4 ≤ 4 + r'.val; omega) (by show 4 + r'.val < 8; omega)]
    exact congrArg (fun i => C2 (blockArgs x0 x1 x2 x3 x4 x5) i d') (Fin.ext (by show 4 + r'.val - 4 = r'.val; omega))
  have hX : ∀ j g, (kernelRun0_A.sl.v442 (F := Ideal) c arg1 harg1 arg2 harg2 arg10 x0 x1) (ix2 j g) = xrow (blockArgs x0 x1 x2 x3 x4 x5) 1 (by norm_num) j g := fun j g => by
    have := j.isLt
    unfold kernelRun0_A.sl.v442
    rw [Cert.KCanon.readCov_rows _ _ 2 _ j g ⟨2 + j.val, by omega⟩ rfl,
      inv_X c arg1 harg1 arg2 harg2 x0 x1 x2 x3 x4 x5 ⟨2 + j.val, by omega⟩ g (by show 1 ≤ 2 + j.val; omega)]
    unfold xrow
    exact congrArg (fun i => iouX (blockArgs x0 x1 x2 x3 x4 x5) i g) (Fin.ext (by show 2 + j.val - 1 = 1 + j.val; omega))
  have hUf : ∀ k q, View.readAt (Elt Ideal) arg5.view (Rect.unit ![0, 0] S256x256.size inb_S256x256_S256x256_0_0).toLoadRect (harg5.unread x4) (ix2 k q) = (blockArgs x0 x1 x2 x3 x4 x5).Ufw q k :=
    fun k q => congrFun (Cert.KLoads.load_whole arg5 harg5 x4 (by funext a; fin_cases a <;> rfl) _) (ix2 k q)
  have hUi : ∀ k g, View.readAt (Elt Ideal) arg3.view (Rect.unit ![0, 0] S256x384.size inb_S256x384_S256x384_0_0).toLoadRect (harg3.unread x2) (ix2 k g) = (blockArgs x0 x1 x2 x3 x4 x5).Uiou g k :=
    fun k g => congrFun (Cert.KLoads.load_whole arg3 harg3 x2 (by funext a; fin_cases a <;> rfl) _) (ix2 k g)
  have hbi : ∀ g, (kernelRun0_A.sl.r (F := Ideal) c arg4 harg4 x3) (ix1 g) = (blockArgs x0 x1 x2 x3 x4 x5).biou g := fun g => by
    unfold kernelRun0_A.sl.r
    exact congrFun (Cert.KLoads.load_whole arg4 harg4 x3 (by funext a; fin_cases a; rfl) _) (ix1 g)
  have hbf : ∀ q, (kernelRun0_A.sl.r_1 (F := Ideal) c arg6 harg6 x5) (ix1 q) = (blockArgs x0 x1 x2 x3 x4 x5).Ufb q := fun q => by
    unfold kernelRun0_A.sl.r_1
    exact congrFun (Cert.KLoads.load_whole arg6 harg6 x5 (by funext a; fin_cases a; rfl) _) (ix1 q)
  unfold kernelRun0_A.sl.HS1_12
  by_cases hin : r.val < 4
  · refine (Cert.KCanon.canon_rows_hit 2 _ _ _ r d hr hin).trans ?_
    rw [padC_lev1 _ r d hr hin]
    exact Cert.KLev.c1 _ _ _ _ _ _ _ (H2 (blockArgs x0 x1 x2 x3 x4 x5)) (C2 (blockArgs x0 x1 x2 x3 x4 x5)) (xrow (blockArgs x0 x1 x2 x3 x4 x5) 1 (by norm_num)) (blockArgs x0 x1 x2 x3 x4 x5).Uiou (blockArgs x0 x1 x2 x3 x4 x5).biou (blockArgs x0 x1 x2 x3 x4 x5).Ufw (blockArgs x0 x1 x2 x3 x4 x5).Ufb
      hH hC hX hUf hUi hbi hbf ⟨r.val - 2, by omega⟩ d
  · refine (Cert.KCanon.canon_rows_miss 2 _ _ _ r d (Or.inr (by omega))).trans ?_
    exact inv_C11 c arg1 harg1 arg2 harg2 arg3 harg3 arg4 harg4 arg5 harg5 arg6 harg6 arg8 arg9 arg10 x0 x1 x2 x3 x4 x5 r d (by omega)

/-- After level 0 (1 node): rows 1 … 8191 of the hidden array. -/
theorem inv_H13 (r : Fin 8192) (d : Fin 128) (hr : 1 ≤ r.val) :
    View.canon (kernelRun0_A.sl.HS0_13 (F := Ideal) c arg1 harg1 arg2 harg2 arg3 harg3 arg4 harg4 arg5 harg5 arg6 harg6 arg8 arg9 arg10 x0 x1 x2 x3 x4 x5) (ix2 r d) = padH (blockArgs x0 x1 x2 x3 x4 x5) r d := by
  have hlt := r.isLt
  have hH : ∀ r' d', (kernelRun0_A.sl.v466 (F := Ideal) c arg1 harg1 arg2 harg2 arg3 harg3 arg4 harg4 arg5 harg5 arg6 harg6 arg8 arg9 arg10 x0 x1 x2 x3 x4 x5) (ix2 r' d') = H1 (blockArgs x0 x1 x2 x3 x4 x5) r' d' := fun r' d' => by
    have := r'.isLt
    unfold kernelRun0_A.sl.v466
    rw [Cert.KCanon.readCov_rows _ _ 2 _ r' d' ⟨2 + r'.val, by omega⟩ rfl,
      inv_H12 c arg1 harg1 arg2 harg2 arg3 harg3 arg4 harg4 arg5 harg5 arg6 harg6 arg8 arg9 arg10 x0 x1 x2 x3 x4 x5 ⟨2 + r'.val, by omega⟩ d' (by show 2 ≤ 2 + r'.val; omega),
      padH_lev1 _ _ d' (by show 2 ≤ 2 + r'.val; omega) (by show 2 + r'.val < 4; omega)]
    exact congrArg (fun i => H1 (blockArgs x0 x1 x2 x3 x4 x5) i d') (Fin.ext (by show 2 + r'.val - 2 = r'.val; omega))
  have hC : ∀ r' d', (kernelRun0_A.sl.v467 (F := Ideal) c arg1 harg1 arg2 harg2 arg3 harg3 arg4 harg4 arg5 harg5 arg6 harg6 arg8 arg9 arg10 x0 x1 x2 x3 x4 x5) (ix2 r' d') = C1 (blockArgs x0 x1 x2 x3 x4 x5) r' d' := fun r' d' => by
    have := r'.isLt
    unfold kernelRun0_A.sl.v467
    rw [Cert.KCanon.readCov_rows _ _ 2 _ r' d' ⟨2 + r'.val, by omega⟩ rfl,
      inv_C12 c arg1 harg1 arg2 harg2 arg3 harg3 arg4 harg4 arg5 harg5 arg6 harg6 arg8 arg9 arg10 x0 x1 x2 x3 x4 x5 ⟨2 + r'.val, by omega⟩ d' (by show 2 ≤ 2 + r'.val; omega),
      padC_lev1 _ _ d' (by show 2 ≤ 2 + r'.val; omega) (by show 2 + r'.val < 4; omega)]
    exact congrArg (fun i => C1 (blockArgs x0 x1 x2 x3 x4 x5) i d') (Fin.ext (by show 2 + r'.val - 2 = r'.val; omega))
  have hX : ∀ j g, (kernelRun0_A.sl.v480 (F := Ideal) c arg1 harg1 arg2 harg2 arg10 x0 x1) (ix2 j g) = xrow (blockArgs x0 x1 x2 x3 x4 x5) 0 (by norm_num) j g := fun j g => by
    have := j.isLt
    unfold kernelRun0_A.sl.v480
    rw [Cert.KCanon.readCov_rows _ _ 1 _ j g ⟨1 + j.val, by omega⟩ rfl,
      inv_X c arg1 harg1 arg2 harg2 x0 x1 x2 x3 x4 x5 ⟨1 + j.val, by omega⟩ g (by show 1 ≤ 1 + j.val; omega)]
    unfold xrow
    exact congrArg (fun i => iouX (blockArgs x0 x1 x2 x3 x4 x5) i g) (Fin.ext (by show 1 + j.val - 1 = 0 + j.val; omega))
  have hUf : ∀ k q, View.readAt (Elt Ideal) arg5.view (Rect.unit ![0, 0] S256x256.size inb_S256x256_S256x256_0_0).toLoadRect (harg5.unread x4) (ix2 k q) = (blockArgs x0 x1 x2 x3 x4 x5).Ufw q k :=
    fun k q => congrFun (Cert.KLoads.load_whole arg5 harg5 x4 (by funext a; fin_cases a <;> rfl) _) (ix2 k q)
  have hUi : ∀ k g, View.readAt (Elt Ideal) arg3.view (Rect.unit ![0, 0] S256x384.size inb_S256x384_S256x384_0_0).toLoadRect (harg3.unread x2) (ix2 k g) = (blockArgs x0 x1 x2 x3 x4 x5).Uiou g k :=
    fun k g => congrFun (Cert.KLoads.load_whole arg3 harg3 x2 (by funext a; fin_cases a <;> rfl) _) (ix2 k g)
  have hbi : ∀ g, (kernelRun0_A.sl.r (F := Ideal) c arg4 harg4 x3) (ix1 g) = (blockArgs x0 x1 x2 x3 x4 x5).biou g := fun g => by
    unfold kernelRun0_A.sl.r
    exact congrFun (Cert.KLoads.load_whole arg4 harg4 x3 (by funext a; fin_cases a; rfl) _) (ix1 g)
  have hbf : ∀ q, (kernelRun0_A.sl.r_1 (F := Ideal) c arg6 harg6 x5) (ix1 q) = (blockArgs x0 x1 x2 x3 x4 x5).Ufb q := fun q => by
    unfold kernelRun0_A.sl.r_1
    exact congrFun (Cert.KLoads.load_whole arg6 harg6 x5 (by funext a; fin_cases a; rfl) _) (ix1 q)
  unfold kernelRun0_A.sl.HS0_13
  by_cases hin : r.val < 2
  · refine (Cert.KCanon.canon_rows_hit 1 _ _ _ r d hr hin).trans ?_
    rw [padH_lev0 _ r d hr hin]
    exact Cert.KLev.h0 _ _ _ _ _ _ _ (H1 (blockArgs x0 x1 x2 x3 x4 x5)) (C1 (blockArgs x0 x1 x2 x3 x4 x5)) (xrow (blockArgs x0 x1 x2 x3 x4 x5) 0 (by norm_num)) (blockArgs x0 x1 x2 x3 x4 x5).Uiou (blockArgs x0 x1 x2 x3 x4 x5).biou (blockArgs x0 x1 x2 x3 x4 x5).Ufw (blockArgs x0 x1 x2 x3 x4 x5).Ufb
      hH hC hX hUf hUi hbi hbf ⟨r.val - 1, by omega⟩ d
  · refine (Cert.KCanon.canon_rows_miss 1 _ _ _ r d (Or.inr (by omega))).trans ?_
    exact inv_H12 c arg1 harg1 arg2 harg2 arg3 harg3 arg4 harg4 arg5 harg5 arg6 harg6 arg8 arg9 arg10 x0 x1 x2 x3 x4 x5 r d (by omega)

end Cert.KInv

end
-- ==== Proof.KBlock.lean ====
/-
  The output block a grid point leaves, read at an entry.

  After the root has been stored the body copies rows 1 … 8191 of the padded hidden array — the heap order — into both
  stacks of the output block. So entry (s, 0, node, d) of the block is the hidden state of `node` in the tree the point's
  blocks describe, for either stack s.
-/
import proofs.«149831_j26912265077353_2_alg».proof.Proof.KInv

set_option maxRecDepth 16384

noncomputable section

namespace Cert.KBlock

open Idealize.ShloMosaic Idealize.ShloMosaic.ValueIdx Cert.TreeSpec Cert.KernelIdeal Cert.KernelIdeal.Gen Cert.KInv

variable (c : Dev nD) (i : grid0.Coords) (arg1 : Memref sig .tc .vmem S1x8191x128 .f32) (harg1 : arg1.IsWhole) (arg2 : Memref sig .tc .vmem S128x384 .bf16) (harg2 : arg2.IsWhole) (arg3 : Memref sig .tc .vmem S256x384 .bf16) (harg3 : arg3.IsWhole) (arg4 : Memref sig .tc .vmem S384 .f32) (harg4 : arg4.IsWhole) (arg5 : Memref sig .tc .vmem S256x256 .bf16) (harg5 : arg5.IsWhole) (arg6 : Memref sig .tc .vmem S256 .f32) (harg6 : arg6.IsWhole) (arg7 : Memref sig .tc .vmem S2x1x8191x128 .f32) (harg7 : arg7.IsWhole) (arg8 : Memref sig .tc .vmem S8192x128 .f32) (harg8 : arg8.IsWhole) (arg9 : Memref sig .tc .vmem S8192x128 .f32) (harg9 : arg9.IsWhole) (arg10 : Memref sig .tc .vmem S4096x384 .f32) (harg10 : arg10.IsWhole)
    (x0 : Vec Ideal S1x8191x128 .f32) (x1 : Vec Ideal S128x384 .bf16) (x2 : Vec Ideal S256x384 .bf16) (x3 : Vec Ideal S384 .f32) (x4 : Vec Ideal S256x256 .bf16) (x5 : Vec Ideal S256 .f32)

/-- The rows copied out: row `node` of the load of rows 1 … 8191 is the heap's node. -/
theorem readback (node : Fin 8191) (d : Fin 128) :
    (kernelRun0_A.sl.v503 (F := Ideal) c arg1 harg1 arg2 harg2 arg3 harg3 arg4 harg4 arg5 harg5 arg6 harg6 arg8 arg9 arg10 x0 x1 x2 x3 x4 x5) (ix2 node d) = heapH (blockArgs x0 x1 x2 x3 x4 x5) node d := by
  have hn := node.isLt
  unfold kernelRun0_A.sl.v503
  rw [Cert.KCanon.readCov_rows _ _ 1 _ node d ⟨node.val + 1, by omega⟩ (by show node.val + 1 = 1 + node.val; omega),
    inv_H13 c arg1 harg1 arg2 harg2 arg3 harg3 arg4 harg4 arg5 harg5 arg6 harg6 arg8 arg9 arg10 x0 x1 x2 x3 x4 x5 ⟨node.val + 1, by omega⟩ d (by show 1 ≤ node.val + 1; omega)]
  exact padH_succ _ node d

/-- Both stacks of the output block hold the heap order of hidden states. -/
theorem out_block (s : Fin 2) (node : Fin 8191) (d : Fin 128) :
    out0_A_6 (F := Ideal) c i arg1 harg1 arg2 harg2 arg3 harg3 arg4 harg4 arg5 harg5 arg6 harg6 arg7 harg7 arg8 harg8 arg9 harg9 arg10 harg10 x0 x1 x2 x3 x4 x5
        (ix4 s (0 : Fin 1) node d)
      = heapH (blockArgs x0 x1 x2 x3 x4 x5) node d := by
  unfold out0_A_6
  rw [View.read_writes_junk_eq_canon]
  unfold kernelRun0_A
  dsimp only
  by_cases hs : s.val = 1
  · refine (Cert.KCanon.canon_stack_hit 1 _ _ _ s node d hs).trans ?_
    unfold k0_pay1
    rw [Cert.KCanon.shapeCast_ab_11ab_apply]
    exact readback c arg1 harg1 arg2 harg2 arg3 harg3 arg4 harg4 arg5 harg5 arg6 harg6 arg8 arg9 arg10 x0 x1 x2 x3 x4 x5 node d
  · refine (Cert.KCanon.canon_stack_miss 1 _ _ _ s node d hs).trans ?_
    refine (Cert.KCanon.canon_stack_hit 0 _ _ _ s node d (by have := s.isLt; omega)).trans ?_
    unfold k0_pay73
    rw [Cert.KCanon.shapeCast_ab_11ab_apply]
    exact readback c arg1 harg1 arg2 harg2 arg3 harg3 arg4 harg4 arg5 harg5 arg6 harg6 arg8 arg9 arg10 x0 x1 x2 x3 x4 x5 node d

end Cert.KBlock

end
-- ==== Proof.KValue.lean ====
/-
  From the output blocks to the whole result array.

  Grid point t works on tree t: its block of x is rows (t, ·, ·) of the argument, its weight blocks are the whole
  transposed weights the host computed before the region, its bias blocks the whole bias vectors; and what it writes back
  is rows (·, t, ·, ·) of the result. The 32 points' blocks tile the result, so the array after the run is the
  specification's function `G` of the six arguments as launched.
-/
import proofs.«149831_j26912265077353_2_alg».proof.Proof.Gen.KernelIdeal.Value
import proofs.«149831_j26912265077353_2_alg».proof.Proof.KBlock
import Idealize.ShloMosaic.Lib.StableHlo.Run
import Idealize.ShloMosaic.Lib.ValueLayout

set_option maxRecDepth 16384

noncomputable section

namespace Cert.KValue

open Idealize.ShloMosaic Idealize.ShloMosaic.TcCoe Idealize.ShloMosaic.ValueIdx Idealize.SL.Sem Idealize.ShloMosaic.StableHlo
open Cert.TreeSpec Cert.KernelIdeal Cert.KernelIdeal.Gen Cert.KernelIdeal.Value Cert.KInv
open Idealize.ShloMosaic.Pipeline (Dat)

variable (m : (ℓ : Loc nD τ sig) → Buf (Elt Ideal) ℓ) (ρ : Dev nD → PrngReg)

/-- The result array as the specification's function of the six arguments as launched on core c. -/
def Gm (c : Dev nD) : S2x32x8191x128.Idx → EReal :=
  TreeSpec.G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The printed index maps over the grid: point t takes block t of x and of the result along the batch axis, block 0 of
    everything else. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 4) = 0 ∧ win0_6.index t (1 : Fin 4) = t.val ∧ win0_6.index t (2 : Fin 4) = 0 ∧ win0_6.index t (3 : Fin 4) = 0 :=
  (by decide +kernel : ∀ t : Fin grid0.N, _)

/-- The transposed W_iou the host wrote before the region. -/
theorem V_v1_apply (c : Dev nD) (k : Fin 128) (g : Fin 384) :
    V m c main_v1 (ix2 k g) = m ((c : Thread nD τ).loc main_arg1) (ix2 g k) := by
  have e : @Eq (FVec Ideal S128x384 .bf16) (V m c main_v1)
      (truncf (F := Ideal) .bf16 (transpose S128x384 [1, 0] (m ((c : Thread nD τ).loc main_arg1)) Facts₀.transposes_S384x128_S128x384_1_0) Facts₀.bitsLt_bf16_f32) := by
    dsimp only [Gen.V, Gen.hostOps0]; after_results
  rw [e, truncf_apply, transpose_ix2_apply]

/-- The transposed U_iou the host wrote before the region. -/
theorem V_v3_apply (c : Dev nD) (k : Fin 256) (g : Fin 384) :
    V m c main_v3 (ix2 k g) = m ((c : Thread nD τ).loc main_arg2) (ix2 g k) := by
  have e : @Eq (FVec Ideal S256x384 .bf16) (V m c main_v3)
      (truncf (F := Ideal) .bf16 (transpose S256x384 [1, 0] (m ((c : Thread nD τ).loc main_arg2)) Facts₀.transposes_S384x256_S256x384_1_0) Facts₀.bitsLt_bf16_f32) := by
    dsimp only [Gen.V, Gen.hostOps0]; after_results
  rw [e, truncf_apply, transpose_ix2_apply]

/-- The transposed U_f the host wrote before the region. -/
theorem V_v5_apply (c : Dev nD) (k : Fin 256) (q : Fin 256) :
    V m c main_v5 (ix2 k q) = m ((c : Thread nD τ).loc main_arg4) (ix2 q k) := by
  have e : @Eq (FVec Ideal S256x256 .bf16) (V m c main_v5)
      (truncf (F := Ideal) .bf16 (transpose S256x256 [1, 0] (m ((c : Thread nD τ).loc main_arg4)) Facts₀.transposes_S256x256_S256x256_1_0) Facts₀.bitsLt_bf16_f32) := by
    dsimp only [Gen.V, Gen.hostOps0]; after_results
  rw [e, truncf_apply, transpose_ix2_apply]

/-- Point t's block of x: tree t's rows. -/
theorem blk0 (c : Dev nD) (t : Fin cfg0.N) (n : Fin 8191) (k : Fin 128) :
    iblk m c 0 t (ix3 (0 : Fin 1) n k) = m ((c : Thread nD τ).loc main_arg0) (ix3 (⟨t.val, t.isLt⟩ : Fin 32) n k) := by
  obtain ⟨e0, e1, e2, -⟩ := idx_facts t
  show V m c main_arg0 (((cfg0.win 0).blk t).view.emb (ix3 (0 : Fin 1) n k)) = _
  rw [V_main_arg0]
  refine congrArg (m ((c : Thread nD τ).loc main_arg0)) ?_
  funext a; apply Fin.ext
  match a with
  | ⟨0, _⟩ => show win0_0.index t (0 : Fin 3) * 1 + 1 * 0 = t.val; omega
  | ⟨1, _⟩ => show win0_0.index t (1 : Fin 3) * 8191 + 1 * n.val = n.val; omega
  | ⟨2, _⟩ => show win0_0.index t (2 : Fin 3) * 128 + 1 * k.val = k.val; omega

/-- The weight and bias blocks are the whole arrays. -/
theorem blk1 (c : Dev nD) (t : Fin cfg0.N) (k : Fin 128) (g : Fin 384) :
    iblk m c 1 t (ix2 k g) = m ((c : Thread nD τ).loc main_arg1) (ix2 g k) := by
  obtain ⟨-, -, -, e0, e1, -⟩ := idx_facts t
  show V m c main_v1 (((cfg0.win 1).blk t).view.emb (ix2 k g)) = _
  rw [← V_v1_apply m c k g]
  refine congrArg (V m c main_v1) ?_
  funext a; apply Fin.ext
  match a with
  | ⟨0, _⟩ => show win0_1.index t (0 : Fin 2) * 128 + 1 * k.val = k.val; omega
  | ⟨1, _⟩ => show win0_1.index t (1 : Fin 2) * 384 + 1 * g.val = g.val; omega

theorem blk2 (c : Dev nD) (t : Fin cfg0.N) (k : Fin 256) (g : Fin 384) :
    iblk m c 2 t (ix2 k g) = m ((c : Thread nD τ).loc main_arg2) (ix2 g k) := by
  obtain ⟨-, -, -, -, -, e0, e1, -⟩ := idx_facts t
  show V m c main_v3 (((cfg0.win 2).blk t).view.emb (ix2 k g)) = _
  rw [← V_v3_apply m c k g]
  refine congrArg (V m c main_v3) ?_
  funext a; apply Fin.ext
  match a with
  | ⟨0, _⟩ => show win0_2.index t (0 : Fin 2) * 256 + 1 * k.val = k.val; omega
  | ⟨1, _⟩ => show win0_2.index t (1 : Fin 2) * 384 + 1 * g.val = g.val; omega

theorem blk3 (c : Dev nD) (t : Fin cfg0.N) (g : Fin 384) :
    iblk m c 3 t (ix1 g) = m ((c : Thread nD τ).loc main_arg3) (ix1 g) := by
  obtain ⟨-, -, -, -, -, -, -, e0, -⟩ := idx_facts t
  show V m c main_arg3 (((cfg0.win 3).blk t).view.emb (ix1 g)) = _
  rw [V_main_arg3]
  refine congrArg (m ((c : Thread nD τ).loc main_arg3)) ?_
  funext a; apply Fin.ext
  match a with
  | ⟨0, _⟩ => show win0_3.index t (0 : Fin 1) * 384 + 1 * g.val = g.val; omega

theorem blk4 (c : Dev nD) (t : Fin cfg0.N) (k : Fin 256) (q : Fin 256) :
    iblk m c 4 t (ix2 k q) = m ((c : Thread nD τ).loc main_arg4) (ix2 q k) := by
  obtain ⟨-, -, -, -, -, -, -, -, e0, e1, -⟩ := idx_facts t
  show V m c main_v5 (((cfg0.win 4).blk t).view.emb (ix2 k q)) = _
  rw [← V_v5_apply m c k q]
  refine congrArg (V m c main_v5) ?_
  funext a; apply Fin.ext
  match a with
  | ⟨0, _⟩ => show win0_4.index t (0 : Fin 2) * 256 + 1 * k.val = k.val; omega
  | ⟨1, _⟩ => show win0_4.index t (1 : Fin 2) * 256 + 1 * q.val = q.val; omega

theorem blk5 (c : Dev nD) (t : Fin cfg0.N) (q : Fin 256) :
    iblk m c 5 t (ix1 q) = m ((c : Thread nD τ).loc main_arg5) (ix1 q) := by
  obtain ⟨-, -, -, -, -, -, -, -, -, -, e0, -⟩ := idx_facts t
  show V m c main_arg5 (((cfg0.win 5).blk t).view.emb (ix1 q)) = _
  rw [V_main_arg5]
  refine congrArg (m ((c : Thread nD τ).loc main_arg5)) ?_
  funext a; apply Fin.ext
  match a with
  | ⟨0, _⟩ => show win0_5.index t (0 : Fin 1) * 256 + 1 * q.val = q.val; omega

/-- Point t's blocks describe tree t of the batch. -/
theorem blockArgs_eq (c : Dev nD) (t : Fin cfg0.N) :
    blockArgs (iblk m c 0 t) (iblk m c 1 t) (iblk m c 2 t) (iblk m c 3 t) (iblk m c 4 t) (iblk m c 5 t)
      = argsOf (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (⟨t.val, t.isLt⟩ : Fin 32) := by
  unfold blockArgs argsOf
  congr 1
  · funext n k; exact blk0 m c t n k
  · funext g k; exact blk1 m c t k g
  · funext g k; exact blk2 m c t k g
  · funext g; exact blk3 m c t g
  · funext q k; exact blk4 m c t k q
  · funext q; exact blk5 m c t q

/-- WHAT POINT t WRITES BACK is block t of `Gm`. -/
theorem flushed_eq (c : Dev nD) (t : Fin cfg0.N) :
    (dats m 0 c).flushed 6 t = ((cfg0.win 6).blk t).view.read (Elt Ideal) (Gm m c) := by
  rw [flushed6_A]
  obtain ⟨-, -, -, -, -, -, -, -, -, -, -, e0, e1, e2, e3⟩ := idx_facts t
  funext y
  obtain ⟨s, u, node, d, rfl⟩ : ∃ (s : Fin 2) (u : Fin 1) (node : Fin 8191) (d : Fin 128), y = ix4 s u node d :=
    ⟨y 0, y 1, y 2, y 3, eq_ix4 y⟩
  have hu : u = 0 := Subsingleton.elim _ _
  subst hu
  show out0_A_6 c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) scM0_0 (Memref.isWhole_whole _) scM0_1 (Memref.isWhole_whole _) scM0_2 (Memref.isWhole_whole _)
      (iblk m c 0 t) (iblk m c 1 t) (iblk m c 2 t) (iblk m c 3 t) (iblk m c 4 t) (iblk m c 5 t) (ix4 s (0 : Fin 1) node d)
    = Gm m c (((cfg0.win 6).blk t).view.emb (ix4 s (0 : Fin 1) node d))
  rw [Cert.KBlock.out_block, blockArgs_eq]
  have he : ((cfg0.win 6).blk t).view.emb (ix4 s (0 : Fin 1) node d) = ix4 s (⟨t.val, t.isLt⟩ : Fin 32) node d := by
    funext a; apply Fin.ext
    match a with
    | ⟨0, _⟩ => show win0_6.index t (0 : Fin 4) * 2 + 1 * s.val = s.val; omega
    | ⟨1, _⟩ => show win0_6.index t (1 : Fin 4) * 1 + 1 * 0 = t.val; omega
    | ⟨2, _⟩ => show win0_6.index t (2 : Fin 4) * 8191 + 1 * node.val = node.val; omega
    | ⟨3, _⟩ => show win0_6.index t (3 : Fin 4) * 128 + 1 * d.val = d.val; omega
  rw [he]
  rfl

/-- An index of the result is in point t's block iff each coordinate is in the block's range on its axis. -/
theorem mem_blk (t : Fin cfg0.N) (i : S2x32x8191x128.Idx) :
    i ∈ ((cfg0.win 6).blk t).view.set ↔ ∀ a : Fin 4, win0_6.index t a * S2x1x8191x128.size a ≤ (i a).val
      ∧ (i a).val < win0_6.index t a * S2x1x8191x128.size a + S2x1x8191x128.size a := by
  show i ∈ ((View.whole main_v6).slice (win0_6.rect t)).set ↔ _
  rw [View.set_slice_whole, Rect.mem_set_unit]
  exact Iff.rfl

/-- Every index of the result is in some point's block: the point its batch coordinate names. -/
theorem cover (c : Dev nD) (i : S2x32x8191x128.Idx) :
    ∃ t : Fin cfg0.N, (cfg0.win 6).flush t = true ∧ i ∈ ((cfg0.win 6).blk t).view.set := by
  have hb : (i 1).val < 32 := (i 1).isLt
  obtain ⟨t, ht⟩ : ∃ t : Fin cfg0.N, t.val = (i 1).val := ⟨⟨(i 1).val, by rw [show cfg0.N = 32 from N_0]; exact hb⟩, rfl⟩
  refine ⟨t, flush0_6 t, ?_⟩
  obtain ⟨-, -, -, -, -, -, -, -, -, -, -, e0, e1, e2, e3⟩ := idx_facts t
  rw [mem_blk]
  intro a
  have h0 : (i 0).val < 2 := (i 0).isLt
  have h2 : (i 2).val < 8191 := (i 2).isLt
  have h3 : (i 3).val < 128 := (i 3).isLt
  match a with
  | ⟨0, _⟩ => show win0_6.index t (0 : Fin 4) * 2 ≤ (i 0).val ∧ (i 0).val < win0_6.index t (0 : Fin 4) * 2 + 2; omega
  | ⟨1, _⟩ => show win0_6.index t (1 : Fin 4) * 1 ≤ (i 1).val ∧ (i 1).val < win0_6.index t (1 : Fin 4) * 1 + 1; omega
  | ⟨2, _⟩ => show win0_6.index t (2 : Fin 4) * 8191 ≤ (i 2).val ∧ (i 2).val < win0_6.index t (2 : Fin 4) * 8191 + 8191; omega
  | ⟨3, _⟩ => show win0_6.index t (3 : Fin 4) * 128 ≤ (i 3).val ∧ (i 3).val < win0_6.index t (3 : Fin 4) * 128 + 128; omega

/-- THE RESULT ARRAY after the run is `Gm`. -/
theorem final (c : Dev nD) : (dats m 0 c).arrAt 6 cfg0.N = Gm m c :=
  (dats m 0 c).arrAt_eq_of_cover 6 (Gm m c) (fun t _ => flushed_eq m c t) (cover c)

/-- The kernel's run re-posted: the result array at `Gm`, the arguments unchanged. -/
theorem run : θ_run defs (onTc (τ := τ) (main (F := Ideal))) ⟨m, fun _ => 0, ρ⟩ fun r => ∀ c : Dev nD,
      r.2.mem ((c : Thread nD τ).loc main_v6) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.KValue

end
-- ==== Proof.RefOps.lean ====
/-
  The host operations the reference is built from, each read at one entry of its result.

  Arrays are row-major over literal-rank shapes [32, n, c]: 32 trees, n nodes of one level, c numbers per node.
  A slice of rows lo … lo+n-1 or of columns off … off+c-1 reads the operand at the shifted coordinate; a bias
  [c] stood up as [1, 1, c] and broadcast reads the bias at the last coordinate; a splat reads its word; the
  product x · Wᵀ of [32, n, K] by [q, K] reads Σ_k x[b, j, k] · W[g, k]; a level's [32, 2n, 128] regrouped as
  [32, n, 256] or [32, n, 2, 128] puts the two children of node j side by side (child k / 128, lane k % 128); and
  a sum over the axis of the two children, started from the zero word, is the sum of the two entries. The
  expanded 1 / (1 + e^(-x)) with both ones the word 0x3F800000 is the logistic function of the entry.
-/
import Idealize.ShloMosaic.Lib.Pipeline.Value
import Idealize.ShloMosaic.Lib.ValueIdx
import Idealize.ShloMosaic.Lib.IdealHost
import Idealize.ShloMosaic.PureOps.Ideal.Laws

noncomputable section

namespace Cert.RefBridge

open Idealize.ShloMosaic Idealize.ShloMosaic.ValueIdx

/-- Rows lo … lo+n-1 of an array [32, N, c]: entry (b, j, g) is the operand's entry (b, lo + j, g). -/
theorem sliceRows_apply {N n c lo : ℕ} (x : (⟨3, ![32, N, c]⟩ : Shape).Idx → EReal)
    (h : (⟨3, ![32, N, c]⟩ : Shape).Slices ![0, lo, 0] ⟨3, ![32, n, c]⟩) (hlo : lo + n ≤ N)
    (b : Fin 32) (j : Fin n) (g : Fin c) :
    extractStridedSlice ⟨3, ![32, n, c]⟩ ![0, lo, 0] x h (ix3 b j g)
      = x (ix3 b ⟨lo + j.val, by have := j.isLt; omega⟩ g) := by
  refine extractStridedSlice_apply _ x h _ _ fun a => ?_
  match a with
  | ⟨0, _⟩ => exact (Nat.zero_add _).symm
  | ⟨1, _⟩ => rfl
  | ⟨2, _⟩ => exact (Nat.zero_add _).symm

/-- Columns off … off+c-1 of an array [32, n, C]: entry (b, j, d) is the operand's entry (b, j, off + d). -/
theorem sliceCols_apply {n C c off : ℕ} (x : (⟨3, ![32, n, C]⟩ : Shape).Idx → EReal)
    (h : (⟨3, ![32, n, C]⟩ : Shape).Slices ![0, 0, off] ⟨3, ![32, n, c]⟩) (hoff : off + c ≤ C)
    (b : Fin 32) (j : Fin n) (d : Fin c) :
    extractStridedSlice ⟨3, ![32, n, c]⟩ ![0, 0, off] x h (ix3 b j d)
      = x (ix3 b j ⟨off + d.val, by have := d.isLt; omega⟩) := by
  refine extractStridedSlice_apply _ x h _ _ fun a => ?_
  match a with
  | ⟨0, _⟩ => exact (Nat.zero_add _).symm
  | ⟨1, _⟩ => exact (Nat.zero_add _).symm
  | ⟨2, _⟩ => rfl

/-- Columns 0 … c-1 of an array [32, n, C]: entry (b, j, d) is the operand's entry (b, j, d). -/
theorem sliceCols0_apply {n C c : ℕ} (x : (⟨3, ![32, n, C]⟩ : Shape).Idx → EReal)
    (h : (⟨3, ![32, n, C]⟩ : Shape).Slices ![0, 0, 0] ⟨3, ![32, n, c]⟩) (hc : c ≤ C)
    (b : Fin 32) (j : Fin n) (d : Fin c) :
    extractStridedSlice ⟨3, ![32, n, c]⟩ ![0, 0, 0] x h (ix3 b j d)
      = x (ix3 b j ⟨d.val, by have := d.isLt; omega⟩) := by
  refine extractStridedSlice_apply _ x h _ _ fun a => ?_
  match a with
  | ⟨0, _⟩ => exact (Nat.zero_add _).symm
  | ⟨1, _⟩ => exact (Nat.zero_add _).symm
  | ⟨2, _⟩ => exact (Nat.zero_add _).symm

/-- A bias [c] stood up as [1, 1, c] and broadcast to [32, n, c]: entry (b, j, g) is the bias at g. -/
theorem bias_apply {n c : ℕ} (hc : c ≠ 1) (v : (⟨1, ![c]⟩ : Shape).Idx → EReal)
    (h1 : (⟨1, ![c]⟩ : Shape).BroadcastsInDim ⟨3, ![1, 1, c]⟩ ![2])
    (h2 : (⟨3, ![1, 1, c]⟩ : Shape).BroadcastsInDim ⟨3, ![32, n, c]⟩ ![0, 1, 2])
    (b : Fin 32) (j : Fin n) (g : Fin c) :
    broadcastInDim ⟨3, ![32, n, c]⟩ ![0, 1, 2] h2 (broadcastInDim ⟨3, ![1, 1, c]⟩ ![2] h1 v) (ix3 b j g) = v (ix1 g) := by
  rw [broadcastInDim_apply _ h2 _ (ix3 b j g) (ix3 (0 : Fin 1) (0 : Fin 1) g) (fun a => by
      match a with
      | ⟨0, _⟩ => rfl
      | ⟨1, _⟩ => rfl
      | ⟨2, _⟩ => exact (if_neg hc).symm),
    broadcastInDim_apply _ h1 v (ix3 (0 : Fin 1) (0 : Fin 1) g) (ix1 g) (fun a => by
      match a with
      | ⟨0, _⟩ => exact (if_neg hc).symm)]

/-- A one-word array broadcast to any shape reads the word's value everywhere. -/
theorem splat_apply {T : Shape} (w : BitVec 32) (h : (⟨0, ![]⟩ : Shape).BroadcastsInDim T ![]) (i : T.Idx) :
    broadcastInDim T ![] h (constant (F := Ideal) ⟨0, ![]⟩ .f32 w) i = Ideal.ofBits .f32 w := by
  rw [broadcastInDim_scalar_apply]; rfl

/-- The expanded 1 / (1 + e^(-x)), both ones the word 0x3F800000, is the logistic function of the entry. -/
theorem logistic_apply {T : Shape} (x : FVec Ideal T .f32) (h : (⟨0, ![]⟩ : Shape).BroadcastsInDim T ![]) (i : T.Idx) :
    Host.divf (broadcastInDim T ![] h (constant (F := Ideal) ⟨0, ![]⟩ .f32 0x3F800000#32))
        (addf (broadcastInDim T ![] h (constant (F := Ideal) ⟨0, ![]⟩ .f32 0x3F800000#32)) (Host.exp (Host.negf x))) i
      = Ideal.logistic (x i) := by
  show Ideal.div (broadcastInDim T ![] h (constant (F := Ideal) ⟨0, ![]⟩ .f32 0x3F800000#32) i)
      (broadcastInDim T ![] h (constant (F := Ideal) ⟨0, ![]⟩ .f32 0x3F800000#32) i + Ideal.exp (-(x i))) = _
  rw [splat_apply, Ideal.ofBits_one_f32]; rfl

/-- The hyperbolic tangent of an array reads the hyperbolic tangent of the entry. -/
theorem tanh_apply {T : Shape} (x : FVec Ideal T .f32) (i : T.Idx) : Host.tanh x i = Ideal.tanh (x i) := rfl

/-- x · Wᵀ for x of shape [32, n, K] and W of shape [q, K] (contract the last axis of both, no batch axis):
    entry (b, j, g) is Σ_k x[b, j, k] · W[g, k]. -/
theorem dot_apply {n q K : ℕ}
    (wf : DotDims.WF ⟨3, ![32, n, K]⟩ ⟨2, ![q, K]⟩ ⟨3, ![32, n, q]⟩ [2] [1] [0, 1] [0] [] [])
    (lhs : FVec Ideal ⟨3, ![32, n, K]⟩ .f32) (rhs : FVec Ideal ⟨2, ![q, K]⟩ .f32)
    (b : Fin 32) (j : Fin n) (g : Fin q) :
    Host.dotGeneral (F := Ideal)
        (⟨[2], [1], [0, 1], [0], [], [], wf⟩ : DotDims ⟨3, ![32, n, K]⟩ ⟨2, ![q, K]⟩ ⟨3, ![32, n, q]⟩) none lhs rhs (ix3 b j g)
      = ∑ k : Fin K, lhs (ix3 b j k) * rhs (ix2 g k) := by
  generalize hD : (⟨[2], [1], [0, 1], [0], [], [], wf⟩ : DotDims ⟨3, ![32, n, K]⟩ ⟨2, ![q, K]⟩ ⟨3, ![32, n, q]⟩) = D
  subst hD
  show FloatOps.dotGeneral _ none .single lhs rhs (ix3 b j g) = _
  rw [Ideal.dotGeneral_apply, ← Equiv.sum_comp (contrEquiv1 _ K rfl rfl).symm]
  refine Finset.sum_congr rfl fun k _ => ?_
  have c2 := contrEquiv1_symm_val
    (⟨[2], [1], [0, 1], [0], [], [], wf⟩ : DotDims ⟨3, ![32, n, K]⟩ ⟨2, ![q, K]⟩ ⟨3, ![32, n, q]⟩) K rfl rfl k
  have l2 : (⟨[2], [1], [0, 1], [0], [], [], wf⟩ : DotDims ⟨3, ![32, n, K]⟩ ⟨2, ![q, K]⟩ ⟨3, ![32, n, q]⟩).lhsIdx
      (ix3 b j g) ((contrEquiv1 _ K rfl rfl).symm k) = ix3 b j k := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c2
  have r2 : (⟨[2], [1], [0, 1], [0], [], [], wf⟩ : DotDims ⟨3, ![32, n, K]⟩ ⟨2, ![q, K]⟩ ⟨3, ![32, n, q]⟩).rhsIdx
      (ix3 b j g) ((contrEquiv1 _ K rfl rfl).symm k) = ix2 g k := by
    funext ax; apply Fin.ext
    match ax with
    | ⟨0, _⟩ => simp [DotDims.rhsIdx]; rfl
    | ⟨1, _⟩ => simp [DotDims.rhsIdx]; exact c2
  rw [l2, r2]

/-- A level's [32, m, 128] with m = 2n regrouped as [32, n, 256]: entry (b, j, k) is the entry
    (b, 2j + k / 128, k % 128) — the two children of node j side by side. -/
theorem castPair_apply {n m : ℕ} (hm : m = 2 * n) (x : (⟨3, ![32, m, 128]⟩ : Shape).Idx → EReal)
    (h : (⟨3, ![32, m, 128]⟩ : Shape).ShapeCasts ⟨3, ![32, n, 256]⟩) (b : Fin 32) (j : Fin n) (k : Fin 256) :
    shapeCast ⟨3, ![32, n, 256]⟩ x h (ix3 b j k)
      = x (ix3 b ⟨2 * j.val + k.val / 128, by have := j.isLt; have := k.isLt; omega⟩ ⟨k.val % 128, by omega⟩) :=
  shapeCast_apply x h _ _ (by
    rw [Shape.rowMajor_val_three, Shape.rowMajor_val_three]
    show (b.val * m + (2 * j.val + k.val / 128)) * 128 + k.val % 128 = (b.val * n + j.val) * 256 + k.val
    subst hm
    have e : b.val * (2 * n) = 2 * (b.val * n) := by ring
    rw [e]; omega)

/-- [32, n, 256] regrouped as [32, n, 2, 128]: entry (b, j, a, d) is the entry (b, j, 128 a + d). -/
theorem castSplit_apply {n : ℕ} (x : (⟨3, ![32, n, 256]⟩ : Shape).Idx → EReal)
    (h : (⟨3, ![32, n, 256]⟩ : Shape).ShapeCasts ⟨4, ![32, n, 2, 128]⟩) (b : Fin 32) (j : Fin n) (a : Fin 2) (d : Fin 128) :
    shapeCast ⟨4, ![32, n, 2, 128]⟩ x h (ix4 b j a d)
      = x (ix3 b j ⟨a.val * 128 + d.val, by have := a.isLt; have := d.isLt; omega⟩) :=
  shapeCast_apply x h _ _ (by
    rw [Shape.rowMajor_val_three, Shape.rowMajor_val_four]
    show (b.val * n + j.val) * 256 + (a.val * 128 + d.val) = ((b.val * n + j.val) * 2 + a.val) * 128 + d.val
    omega)

/-- A level's [32, m, 128] with m = 2n regrouped as [32, n, 2, 128]: entry (b, j, a, d) is the entry
    (b, 2j + a, d) — child a of node j. -/
theorem castChildren_apply {n m : ℕ} (hm : m = 2 * n) (x : (⟨3, ![32, m, 128]⟩ : Shape).Idx → EReal)
    (h : (⟨3, ![32, m, 128]⟩ : Shape).ShapeCasts ⟨4, ![32, n, 2, 128]⟩) (b : Fin 32) (j : Fin n) (a : Fin 2) (d : Fin 128) :
    shapeCast ⟨4, ![32, n, 2, 128]⟩ x h (ix4 b j a d)
      = x (ix3 b ⟨2 * j.val + a.val, by have := j.isLt; have := a.isLt; omega⟩ d) :=
  shapeCast_apply x h _ _ (by
    rw [Shape.rowMajor_val_three, Shape.rowMajor_val_four]
    show (b.val * m + (2 * j.val + a.val)) * 128 + d.val = ((b.val * n + j.val) * 2 + a.val) * 128 + d.val
    subst hm
    have e : b.val * (2 * n) = 2 * (b.val * n) := by ring
    rw [e]; omega)

/-- The sum over the axis of the two children of an array [32, n, 2, 128], started from the zero word:
    entry (b, j, d) is the sum of the two entries (b, j, a, d). -/
theorem reducePair_apply {n : ℕ} (x : FVec Ideal ⟨4, ![32, n, 2, 128]⟩ .f32)
    (h : (⟨4, ![32, n, 2, 128]⟩ : Shape).ReducesTo [2] ⟨3, ![32, n, 128]⟩) (hu : 0 < (⟨0, ![]⟩ : Shape).numel)
    (b : Fin 32) (j : Fin n) (d : Fin 128) :
    Host.reduceAdd x (constant (F := Ideal) ⟨0, ![]⟩ .f32 0x00000000#32) h hu (ix3 b j d)
      = ∑ a : Fin 2, x (ix4 b j a d) := by
  have hR : (⟨4, ![32, n, 2, 128]⟩ : Shape).Reduces [2] ⟨3, ![32, n, 128]⟩ := ⟨h.1, Nat.succ_pos 2, h.2⟩
  rw [hostReduceAdd_apply, Ideal.hostReduceAdd_single h hR]
  show Ideal.ofBits .f32 0x00000000#32 + _ = _
  rw [Ideal.ofBits_zero_f32, zero_add]
  refine Finset.sum_congr rfl fun a _ => congrArg x ?_
  funext c; apply Fin.ext
  match c with
  | ⟨0, _⟩ => rfl
  | ⟨1, _⟩ => rfl
  | ⟨2, _⟩ => rfl
  | ⟨3, _⟩ => rfl

end Cert.RefBridge

end
-- ==== Proof.RefLevel.lean ====
/-
  One level of the tree recurrence as the reference computes it, read at one entry.

  The reference holds a level as arrays [32, n, ·] over the 32 trees. Fix a tree b. If the level below (m = 2n nodes)
  reads, at tree b, as functions H (hidden) and C (cell) of node and lane, and the x-part array reads as iou, then
  the level's pre-activation array reads as preOf, its cell array as cellOf of it and of the gated sum cred of the
  children's cells, and its hidden array as hidOf: the same sums and products in the same order as the
  specification, so every step is a reading of one operation at one entry. The leaves have no children: their
  cell is the gated product plus the zero word.
-/
import Idealize.ShloMosaic.Lib.Pipeline.Value
import Idealize.ShloMosaic.Lib.ValueIdx
import Idealize.ShloMosaic.Lib.IdealHost
import Idealize.ShloMosaic.PureOps.Ideal.Laws
import proofs.«149831_j26912265077353_2_alg».proof.Proof.Spec
import proofs.«149831_j26912265077353_2_alg».proof.Proof.RefOps

noncomputable section

namespace Cert.RefBridge

open Idealize.ShloMosaic Idealize.ShloMosaic.ValueIdx Cert.TreeSpec

section Level
variable {n m : ℕ} (hm : m = 2 * n)

/-- The level below regrouped two nodes per row reads as the children's hidden states side by side. -/
theorem hcat_read (Hl : FVec Ideal ⟨3, ![32, m, 128]⟩ .f32)
    (hc : (⟨3, ![32, m, 128]⟩ : Shape).ShapeCasts ⟨3, ![32, n, 256]⟩)
    (b : Fin 32) (H : Fin m → Fin 128 → EReal) (hH : ∀ r d, Hl (ix3 b r d) = H r d) (j : Fin n) (k : Fin 256) :
    shapeCast ⟨3, ![32, n, 256]⟩ Hl hc (ix3 b j k) = hcat hm H j k := by
  rw [castPair_apply hm]; exact hH _ _

/-- The pre-activation array: x-part rows lo … lo+n-1, plus the children's hidden states through U_iou, plus the bias. -/
theorem pre_read {lo : ℕ} (hlo : lo + n ≤ 8191)
    (IOU : FVec Ideal ⟨3, ![32, 8191, 384]⟩ .f32) (HC : FVec Ideal ⟨3, ![32, n, 256]⟩ .f32)
    (a2 : FVec Ideal ⟨2, ![384, 256]⟩ .f32) (a3 : FVec Ideal ⟨1, ![384]⟩ .f32)
    (hs : (⟨3, ![32, 8191, 384]⟩ : Shape).Slices ![0, lo, 0] ⟨3, ![32, n, 384]⟩)
    (wf : DotDims.WF ⟨3, ![32, n, 256]⟩ ⟨2, ![384, 256]⟩ ⟨3, ![32, n, 384]⟩ [2] [1] [0, 1] [0] [] [])
    (h1 : (⟨1, ![384]⟩ : Shape).BroadcastsInDim ⟨3, ![1, 1, 384]⟩ ![2])
    (h2 : (⟨3, ![1, 1, 384]⟩ : Shape).BroadcastsInDim ⟨3, ![32, n, 384]⟩ ![0, 1, 2])
    (b : Fin 32) (iou : Fin 8191 → Fin 384 → EReal) (hIOU : ∀ node g, IOU (ix3 b node g) = iou node g)
    (H : Fin m → Fin 128 → EReal) (hHC : ∀ j k, HC (ix3 b j k) = hcat hm H j k) (j : Fin n) (g : Fin 384) :
    addf (addf (extractStridedSlice ⟨3, ![32, n, 384]⟩ ![0, lo, 0] IOU hs)
          (Host.dotGeneral (F := Ideal)
            (⟨[2], [1], [0, 1], [0], [], [], wf⟩ : DotDims ⟨3, ![32, n, 256]⟩ ⟨2, ![384, 256]⟩ ⟨3, ![32, n, 384]⟩) none HC a2))
        (broadcastInDim ⟨3, ![32, n, 384]⟩ ![0, 1, 2] h2 (broadcastInDim ⟨3, ![1, 1, 384]⟩ ![2] h1 a3)) (ix3 b j g)
      = preOf hm (fun j g => iou ⟨lo + j.val, by have := j.isLt; omega⟩ g) H (fun g k => a2 (ix2 g k))
          (fun g => a3 (ix1 g)) j g := by
  show (extractStridedSlice ⟨3, ![32, n, 384]⟩ ![0, lo, 0] IOU hs (ix3 b j g)
        + Host.dotGeneral (F := Ideal)
            (⟨[2], [1], [0, 1], [0], [], [], wf⟩ : DotDims ⟨3, ![32, n, 256]⟩ ⟨2, ![384, 256]⟩ ⟨3, ![32, n, 384]⟩) none HC a2 (ix3 b j g))
      + broadcastInDim ⟨3, ![32, n, 384]⟩ ![0, 1, 2] h2 (broadcastInDim ⟨3, ![1, 1, 384]⟩ ![2] h1 a3) (ix3 b j g) = _
  rw [sliceRows_apply IOU hs hlo, dot_apply, bias_apply (by norm_num), hIOU]
  simp only [hHC]
  rfl

/-- The cell array: σ(i) · tanh(u) of the pre-activation, plus the children's cells through their forget gates. -/
theorem c_read (P : FVec Ideal ⟨3, ![32, n, 384]⟩ .f32) (HC : FVec Ideal ⟨3, ![32, n, 256]⟩ .f32)
    (Cl : FVec Ideal ⟨3, ![32, m, 128]⟩ .f32)
    (a4 : FVec Ideal ⟨2, ![256, 256]⟩ .f32) (a5 : FVec Ideal ⟨1, ![256]⟩ .f32)
    (hb128 : (⟨0, ![]⟩ : Shape).BroadcastsInDim ⟨3, ![32, n, 128]⟩ ![])
    (hs0 : (⟨3, ![32, n, 384]⟩ : Shape).Slices ![0, 0, 0] ⟨3, ![32, n, 128]⟩)
    (hs256 : (⟨3, ![32, n, 384]⟩ : Shape).Slices ![0, 0, 256] ⟨3, ![32, n, 128]⟩)
    (hb256 : (⟨0, ![]⟩ : Shape).BroadcastsInDim ⟨3, ![32, n, 256]⟩ ![])
    (wf : DotDims.WF ⟨3, ![32, n, 256]⟩ ⟨2, ![256, 256]⟩ ⟨3, ![32, n, 256]⟩ [2] [1] [0, 1] [0] [] [])
    (h1 : (⟨1, ![256]⟩ : Shape).BroadcastsInDim ⟨3, ![1, 1, 256]⟩ ![2])
    (h2 : (⟨3, ![1, 1, 256]⟩ : Shape).BroadcastsInDim ⟨3, ![32, n, 256]⟩ ![0, 1, 2])
    (hc1 : (⟨3, ![32, n, 256]⟩ : Shape).ShapeCasts ⟨4, ![32, n, 2, 128]⟩)
    (hc2 : (⟨3, ![32, m, 128]⟩ : Shape).ShapeCasts ⟨4, ![32, n, 2, 128]⟩)
    (hr : (⟨4, ![32, n, 2, 128]⟩ : Shape).ReducesTo [2] ⟨3, ![32, n, 128]⟩) (hu : 0 < (⟨0, ![]⟩ : Shape).numel)
    (b : Fin 32) (pre : Fin n → Fin 384 → EReal) (hP : ∀ j g, P (ix3 b j g) = pre j g)
    (H C : Fin m → Fin 128 → EReal) (hHC : ∀ j k, HC (ix3 b j k) = hcat hm H j k)
    (hCl : ∀ r d, Cl (ix3 b r d) = C r d) (j : Fin n) (d : Fin 128) :
    addf (mulf (Host.divf (broadcastInDim ⟨3, ![32, n, 128]⟩ ![] hb128 (constant (F := Ideal) ⟨0, ![]⟩ .f32 0x3F800000#32))
            (addf (broadcastInDim ⟨3, ![32, n, 128]⟩ ![] hb128 (constant (F := Ideal) ⟨0, ![]⟩ .f32 0x3F800000#32))
              (Host.exp (Host.negf (extractStridedSlice ⟨3, ![32, n, 128]⟩ ![0, 0, 0] P hs0)))))
          (Host.tanh (extractStridedSlice ⟨3, ![32, n, 128]⟩ ![0, 0, 256] P hs256)))
        (Host.reduceAdd
          (mulf
            (shapeCast ⟨4, ![32, n, 2, 128]⟩
              (Host.divf (broadcastInDim ⟨3, ![32, n, 256]⟩ ![] hb256 (constant (F := Ideal) ⟨0, ![]⟩ .f32 0x3F800000#32))
                (addf (broadcastInDim ⟨3, ![32, n, 256]⟩ ![] hb256 (constant (F := Ideal) ⟨0, ![]⟩ .f32 0x3F800000#32))
                  (Host.exp (Host.negf
                    (addf (Host.dotGeneral (F := Ideal)
                        (⟨[2], [1], [0, 1], [0], [], [], wf⟩ : DotDims ⟨3, ![32, n, 256]⟩ ⟨2, ![256, 256]⟩ ⟨3, ![32, n, 256]⟩) none HC a4)
                      (broadcastInDim ⟨3, ![32, n, 256]⟩ ![0, 1, 2] h2 (broadcastInDim ⟨3, ![1, 1, 256]⟩ ![2] h1 a5))))))) hc1)
            (shapeCast ⟨4, ![32, n, 2, 128]⟩ Cl hc2))
          (constant (F := Ideal) ⟨0, ![]⟩ .f32 0x00000000#32) hr hu) (ix3 b j d)
      = cellOf (pre j) (cred hm H C (fun q k => a4 (ix2 q k)) (fun q => a5 (ix1 q)) j d) d := by
  show Host.divf _ _ (ix3 b j d) * Host.tanh _ (ix3 b j d) + Host.reduceAdd _ _ hr hu (ix3 b j d) = _
  rw [logistic_apply, tanh_apply, sliceCols0_apply P hs0 (by norm_num), sliceCols_apply P hs256 (by norm_num),
    reducePair_apply, hP, hP]
  refine congrArg₂ (· + ·) rfl (Finset.sum_congr rfl fun a _ => ?_)
  show shapeCast ⟨4, ![32, n, 2, 128]⟩ _ hc1 (ix4 b j a d) * shapeCast ⟨4, ![32, n, 2, 128]⟩ Cl hc2 (ix4 b j a d) = _
  rw [castSplit_apply, castChildren_apply hm, logistic_apply, hCl]
  show Ideal.logistic (Host.dotGeneral (F := Ideal) _ none HC a4 (ix3 b j _) + broadcastInDim _ _ h2 _ (ix3 b j _)) * _ = _
  rw [dot_apply, bias_apply (by norm_num)]
  simp only [hHC]
  rfl

/-- The hidden array: σ(o) of the pre-activation times tanh of the cell. -/
theorem h_read {n : ℕ} (P : FVec Ideal ⟨3, ![32, n, 384]⟩ .f32) (Cn : FVec Ideal ⟨3, ![32, n, 128]⟩ .f32)
    (hb128 : (⟨0, ![]⟩ : Shape).BroadcastsInDim ⟨3, ![32, n, 128]⟩ ![])
    (hs128 : (⟨3, ![32, n, 384]⟩ : Shape).Slices ![0, 0, 128] ⟨3, ![32, n, 128]⟩)
    (b : Fin 32) (pre : Fin n → Fin 384 → EReal) (hP : ∀ j g, P (ix3 b j g) = pre j g)
    (c : Fin n → Fin 128 → EReal) (hCn : ∀ j d, Cn (ix3 b j d) = c j d) (j : Fin n) (d : Fin 128) :
    mulf (Host.divf (broadcastInDim ⟨3, ![32, n, 128]⟩ ![] hb128 (constant (F := Ideal) ⟨0, ![]⟩ .f32 0x3F800000#32))
          (addf (broadcastInDim ⟨3, ![32, n, 128]⟩ ![] hb128 (constant (F := Ideal) ⟨0, ![]⟩ .f32 0x3F800000#32))
            (Host.exp (Host.negf (extractStridedSlice ⟨3, ![32, n, 128]⟩ ![0, 0, 128] P hs128)))))
        (Host.tanh Cn) (ix3 b j d)
      = hidOf (pre j) (c j d) d := by
  show Host.divf _ _ (ix3 b j d) * Host.tanh Cn (ix3 b j d) = _
  rw [logistic_apply, tanh_apply, sliceCols_apply P hs128 (by norm_num), hP, hCn]
  rfl

end Level

/-- A leaf's pre-activation array: x-part rows lo … lo+n-1 plus the bias. -/
theorem preLeaf_read {n lo : ℕ} (hlo : lo + n ≤ 8191)
    (IOU : FVec Ideal ⟨3, ![32, 8191, 384]⟩ .f32) (a3 : FVec Ideal ⟨1, ![384]⟩ .f32)
    (hs : (⟨3, ![32, 8191, 384]⟩ : Shape).Slices ![0, lo, 0] ⟨3, ![32, n, 384]⟩)
    (h1 : (⟨1, ![384]⟩ : Shape).BroadcastsInDim ⟨3, ![1, 1, 384]⟩ ![2])
    (h2 : (⟨3, ![1, 1, 384]⟩ : Shape).BroadcastsInDim ⟨3, ![32, n, 384]⟩ ![0, 1, 2])
    (b : Fin 32) (iou : Fin 8191 → Fin 384 → EReal) (hIOU : ∀ node g, IOU (ix3 b node g) = iou node g)
    (j : Fin n) (g : Fin 384) :
    addf (extractStridedSlice ⟨3, ![32, n, 384]⟩ ![0, lo, 0] IOU hs)
        (broadcastInDim ⟨3, ![32, n, 384]⟩ ![0, 1, 2] h2 (broadcastInDim ⟨3, ![1, 1, 384]⟩ ![2] h1 a3)) (ix3 b j g)
      = iou ⟨lo + j.val, by have := j.isLt; omega⟩ g + a3 (ix1 g) := by
  show extractStridedSlice ⟨3, ![32, n, 384]⟩ ![0, lo, 0] IOU hs (ix3 b j g)
      + broadcastInDim ⟨3, ![32, n, 384]⟩ ![0, 1, 2] h2 (broadcastInDim ⟨3, ![1, 1, 384]⟩ ![2] h1 a3) (ix3 b j g) = _
  rw [sliceRows_apply IOU hs hlo, bias_apply (by norm_num), hIOU]

/-- A leaf's cell array: σ(i) · tanh(u) of the pre-activation, plus the zero word. -/
theorem cLeaf_read {n : ℕ} (P : FVec Ideal ⟨3, ![32, n, 384]⟩ .f32)
    (hb128 : (⟨0, ![]⟩ : Shape).BroadcastsInDim ⟨3, ![32, n, 128]⟩ ![])
    (hs0 : (⟨3, ![32, n, 384]⟩ : Shape).Slices ![0, 0, 0] ⟨3, ![32, n, 128]⟩)
    (hs256 : (⟨3, ![32, n, 384]⟩ : Shape).Slices ![0, 0, 256] ⟨3, ![32, n, 128]⟩)
    (b : Fin 32) (pre : Fin n → Fin 384 → EReal) (hP : ∀ j g, P (ix3 b j g) = pre j g) (j : Fin n) (d : Fin 128) :
    addf (mulf (Host.divf (broadcastInDim ⟨3, ![32, n, 128]⟩ ![] hb128 (constant (F := Ideal) ⟨0, ![]⟩ .f32 0x3F800000#32))
            (addf (broadcastInDim ⟨3, ![32, n, 128]⟩ ![] hb128 (constant (F := Ideal) ⟨0, ![]⟩ .f32 0x3F800000#32))
              (Host.exp (Host.negf (extractStridedSlice ⟨3, ![32, n, 128]⟩ ![0, 0, 0] P hs0)))))
          (Host.tanh (extractStridedSlice ⟨3, ![32, n, 128]⟩ ![0, 0, 256] P hs256)))
        (broadcastInDim ⟨3, ![32, n, 128]⟩ ![] hb128 (constant (F := Ideal) ⟨0, ![]⟩ .f32 0x00000000#32)) (ix3 b j d)
      = cellOf (pre j) 0 d := by
  show Host.divf _ _ (ix3 b j d) * Host.tanh _ (ix3 b j d) + broadcastInDim ⟨3, ![32, n, 128]⟩ ![] hb128 (constant (F := Ideal) ⟨0, ![]⟩ .f32 0x00000000#32) (ix3 b j d) = _
  rw [logistic_apply, tanh_apply, sliceCols0_apply P hs0 (by norm_num), sliceCols_apply P hs256 (by norm_num),
    splat_apply, Ideal.ofBits_zero_f32, hP, hP]
  rfl

end Cert.RefBridge

end
-- ==== Proof.RefHeap.lean ====
/-
  The result's layout: the 13 levels' hidden arrays laid end to end along the node axis are the heap order (the level
  l holds the heap positions 2^l - 1 … 2^(l+1) - 2, so position i reads level l at node i - (2^l - 1)), and the
  two stacks are two copies of that array under a unit leading axis, laid end to end along it.
-/
import Idealize.ShloMosaic.Lib.Pipeline.Value
import Idealize.ShloMosaic.Lib.ValueIdx
import Idealize.ShloMosaic.PureOps.Ideal

noncomputable section

namespace Cert.RefBridge

open Idealize.ShloMosaic Idealize.ShloMosaic.ValueIdx

set_option maxHeartbeats 1000000 in
/-- The 13 levels' hidden arrays laid end to end along the node axis: heap position i reads the level whose range
    2^l - 1 ≤ i < 2^(l+1) - 1 holds it, at the node i - (2^l - 1) of that level. -/
theorem heap_read
    (u0 : FVec Ideal ⟨3, ![32, 1, 128]⟩ .f32)
    (u1 : FVec Ideal ⟨3, ![32, 2, 128]⟩ .f32)
    (u2 : FVec Ideal ⟨3, ![32, 4, 128]⟩ .f32)
    (u3 : FVec Ideal ⟨3, ![32, 8, 128]⟩ .f32)
    (u4 : FVec Ideal ⟨3, ![32, 16, 128]⟩ .f32)
    (u5 : FVec Ideal ⟨3, ![32, 32, 128]⟩ .f32)
    (u6 : FVec Ideal ⟨3, ![32, 64, 128]⟩ .f32)
    (u7 : FVec Ideal ⟨3, ![32, 128, 128]⟩ .f32)
    (u8 : FVec Ideal ⟨3, ![32, 256, 128]⟩ .f32)
    (u9 : FVec Ideal ⟨3, ![32, 512, 128]⟩ .f32)
    (u10 : FVec Ideal ⟨3, ![32, 1024, 128]⟩ .f32)
    (u11 : FVec Ideal ⟨3, ![32, 2048, 128]⟩ .f32)
    (u12 : FVec Ideal ⟨3, ![32, 4096, 128]⟩ .f32)
    (hcc : Shape.Concatenates [(⟨3, ![32, 1, 128]⟩ : Shape), (⟨3, ![32, 2, 128]⟩ : Shape), (⟨3, ![32, 4, 128]⟩ : Shape), (⟨3, ![32, 8, 128]⟩ : Shape), (⟨3, ![32, 16, 128]⟩ : Shape), (⟨3, ![32, 32, 128]⟩ : Shape), (⟨3, ![32, 64, 128]⟩ : Shape), (⟨3, ![32, 128, 128]⟩ : Shape), (⟨3, ![32, 256, 128]⟩ : Shape), (⟨3, ![32, 512, 128]⟩ : Shape), (⟨3, ![32, 1024, 128]⟩ : Shape), (⟨3, ![32, 2048, 128]⟩ : Shape), (⟨3, ![32, 4096, 128]⟩ : Shape)]
      ⟨3, ![32, 8191, 128]⟩ 1)
    (b : Fin 32)
    (F0 : Fin 1 → Fin 128 → EReal) (h0 : ∀ j d, u0 (ix3 b j d) = F0 j d)
    (F1 : Fin 2 → Fin 128 → EReal) (h1 : ∀ j d, u1 (ix3 b j d) = F1 j d)
    (F2 : Fin 4 → Fin 128 → EReal) (h2 : ∀ j d, u2 (ix3 b j d) = F2 j d)
    (F3 : Fin 8 → Fin 128 → EReal) (h3 : ∀ j d, u3 (ix3 b j d) = F3 j d)
    (F4 : Fin 16 → Fin 128 → EReal) (h4 : ∀ j d, u4 (ix3 b j d) = F4 j d)
    (F5 : Fin 32 → Fin 128 → EReal) (h5 : ∀ j d, u5 (ix3 b j d) = F5 j d)
    (F6 : Fin 64 → Fin 128 → EReal) (h6 : ∀ j d, u6 (ix3 b j d) = F6 j d)
    (F7 : Fin 128 → Fin 128 → EReal) (h7 : ∀ j d, u7 (ix3 b j d) = F7 j d)
    (F8 : Fin 256 → Fin 128 → EReal) (h8 : ∀ j d, u8 (ix3 b j d) = F8 j d)
    (F9 : Fin 512 → Fin 128 → EReal) (h9 : ∀ j d, u9 (ix3 b j d) = F9 j d)
    (F10 : Fin 1024 → Fin 128 → EReal) (h10 : ∀ j d, u10 (ix3 b j d) = F10 j d)
    (F11 : Fin 2048 → Fin 128 → EReal) (h11 : ∀ j d, u11 (ix3 b j d) = F11 j d)
    (F12 : Fin 4096 → Fin 128 → EReal) (h12 : ∀ j d, u12 (ix3 b j d) = F12 j d)
    (node : Fin 8191) (d : Fin 128) :
    concatenate ⟨3, ![32, 8191, 128]⟩ 1
        [⟨⟨3, ![32, 1, 128]⟩, u0⟩, ⟨⟨3, ![32, 2, 128]⟩, u1⟩, ⟨⟨3, ![32, 4, 128]⟩, u2⟩, ⟨⟨3, ![32, 8, 128]⟩, u3⟩, ⟨⟨3, ![32, 16, 128]⟩, u4⟩, ⟨⟨3, ![32, 32, 128]⟩, u5⟩, ⟨⟨3, ![32, 64, 128]⟩, u6⟩, ⟨⟨3, ![32, 128, 128]⟩, u7⟩, ⟨⟨3, ![32, 256, 128]⟩, u8⟩, ⟨⟨3, ![32, 512, 128]⟩, u9⟩, ⟨⟨3, ![32, 1024, 128]⟩, u10⟩, ⟨⟨3, ![32, 2048, 128]⟩, u11⟩, ⟨⟨3, ![32, 4096, 128]⟩, u12⟩] hcc (ix3 b node d)
      = (if c0 : node.val < 1 then F0 ⟨node.val - 0, by omega⟩ d else
        (if c1 : node.val < 3 then F1 ⟨node.val - 1, by omega⟩ d else
        (if c2 : node.val < 7 then F2 ⟨node.val - 3, by omega⟩ d else
        (if c3 : node.val < 15 then F3 ⟨node.val - 7, by omega⟩ d else
        (if c4 : node.val < 31 then F4 ⟨node.val - 15, by omega⟩ d else
        (if c5 : node.val < 63 then F5 ⟨node.val - 31, by omega⟩ d else
        (if c6 : node.val < 127 then F6 ⟨node.val - 63, by omega⟩ d else
        (if c7 : node.val < 255 then F7 ⟨node.val - 127, by omega⟩ d else
        (if c8 : node.val < 511 then F8 ⟨node.val - 255, by omega⟩ d else
        (if c9 : node.val < 1023 then F9 ⟨node.val - 511, by omega⟩ d else
        (if c10 : node.val < 2047 then F10 ⟨node.val - 1023, by omega⟩ d else
        (if c11 : node.val < 4095 then F11 ⟨node.val - 2047, by omega⟩ d else
        F12 ⟨node.val - 4095, by omega⟩ d)))))))))))) := by
  have hnode := node.isLt
  by_cases c0 : node.val < 1
  · rw [dif_pos c0]
    refine (concatenate_apply_piece (t := ⟨3, ![32, 8191, 128]⟩) (1 : Fin 3)
      [⟨⟨3, ![32, 1, 128]⟩, u0⟩, ⟨⟨3, ![32, 2, 128]⟩, u1⟩, ⟨⟨3, ![32, 4, 128]⟩, u2⟩, ⟨⟨3, ![32, 8, 128]⟩, u3⟩, ⟨⟨3, ![32, 16, 128]⟩, u4⟩, ⟨⟨3, ![32, 32, 128]⟩, u5⟩, ⟨⟨3, ![32, 64, 128]⟩, u6⟩, ⟨⟨3, ![32, 128, 128]⟩, u7⟩, ⟨⟨3, ![32, 256, 128]⟩, u8⟩, ⟨⟨3, ![32, 512, 128]⟩, u9⟩, ⟨⟨3, ![32, 1024, 128]⟩, u10⟩, ⟨⟨3, ![32, 2048, 128]⟩, u11⟩, ⟨⟨3, ![32, 4096, 128]⟩, u12⟩]
      hcc (ix3 b node d) 0 (by show 0 < 13; omega) ⟨3, ![32, 1, 128]⟩ u0 rfl rfl 0 rfl
      (ix3 b ⟨node.val - 0, by omega⟩ d) (fun a ha => ?_) ?_).trans (h0 _ _)
    · match a with
      | ⟨0, _⟩ => rfl
      | ⟨1, _⟩ => exact absurd rfl ha
      | ⟨2, _⟩ => rfl
    · show 0 + (node.val - 0) = node.val; omega
  rw [dif_neg c0]
  by_cases c1 : node.val < 3
  · rw [dif_pos c1]
    refine (concatenate_apply_piece (t := ⟨3, ![32, 8191, 128]⟩) (1 : Fin 3)
      [⟨⟨3, ![32, 1, 128]⟩, u0⟩, ⟨⟨3, ![32, 2, 128]⟩, u1⟩, ⟨⟨3, ![32, 4, 128]⟩, u2⟩, ⟨⟨3, ![32, 8, 128]⟩, u3⟩, ⟨⟨3, ![32, 16, 128]⟩, u4⟩, ⟨⟨3, ![32, 32, 128]⟩, u5⟩, ⟨⟨3, ![32, 64, 128]⟩, u6⟩, ⟨⟨3, ![32, 128, 128]⟩, u7⟩, ⟨⟨3, ![32, 256, 128]⟩, u8⟩, ⟨⟨3, ![32, 512, 128]⟩, u9⟩, ⟨⟨3, ![32, 1024, 128]⟩, u10⟩, ⟨⟨3, ![32, 2048, 128]⟩, u11⟩, ⟨⟨3, ![32, 4096, 128]⟩, u12⟩]
      hcc (ix3 b node d) 1 (by show 1 < 13; omega) ⟨3, ![32, 2, 128]⟩ u1 rfl rfl 1 (by show 1 + (0) = 1; norm_num)
      (ix3 b ⟨node.val - 1, by omega⟩ d) (fun a ha => ?_) ?_).trans (h1 _ _)
    · match a with
      | ⟨0, _⟩ => rfl
      | ⟨1, _⟩ => exact absurd rfl ha
      | ⟨2, _⟩ => rfl
    · show 1 + (node.val - 1) = node.val; omega
  rw [dif_neg c1]
  by_cases c2 : node.val < 7
  · rw [dif_pos c2]
    refine (concatenate_apply_piece (t := ⟨3, ![32, 8191, 128]⟩) (1 : Fin 3)
      [⟨⟨3, ![32, 1, 128]⟩, u0⟩, ⟨⟨3, ![32, 2, 128]⟩, u1⟩, ⟨⟨3, ![32, 4, 128]⟩, u2⟩, ⟨⟨3, ![32, 8, 128]⟩, u3⟩, ⟨⟨3, ![32, 16, 128]⟩, u4⟩, ⟨⟨3, ![32, 32, 128]⟩, u5⟩, ⟨⟨3, ![32, 64, 128]⟩, u6⟩, ⟨⟨3, ![32, 128, 128]⟩, u7⟩, ⟨⟨3, ![32, 256, 128]⟩, u8⟩, ⟨⟨3, ![32, 512, 128]⟩, u9⟩, ⟨⟨3, ![32, 1024, 128]⟩, u10⟩, ⟨⟨3, ![32, 2048, 128]⟩, u11⟩, ⟨⟨3, ![32, 4096, 128]⟩, u12⟩]
      hcc (ix3 b node d) 2 (by show 2 < 13; omega) ⟨3, ![32, 4, 128]⟩ u2 rfl rfl 3 (by show 1 + (2 + (0)) = 3; norm_num)
      (ix3 b ⟨node.val - 3, by omega⟩ d) (fun a ha => ?_) ?_).trans (h2 _ _)
    · match a with
      | ⟨0, _⟩ => rfl
      | ⟨1, _⟩ => exact absurd rfl ha
      | ⟨2, _⟩ => rfl
    · show 3 + (node.val - 3) = node.val; omega
  rw [dif_neg c2]
  by_cases c3 : node.val < 15
  · rw [dif_pos c3]
    refine (concatenate_apply_piece (t := ⟨3, ![32, 8191, 128]⟩) (1 : Fin 3)
      [⟨⟨3, ![32, 1, 128]⟩, u0⟩, ⟨⟨3, ![32, 2, 128]⟩, u1⟩, ⟨⟨3, ![32, 4, 128]⟩, u2⟩, ⟨⟨3, ![32, 8, 128]⟩, u3⟩, ⟨⟨3, ![32, 16, 128]⟩, u4⟩, ⟨⟨3, ![32, 32, 128]⟩, u5⟩, ⟨⟨3, ![32, 64, 128]⟩, u6⟩, ⟨⟨3, ![32, 128, 128]⟩, u7⟩, ⟨⟨3, ![32, 256, 128]⟩, u8⟩, ⟨⟨3, ![32, 512, 128]⟩, u9⟩, ⟨⟨3, ![32, 1024, 128]⟩, u10⟩, ⟨⟨3, ![32, 2048, 128]⟩, u11⟩, ⟨⟨3, ![32, 4096, 128]⟩, u12⟩]
      hcc (ix3 b node d) 3 (by show 3 < 13; omega) ⟨3, ![32, 8, 128]⟩ u3 rfl rfl 7 (by show 1 + (2 + (4 + (0))) = 7; norm_num)
      (ix3 b ⟨node.val - 7, by omega⟩ d) (fun a ha => ?_) ?_).trans (h3 _ _)
    · match a with
      | ⟨0, _⟩ => rfl
      | ⟨1, _⟩ => exact absurd rfl ha
      | ⟨2, _⟩ => rfl
    · show 7 + (node.val - 7) = node.val; omega
  rw [dif_neg c3]
  by_cases c4 : node.val < 31
  · rw [dif_pos c4]
    refine (concatenate_apply_piece (t := ⟨3, ![32, 8191, 128]⟩) (1 : Fin 3)
      [⟨⟨3, ![32, 1, 128]⟩, u0⟩, ⟨⟨3, ![32, 2, 128]⟩, u1⟩, ⟨⟨3, ![32, 4, 128]⟩, u2⟩, ⟨⟨3, ![32, 8, 128]⟩, u3⟩, ⟨⟨3, ![32, 16, 128]⟩, u4⟩, ⟨⟨3, ![32, 32, 128]⟩, u5⟩, ⟨⟨3, ![32, 64, 128]⟩, u6⟩, ⟨⟨3, ![32, 128, 128]⟩, u7⟩, ⟨⟨3, ![32, 256, 128]⟩, u8⟩, ⟨⟨3, ![32, 512, 128]⟩, u9⟩, ⟨⟨3, ![32, 1024, 128]⟩, u10⟩, ⟨⟨3, ![32, 2048, 128]⟩, u11⟩, ⟨⟨3, ![32, 4096, 128]⟩, u12⟩]
      hcc (ix3 b node d) 4 (by show 4 < 13; omega) ⟨3, ![32, 16, 128]⟩ u4 rfl rfl 15 (by show 1 + (2 + (4 + (8 + (0)))) = 15; norm_num)
      (ix3 b ⟨node.val - 15, by omega⟩ d) (fun a ha => ?_) ?_).trans (h4 _ _)
    · match a with
      | ⟨0, _⟩ => rfl
      | ⟨1, _⟩ => exact absurd rfl ha
      | ⟨2, _⟩ => rfl
    · show 15 + (node.val - 15) = node.val; omega
  rw [dif_neg c4]
  by_cases c5 : node.val < 63
  · rw [dif_pos c5]
    refine (concatenate_apply_piece (t := ⟨3, ![32, 8191, 128]⟩) (1 : Fin 3)
      [⟨⟨3, ![32, 1, 128]⟩, u0⟩, ⟨⟨3, ![32, 2, 128]⟩, u1⟩, ⟨⟨3, ![32, 4, 128]⟩, u2⟩, ⟨⟨3, ![32, 8, 128]⟩, u3⟩, ⟨⟨3, ![32, 16, 128]⟩, u4⟩, ⟨⟨3, ![32, 32, 128]⟩, u5⟩, ⟨⟨3, ![32, 64, 128]⟩, u6⟩, ⟨⟨3, ![32, 128, 128]⟩, u7⟩, ⟨⟨3, ![32, 256, 128]⟩, u8⟩, ⟨⟨3, ![32, 512, 128]⟩, u9⟩, ⟨⟨3, ![32, 1024, 128]⟩, u10⟩, ⟨⟨3, ![32, 2048, 128]⟩, u11⟩, ⟨⟨3, ![32, 4096, 128]⟩, u12⟩]
      hcc (ix3 b node d) 5 (by show 5 < 13; omega) ⟨3, ![32, 32, 128]⟩ u5 rfl rfl 31 (by show 1 + (2 + (4 + (8 + (16 + (0))))) = 31; norm_num)
      (ix3 b ⟨node.val - 31, by omega⟩ d) (fun a ha => ?_) ?_).trans (h5 _ _)
    · match a with
      | ⟨0, _⟩ => rfl
      | ⟨1, _⟩ => exact absurd rfl ha
      | ⟨2, _⟩ => rfl
    · show 31 + (node.val - 31) = node.val; omega
  rw [dif_neg c5]
  by_cases c6 : node.val < 127
  · rw [dif_pos c6]
    refine (concatenate_apply_piece (t := ⟨3, ![32, 8191, 128]⟩) (1 : Fin 3)
      [⟨⟨3, ![32, 1, 128]⟩, u0⟩, ⟨⟨3, ![32, 2, 128]⟩, u1⟩, ⟨⟨3, ![32, 4, 128]⟩, u2⟩, ⟨⟨3, ![32, 8, 128]⟩, u3⟩, ⟨⟨3, ![32, 16, 128]⟩, u4⟩, ⟨⟨3, ![32, 32, 128]⟩, u5⟩, ⟨⟨3, ![32, 64, 128]⟩, u6⟩, ⟨⟨3, ![32, 128, 128]⟩, u7⟩, ⟨⟨3, ![32, 256, 128]⟩, u8⟩, ⟨⟨3, ![32, 512, 128]⟩, u9⟩, ⟨⟨3, ![32, 1024, 128]⟩, u10⟩, ⟨⟨3, ![32, 2048, 128]⟩, u11⟩, ⟨⟨3, ![32, 4096, 128]⟩, u12⟩]
      hcc (ix3 b node d) 6 (by show 6 < 13; omega) ⟨3, ![32, 64, 128]⟩ u6 rfl rfl 63 (by show 1 + (2 + (4 + (8 + (16 + (32 + (0)))))) = 63; norm_num)
      (ix3 b ⟨node.val - 63, by omega⟩ d) (fun a ha => ?_) ?_).trans (h6 _ _)
    · match a with
      | ⟨0, _⟩ => rfl
      | ⟨1, _⟩ => exact absurd rfl ha
      | ⟨2, _⟩ => rfl
    · show 63 + (node.val - 63) = node.val; omega
  rw [dif_neg c6]
  by_cases c7 : node.val < 255
  · rw [dif_pos c7]
    refine (concatenate_apply_piece (t := ⟨3, ![32, 8191, 128]⟩) (1 : Fin 3)
      [⟨⟨3, ![32, 1, 128]⟩, u0⟩, ⟨⟨3, ![32, 2, 128]⟩, u1⟩, ⟨⟨3, ![32, 4, 128]⟩, u2⟩, ⟨⟨3, ![32, 8, 128]⟩, u3⟩, ⟨⟨3, ![32, 16, 128]⟩, u4⟩, ⟨⟨3, ![32, 32, 128]⟩, u5⟩, ⟨⟨3, ![32, 64, 128]⟩, u6⟩, ⟨⟨3, ![32, 128, 128]⟩, u7⟩, ⟨⟨3, ![32, 256, 128]⟩, u8⟩, ⟨⟨3, ![32, 512, 128]⟩, u9⟩, ⟨⟨3, ![32, 1024, 128]⟩, u10⟩, ⟨⟨3, ![32, 2048, 128]⟩, u11⟩, ⟨⟨3, ![32, 4096, 128]⟩, u12⟩]
      hcc (ix3 b node d) 7 (by show 7 < 13; omega) ⟨3, ![32, 128, 128]⟩ u7 rfl rfl 127 (by show 1 + (2 + (4 + (8 + (16 + (32 + (64 + (0))))))) = 127; norm_num)
      (ix3 b ⟨node.val - 127, by omega⟩ d) (fun a ha => ?_) ?_).trans (h7 _ _)
    · match a with
      | ⟨0, _⟩ => rfl
      | ⟨1, _⟩ => exact absurd rfl ha
      | ⟨2, _⟩ => rfl
    · show 127 + (node.val - 127) = node.val; omega
  rw [dif_neg c7]
  by_cases c8 : node.val < 511
  · rw [dif_pos c8]
    refine (concatenate_apply_piece (t := ⟨3, ![32, 8191, 128]⟩) (1 : Fin 3)
      [⟨⟨3, ![32, 1, 128]⟩, u0⟩, ⟨⟨3, ![32, 2, 128]⟩, u1⟩, ⟨⟨3, ![32, 4, 128]⟩, u2⟩, ⟨⟨3, ![32, 8, 128]⟩, u3⟩, ⟨⟨3, ![32, 16, 128]⟩, u4⟩, ⟨⟨3, ![32, 32, 128]⟩, u5⟩, ⟨⟨3, ![32, 64, 128]⟩, u6⟩, ⟨⟨3, ![32, 128, 128]⟩, u7⟩, ⟨⟨3, ![32, 256, 128]⟩, u8⟩, ⟨⟨3, ![32, 512, 128]⟩, u9⟩, ⟨⟨3, ![32, 1024, 128]⟩, u10⟩, ⟨⟨3, ![32, 2048, 128]⟩, u11⟩, ⟨⟨3, ![32, 4096, 128]⟩, u12⟩]
      hcc (ix3 b node d) 8 (by show 8 < 13; omega) ⟨3, ![32, 256, 128]⟩ u8 rfl rfl 255 (by show 1 + (2 + (4 + (8 + (16 + (32 + (64 + (128 + (0)))))))) = 255; norm_num)
      (ix3 b ⟨node.val - 255, by omega⟩ d) (fun a ha => ?_) ?_).trans (h8 _ _)
    · match a with
      | ⟨0, _⟩ => rfl
      | ⟨1, _⟩ => exact absurd rfl ha
      | ⟨2, _⟩ => rfl
    · show 255 + (node.val - 255) = node.val; omega
  rw [dif_neg c8]
  by_cases c9 : node.val < 1023
  · rw [dif_pos c9]
    refine (concatenate_apply_piece (t := ⟨3, ![32, 8191, 128]⟩) (1 : Fin 3)
      [⟨⟨3, ![32, 1, 128]⟩, u0⟩, ⟨⟨3, ![32, 2, 128]⟩, u1⟩, ⟨⟨3, ![32, 4, 128]⟩, u2⟩, ⟨⟨3, ![32, 8, 128]⟩, u3⟩, ⟨⟨3, ![32, 16, 128]⟩, u4⟩, ⟨⟨3, ![32, 32, 128]⟩, u5⟩, ⟨⟨3, ![32, 64, 128]⟩, u6⟩, ⟨⟨3, ![32, 128, 128]⟩, u7⟩, ⟨⟨3, ![32, 256, 128]⟩, u8⟩, ⟨⟨3, ![32, 512, 128]⟩, u9⟩, ⟨⟨3, ![32, 1024, 128]⟩, u10⟩, ⟨⟨3, ![32, 2048, 128]⟩, u11⟩, ⟨⟨3, ![32, 4096, 128]⟩, u12⟩]
      hcc (ix3 b node d) 9 (by show 9 < 13; omega) ⟨3, ![32, 512, 128]⟩ u9 rfl rfl 511 (by show 1 + (2 + (4 + (8 + (16 + (32 + (64 + (128 + (256 + (0))))))))) = 511; norm_num)
      (ix3 b ⟨node.val - 511, by omega⟩ d) (fun a ha => ?_) ?_).trans (h9 _ _)
    · match a with
      | ⟨0, _⟩ => rfl
      | ⟨1, _⟩ => exact absurd rfl ha
      | ⟨2, _⟩ => rfl
    · show 511 + (node.val - 511) = node.val; omega
  rw [dif_neg c9]
  by_cases c10 : node.val < 2047
  · rw [dif_pos c10]
    refine (concatenate_apply_piece (t := ⟨3, ![32, 8191, 128]⟩) (1 : Fin 3)
      [⟨⟨3, ![32, 1, 128]⟩, u0⟩, ⟨⟨3, ![32, 2, 128]⟩, u1⟩, ⟨⟨3, ![32, 4, 128]⟩, u2⟩, ⟨⟨3, ![32, 8, 128]⟩, u3⟩, ⟨⟨3, ![32, 16, 128]⟩, u4⟩, ⟨⟨3, ![32, 32, 128]⟩, u5⟩, ⟨⟨3, ![32, 64, 128]⟩, u6⟩, ⟨⟨3, ![32, 128, 128]⟩, u7⟩, ⟨⟨3, ![32, 256, 128]⟩, u8⟩, ⟨⟨3, ![32, 512, 128]⟩, u9⟩, ⟨⟨3, ![32, 1024, 128]⟩, u10⟩, ⟨⟨3, ![32, 2048, 128]⟩, u11⟩, ⟨⟨3, ![32, 4096, 128]⟩, u12⟩]
      hcc (ix3 b node d) 10 (by show 10 < 13; omega) ⟨3, ![32, 1024, 128]⟩ u10 rfl rfl 1023 (by show 1 + (2 + (4 + (8 + (16 + (32 + (64 + (128 + (256 + (512 + (0)))))))))) = 1023; norm_num)
      (ix3 b ⟨node.val - 1023, by omega⟩ d) (fun a ha => ?_) ?_).trans (h10 _ _)
    · match a with
      | ⟨0, _⟩ => rfl
      | ⟨1, _⟩ => exact absurd rfl ha
      | ⟨2, _⟩ => rfl
    · show 1023 + (node.val - 1023) = node.val; omega
  rw [dif_neg c10]
  by_cases c11 : node.val < 4095
  · rw [dif_pos c11]
    refine (concatenate_apply_piece (t := ⟨3, ![32, 8191, 128]⟩) (1 : Fin 3)
      [⟨⟨3, ![32, 1, 128]⟩, u0⟩, ⟨⟨3, ![32, 2, 128]⟩, u1⟩, ⟨⟨3, ![32, 4, 128]⟩, u2⟩, ⟨⟨3, ![32, 8, 128]⟩, u3⟩, ⟨⟨3, ![32, 16, 128]⟩, u4⟩, ⟨⟨3, ![32, 32, 128]⟩, u5⟩, ⟨⟨3, ![32, 64, 128]⟩, u6⟩, ⟨⟨3, ![32, 128, 128]⟩, u7⟩, ⟨⟨3, ![32, 256, 128]⟩, u8⟩, ⟨⟨3, ![32, 512, 128]⟩, u9⟩, ⟨⟨3, ![32, 1024, 128]⟩, u10⟩, ⟨⟨3, ![32, 2048, 128]⟩, u11⟩, ⟨⟨3, ![32, 4096, 128]⟩, u12⟩]
      hcc (ix3 b node d) 11 (by show 11 < 13; omega) ⟨3, ![32, 2048, 128]⟩ u11 rfl rfl 2047 (by show 1 + (2 + (4 + (8 + (16 + (32 + (64 + (128 + (256 + (512 + (1024 + (0))))))))))) = 2047; norm_num)
      (ix3 b ⟨node.val - 2047, by omega⟩ d) (fun a ha => ?_) ?_).trans (h11 _ _)
    · match a with
      | ⟨0, _⟩ => rfl
      | ⟨1, _⟩ => exact absurd rfl ha
      | ⟨2, _⟩ => rfl
    · show 2047 + (node.val - 2047) = node.val; omega
  rw [dif_neg c11]
  refine (concatenate_apply_piece (t := ⟨3, ![32, 8191, 128]⟩) (1 : Fin 3)
      [⟨⟨3, ![32, 1, 128]⟩, u0⟩, ⟨⟨3, ![32, 2, 128]⟩, u1⟩, ⟨⟨3, ![32, 4, 128]⟩, u2⟩, ⟨⟨3, ![32, 8, 128]⟩, u3⟩, ⟨⟨3, ![32, 16, 128]⟩, u4⟩, ⟨⟨3, ![32, 32, 128]⟩, u5⟩, ⟨⟨3, ![32, 64, 128]⟩, u6⟩, ⟨⟨3, ![32, 128, 128]⟩, u7⟩, ⟨⟨3, ![32, 256, 128]⟩, u8⟩, ⟨⟨3, ![32, 512, 128]⟩, u9⟩, ⟨⟨3, ![32, 1024, 128]⟩, u10⟩, ⟨⟨3, ![32, 2048, 128]⟩, u11⟩, ⟨⟨3, ![32, 4096, 128]⟩, u12⟩]
      hcc (ix3 b node d) 12 (by show 12 < 13; omega) ⟨3, ![32, 4096, 128]⟩ u12 rfl rfl 4095 (by show 1 + (2 + (4 + (8 + (16 + (32 + (64 + (128 + (256 + (512 + (1024 + (2048 + (0)))))))))))) = 4095; norm_num)
    (ix3 b ⟨node.val - 4095, by omega⟩ d) (fun a ha => ?_) ?_).trans (h12 _ _)
  · match a with
    | ⟨0, _⟩ => rfl
    | ⟨1, _⟩ => exact absurd rfl ha
    | ⟨2, _⟩ => rfl
  · show 4095 + (node.val - 4095) = node.val; omega

/-- The two identical stacks: an array [32, 8191, 128] given a unit leading axis, twice, laid end to end along
    that axis, reads the array itself at either stack. -/
theorem stack_read (u : FVec Ideal ⟨3, ![32, 8191, 128]⟩ .f32)
    (hb : (⟨3, ![32, 8191, 128]⟩ : Shape).BroadcastsInDim ⟨4, ![1, 32, 8191, 128]⟩ ![1, 2, 3])
    (hcc : Shape.Concatenates [(⟨4, ![1, 32, 8191, 128]⟩ : Shape), (⟨4, ![1, 32, 8191, 128]⟩ : Shape)]
      ⟨4, ![2, 32, 8191, 128]⟩ 0)
    (s : Fin 2) (b : Fin 32) (node : Fin 8191) (d : Fin 128) :
    concatenate ⟨4, ![2, 32, 8191, 128]⟩ 0
        [⟨⟨4, ![1, 32, 8191, 128]⟩, broadcastInDim ⟨4, ![1, 32, 8191, 128]⟩ ![1, 2, 3] hb u⟩,
         ⟨⟨4, ![1, 32, 8191, 128]⟩, broadcastInDim ⟨4, ![1, 32, 8191, 128]⟩ ![1, 2, 3] hb u⟩] hcc (ix4 s b node d)
      = u (ix3 b node d) := by
  have hread : broadcastInDim ⟨4, ![1, 32, 8191, 128]⟩ ![1, 2, 3] hb u (ix4 (0 : Fin 1) b node d) = u (ix3 b node d) :=
    broadcastInDim_apply _ hb u _ (ix3 b node d) (fun a => by
      match a with
      | ⟨0, _⟩ => rfl
      | ⟨1, _⟩ => rfl
      | ⟨2, _⟩ => rfl)
  match s with
  | ⟨0, h0⟩ =>
    refine (concatenate_apply_piece (t := ⟨4, ![2, 32, 8191, 128]⟩) (0 : Fin 4)
      [⟨⟨4, ![1, 32, 8191, 128]⟩, broadcastInDim ⟨4, ![1, 32, 8191, 128]⟩ ![1, 2, 3] hb u⟩,
       ⟨⟨4, ![1, 32, 8191, 128]⟩, broadcastInDim ⟨4, ![1, 32, 8191, 128]⟩ ![1, 2, 3] hb u⟩]
      hcc (ix4 (⟨0, h0⟩ : Fin 2) b node d) 0 (by show 0 < 2; omega) ⟨4, ![1, 32, 8191, 128]⟩
      (broadcastInDim ⟨4, ![1, 32, 8191, 128]⟩ ![1, 2, 3] hb u) rfl rfl 0 rfl
      (ix4 (0 : Fin 1) b node d) (fun a ha => ?_) ?_).trans hread
    · match a with
      | ⟨0, _⟩ => exact absurd rfl ha
      | ⟨1, _⟩ => rfl
      | ⟨2, _⟩ => rfl
      | ⟨3, _⟩ => rfl
    · rfl
  | ⟨1, h1⟩ =>
    refine (concatenate_apply_piece (t := ⟨4, ![2, 32, 8191, 128]⟩) (0 : Fin 4)
      [⟨⟨4, ![1, 32, 8191, 128]⟩, broadcastInDim ⟨4, ![1, 32, 8191, 128]⟩ ![1, 2, 3] hb u⟩,
       ⟨⟨4, ![1, 32, 8191, 128]⟩, broadcastInDim ⟨4, ![1, 32, 8191, 128]⟩ ![1, 2, 3] hb u⟩]
      hcc (ix4 (⟨1, h1⟩ : Fin 2) b node d) 1 (by show 1 < 2; omega) ⟨4, ![1, 32, 8191, 128]⟩
      (broadcastInDim ⟨4, ![1, 32, 8191, 128]⟩ ![1, 2, 3] hb u) rfl rfl 1 rfl
      (ix4 (0 : Fin 1) b node d) (fun a ha => ?_) ?_).trans hread
    · match a with
      | ⟨0, _⟩ => exact absurd rfl ha
      | ⟨1, _⟩ => rfl
      | ⟨2, _⟩ => rfl
      | ⟨3, _⟩ => rfl
    · rfl

end Cert.RefBridge

end
-- ==== Proof.RefValue.lean ====
/-
  The reference's result, read entry by entry, is the specification's tree recurrence.

  The reference's run is a composition of named array terms, one group of four per level of the tree (the
  pre-activation, the cell states, the hidden states, and the hidden states regrouped two nodes per row for the
  level above). Fix a tree b of the batch. Going up from the leaves, each named term at tree b reads as the
  specification's function of the same name: the x-part as iouX, the leaves as C12 / H12, and a level's terms as
  preOf / stepC / stepH of the level below. The result lays the 13 levels' hidden arrays end to end in heap
  order, adds a unit leading axis, and stacks two copies: at every entry that is heapH, which is G.
-/
import proofs.«149831_j26912265077353_2_alg».proof.Proof.Gen.ReferenceIdeal.Run
import proofs.«149831_j26912265077353_2_alg».proof.Proof.Spec
import proofs.«149831_j26912265077353_2_alg».proof.Proof.RefOps
import proofs.«149831_j26912265077353_2_alg».proof.Proof.RefLevel
import proofs.«149831_j26912265077353_2_alg».proof.Proof.RefHeap

set_option maxRecDepth 16384

noncomputable section

namespace Cert.RefBridge

open Cert.ReferenceIdeal Cert.ReferenceIdeal.Gen Cert.ReferenceIdeal.Value Idealize.ShloMosaic Idealize.ShloMosaic.TcCoe
  Idealize.SL.Sem Idealize.ShloMosaic.StableHlo Idealize.ShloMosaic.ValueIdx Cert.TreeSpec

variable (V0 : Valuation τ sig (Elt Ideal))

/-- The six argument arrays at tree b. -/
abbrev argsAt (b : Fin 32) : Args :=
  argsOf (V0 (Proc.devRef .tc main_arg0)) (V0 (Proc.devRef .tc main_arg1)) (V0 (Proc.devRef .tc main_arg2))
    (V0 (Proc.devRef .tc main_arg3)) (V0 (Proc.devRef .tc main_arg4)) (V0 (Proc.devRef .tc main_arg5)) b

/-- The x-part x · W_iouᵀ at tree b. -/
theorem iou_v0 (b : Fin 32) (node : Fin 8191) (g : Fin 384) :
    res_main_v0 V0 (ix3 b node g) = iouX (argsAt V0 b) node g := by
  unfold res_main_v0
  exact dot_apply _ _ _ b node g

/-! ### The leaves -/

theorem pre12 (b : Fin 32) (j : Fin 4096) (g : Fin 384) :
    res_main_v4 V0 (ix3 b j g) = xrow (argsAt V0 b) 4095 (by norm_num) j g + (argsAt V0 b).biou g := by
  unfold res_main_v4
  exact preLeaf_read (lo := 4095) (by norm_num) _ _ _ _ _ b _ (iou_v0 V0 b) j g

theorem c12 (b : Fin 32) (j : Fin 4096) (d : Fin 128) : res_main_v17 V0 (ix3 b j d) = C12 (argsAt V0 b) j d := by
  unfold res_main_v17
  exact cLeaf_read _ _ _ _ b _ (pre12 V0 b) j d

theorem h12 (b : Fin 32) (j : Fin 4096) (d : Fin 128) : res_main_v25 V0 (ix3 b j d) = H12 (argsAt V0 b) j d := by
  unfold res_main_v25
  exact h_read _ _ _ _ b _ (pre12 V0 b) _ (c12 V0 b) j d

theorem cat12 (b : Fin 32) (j : Fin 2048) (k : Fin 256) :
    res_main_v26 V0 (ix3 b j k) = hcat (m := 4096) (by norm_num) (H12 (argsAt V0 b)) j k := by
  unfold res_main_v26
  exact hcat_read (by norm_num) _ _ b _ (h12 V0 b) j k

/-! ### Level 11: 2048 nodes, heap positions 2047 … 4094 -/

theorem pre11 (b : Fin 32) (j : Fin 2048) (g : Fin 384) :
    res_main_v46 V0 (ix3 b j g)
      = preOf (m := 4096) (by norm_num) (xrow (argsAt V0 b) 2047 (by norm_num)) (H12 (argsAt V0 b))
          (argsAt V0 b).Uiou (argsAt V0 b).biou j g := by
  unfold res_main_v46
  exact pre_read (by norm_num) (lo := 2047) (by norm_num) _ _ _ _ _ _ _ _ b _ (iou_v0 V0 b) _ (cat12 V0 b) j g

theorem c11 (b : Fin 32) (j : Fin 2048) (d : Fin 128) : res_main_v58 V0 (ix3 b j d) = C11 (argsAt V0 b) j d := by
  unfold res_main_v58
  exact c_read (by norm_num) _ _ _ _ _ _ _ _ _ _ _ _ _ _ _ _ b _ (pre11 V0 b) _ _ (cat12 V0 b) (c12 V0 b) j d

theorem h11 (b : Fin 32) (j : Fin 2048) (d : Fin 128) : res_main_v66 V0 (ix3 b j d) = H11 (argsAt V0 b) j d := by
  unfold res_main_v66
  exact h_read _ _ _ _ b _ (pre11 V0 b) _ (c11 V0 b) j d

theorem cat11 (b : Fin 32) (j : Fin 1024) (k : Fin 256) :
    res_main_v67 V0 (ix3 b j k) = hcat (m := 2048) (by norm_num) (H11 (argsAt V0 b)) j k := by
  unfold res_main_v67
  exact hcat_read (by norm_num) _ _ b _ (h11 V0 b) j k

/-! ### Level 10: 1024 nodes, heap positions 1023 … 2046 -/

theorem pre10 (b : Fin 32) (j : Fin 1024) (g : Fin 384) :
    res_main_v87 V0 (ix3 b j g)
      = preOf (m := 2048) (by norm_num) (xrow (argsAt V0 b) 1023 (by norm_num)) (H11 (argsAt V0 b))
          (argsAt V0 b).Uiou (argsAt V0 b).biou j g := by
  unfold res_main_v87
  exact pre_read (by norm_num) (lo := 1023) (by norm_num) _ _ _ _ _ _ _ _ b _ (iou_v0 V0 b) _ (cat11 V0 b) j g

theorem c10 (b : Fin 32) (j : Fin 1024) (d : Fin 128) : res_main_v99 V0 (ix3 b j d) = C10 (argsAt V0 b) j d := by
  unfold res_main_v99
  exact c_read (by norm_num) _ _ _ _ _ _ _ _ _ _ _ _ _ _ _ _ b _ (pre10 V0 b) _ _ (cat11 V0 b) (c11 V0 b) j d

theorem h10 (b : Fin 32) (j : Fin 1024) (d : Fin 128) : res_main_v107 V0 (ix3 b j d) = H10 (argsAt V0 b) j d := by
  unfold res_main_v107
  exact h_read _ _ _ _ b _ (pre10 V0 b) _ (c10 V0 b) j d

theorem cat10 (b : Fin 32) (j : Fin 512) (k : Fin 256) :
    res_main_v108 V0 (ix3 b j k) = hcat (m := 1024) (by norm_num) (H10 (argsAt V0 b)) j k := by
  unfold res_main_v108
  exact hcat_read (by norm_num) _ _ b _ (h10 V0 b) j k

/-! ### Level 9: 512 nodes, heap positions 511 … 1022 -/

theorem pre9 (b : Fin 32) (j : Fin 512) (g : Fin 384) :
    res_main_v128 V0 (ix3 b j g)
      = preOf (m := 1024) (by norm_num) (xrow (argsAt V0 b) 511 (by norm_num)) (H10 (argsAt V0 b))
          (argsAt V0 b).Uiou (argsAt V0 b).biou j g := by
  unfold res_main_v128
  exact pre_read (by norm_num) (lo := 511) (by norm_num) _ _ _ _ _ _ _ _ b _ (iou_v0 V0 b) _ (cat10 V0 b) j g

theorem c9 (b : Fin 32) (j : Fin 512) (d : Fin 128) : res_main_v140 V0 (ix3 b j d) = C9 (argsAt V0 b) j d := by
  unfold res_main_v140
  exact c_read (by norm_num) _ _ _ _ _ _ _ _ _ _ _ _ _ _ _ _ b _ (pre9 V0 b) _ _ (cat10 V0 b) (c10 V0 b) j d

theorem h9 (b : Fin 32) (j : Fin 512) (d : Fin 128) : res_main_v148 V0 (ix3 b j d) = H9 (argsAt V0 b) j d := by
  unfold res_main_v148
  exact h_read _ _ _ _ b _ (pre9 V0 b) _ (c9 V0 b) j d

theorem cat9 (b : Fin 32) (j : Fin 256) (k : Fin 256) :
    res_main_v149 V0 (ix3 b j k) = hcat (m := 512) (by norm_num) (H9 (argsAt V0 b)) j k := by
  unfold res_main_v149
  exact hcat_read (by norm_num) _ _ b _ (h9 V0 b) j k

/-! ### Level 8: 256 nodes, heap positions 255 … 510 -/

theorem pre8 (b : Fin 32) (j : Fin 256) (g : Fin 384) :
    res_main_v169 V0 (ix3 b j g)
      = preOf (m := 512) (by norm_num) (xrow (argsAt V0 b) 255 (by norm_num)) (H9 (argsAt V0 b))
          (argsAt V0 b).Uiou (argsAt V0 b).biou j g := by
  unfold res_main_v169
  exact pre_read (by norm_num) (lo := 255) (by norm_num) _ _ _ _ _ _ _ _ b _ (iou_v0 V0 b) _ (cat9 V0 b) j g

theorem c8 (b : Fin 32) (j : Fin 256) (d : Fin 128) : res_main_v181 V0 (ix3 b j d) = C8 (argsAt V0 b) j d := by
  unfold res_main_v181
  exact c_read (by norm_num) _ _ _ _ _ _ _ _ _ _ _ _ _ _ _ _ b _ (pre8 V0 b) _ _ (cat9 V0 b) (c9 V0 b) j d

theorem h8 (b : Fin 32) (j : Fin 256) (d : Fin 128) : res_main_v189 V0 (ix3 b j d) = H8 (argsAt V0 b) j d := by
  unfold res_main_v189
  exact h_read _ _ _ _ b _ (pre8 V0 b) _ (c8 V0 b) j d

theorem cat8 (b : Fin 32) (j : Fin 128) (k : Fin 256) :
    res_main_v190 V0 (ix3 b j k) = hcat (m := 256) (by norm_num) (H8 (argsAt V0 b)) j k := by
  unfold res_main_v190
  exact hcat_read (by norm_num) _ _ b _ (h8 V0 b) j k

/-! ### Level 7: 128 nodes, heap positions 127 … 254 -/

theorem pre7 (b : Fin 32) (j : Fin 128) (g : Fin 384) :
    res_main_v210 V0 (ix3 b j g)
      = preOf (m := 256) (by norm_num) (xrow (argsAt V0 b) 127 (by norm_num)) (H8 (argsAt V0 b))
          (argsAt V0 b).Uiou (argsAt V0 b).biou j g := by
  unfold res_main_v210
  exact pre_read (by norm_num) (lo := 127) (by norm_num) _ _ _ _ _ _ _ _ b _ (iou_v0 V0 b) _ (cat8 V0 b) j g

theorem c7 (b : Fin 32) (j : Fin 128) (d : Fin 128) : res_main_v222 V0 (ix3 b j d) = C7 (argsAt V0 b) j d := by
  unfold res_main_v222
  exact c_read (by norm_num) _ _ _ _ _ _ _ _ _ _ _ _ _ _ _ _ b _ (pre7 V0 b) _ _ (cat8 V0 b) (c8 V0 b) j d

theorem h7 (b : Fin 32) (j : Fin 128) (d : Fin 128) : res_main_v230 V0 (ix3 b j d) = H7 (argsAt V0 b) j d := by
  unfold res_main_v230
  exact h_read _ _ _ _ b _ (pre7 V0 b) _ (c7 V0 b) j d

theorem cat7 (b : Fin 32) (j : Fin 64) (k : Fin 256) :
    res_main_v231 V0 (ix3 b j k) = hcat (m := 128) (by norm_num) (H7 (argsAt V0 b)) j k := by
  unfold res_main_v231
  exact hcat_read (by norm_num) _ _ b _ (h7 V0 b) j k

/-! ### Level 6: 64 nodes, heap positions 63 … 126 -/

theorem pre6 (b : Fin 32) (j : Fin 64) (g : Fin 384) :
    res_main_v251 V0 (ix3 b j g)
      = preOf (m := 128) (by norm_num) (xrow (argsAt V0 b) 63 (by norm_num)) (H7 (argsAt V0 b))
          (argsAt V0 b).Uiou (argsAt V0 b).biou j g := by
  unfold res_main_v251
  exact pre_read (by norm_num) (lo := 63) (by norm_num) _ _ _ _ _ _ _ _ b _ (iou_v0 V0 b) _ (cat7 V0 b) j g

theorem c6 (b : Fin 32) (j : Fin 64) (d : Fin 128) : res_main_v263 V0 (ix3 b j d) = C6 (argsAt V0 b) j d := by
  unfold res_main_v263
  exact c_read (by norm_num) _ _ _ _ _ _ _ _ _ _ _ _ _ _ _ _ b _ (pre6 V0 b) _ _ (cat7 V0 b) (c7 V0 b) j d

theorem h6 (b : Fin 32) (j : Fin 64) (d : Fin 128) : res_main_v271 V0 (ix3 b j d) = H6 (argsAt V0 b) j d := by
  unfold res_main_v271
  exact h_read _ _ _ _ b _ (pre6 V0 b) _ (c6 V0 b) j d

theorem cat6 (b : Fin 32) (j : Fin 32) (k : Fin 256) :
    res_main_v272 V0 (ix3 b j k) = hcat (m := 64) (by norm_num) (H6 (argsAt V0 b)) j k := by
  unfold res_main_v272
  exact hcat_read (by norm_num) _ _ b _ (h6 V0 b) j k

/-! ### Level 5: 32 nodes, heap positions 31 … 62 -/

theorem pre5 (b : Fin 32) (j : Fin 32) (g : Fin 384) :
    res_main_v292 V0 (ix3 b j g)
      = preOf (m := 64) (by norm_num) (xrow (argsAt V0 b) 31 (by norm_num)) (H6 (argsAt V0 b))
          (argsAt V0 b).Uiou (argsAt V0 b).biou j g := by
  unfold res_main_v292
  exact pre_read (by norm_num) (lo := 31) (by norm_num) _ _ _ _ _ _ _ _ b _ (iou_v0 V0 b) _ (cat6 V0 b) j g

theorem c5 (b : Fin 32) (j : Fin 32) (d : Fin 128) : res_main_v304 V0 (ix3 b j d) = C5 (argsAt V0 b) j d := by
  unfold res_main_v304
  exact c_read (by norm_num) _ _ _ _ _ _ _ _ _ _ _ _ _ _ _ _ b _ (pre5 V0 b) _ _ (cat6 V0 b) (c6 V0 b) j d

theorem h5 (b : Fin 32) (j : Fin 32) (d : Fin 128) : res_main_v312 V0 (ix3 b j d) = H5 (argsAt V0 b) j d := by
  unfold res_main_v312
  exact h_read _ _ _ _ b _ (pre5 V0 b) _ (c5 V0 b) j d

theorem cat5 (b : Fin 32) (j : Fin 16) (k : Fin 256) :
    res_main_v313 V0 (ix3 b j k) = hcat (m := 32) (by norm_num) (H5 (argsAt V0 b)) j k := by
  unfold res_main_v313
  exact hcat_read (by norm_num) _ _ b _ (h5 V0 b) j k

/-! ### Level 4: 16 nodes, heap positions 15 … 30 -/

theorem pre4 (b : Fin 32) (j : Fin 16) (g : Fin 384) :
    res_main_v333 V0 (ix3 b j g)
      = preOf (m := 32) (by norm_num) (xrow (argsAt V0 b) 15 (by norm_num)) (H5 (argsAt V0 b))
          (argsAt V0 b).Uiou (argsAt V0 b).biou j g := by
  unfold res_main_v333
  exact pre_read (by norm_num) (lo := 15) (by norm_num) _ _ _ _ _ _ _ _ b _ (iou_v0 V0 b) _ (cat5 V0 b) j g

theorem c4 (b : Fin 32) (j : Fin 16) (d : Fin 128) : res_main_v345 V0 (ix3 b j d) = C4 (argsAt V0 b) j d := by
  unfold res_main_v345
  exact c_read (by norm_num) _ _ _ _ _ _ _ _ _ _ _ _ _ _ _ _ b _ (pre4 V0 b) _ _ (cat5 V0 b) (c5 V0 b) j d

theorem h4 (b : Fin 32) (j : Fin 16) (d : Fin 128) : res_main_v353 V0 (ix3 b j d) = H4 (argsAt V0 b) j d := by
  unfold res_main_v353
  exact h_read _ _ _ _ b _ (pre4 V0 b) _ (c4 V0 b) j d

theorem cat4 (b : Fin 32) (j : Fin 8) (k : Fin 256) :
    res_main_v354 V0 (ix3 b j k) = hcat (m := 16) (by norm_num) (H4 (argsAt V0 b)) j k := by
  unfold res_main_v354
  exact hcat_read (by norm_num) _ _ b _ (h4 V0 b) j k

/-! ### Level 3: 8 nodes, heap positions 7 … 14 -/

theorem pre3 (b : Fin 32) (j : Fin 8) (g : Fin 384) :
    res_main_v374 V0 (ix3 b j g)
      = preOf (m := 16) (by norm_num) (xrow (argsAt V0 b) 7 (by norm_num)) (H4 (argsAt V0 b))
          (argsAt V0 b).Uiou (argsAt V0 b).biou j g := by
  unfold res_main_v374
  exact pre_read (by norm_num) (lo := 7) (by norm_num) _ _ _ _ _ _ _ _ b _ (iou_v0 V0 b) _ (cat4 V0 b) j g

theorem c3 (b : Fin 32) (j : Fin 8) (d : Fin 128) : res_main_v386 V0 (ix3 b j d) = C3 (argsAt V0 b) j d := by
  unfold res_main_v386
  exact c_read (by norm_num) _ _ _ _ _ _ _ _ _ _ _ _ _ _ _ _ b _ (pre3 V0 b) _ _ (cat4 V0 b) (c4 V0 b) j d

theorem h3 (b : Fin 32) (j : Fin 8) (d : Fin 128) : res_main_v394 V0 (ix3 b j d) = H3 (argsAt V0 b) j d := by
  unfold res_main_v394
  exact h_read _ _ _ _ b _ (pre3 V0 b) _ (c3 V0 b) j d

theorem cat3 (b : Fin 32) (j : Fin 4) (k : Fin 256) :
    res_main_v395 V0 (ix3 b j k) = hcat (m := 8) (by norm_num) (H3 (argsAt V0 b)) j k := by
  unfold res_main_v395
  exact hcat_read (by norm_num) _ _ b _ (h3 V0 b) j k

/-! ### Level 2: 4 nodes, heap positions 3 … 6 -/

theorem pre2 (b : Fin 32) (j : Fin 4) (g : Fin 384) :
    res_main_v415 V0 (ix3 b j g)
      = preOf (m := 8) (by norm_num) (xrow (argsAt V0 b) 3 (by norm_num)) (H3 (argsAt V0 b))
          (argsAt V0 b).Uiou (argsAt V0 b).biou j g := by
  unfold res_main_v415
  exact pre_read (by norm_num) (lo := 3) (by norm_num) _ _ _ _ _ _ _ _ b _ (iou_v0 V0 b) _ (cat3 V0 b) j g

theorem c2 (b : Fin 32) (j : Fin 4) (d : Fin 128) : res_main_v427 V0 (ix3 b j d) = C2 (argsAt V0 b) j d := by
  unfold res_main_v427
  exact c_read (by norm_num) _ _ _ _ _ _ _ _ _ _ _ _ _ _ _ _ b _ (pre2 V0 b) _ _ (cat3 V0 b) (c3 V0 b) j d

theorem h2 (b : Fin 32) (j : Fin 4) (d : Fin 128) : res_main_v435 V0 (ix3 b j d) = H2 (argsAt V0 b) j d := by
  unfold res_main_v435
  exact h_read _ _ _ _ b _ (pre2 V0 b) _ (c2 V0 b) j d

theorem cat2 (b : Fin 32) (j : Fin 2) (k : Fin 256) :
    res_main_v436 V0 (ix3 b j k) = hcat (m := 4) (by norm_num) (H2 (argsAt V0 b)) j k := by
  unfold res_main_v436
  exact hcat_read (by norm_num) _ _ b _ (h2 V0 b) j k

/-! ### Level 1: 2 nodes, heap positions 1 … 2 -/

theorem pre1 (b : Fin 32) (j : Fin 2) (g : Fin 384) :
    res_main_v456 V0 (ix3 b j g)
      = preOf (m := 4) (by norm_num) (xrow (argsAt V0 b) 1 (by norm_num)) (H2 (argsAt V0 b))
          (argsAt V0 b).Uiou (argsAt V0 b).biou j g := by
  unfold res_main_v456
  exact pre_read (by norm_num) (lo := 1) (by norm_num) _ _ _ _ _ _ _ _ b _ (iou_v0 V0 b) _ (cat2 V0 b) j g

theorem c1 (b : Fin 32) (j : Fin 2) (d : Fin 128) : res_main_v468 V0 (ix3 b j d) = C1 (argsAt V0 b) j d := by
  unfold res_main_v468
  exact c_read (by norm_num) _ _ _ _ _ _ _ _ _ _ _ _ _ _ _ _ b _ (pre1 V0 b) _ _ (cat2 V0 b) (c2 V0 b) j d

theorem h1 (b : Fin 32) (j : Fin 2) (d : Fin 128) : res_main_v476 V0 (ix3 b j d) = H1 (argsAt V0 b) j d := by
  unfold res_main_v476
  exact h_read _ _ _ _ b _ (pre1 V0 b) _ (c1 V0 b) j d

theorem cat1 (b : Fin 32) (j : Fin 1) (k : Fin 256) :
    res_main_v477 V0 (ix3 b j k) = hcat (m := 2) (by norm_num) (H1 (argsAt V0 b)) j k := by
  unfold res_main_v477
  exact hcat_read (by norm_num) _ _ b _ (h1 V0 b) j k

/-! ### The root, and the whole result -/

theorem pre0 (b : Fin 32) (j : Fin 1) (g : Fin 384) :
    res_main_v497 V0 (ix3 b j g)
      = preOf (m := 2) (by norm_num) (xrow (argsAt V0 b) 0 (by norm_num)) (H1 (argsAt V0 b))
          (argsAt V0 b).Uiou (argsAt V0 b).biou j g := by
  unfold res_main_v497
  exact pre_read (by norm_num) (lo := 0) (by norm_num) _ _ _ _ _ _ _ _ b _ (iou_v0 V0 b) _ (cat1 V0 b) j g

/-- The 13 levels' hidden states in heap order, at tree b. -/
theorem v518_read (b : Fin 32) (node : Fin 8191) (d : Fin 128) :
    res_main_v518 V0 (ix3 b node d) = heapH (argsAt V0 b) node d := by
  unfold res_main_v518
  refine heap_read _ _ _ _ _ _ _ _ _ _ _ _ _ _ b (H0 (argsAt V0 b)) ?h0 (H1 (argsAt V0 b)) (h1 V0 b)
    (H2 (argsAt V0 b)) (h2 V0 b) (H3 (argsAt V0 b)) (h3 V0 b) (H4 (argsAt V0 b)) (h4 V0 b) (H5 (argsAt V0 b)) (h5 V0 b)
    (H6 (argsAt V0 b)) (h6 V0 b) (H7 (argsAt V0 b)) (h7 V0 b) (H8 (argsAt V0 b)) (h8 V0 b) (H9 (argsAt V0 b)) (h9 V0 b)
    (H10 (argsAt V0 b)) (h10 V0 b) (H11 (argsAt V0 b)) (h11 V0 b) (H12 (argsAt V0 b)) (h12 V0 b) node d
  intro j d
  exact h_read _ _ _ _ b _ (pre0 V0 b) _
    (fun j d => c_read (by norm_num) _ _ _ _ _ _ _ _ _ _ _ _ _ _ _ _ b _ (pre0 V0 b) _ _ (cat1 V0 b) (c1 V0 b) j d) j d

/-- The reference's result is the specification's G of the six arguments. -/
theorem result_eq :
    concatenate S2x32x8191x128 0 [⟨S1x32x8191x128, broadcastInDim S1x32x8191x128 ![1, 2, 3] bcast_S32x8191x128_S1x32x8191x128_1_2_3 (res_main_v518 V0)⟩, ⟨S1x32x8191x128, broadcastInDim S1x32x8191x128 ![1, 2, 3] bcast_S32x8191x128_S1x32x8191x128_1_2_3 (res_main_v518 V0)⟩] concatenates_S1x32x8191x128_S1x32x8191x128_S2x32x8191x128_d0
      = G (V0 (Proc.devRef .tc main_arg0)) (V0 (Proc.devRef .tc main_arg1)) (V0 (Proc.devRef .tc main_arg2))
          (V0 (Proc.devRef .tc main_arg3)) (V0 (Proc.devRef .tc main_arg4)) (V0 (Proc.devRef .tc main_arg5)) := by
  funext i
  obtain ⟨s, b, node, d, rfl⟩ : ∃ s b node d, i = ix4 s b node d := ⟨_, _, _, _, eq_ix4 i⟩
  exact (stack_read _ _ _ s b node d).trans (v518_read V0 b node d)

end Cert.RefBridge

end
-- ==== Proof.lean ====
/-
  The claim: the Pallas kernel of a 13-level binary Tree-LSTM and its jnp reference compute one function at the
  ideal values.

  Both programs evaluate the same recurrence over a complete binary tree of 8191 nodes in heap order, for 32 trees of
  128 lanes: leaves first, then level by level a node's cell and hidden state from its two children's (Spec.lean). The
  kernel works one tree per grid point, keeps the states in padded scratch rows (node i at row i + 1) and writes the
  heap order to both output stacks; the reference carries all trees at once, level arrays laid end to end. Read entry
  by entry, each side is the specification verbatim — the same sums in the same order, σ spelt as one operation on one
  side and as 1 / (1 + e^(-x)) on the other, which denote one function on the extended reals — so no algebraic law and
  no finiteness of the inputs is used.

  The kernel's result array as the specification's function of the launch contents is `Cert.KValue.run`; the reference's
  result term as the same function is `Cert.RefBridge.result_eq`; the three frames are the generated frame runs and the
  reference's run with its result dropped; the idealization rewrote nothing.
-/
import proofs.«149831_j26912265077353_2_alg».proof.Defs
import proofs.«149831_j26912265077353_2_alg».proof.Proof.Gen.Kernel
import proofs.«149831_j26912265077353_2_alg».proof.Proof.Gen.Kernel.Skeleton
import proofs.«149831_j26912265077353_2_alg».proof.Proof.Gen.Kernel.Launch
import proofs.«149831_j26912265077353_2_alg».proof.Proof.Gen.Kernel.Points
import proofs.«149831_j26912265077353_2_alg».proof.Proof.Gen.Kernel.Frame
import proofs.«149831_j26912265077353_2_alg».proof.Proof.Gen.KernelIdeal
import proofs.«149831_j26912265077353_2_alg».proof.Proof.Gen.KernelIdeal.Skeleton
import proofs.«149831_j26912265077353_2_alg».proof.Proof.Gen.KernelIdeal.Launch
import proofs.«149831_j26912265077353_2_alg».proof.Proof.Gen.KernelIdeal.Points
import proofs.«149831_j26912265077353_2_alg».proof.Proof.Gen.KernelIdeal.Frame
import proofs.«149831_j26912265077353_2_alg».proof.Proof.Gen.KernelIdeal.Value
import proofs.«149831_j26912265077353_2_alg».proof.Proof.Gen.ReferenceIdeal
import proofs.«149831_j26912265077353_2_alg».proof.Proof.Gen.ReferenceIdeal.Run
import proofs.«149831_j26912265077353_2_alg».proof.Proof.Gen.Pre_finite_inputs
import proofs.«149831_j26912265077353_2_alg».proof.Proof.KValue
import proofs.«149831_j26912265077353_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- At the ideal values both programs end with the result array at the specification's function `G` of the six
    arguments, which agree. -/
theorem algebraic : Cert.algebraic_KernelIdeal_ReferenceIdeal := by
  intro m ρ m' ρ' _ hagree
  refine ⟨fun c => Cert.KValue.Gm m c, Cert.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.RefBridge.result_eq]
  unfold Cert.KValue.Gm
  show Cert.TreeSpec.G (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5)) = _
  rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
